-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x4096x512 : Shape := ⟨3, ![2, 4096, 512]⟩
abbrev S512x512 : Shape := ⟨2, ![512, 512]⟩
abbrev S512 : Shape := ⟨1, ![512]⟩
abbrev S_ : Shape := ⟨0, ![]⟩

class Facts : Prop where
  bcast_S_S2x4096x512 : S_.BroadcastsInDim S2x4096x512 (![] : Fin 0 → Fin S2x4096x512.rank)
  reducesTo_S2x4096x512_S_d0_1_2 : S2x4096x512.ReducesTo [0, 1, 2] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part3 {F : FTy → Type} [FloatOps F] (main_v48 : IVec S_ 1) (main_v49 : FVec F S512 .f32) (main_v50 : FVec F S512 .f32) : IVec S_ 1 :=
  let main_v51 : IVec S512 1 := cmpf .olt main_v49 main_v50
  let main_c_19 : IVec S_ 1 := constantI S_ 1 1#1
  let main_v52 : IVec S_ 1 := (fun x v => Host.reduce IntOp.andi x v reducesTo_S512_S_d0 h_S_) main_v51 main_c_19
  let main_v53 : IVec S_ 1 := andi main_v48 main_v52
  main_v53

def fn_part2 {F : FTy → Type} [FloatOps F] (main_arg7 : FVec F S512x512 .f32) (main_arg8 : FVec F S512 .f32) (main_arg9 : FVec F S512x512 .f32) (main_arg10 : FVec F S512 .f32) (main_v33 : IVec S_ 1) : IVec S_ 1 :=
  let main_v34 : FVec F S512x512 .f32 := Host.absf main_arg7
  let main_cst_12 : FVec F S_ .f32 := constant S_ .f32 0x7F800000#32
  let main_v35 : FVec F S512x512 .f32 := broadcastInDim S512x512 ![] bcast_S_S512x512 main_cst_12
  let main_v36 : IVec S512x512 1 := cmpf .olt main_v34 main_v35
  let main_c_13 : IVec S_ 1 := constantI S_ 1 1#1
  let main_v37 : IVec S_ 1 := (fun x v => Host.reduce IntOp.andi x v reducesTo_S512x512_S_d0_1 h_S_) main_v36 main_c_13
  let main_v38 : IVec S_ 1 := andi main_v33 main_v37
  let main_v39 : FVec F S512 .f32 := Host.absf main_arg8
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S512x512 .f32 := Host.absf main_arg9
  let main_cst_16 : FVec F S_ .f32 := constant S_ .f32 0x7F800000#32
  let main_v45 : FVec F S512x512 .f32 := broadcastInDim S512x512 ![] bcast_S_S512x512 main_cst_16
  let main_v46 : IVec S512x512 1 := cmpf .olt main_v44 main_v45
  let main_c_17 : IVec S_ 1 := constantI S_ 1 1#1
  let main_v47 : IVec S_ 1 := (fun x v => Host.reduce IntOp.andi x v reducesTo_S512x512_S_d0_1 h_S_) main_v46 main_c_17
  let main_v48 : IVec S_ 1 := andi main_v43 main_v47
  let main_v49 : FVec F S512 .f32 := Host.absf main_arg10
  let main_cst_18 : FVec F S_ .f32 := constant S_ .f32 0x7F800000#32
  let main_v50 : FVec F S512 .f32 := broadcastInDim S512 ![] bcast_S_S512 main_cst_18
  fn_part3 (F := F) main_v48 main_v49 main_v50

def fn_part1 {F : FTy → Type} [FloatOps F] (main_arg4 : FVec F S512 .f32) (main_arg5 : FVec F S512x512 .f32) (main_arg6 : FVec F S512 .f32) (main_arg7 : FVec F S512x512 .f32) (main_arg8 : FVec F S512 .f32) (main_arg9 : FVec F S512x512 .f32) (main_arg10 : FVec F S512 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x512 .f32 := Host.absf main_arg5
  let main_cst_8 : FVec F S_ .f32 := constant S_ .f32 0x7F800000#32
  let main_v25 : FVec F S512x512 .f32 := broadcastInDim S512x512 ![] bcast_S_S512x512 main_cst_8
  let main_v26 : IVec S512x512 1 := cmpf .olt main_v24 main_v25
  let main_c_9 : IVec S_ 1 := constantI S_ 1 1#1
  let main_v27 : IVec S_ 1 := (fun x v => Host.reduce IntOp.andi x v reducesTo_S512x512_S_d0_1 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S2x4096x512 .f32) (main_arg1 : FVec F S2x4096x512 .f32) (main_arg2 : FVec F S2x4096x512 .f32) (main_arg3 : FVec F S512x512 .f32) (main_arg4 : FVec F S512 .f32) (main_arg5 : FVec F S512x512 .f32) (main_arg6 : FVec F S512 .f32) (main_arg7 : FVec F S512x512 .f32) (main_arg8 : FVec F S512 .f32) (main_arg9 : FVec F S512x512 .f32) (main_arg10 : FVec F S512 .f32) : IVec S_ 1 :=
  let main_v0 : FVec F S2x4096x512 .f32 := Host.absf main_arg0
  let main_cst : FVec F S_ .f32 := constant S_ .f32 0x7F800000#32
  let main_v1 : FVec F S2x4096x512 .f32 := broadcastInDim S2x4096x512 ![] bcast_S_S2x4096x512 main_cst
  let main_v2 : IVec S2x4096x512 1 := cmpf .olt main_v0 main_v1
  let main_c : IVec S_ 1 := constantI S_ 1 1#1
  let main_v3 : IVec S_ 1 := (fun x v => Host.reduce IntOp.andi x v reducesTo_S2x4096x512_S_d0_1_2 h_S_) main_v2 main_c
  let main_v4 : FVec F S2x4096x512 .f32 := Host.absf main_arg1
  let main_cst_0 : FVec F S_ .f32 := constant S_ .f32 0x7F800000#32
  let main_v5 : FVec F S2x4096x512 .f32 := broadcastInDim S2x4096x512 ![] bcast_S_S2x4096x512 main_cst_0
  let main_v6 : IVec S2x4096x512 1 := cmpf .olt main_v4 main_v5
  let main_c_1 : IVec S_ 1 := constantI S_ 1 1#1
  let main_v7 : IVec S_ 1 := (fun x v => Host.reduce IntOp.andi x v reducesTo_S2x4096x512_S_d0_1_2 h_S_) main_v6 main_c_1
  let main_v8 : IVec S_ 1 := andi main_v3 main_v7
  let main_v9 : FVec F S2x4096x512 .f32 := Host.absf main_arg2
  let main_cst_2 : FVec F S_ .f32 := constant S_ .f32 0x7F800000#32
  let main_v10 : FVec F S2x4096x512 .f32 := broadcastInDim S2x4096x512 ![] bcast_S_S2x4096x512 main_cst_2
  let main_v11 : IVec S2x4096x512 1 := cmpf .olt main_v9 main_v10
  let main_c_3 : IVec S_ 1 := constantI S_ 1 1#1
  let main_v12 : IVec S_ 1 := (fun x v => Host.reduce IntOp.andi x v reducesTo_S2x4096x512_S_d0_1_2 h_S_) main_v11 main_c_3
  let main_v13 : IVec S_ 1 := andi main_v8 main_v12
  let main_v14 : FVec F S512x512 .f32 := Host.absf main_arg3
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg4 main_arg5 main_arg6 main_arg7 main_arg8 main_arg9 main_arg10 main_v13 main_v16
-- ==== Kernel.lean ====
abbrev S2x4096x512 : Shape := ⟨3, ![2, 4096, 512]⟩
abbrev S512x512 : Shape := ⟨2, ![512, 512]⟩
abbrev S512 : Shape := ⟨1, ![512]⟩
abbrev S8192x512 : Shape := ⟨2, ![8192, 512]⟩
abbrev S1x512 : Shape := ⟨2, ![1, 512]⟩
abbrev S1024x512 : Shape := ⟨2, ![1024, 512]⟩
abbrev S1x1024x128 : Shape := ⟨3, ![1, 1024, 128]⟩
abbrev S1x512x128 : Shape := ⟨3, ![1, 512, 128]⟩
abbrev S1024x1 : Shape := ⟨2, ![1024, 1]⟩
abbrev S1024x64 : Shape := ⟨2, ![1024, 64]⟩
abbrev S1024x128 : Shape := ⟨2, ![1024, 128]⟩
abbrev S512x128 : Shape := ⟨2, ![512, 128]⟩
abbrev S512x64 : Shape := ⟨2, ![512, 64]⟩
abbrev S1024 : Shape := ⟨1, ![1024]⟩
abbrev S1x1024x64 : Shape := ⟨3, ![1, 1024, 64]⟩

abbrev nBuf : Space → Nat
  | .hbm => 28
  | .vmem => 38
  | .smem => 0
  | _ => 0

abbrev bufTy : (tb : Table) → Fin (tcTables nBuf tb) → BufTy
  | .hbm, ⟨0, _⟩ => ⟨S2x4096x512, .f32⟩
  | .hbm, ⟨1, _⟩ => ⟨S2x4096x512, .f32⟩
  | .hbm, ⟨2, _⟩ => ⟨S2x4096x512, .f32⟩
  | .hbm, ⟨3, _⟩ => ⟨S512x512, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S512x512, .f32⟩
  | .hbm, ⟨8, _⟩ => ⟨S512, .f32⟩
  | .hbm, ⟨9, _⟩ => ⟨S512x512, .f32⟩
  | .hbm, ⟨10, _⟩ => ⟨S512, .f32⟩
  | .hbm, ⟨11, _⟩ => ⟨S8192x512, .f32⟩
  | .hbm, ⟨12, _⟩ => ⟨S8192x512, .f32⟩
  | .hbm, ⟨13, _⟩ => ⟨S8192x512, .f32⟩
  | .hbm, ⟨14, _⟩ => ⟨S1x512, .f32⟩
  | .hbm, ⟨15, _⟩ => ⟨S8192x512, .bf16⟩
  | .hbm, ⟨16, _⟩ => ⟨S2x4096x512, .bf16⟩
  | .hbm, ⟨17, _⟩ => ⟨S1x512, .f32⟩
  | .hbm, ⟨18, _⟩ => ⟨S8192x512, .bf16⟩
  | .hbm, ⟨19, _⟩ => ⟨S2x4096x512, .bf16⟩
  | .hbm, ⟨20, _⟩ => ⟨S1x512, .f32⟩
  | .hbm, ⟨21, _⟩ => ⟨S8192x512, .bf16⟩
  | .hbm, ⟨22, _⟩ => ⟨S2x4096x512, .bf16⟩
  | .hbm, ⟨23, _⟩ => ⟨S2x4096x512, .bf16⟩
  | .hbm, ⟨24, _⟩ => ⟨S8192x512, .bf16⟩
  | .hbm, ⟨25, _⟩ => ⟨S1x512, .f32⟩
  | .hbm, ⟨26, _⟩ => ⟨S8192x512, .f32⟩
  | .hbm, ⟨27, _⟩ => ⟨S2x4096x512, .f32⟩
  | .local _ .vmem, ⟨0, _⟩ => ⟨S1024x512, .f32⟩
  | .local _ .vmem, ⟨1, _⟩ => ⟨S1024x512, .f32⟩
  | .local _ .vmem, ⟨2, _⟩ => ⟨S512x512, .f32⟩
  | .local _ .vmem, ⟨3, _⟩ => ⟨S1x512, .f32⟩
  | .local _ .vmem, ⟨4, _⟩ => ⟨S1024x512, .bf16⟩
  | .local _ .vmem, ⟨5, _⟩ => ⟨S1024x512, .bf16⟩
  | .local _ .vmem, ⟨6, _⟩ => ⟨S1024x512, .f32⟩
  | .local _ .vmem, ⟨7, _⟩ => ⟨S1024x512, .f32⟩
  | .local _ .vmem, ⟨8, _⟩ => ⟨S512x512, .f32⟩
  | .local _ .vmem, ⟨9, _⟩ => ⟨S1x512, .f32⟩
  | .local _ .vmem, ⟨10, _⟩ => ⟨S1024x512, .bf16⟩
  | .local _ .vmem, ⟨11, _⟩ => ⟨S1024x512, .bf16⟩
  | .local _ .vmem, ⟨12, _⟩ => ⟨S1024x512, .f32⟩
  | .local _ .vmem, ⟨13, _⟩ => ⟨S1024x512, .f32⟩
  | .local _ .vmem, ⟨14, _⟩ => ⟨S512x512, .f32⟩
  | .local _ .vmem, ⟨15, _⟩ => ⟨S1x512, .f32⟩
  | .local _ .vmem, ⟨16, _⟩ => ⟨S1024x512, .bf16⟩
  | .local _ .vmem, ⟨17, _⟩ => ⟨S1024x512, .bf16⟩
  | .local _ .vmem, ⟨18, _⟩ => ⟨S1x1024x128, .bf16⟩
  | .local _ .vmem, ⟨19, _⟩ => ⟨S1x1024x128, .bf16⟩
  | .local _ .vmem, ⟨20, _⟩ => ⟨S1x512x128, .bf16⟩
  | .local _ .vmem, ⟨21, _⟩ => ⟨S1x512x128, .bf16⟩
  | .local _ .vmem, ⟨22, _⟩ => ⟨S1x512x128, .bf16⟩
  | .local _ .vmem, ⟨23, _⟩ => ⟨S1x512x128, .bf16⟩
  | .local _ .vmem, ⟨24, _⟩ => ⟨S1x1024x128, .bf16⟩
  | .local _ .vmem, ⟨25, _⟩ => ⟨S1x1024x128, .bf16⟩
  | .local _ .vmem, ⟨26, _⟩ => ⟨S1024x1, .f32⟩
  | .local _ .vmem, ⟨27, _⟩ => ⟨S1024x1, .f32⟩
  | .local _ .vmem, ⟨28, _⟩ => ⟨S1024x64, .f32⟩
  | .local _ .vmem, ⟨29, _⟩ => ⟨S1024x1, .f32⟩
  | .local _ .vmem, ⟨30, _⟩ => ⟨S1024x1, .f32⟩
  | .local _ .vmem, ⟨31, _⟩ => ⟨S1024x64, .f32⟩
  | .local _ .vmem, ⟨32, _⟩ => ⟨S1024x512, .bf16⟩
  | .local _ .vmem, ⟨33, _⟩ => ⟨S1024x512, .bf16⟩
  | .local _ .vmem, ⟨34, _⟩ => ⟨S512x512, .f32⟩
  | .local _ .vmem, ⟨35, _⟩ => ⟨S1x512, .f32⟩
  | .local _ .vmem, ⟨36, _⟩ => ⟨S1024x512, .f32⟩
  | .local _ .vmem, ⟨37, _⟩ => ⟨S1024x512, .f32⟩
  | _, _ => ⟨S2x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc3_stg3_0 : Ref sig .tc := ⟨.vmem, 24, rfl⟩
abbrev cc3_stg3_1 : Ref sig .tc := ⟨.vmem, 25, rfl⟩
abbrev cc3_scratch0 : Ref sig .tc := ⟨.vmem, 26, rfl⟩
abbrev cc3_scratch1 : Ref sig .tc := ⟨.vmem, 27, rfl⟩
abbrev cc3_scratch2 : Ref sig .tc := ⟨.vmem, 28, rfl⟩
abbrev cc3_scratch3 : Ref sig .tc := ⟨.vmem, 29, rfl⟩
abbrev cc3_scratch4 : Ref sig .tc := ⟨.vmem, 30, rfl⟩
abbrev cc3_scratch5 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg2_0 : Ref sig .tc := ⟨.vmem, 35, rfl⟩
abbrev cc4_stg3_0 : Ref sig .tc := ⟨.vmem, 36, rfl⟩
abbrev cc4_stg3_1 : Ref sig .tc := ⟨.vmem, 37, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc3_sem3_0 : DmaSem sig := 24
abbrev cc3_sem3_1 : DmaSem sig := 25
abbrev cc4_sem0_0 : DmaSem sig := 26
abbrev cc4_sem0_1 : DmaSem sig := 27
abbrev cc4_sem1_0 : DmaSem sig := 28
abbrev cc4_sem2_0 : DmaSem sig := 29
abbrev cc4_sem3_0 : DmaSem sig := 30
abbrev cc4_sem3_1 : DmaSem sig := 31

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1024x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S512x512 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x512 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S1024x512 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨4, ![2, 4, 4, 8], ![false, false, false, false]⟩

def k3_cond2 (i : grid3.Coords) : BitVec 1 :=
  let arg3 : BitVec 32 := BitVec.ofNat 32 (i 3).val
  let c7_i32 : BitVec 32 := 7#32
  let v79 : BitVec 1 := Scalar.cmpi .eq arg3 c7_i32
  let v80 : BitVec 32 := Scalar.extui v79
  let c0_i32_42 : BitVec 32 := 0#32
  let v81 : BitVec 1 := Scalar.cmpi .ne v80 c0_i32_42
  v81

def cc3_transform_0 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg2.toNat, arg1.toNat]

def cc3_transform_1 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat, arg1.toNat]

def cc3_transform_2 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat, arg1.toNat]

def cc3_transform_3 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg2.toNat, arg1.toNat]

abbrev stage3_0 : Fin 2 → Memref sig .tc .vmem S1x1024x128 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true, true, false]

abbrev stage3_1 : Fin 2 → Memref sig .tc .vmem S1x512x128 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true, false, true]

abbrev stage3_2 : Fin 2 → Memref sig .tc .vmem S1x512x128 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false, true]

abbrev stage3_3 : Fin 2 → Memref sig .tc .vmem S1x1024x128 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true, true, false]

abbrev grid4 : Pipeline.Grid := ⟨1, ![8], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S1024x512 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S512x512 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x512 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S1024x512 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  shapeCasts_S2x4096x512_S8192x512 : S2x4096x512.ShapeCasts S8192x512
  shapeCasts_S512_S1x512 : S512.ShapeCasts S1x512
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  packedbf16_S1024x512_S1024x512_0_0 : (Rect.unit (s := S1024x512) ![0, 0] S1024x512.size inb_S1024x512_S1024x512_0_0).PackedRows (EltTy.packing .bf16)
  shapeCasts_S8192x512_S2x4096x512 : S8192x512.ShapeCasts S2x4096x512
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1024x128 : S1x1024x128.ShapeCasts S1024x128
  inb_S1x512x128_S1x512x128_0_0_0 : ∀ a, (![0, 0, 0] : Fin 3 → Nat) a + S1x512x128.size a ≤ S1x512x128.size a
  h_S1x512x128 : 0 < S1x512x128.numel
  shapeCasts_S1x512x128_S512x128 : S1x512x128.ShapeCasts S512x128
  slices_S1024x128_o0_0_S1024x64 : S1024x128.Slices ![0, 0] S1024x64
  slices_S512x128_o0_0_S512x64 : S512x128.Slices ![0, 0] S512x64
  reduces_S1024x512_S1024 : S1024x512.Reduces [1] S1024
  shapeCasts_S1024_S1024x1 : S1024.ShapeCasts S1024x1
  broadcasts_S1024x1_S1024x512 : S1024x1.Broadcasts S1024x512
  broadcasts_S1024x1_S1024x64 : S1024x1.Broadcasts S1024x64
  slices_S1024x128_o0_64_S1024x64 : S1024x128.Slices ![0, 64] S1024x64
  slices_S512x128_o0_64_S512x64 : S512x128.Slices ![0, 64] S512x64
  inb_S1x1024x128_S1x1024x64_0_0_0 : ∀ a, (![0, 0, 0] : Fin 3 → Nat) a + S1x1024x64.size a ≤ S1x1024x128.size a
  h_S1x1024x64 : 0 < S1x1024x64.numel
  shapeCasts_S1x1024x64_S1024x64 : S1x1024x64.ShapeCasts S1024x64
  shapeCasts_S1024x64_S1x1024x64 : S1024x64.ShapeCasts S1x1024x64
  packedbf16_S1x1024x128_S1x1024x64_0_0_0 : (Rect.unit (s := S1x1024x128) ![0, 0, 0] S1x1024x64.size inb_S1x1024x128_S1x1024x64_0_0_0).PackedRows (EltTy.packing .bf16)
  inb_S1x1024x128_S1x1024x64_0_0_64 : ∀ a, (![0, 0, 64] : Fin 3 → Nat) a + S1x1024x64.size a ≤ S1x1024x128.size a
  packedbf16_S1x1024x128_S1x1024x64_0_0_64 : (Rect.unit (s := S1x1024x128) ![0, 0, 64] S1x1024x64.size inb_S1x1024x128_S1x1024x64_0_0_64).PackedRows (EltTy.packing .bf16)
  dot_S1024x512_S512x512_S1024x512_1_1_0_0_n_n_wf : DotDims.WF S1024x512 S512x512 S1024x512 [1] [1] [0] [0] [] []
  dot_S1024x64_S512x64_S1024x512_1_1_0_0_n_n_wf : DotDims.WF S1024x64 S512x64 S1024x512 [1] [1] [0] [0] [] []
  dot_S1024x512_S512x64_S1024x64_1_0_0_1_n_n_wf : DotDims.WF S1024x512 S512x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x512.size a
  hwx0_0 : ∀ i : grid0.Coords, EltTy.bits .f32 = 32 ∨ (Rect.block (s := S8192x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S8192x512.size a
  hwx0_3 : ∀ i : grid0.Coords, EltTy.bits .bf16 = 32 ∨ (Rect.block (s := S8192x512) S1024x512.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x512.size a ≤ S8192x512.size a
  hwx1_0 : ∀ i : grid1.Coords, EltTy.bits .f32 = 32 ∨ (Rect.block (s := S8192x512) S1024x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x512.size a ≤ S512x512.size a
  hwx1_1 : ∀ i : grid1.Coords, EltTy.bits .f32 = 32 ∨ (Rect.block (s := S512x512) S512x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x512.size a
  hwx1_2 : ∀ i : grid1.Coords, EltTy.bits .f32 = 32 ∨ (Rect.block (s := S1x512) S1x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x512.size a ≤ S8192x512.size a
  hwx1_3 : ∀ i : grid1.Coords, EltTy.bits .bf16 = 32 ∨ (Rect.block (s := S8192x512) S1024x512.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x512.size a ≤ S8192x512.size a
  hwx2_0 : ∀ i : grid2.Coords, EltTy.bits .f32 = 32 ∨ (Rect.block (s := S8192x512) S1024x512.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S512x512.size a ≤ S512x512.size a
  hwx2_1 : ∀ i : grid2.Coords, EltTy.bits .f32 = 32 ∨ (Rect.block (s := S512x512) S512x512.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x512.size a ≤ S1x512.size a
  hwx2_2 : ∀ i : grid2.Coords, EltTy.bits .f32 = 32 ∨ (Rect.block (s := S1x512) S1x512.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x512.size a ≤ S8192x512.size a
  hwx2_3 : ∀ i : grid2.Coords, EltTy.bits .bf16 = 32 ∨ (Rect.block (s := S8192x512) S1024x512.size (cc2_transform_3 i) (hinb2_3 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1x1024x128.size a ≤ S2x4096x512.size a
  hwx3_0 : ∀ i : grid3.Coords, EltTy.bits .bf16 = 32 ∨ (Rect.block (s := S2x4096x512) S1x1024x128.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1x512x128.size a ≤ S2x4096x512.size a
  hwx3_1 : ∀ i : grid3.Coords, EltTy.bits .bf16 = 32 ∨ (Rect.block (s := S2x4096x512) S1x512x128.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1x512x128.size a ≤ S2x4096x512.size a
  hwx3_2 : ∀ i : grid3.Coords, EltTy.bits .bf16 = 32 ∨ (Rect.block (s := S2x4096x512) S1x512x128.size (cc3_transform_2 i) (hinb3_2 i)).WholeWords (EltTy.packing .bf16)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1x1024x128.size a ≤ S2x4096x512.size a
  hwx3_3 : ∀ i : grid3.Coords, EltTy.bits .bf16 = 32 ∨ (Rect.block (s := S2x4096x512) S1x1024x128.size (cc3_transform_3 i) (hinb3_3 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1024x512.size a ≤ S8192x512.size a
  hwx4_0 : ∀ i : grid4.Coords, EltTy.bits .bf16 = 32 ∨ (Rect.block (s := S8192x512) S1024x512.size (cc4_transform_0 i) (hinb4_0 i)).WholeWords (EltTy.packing .bf16)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S512x512.size a ≤ S512x512.size a
  hwx4_1 : ∀ i : grid4.Coords, EltTy.bits .f32 = 32 ∨ (Rect.block (s := S512x512) S512x512.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x512.size a ≤ S1x512.size a
  hwx4_2 : ∀ i : grid4.Coords, EltTy.bits .f32 = 32 ∨ (Rect.block (s := S1x512) S1x512.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S1024x512.size a ≤ S8192x512.size a
  hwx4_3 : ∀ i : grid4.Coords, EltTy.bits .f32 = 32 ∨ (Rect.block (s := S8192x512) S1024x512.size (cc4_transform_3 i) (hinb4_3 i)).WholeWords (EltTy.packing .f32)

variable [Facts₀]

def dot_S1024x512_S512x512_S1024x512_1_1_0_0_n_n : DotDims S1024x512 S512x512 S1024x512 where
  lhsContracting := [1]
  rhsContracting := [1]
  lhsNonContracting := [0]
  rhsNonContracting := [0]
  lhsBatch := []
  rhsBatch := []
  wf := dot_S1024x512_S512x512_S1024x512_1_1_0_0_n_n_wf
def dot_S1024x64_S512x64_S1024x512_1_1_0_0_n_n : DotDims S1024x64 S512x64 S1024x512 where
  lhsContracting := [1]
  rhsContracting := [1]
  lhsNonContracting := [0]
  rhsNonContracting := [0]
  lhsBatch := []
  rhsBatch := []
  wf := dot_S1024x64_S512x64_S1024x512_1_1_0_0_n_n_wf
def dot_S1024x512_S512x64_S1024x64_1_0_0_1_n_n : DotDims S1024x512 S512x64 S1024x64 where
  lhsContracting := [1]
  rhsContracting := [0]
  lhsNonContracting := [0]
  rhsNonContracting := [1]
  lhsBatch := []
  rhsBatch := []
  wf := dot_S1024x512_S512x64_S1024x64_1_0_0_1_n_n_wf

abbrev win0_0 : Pipeline.Window sig grid0 :=
  Pipeline.Window.ofSpec (Memref.whole main_v0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1024x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v1) S1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S512x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v6) S1x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v7) S1024x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v2) S1024x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S512x512.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v9) S1x512.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v10) S1024x512.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v5) S1x1024x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v8) S1x512x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v11) S1x512x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v12) S1x1024x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev idle3 : Fin 4 → grid3.Coords → Bool := fun | 0 => fun _ => false | 1 => fun _ => false | 2 => fun _ => false | 3 => fun i => !(k3_cond2 i == 1#1) | ⟨_ + 4, h⟩ => absurd h (Nat.not_lt.2 (Nat.le_add_left _ _))

abbrev win4_0 : Pipeline.Window sig grid4 :=
  Pipeline.Window.ofSpec (Memref.whole main_v13) S1024x512.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg9) S512x512.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v14) S1x512.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v15) S1024x512.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S2x4096x512 : Shape := ⟨3, ![2, 4096, 512]⟩
abbrev S512x512 : Shape := ⟨2, ![512, 512]⟩
abbrev S512 : Shape := ⟨1, ![512]⟩
abbrev S1x1x512 : Shape := ⟨3, ![1, 1, 512]⟩
abbrev S2x4096x8x64 : Shape := ⟨4, ![2, 4096, 8, 64]⟩
abbrev S2x8x4096x64 : Shape := ⟨4, ![2, 8, 4096, 64]⟩
abbrev S2x8x4096x4096 : Shape := ⟨4, ![2, 8, 4096, 4096]⟩
abbrev S_ : Shape := ⟨0, ![]⟩
abbrev S2x8x4096 : Shape := ⟨3, ![2, 8, 4096]⟩
abbrev S2x8x4096x1 : Shape := ⟨4, ![2, 8, 4096, 1]⟩

abbrev nBuf : Space → Nat
  | .hbm => 54
  | .vmem => 0
  | .smem => 0
  | _ => 0

abbrev bufTy : (tb : Table) → Fin (tcTables nBuf tb) → BufTy
  | .hbm, ⟨0, _⟩ => ⟨S2x4096x512, .f32⟩
  | .hbm, ⟨1, _⟩ => ⟨S2x4096x512, .f32⟩
  | .hbm, ⟨2, _⟩ => ⟨S2x4096x512, .f32⟩
  | .hbm, ⟨3, _⟩ => ⟨S512x512, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S512x512, .f32⟩
  | .hbm, ⟨8, _⟩ => ⟨S512, .f32⟩
  | .hbm, ⟨9, _⟩ => ⟨S512x512, .f32⟩
  | .hbm, ⟨10, _⟩ => ⟨S512, .f32⟩
  | .hbm, ⟨11, _⟩ => ⟨S2x4096x512, .f32⟩
  | .hbm, ⟨12, _⟩ => ⟨S1x1x512, .f32⟩
  | .hbm, ⟨13, _⟩ => ⟨S2x4096x512, .f32⟩
  | .hbm, ⟨14, _⟩ => ⟨S2x4096x512, .f32⟩
  | .hbm, ⟨15, _⟩ => ⟨S2x4096x8x64, .f32⟩
  | .hbm, ⟨16, _⟩ => ⟨S2x8x4096x64, .f32⟩
  | .hbm, ⟨17, _⟩ => ⟨S2x4096x512, .f32⟩
  | .hbm, ⟨18, _⟩ => ⟨S1x1x512, .f32⟩
  | .hbm, ⟨19, _⟩ => ⟨S2x4096x512, .f32⟩
  | .hbm, ⟨20, _⟩ => ⟨S2x4096x512, .f32⟩
  | .hbm, ⟨21, _⟩ => ⟨S2x4096x8x64, .f32⟩
  | .hbm, ⟨22, _⟩ => ⟨S2x8x4096x64, .f32⟩
  | .hbm, ⟨23, _⟩ => ⟨S2x4096x512, .f32⟩
  | .hbm, ⟨24, _⟩ => ⟨S1x1x512, .f32⟩
  | .hbm, ⟨25, _⟩ => ⟨S2x4096x512, .f32⟩
  | .hbm, ⟨26, _⟩ => ⟨S2x4096x512, .f32⟩
  | .hbm, ⟨27, _⟩ => ⟨S2x4096x8x64, .f32⟩
  | .hbm, ⟨28, _⟩ => ⟨S2x8x4096x64, .f32⟩
  | .hbm, ⟨29, _⟩ => ⟨S2x8x4096x4096, .f32⟩
  | .hbm, ⟨30, _⟩ => ⟨S_, .f32⟩
  | .hbm, ⟨31, _⟩ => ⟨S2x8x4096x4096, .f32⟩
  | .hbm, ⟨32, _⟩ => ⟨S2x8x4096x4096, .f32⟩
  | .hbm, ⟨33, _⟩ => ⟨S_, .f32⟩
  | .hbm, ⟨34, _⟩ => ⟨S2x8x4096, .f32⟩
  | .hbm, ⟨35, _⟩ => ⟨S_, .f32⟩
  | .hbm, ⟨36, _⟩ => ⟨S2x8x4096, .f32⟩
  | .hbm, ⟨37, _⟩ => ⟨S2x8x4096, .f32⟩
  | .hbm, ⟨38, _⟩ => ⟨S2x8x4096x1, .f32⟩
  | .hbm, ⟨39, _⟩ => ⟨S2x8x4096x4096, .f32⟩
  | .hbm, ⟨40, _⟩ => ⟨S2x8x4096x4096, .f32⟩
  | .hbm, ⟨41, _⟩ => ⟨S2x8x4096x4096, .f32⟩
  | .hbm, ⟨42, _⟩ => ⟨S_, .f32⟩
  | .hbm, ⟨43, _⟩ => ⟨S2x8x4096, .f32⟩
  | .hbm, ⟨44, _⟩ => ⟨S2x8x4096x1, .f32⟩
  | .hbm, ⟨45, _⟩ => ⟨S2x8x4096x4096, .f32⟩
  | .hbm, ⟨46, _⟩ => ⟨S2x8x4096x4096, .f32⟩
  | .hbm, ⟨47, _⟩ => ⟨S2x8x4096x64, .f32⟩
  | .hbm, ⟨48, _⟩ => ⟨S2x4096x8x64, .f32⟩
  | .hbm, ⟨49, _⟩ => ⟨S2x4096x512, .f32⟩
  | .hbm, ⟨50, _⟩ => ⟨S2x4096x512, .f32⟩
  | .hbm, ⟨51, _⟩ => ⟨S1x1x512, .f32⟩
  | .hbm, ⟨52, _⟩ => ⟨S2x4096x512, .f32⟩
  | .hbm, ⟨53, _⟩ => ⟨S2x4096x512, .f32⟩
  | _, _ => ⟨S2x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst : Ref sig .tc := ⟨.hbm, 30, rfl⟩
abbrev main_v19 : Ref sig .tc := ⟨.hbm, 31, rfl⟩
abbrev main_v20 : Ref sig .tc := ⟨.hbm, 32, rfl⟩
abbrev main_cst_0 : Ref sig .tc := ⟨.hbm, 33, rfl⟩
abbrev main_v21 : Ref sig .tc := ⟨.hbm, 34, rfl⟩
abbrev main_cst_1 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_2 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩

abbrev nD : Nat := 1
abbrev τ : Topo := Topo.v7x

variable {F : FTy → Type} [FloatOps F]

class Facts₀ : Prop where
  bcast_S512_S1x1x512_2 : S512.BroadcastsInDim S1x1x512 (![2] : Fin 1 → Fin S1x1x512.rank)
  bcast_S1x1x512_S2x4096x512_0_1_2 : S1x1x512.BroadcastsInDim S2x4096x512 (![0, 1, 2] : Fin 3 → Fin S2x4096x512.rank)
  shapeCasts_S2x4096x512_S2x4096x8x64 : S2x4096x512.ShapeCasts S2x4096x8x64
  transposes_S2x4096x8x64_S2x8x4096x64_0_2_1_3 : S2x4096x8x64.Transposes [0, 2, 1, 3] S2x8x4096x64
  bcast_S_S2x8x4096x4096 : S_.BroadcastsInDim S2x8x4096x4096 (![] : Fin 0 → Fin S2x8x4096x4096.rank)
  reducesTo_S2x8x4096x4096_S2x8x4096_d3 : S2x8x4096x4096.ReducesTo [3] S2x8x4096
  h_S_ : 0 < S_.numel
  bcast_S_S2x8x4096 : S_.BroadcastsInDim S2x8x4096 (![] : Fin 0 → Fin S2x8x4096.rank)
  bcast_S2x8x4096_S2x8x4096x1_0_1_2 : S2x8x4096.BroadcastsInDim S2x8x4096x1 (![0, 1, 2] : Fin 3 → Fin S2x8x4096x1.rank)
  bcast_S2x8x4096x1_S2x8x4096x4096_0_1_2_3 : S2x8x4096x1.BroadcastsInDim S2x8x4096x4096 (![0, 1, 2, 3] : Fin 4 → Fin S2x8x4096x4096.rank)
  transposes_S2x8x4096x64_S2x4096x8x64_0_2_1_3 : S2x8x4096x64.Transposes [0, 2, 1, 3] S2x4096x8x64
  shapeCasts_S2x4096x8x64_S2x4096x512 : S2x4096x8x64.ShapeCasts S2x4096x512
  dot_S2x4096x512_S512x512_S2x4096x512_2_1_01_0_n_n_wf : DotDims.WF S2x4096x512 S512x512 S2x4096x512 [2] [1] [0, 1] [0] [] []
  dot_S2x8x4096x64_S2x8x4096x64_S2x8x4096x4096_3_3_2_2_01_01_wf : DotDims.WF S2x8x4096x64 S2x8x4096x64 S2x8x4096x4096 [3] [3] [2] [2] [0, 1] [0, 1]
  dot_S2x8x4096x4096_S2x8x4096x64_S2x8x4096x64_3_2_2_3_01_01_wf : DotDims.WF S2x8x4096x4096 S2x8x4096x64 S2x8x4096x64 [3] [2] [2] [3] [0, 1] [0, 1]

variable [Facts₀]

def dot_S2x4096x512_S512x512_S2x4096x512_2_1_01_0_n_n : DotDims S2x4096x512 S512x512 S2x4096x512 where
  lhsContracting := [2]
  rhsContracting := [1]
  lhsNonContracting := [0, 1]
  rhsNonContracting := [0]
  lhsBatch := []
  rhsBatch := []
  wf := dot_S2x4096x512_S512x512_S2x4096x512_2_1_01_0_n_n_wf
def dot_S2x8x4096x64_S2x8x4096x64_S2x8x4096x4096_3_3_2_2_01_01 : DotDims S2x8x4096x64 S2x8x4096x64 S2x8x4096x4096 where
  lhsContracting := [3]
  rhsContracting := [3]
  lhsNonContracting := [2]
  rhsNonContracting := [2]
  lhsBatch := [0, 1]
  rhsBatch := [0, 1]
  wf := dot_S2x8x4096x64_S2x8x4096x64_S2x8x4096x4096_3_3_2_2_01_01_wf
def dot_S2x8x4096x4096_S2x8x4096x64_S2x8x4096x64_3_2_2_3_01_01 : DotDims S2x8x4096x4096 S2x8x4096x64 S2x8x4096x64 where
  lhsContracting := [3]
  rhsContracting := [2]
  lhsNonContracting := [2]
  rhsNonContracting := [3]
  lhsBatch := [0, 1]
  rhsBatch := [0, 1]
  wf := dot_S2x8x4096x4096_S2x8x4096x64_S2x8x4096x64_3_2_2_3_01_01_wf

class Facts : Prop extends Facts₀ where

variable [Facts]
-- ==== Proof.BitsProj0.lean ====
/-
  Projection stage 0 (y = x · Wᵀ + b on a tile of 1024 rows): what one grid point does to its four staged
  blocks. The row tile x, the weight matrix W and the bias row b are read and left as they were; the output tile
  ends holding the one function `k0_pay1` of the three blocks read. The weight and bias blocks are staged at the
  first point only and found unchanged at every later one, because their block index never moves.
-/
import proofs.«180034_j81982335746566_2_alg».proof.Proof.Gen.Kernel.Launch
import proofs.«180034_j81982335746566_2_alg».proof.Proof.Gen.Kernel.Skeleton
import proofs.«180034_j81982335746566_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Block `t` of window `w`'s array, the array taken as the stage finds it. -/
def tile0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds block `t` of its array when point `t` starts, whether the block was
    copied in at `t` or at an earlier point with the same block index. -/
theorem staged0_0_of {c : Dev nD} (dat : Dat τ (Elt F) Unit ℕ (UR sig nD τ) ℕ cfg0 c) (hA : dat.A 0 = V c (Pipeline.arrRef spec0 0))
    (hafter : ∀ t, dat.after 0 t = tile0 V c 0 t) (t : Fin cfg0.N) (d) : dat.before 0 t d = tile0 V c 0 t :=
  (dat.before_in_eq_fetched 0 rfl (fun _ => rfl) (fun _ _ _ => rfl) (fun t => by rw [hafter]; unfold Dat.blockOf tile0; rw [hA]; try rfl) t d).trans
    (by unfold Dat.fetched Dat.blockOf tile0; rw [hA]; try rfl)

/-- Input window 1's staging buffer holds block `t` of its array when point `t` starts, whether the block was
    copied in at `t` or at an earlier point with the same block index. -/
theorem staged0_1_of {c : Dev nD} (dat : Dat τ (Elt F) Unit ℕ (UR sig nD τ) ℕ cfg0 c) (hA : dat.A 1 = V c (Pipeline.arrRef spec0 1))
    (hafter : ∀ t, dat.after 1 t = tile0 V c 1 t) (t : Fin cfg0.N) (d) : dat.before 1 t d = tile0 V c 1 t :=
  (dat.before_in_eq_fetched 1 rfl (fun _ => rfl) (fun _ _ _ => rfl) (fun t => by rw [hafter]; unfold Dat.blockOf tile0; rw [hA]; try rfl) t d).trans
    (by unfold Dat.fetched Dat.blockOf tile0; rw [hA]; try rfl)

/-- Input window 2's staging buffer holds block `t` of its array when point `t` starts, whether the block was
    copied in at `t` or at an earlier point with the same block index. -/
theorem staged0_2_of {c : Dev nD} (dat : Dat τ (Elt F) Unit ℕ (UR sig nD τ) ℕ cfg0 c) (hA : dat.A 2 = V c (Pipeline.arrRef spec0 2))
    (hafter : ∀ t, dat.after 2 t = tile0 V c 2 t) (t : Fin cfg0.N) (d) : dat.before 2 t d = tile0 V c 2 t :=
  (dat.before_in_eq_fetched 2 rfl (fun _ => rfl) (fun _ _ _ => rfl) (fun t => by rw [hafter]; unfold Dat.blockOf tile0; rw [hA]; try rfl) t d).trans
    (by unfold Dat.fetched Dat.blockOf tile0; rw [hA]; try rfl)

/-- The whole output tile, as a rectangle of its staging buffer. -/
abbrev whole0 : Rect S1024x512 := Rect.unit (s := S1024x512) ![0, 0] S1024x512.size inb_S1024x512_S1024x512_0_0

/-- The whole weight block and the whole bias row, as rectangles of their staging buffers. -/
abbrev wholeW0 : Rect S512x512 := Rect.unit (s := S512x512) ![0, 0] S512x512.size inb_S512x512_S512x512_0_0
abbrev wholeB0 : Rect S1x512 := Rect.unit (s := S1x512) ![0, 0] S1x512.size inb_S1x512_S1x512_0_0

/-- The output tile after the body: the single store of the projected rows, computed from the three blocks as the
    body loads them (each whole). -/
def outTile0 (x : Vec F S1024x512 .f32) (w : Vec F S512x512 .f32) (b : Vec F S1x512 .f32) : Vec F S1024x512 .bf16 :=
  View.canon [⟨whole0, k0_pay1 (View.ld x whole0) (View.ld w wholeW0) (View.ld b wholeB0)⟩]

/-- That store writes every entry of the tile. -/
theorem outTile0_cover (p : Vec F S1024x512 .bf16) (y : S1024x512.Idx) :
    ∃ pc ∈ ([⟨whole0, p⟩] : List (View.Piece (Elt F) S1024x512 .bf16)), y ∈ pc.1.set :=
  View.cover_of_tiled [⟨whole0, p⟩] S1024x512.size (by rfl) y

set_option maxHeartbeats 1000000 in
/-- One run of the body: from the three input blocks held at `x`, `w`, `b` and the output tile at anything, it
    returns with the inputs as they were and the output tile at `outTile0 x w b`. -/
theorem body0_run (c : Dev nD) (E : Set ℕ) (i : grid0.Coords)
    (a1 : Memref sig .tc .vmem S1024x512 .f32) (h1 : a1.IsWhole) (a2 : Memref sig .tc .vmem S512x512 .f32) (h2 : a2.IsWhole)
    (a3 : Memref sig .tc .vmem S1x512 .f32) (h3 : a3.IsWhole) (a4 : Memref sig .tc .vmem S1024x512 .bf16) (h4 : a4.IsWhole)
    (x : Vec F S1024x512 .f32) (w : Vec F S512x512 .f32) (b : Vec F S1x512 .f32) (K : PUnit → sProp 𝕄) :
    iprop(owns (c : Thread nD τ) a1 fullShare x ∗ owns (c : Thread nD τ) a2 fullShare w ∗ owns (c : Thread nD τ) a3 fullShare b
        ∗ (∃ d, owns (c : Thread nD τ) a4 fullShare d)
        ∗ (iprop(owns (c : Thread nD τ) a1 fullShare x ∗ owns (c : Thread nD τ) a2 fullShare w ∗ owns (c : Thread nD τ) a3 fullShare b
            ∗ owns (c : Thread nD τ) a4 fullShare (outTile0 x w b)) -∗ K ⟨⟩))
      ⊢ wp frame (wpE (defs₀ (F := F)) Variants.none c none) E (cc0__linear_kernel i a1 h1 a2 h2 a3 h3 a4 h4) K := by
  simp only [cc0__linear_kernel_eq_skeleton]; unfold cc0__linear_kernel_skel
  unfold owns
  iintro ⟨⟨%f1, %hf1, H1⟩, ⟨%f2, %hf2, H2⟩, ⟨%f3, %hf3, H3⟩, ⟨%d4, %f4, -, H4⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (outTile0_cover (F := F) _)

/-! ## The stage's proof data, and the body at a generic point -/

/-- What is recorded of the stage on core `c`: the arrays as the stage finds them; after point `t` the three input
    buffers still at their blocks and the output buffer at the projected tile; nothing else held, nothing owed. -/
def dat0 (c : Dev nD) : Dat τ (Elt F) Unit ℕ (UR sig nD τ) ℕ cfg0 c where
  A w := V c (Pipeline.arrRef spec0 w)
  after w t := match w with
    | ⟨0, _⟩ => tile0 V c 0 t
    | ⟨1, _⟩ => tile0 V c 1 t
    | ⟨2, _⟩ => tile0 V c 2 t
    | ⟨3, _⟩ => outTile0 (tile0 V c 0 t) (tile0 V c 1 t) (tile0 V c 2 t)
  Φ _ := Pipeline.ΦA spec0 c
  q _ := fullShare
  owed _ := 0

theorem dat0_A (c : Dev nD) (w : Fin cfg0.W) : (dat0 V c).A w = V c (Pipeline.arrRef spec0 w) := by
  dsimp only [dat0]
theorem dat0_after0 (c : Dev nD) (t : Fin cfg0.N) : (dat0 V c).after 0 t = tile0 V c 0 t := by dsimp only [dat0]
theorem dat0_after1 (c : Dev nD) (t : Fin cfg0.N) : (dat0 V c).after 1 t = tile0 V c 1 t := by dsimp only [dat0]
theorem dat0_after2 (c : Dev nD) (t : Fin cfg0.N) : (dat0 V c).after 2 t = tile0 V c 2 t := by dsimp only [dat0]
theorem dat0_after3 (c : Dev nD) (t : Fin cfg0.N) :
    (dat0 V c).after 3 t = outTile0 (tile0 V c 0 t) (tile0 V c 1 t) (tile0 V c 2 t) := by dsimp only [dat0]

theorem dat0_staged0 (c : Dev nD) (t : Fin cfg0.N) (d) : (dat0 V c).before 0 t d = tile0 V c 0 t :=
  staged0_0_of V (dat0 V c) (dat0_A V c 0) (dat0_after0 V c) t d
theorem dat0_staged1 (c : Dev nD) (t : Fin cfg0.N) (d) : (dat0 V c).before 1 t d = tile0 V c 1 t :=
  staged0_1_of V (dat0 V c) (dat0_A V c 1) (dat0_after1 V c) t d
theorem dat0_staged2 (c : Dev nD) (t : Fin cfg0.N) (d) : (dat0 V c).before 2 t d = tile0 V c 2 t :=
  staged0_2_of V (dat0 V c) (dat0_A V c 2) (dat0_after2 V c) t d

/-- What the body is entered with at point `t`, -/
def enter0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it hands back. -/
def leave0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- At every point the three input buffers hold their blocks, so the run of the body applies; what the body does
    not touch passes through. -/
theorem point0 (c : Dev nD) (t : Fin cfg0.N) :
    enter0 V c t ⊢ wp frame (wpE (defs₀ (F := F)) Variants.none c none) Set.univ (bodyAt0 t) (fun _ => leave0 V c t) := by
  unfold enter0 leave0 bodyAt0
  simp only [dat0_staged0, dat0_staged1, dat0_staged2]
  rw [show (dat0 V c).Φ t.succ = (dat0 V c).Φ t.castSucc from rfl,
    show (dat0 V c).owesAt () t.succ = (dat0 V c).owesAt () t.castSucc from rfl,
    dat0_after0, dat0_after1, dat0_after2, dat0_after3]
  iintro ⟨HΦ, Ho, ⟨%d0, H0⟩, ⟨%d1, H1⟩, ⟨%d2, H2⟩, ⟨%d3, H3⟩⟩
  iapply (body0_run c Set.univ _ _ _ _ _ _ _ _ _ (tile0 V c 0 t) (tile0 V c 1 t) (tile0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body's obligation to the pipeline, at every point. -/
theorem obligation0 (c : Dev nD) : BodyObligation (dat0 (F := F) V c) (defs₀ (F := F)) Variants.none () Set.univ := fun t => by
  rw [bigSep_W0, bigSep_W0]
  exact point0 V c t

end Cert.Kernel.Hand

end
-- ==== Proof.BitsProj1.lean ====
/-
  Projection stage 1 (y = x · Wᵀ + b on a tile of 1024 rows): what one grid point does to its four staged
  blocks. The row tile x, the weight matrix W and the bias row b are read and left as they were; the output tile
  ends holding the one function `k1_pay1` of the three blocks read. The weight and bias blocks are staged at the
  first point only and found unchanged at every later one, because their block index never moves.
-/
import proofs.«180034_j81982335746566_2_alg».proof.Proof.Gen.Kernel.Launch
import proofs.«180034_j81982335746566_2_alg».proof.Proof.Gen.Kernel.Skeleton
import proofs.«180034_j81982335746566_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Block `t` of window `w`'s array, the array taken as the stage finds it. -/
def tile1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds block `t` of its array when point `t` starts, whether the block was
    copied in at `t` or at an earlier point with the same block index. -/
theorem staged1_0_of {c : Dev nD} (dat : Dat τ (Elt F) Unit ℕ (UR sig nD τ) ℕ cfg1 c) (hA : dat.A 0 = V c (Pipeline.arrRef spec1 0))
    (hafter : ∀ t, dat.after 0 t = tile1 V c 0 t) (t : Fin cfg1.N) (d) : dat.before 0 t d = tile1 V c 0 t :=
  (dat.before_in_eq_fetched 0 rfl (fun _ => rfl) (fun _ _ _ => rfl) (fun t => by rw [hafter]; unfold Dat.blockOf tile1; rw [hA]; try rfl) t d).trans
    (by unfold Dat.fetched Dat.blockOf tile1; rw [hA]; try rfl)

/-- Input window 1's staging buffer holds block `t` of its array when point `t` starts, whether the block was
    copied in at `t` or at an earlier point with the same block index. -/
theorem staged1_1_of {c : Dev nD} (dat : Dat τ (Elt F) Unit ℕ (UR sig nD τ) ℕ cfg1 c) (hA : dat.A 1 = V c (Pipeline.arrRef spec1 1))
    (hafter : ∀ t, dat.after 1 t = tile1 V c 1 t) (t : Fin cfg1.N) (d) : dat.before 1 t d = tile1 V c 1 t :=
  (dat.before_in_eq_fetched 1 rfl (fun _ => rfl) (fun _ _ _ => rfl) (fun t => by rw [hafter]; unfold Dat.blockOf tile1; rw [hA]; try rfl) t d).trans
    (by unfold Dat.fetched Dat.blockOf tile1; rw [hA]; try rfl)

/-- Input window 2's staging buffer holds block `t` of its array when point `t` starts, whether the block was
    copied in at `t` or at an earlier point with the same block index. -/
theorem staged1_2_of {c : Dev nD} (dat : Dat τ (Elt F) Unit ℕ (UR sig nD τ) ℕ cfg1 c) (hA : dat.A 2 = V c (Pipeline.arrRef spec1 2))
    (hafter : ∀ t, dat.after 2 t = tile1 V c 2 t) (t : Fin cfg1.N) (d) : dat.before 2 t d = tile1 V c 2 t :=
  (dat.before_in_eq_fetched 2 rfl (fun _ => rfl) (fun _ _ _ => rfl) (fun t => by rw [hafter]; unfold Dat.blockOf tile1; rw [hA]; try rfl) t d).trans
    (by unfold Dat.fetched Dat.blockOf tile1; rw [hA]; try rfl)

/-- The whole output tile, as a rectangle of its staging buffer. -/
abbrev whole1 : Rect S1024x512 := Rect.unit (s := S1024x512) ![0, 0] S1024x512.size inb_S1024x512_S1024x512_0_0

/-- The whole weight block and the whole bias row, as rectangles of their staging buffers. -/
abbrev wholeW1 : Rect S512x512 := Rect.unit (s := S512x512) ![0, 0] S512x512.size inb_S512x512_S512x512_0_0
abbrev wholeB1 : Rect S1x512 := Rect.unit (s := S1x512) ![0, 0] S1x512.size inb_S1x512_S1x512_0_0

/-- The output tile after the body: the single store of the projected rows, computed from the three blocks as the
    body loads them (each whole). -/
def outTile1 (x : Vec F S1024x512 .f32) (w : Vec F S512x512 .f32) (b : Vec F S1x512 .f32) : Vec F S1024x512 .bf16 :=
  View.canon [⟨whole1, k1_pay1 (View.ld x whole1) (View.ld w wholeW1) (View.ld b wholeB1)⟩]

/-- That store writes every entry of the tile. -/
theorem outTile1_cover (p : Vec F S1024x512 .bf16) (y : S1024x512.Idx) :
    ∃ pc ∈ ([⟨whole1, p⟩] : List (View.Piece (Elt F) S1024x512 .bf16)), y ∈ pc.1.set :=
  View.cover_of_tiled [⟨whole1, p⟩] S1024x512.size (by rfl) y

set_option maxHeartbeats 1000000 in
/-- One run of the body: from the three input blocks held at `x`, `w`, `b` and the output tile at anything, it
    returns with the inputs as they were and the output tile at `outTile1 x w b`. -/
theorem body1_run (c : Dev nD) (E : Set ℕ) (i : grid1.Coords)
    (a1 : Memref sig .tc .vmem S1024x512 .f32) (h1 : a1.IsWhole) (a2 : Memref sig .tc .vmem S512x512 .f32) (h2 : a2.IsWhole)
    (a3 : Memref sig .tc .vmem S1x512 .f32) (h3 : a3.IsWhole) (a4 : Memref sig .tc .vmem S1024x512 .bf16) (h4 : a4.IsWhole)
    (x : Vec F S1024x512 .f32) (w : Vec F S512x512 .f32) (b : Vec F S1x512 .f32) (K : PUnit → sProp 𝕄) :
    iprop(owns (c : Thread nD τ) a1 fullShare x ∗ owns (c : Thread nD τ) a2 fullShare w ∗ owns (c : Thread nD τ) a3 fullShare b
        ∗ (∃ d, owns (c : Thread nD τ) a4 fullShare d)
        ∗ (iprop(owns (c : Thread nD τ) a1 fullShare x ∗ owns (c : Thread nD τ) a2 fullShare w ∗ owns (c : Thread nD τ) a3 fullShare b
            ∗ owns (c : Thread nD τ) a4 fullShare (outTile1 x w b)) -∗ K ⟨⟩))
      ⊢ wp frame (wpE (defs₀ (F := F)) Variants.none c none) E (cc1__linear_kernel i a1 h1 a2 h2 a3 h3 a4 h4) K := by
  simp only [cc1__linear_kernel_eq_skeleton]; unfold cc1__linear_kernel_skel
  unfold owns
  iintro ⟨⟨%f1, %hf1, H1⟩, ⟨%f2, %hf2, H2⟩, ⟨%f3, %hf3, H3⟩, ⟨%d4, %f4, -, H4⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (outTile1_cover (F := F) _)

/-! ## The stage's proof data, and the body at a generic point -/

/-- What is recorded of the stage on core `c`: the arrays as the stage finds them; after point `t` the three input
    buffers still at their blocks and the output buffer at the projected tile; nothing else held, nothing owed. -/
def dat1 (c : Dev nD) : Dat τ (Elt F) Unit ℕ (UR sig nD τ) ℕ cfg1 c where
  A w := V c (Pipeline.arrRef spec1 w)
  after w t := match w with
    | ⟨0, _⟩ => tile1 V c 0 t
    | ⟨1, _⟩ => tile1 V c 1 t
    | ⟨2, _⟩ => tile1 V c 2 t
    | ⟨3, _⟩ => outTile1 (tile1 V c 0 t) (tile1 V c 1 t) (tile1 V c 2 t)
  Φ _ := Pipeline.ΦA spec1 c
  q _ := fullShare
  owed _ := 0

theorem dat1_A (c : Dev nD) (w : Fin cfg1.W) : (dat1 V c).A w = V c (Pipeline.arrRef spec1 w) := by
  dsimp only [dat1]
theorem dat1_after0 (c : Dev nD) (t : Fin cfg1.N) : (dat1 V c).after 0 t = tile1 V c 0 t := by dsimp only [dat1]
theorem dat1_after1 (c : Dev nD) (t : Fin cfg1.N) : (dat1 V c).after 1 t = tile1 V c 1 t := by dsimp only [dat1]
theorem dat1_after2 (c : Dev nD) (t : Fin cfg1.N) : (dat1 V c).after 2 t = tile1 V c 2 t := by dsimp only [dat1]
theorem dat1_after3 (c : Dev nD) (t : Fin cfg1.N) :
    (dat1 V c).after 3 t = outTile1 (tile1 V c 0 t) (tile1 V c 1 t) (tile1 V c 2 t) := by dsimp only [dat1]

theorem dat1_staged0 (c : Dev nD) (t : Fin cfg1.N) (d) : (dat1 V c).before 0 t d = tile1 V c 0 t :=
  staged1_0_of V (dat1 V c) (dat1_A V c 0) (dat1_after0 V c) t d
theorem dat1_staged1 (c : Dev nD) (t : Fin cfg1.N) (d) : (dat1 V c).before 1 t d = tile1 V c 1 t :=
  staged1_1_of V (dat1 V c) (dat1_A V c 1) (dat1_after1 V c) t d
theorem dat1_staged2 (c : Dev nD) (t : Fin cfg1.N) (d) : (dat1 V c).before 2 t d = tile1 V c 2 t :=
  staged1_2_of V (dat1 V c) (dat1_A V c 2) (dat1_after2 V c) t d

/-- What the body is entered with at point `t`, -/
def enter1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it hands back. -/
def leave1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- At every point the three input buffers hold their blocks, so the run of the body applies; what the body does
    not touch passes through. -/
theorem point1 (c : Dev nD) (t : Fin cfg1.N) :
    enter1 V c t ⊢ wp frame (wpE (defs₀ (F := F)) Variants.none c none) Set.univ (bodyAt1 t) (fun _ => leave1 V c t) := by
  unfold enter1 leave1 bodyAt1
  simp only [dat1_staged0, dat1_staged1, dat1_staged2]
  rw [show (dat1 V c).Φ t.succ = (dat1 V c).Φ t.castSucc from rfl,
    show (dat1 V c).owesAt () t.succ = (dat1 V c).owesAt () t.castSucc from rfl,
    dat1_after0, dat1_after1, dat1_after2, dat1_after3]
  iintro ⟨HΦ, Ho, ⟨%d0, H0⟩, ⟨%d1, H1⟩, ⟨%d2, H2⟩, ⟨%d3, H3⟩⟩
  iapply (body1_run c Set.univ _ _ _ _ _ _ _ _ _ (tile1 V c 0 t) (tile1 V c 1 t) (tile1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body's obligation to the pipeline, at every point. -/
theorem obligation1 (c : Dev nD) : BodyObligation (dat1 (F := F) V c) (defs₀ (F := F)) Variants.none () Set.univ := fun t => by
  rw [bigSep_W1, bigSep_W1]
  exact point1 V c t

end Cert.Kernel.Hand

end
-- ==== Proof.BitsProj2.lean ====
/-
  Projection stage 2 (y = x · Wᵀ + b on a tile of 1024 rows): what one grid point does to its four staged
  blocks. The row tile x, the weight matrix W and the bias row b are read and left as they were; the output tile
  ends holding the one function `k2_pay1` of the three blocks read. The weight and bias blocks are staged at the
  first point only and found unchanged at every later one, because their block index never moves.
-/
import proofs.«180034_j81982335746566_2_alg».proof.Proof.Gen.Kernel.Launch
import proofs.«180034_j81982335746566_2_alg».proof.Proof.Gen.Kernel.Skeleton
import proofs.«180034_j81982335746566_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Block `t` of window `w`'s array, the array taken as the stage finds it. -/
def tile2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds block `t` of its array when point `t` starts, whether the block was
    copied in at `t` or at an earlier point with the same block index. -/
theorem staged2_0_of {c : Dev nD} (dat : Dat τ (Elt F) Unit ℕ (UR sig nD τ) ℕ cfg2 c) (hA : dat.A 0 = V c (Pipeline.arrRef spec2 0))
    (hafter : ∀ t, dat.after 0 t = tile2 V c 0 t) (t : Fin cfg2.N) (d) : dat.before 0 t d = tile2 V c 0 t :=
  (dat.before_in_eq_fetched 0 rfl (fun _ => rfl) (fun _ _ _ => rfl) (fun t => by rw [hafter]; unfold Dat.blockOf tile2; rw [hA]; try rfl) t d).trans
    (by unfold Dat.fetched Dat.blockOf tile2; rw [hA]; try rfl)

/-- Input window 1's staging buffer holds block `t` of its array when point `t` starts, whether the block was
    copied in at `t` or at an earlier point with the same block index. -/
theorem staged2_1_of {c : Dev nD} (dat : Dat τ (Elt F) Unit ℕ (UR sig nD τ) ℕ cfg2 c) (hA : dat.A 1 = V c (Pipeline.arrRef spec2 1))
    (hafter : ∀ t, dat.after 1 t = tile2 V c 1 t) (t : Fin cfg2.N) (d) : dat.before 1 t d = tile2 V c 1 t :=
  (dat.before_in_eq_fetched 1 rfl (fun _ => rfl) (fun _ _ _ => rfl) (fun t => by rw [hafter]; unfold Dat.blockOf tile2; rw [hA]; try rfl) t d).trans
    (by unfold Dat.fetched Dat.blockOf tile2; rw [hA]; try rfl)

/-- Input window 2's staging buffer holds block `t` of its array when point `t` starts, whether the block was
    copied in at `t` or at an earlier point with the same block index. -/
theorem staged2_2_of {c : Dev nD} (dat : Dat τ (Elt F) Unit ℕ (UR sig nD τ) ℕ cfg2 c) (hA : dat.A 2 = V c (Pipeline.arrRef spec2 2))
    (hafter : ∀ t, dat.after 2 t = tile2 V c 2 t) (t : Fin cfg2.N) (d) : dat.before 2 t d = tile2 V c 2 t :=
  (dat.before_in_eq_fetched 2 rfl (fun _ => rfl) (fun _ _ _ => rfl) (fun t => by rw [hafter]; unfold Dat.blockOf tile2; rw [hA]; try rfl) t d).trans
    (by unfold Dat.fetched Dat.blockOf tile2; rw [hA]; try rfl)

/-- The whole output tile, as a rectangle of its staging buffer. -/
abbrev whole2 : Rect S1024x512 := Rect.unit (s := S1024x512) ![0, 0] S1024x512.size inb_S1024x512_S1024x512_0_0

/-- The whole weight block and the whole bias row, as rectangles of their staging buffers. -/
abbrev wholeW2 : Rect S512x512 := Rect.unit (s := S512x512) ![0, 0] S512x512.size inb_S512x512_S512x512_0_0
abbrev wholeB2 : Rect S1x512 := Rect.unit (s := S1x512) ![0, 0] S1x512.size inb_S1x512_S1x512_0_0

/-- The output tile after the body: the single store of the projected rows, computed from the three blocks as the
    body loads them (each whole). -/
def outTile2 (x : Vec F S1024x512 .f32) (w : Vec F S512x512 .f32) (b : Vec F S1x512 .f32) : Vec F S1024x512 .bf16 :=
  View.canon [⟨whole2, k2_pay1 (View.ld x whole2) (View.ld w wholeW2) (View.ld b wholeB2)⟩]

/-- That store writes every entry of the tile. -/
theorem outTile2_cover (p : Vec F S1024x512 .bf16) (y : S1024x512.Idx) :
    ∃ pc ∈ ([⟨whole2, p⟩] : List (View.Piece (Elt F) S1024x512 .bf16)), y ∈ pc.1.set :=
  View.cover_of_tiled [⟨whole2, p⟩] S1024x512.size (by rfl) y

set_option maxHeartbeats 1000000 in
/-- One run of the body: from the three input blocks held at `x`, `w`, `b` and the output tile at anything, it
    returns with the inputs as they were and the output tile at `outTile2 x w b`. -/
theorem body2_run (c : Dev nD) (E : Set ℕ) (i : grid2.Coords)
    (a1 : Memref sig .tc .vmem S1024x512 .f32) (h1 : a1.IsWhole) (a2 : Memref sig .tc .vmem S512x512 .f32) (h2 : a2.IsWhole)
    (a3 : Memref sig .tc .vmem S1x512 .f32) (h3 : a3.IsWhole) (a4 : Memref sig .tc .vmem S1024x512 .bf16) (h4 : a4.IsWhole)
    (x : Vec F S1024x512 .f32) (w : Vec F S512x512 .f32) (b : Vec F S1x512 .f32) (K : PUnit → sProp 𝕄) :
    iprop(owns (c : Thread nD τ) a1 fullShare x ∗ owns (c : Thread nD τ) a2 fullShare w ∗ owns (c : Thread nD τ) a3 fullShare b
        ∗ (∃ d, owns (c : Thread nD τ) a4 fullShare d)
        ∗ (iprop(owns (c : Thread nD τ) a1 fullShare x ∗ owns (c : Thread nD τ) a2 fullShare w ∗ owns (c : Thread nD τ) a3 fullShare b
            ∗ owns (c : Thread nD τ) a4 fullShare (outTile2 x w b)) -∗ K ⟨⟩))
      ⊢ wp frame (wpE (defs₀ (F := F)) Variants.none c none) E (cc2__linear_kernel i a1 h1 a2 h2 a3 h3 a4 h4) K := by
  simp only [cc2__linear_kernel_eq_skeleton]; unfold cc2__linear_kernel_skel
  unfold owns
  iintro ⟨⟨%f1, %hf1, H1⟩, ⟨%f2, %hf2, H2⟩, ⟨%f3, %hf3, H3⟩, ⟨%d4, %f4, -, H4⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (outTile2_cover (F := F) _)

/-! ## The stage's proof data, and the body at a generic point -/

/-- What is recorded of the stage on core `c`: the arrays as the stage finds them; after point `t` the three input
    buffers still at their blocks and the output buffer at the projected tile; nothing else held, nothing owed. -/
def dat2 (c : Dev nD) : Dat τ (Elt F) Unit ℕ (UR sig nD τ) ℕ cfg2 c where
  A w := V c (Pipeline.arrRef spec2 w)
  after w t := match w with
    | ⟨0, _⟩ => tile2 V c 0 t
    | ⟨1, _⟩ => tile2 V c 1 t
    | ⟨2, _⟩ => tile2 V c 2 t
    | ⟨3, _⟩ => outTile2 (tile2 V c 0 t) (tile2 V c 1 t) (tile2 V c 2 t)
  Φ _ := Pipeline.ΦA spec2 c
  q _ := fullShare
  owed _ := 0

theorem dat2_A (c : Dev nD) (w : Fin cfg2.W) : (dat2 V c).A w = V c (Pipeline.arrRef spec2 w) := by
  dsimp only [dat2]
theorem dat2_after0 (c : Dev nD) (t : Fin cfg2.N) : (dat2 V c).after 0 t = tile2 V c 0 t := by dsimp only [dat2]
theorem dat2_after1 (c : Dev nD) (t : Fin cfg2.N) : (dat2 V c).after 1 t = tile2 V c 1 t := by dsimp only [dat2]
theorem dat2_after2 (c : Dev nD) (t : Fin cfg2.N) : (dat2 V c).after 2 t = tile2 V c 2 t := by dsimp only [dat2]
theorem dat2_after3 (c : Dev nD) (t : Fin cfg2.N) :
    (dat2 V c).after 3 t = outTile2 (tile2 V c 0 t) (tile2 V c 1 t) (tile2 V c 2 t) := by dsimp only [dat2]

theorem dat2_staged0 (c : Dev nD) (t : Fin cfg2.N) (d) : (dat2 V c).before 0 t d = tile2 V c 0 t :=
  staged2_0_of V (dat2 V c) (dat2_A V c 0) (dat2_after0 V c) t d
theorem dat2_staged1 (c : Dev nD) (t : Fin cfg2.N) (d) : (dat2 V c).before 1 t d = tile2 V c 1 t :=
  staged2_1_of V (dat2 V c) (dat2_A V c 1) (dat2_after1 V c) t d
theorem dat2_staged2 (c : Dev nD) (t : Fin cfg2.N) (d) : (dat2 V c).before 2 t d = tile2 V c 2 t :=
  staged2_2_of V (dat2 V c) (dat2_A V c 2) (dat2_after2 V c) t d

/-- What the body is entered with at point `t`, -/
def enter2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it hands back. -/
def leave2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- At every point the three input buffers hold their blocks, so the run of the body applies; what the body does
    not touch passes through. -/
theorem point2 (c : Dev nD) (t : Fin cfg2.N) :
    enter2 V c t ⊢ wp frame (wpE (defs₀ (F := F)) Variants.none c none) Set.univ (bodyAt2 t) (fun _ => leave2 V c t) := by
  unfold enter2 leave2 bodyAt2
  simp only [dat2_staged0, dat2_staged1, dat2_staged2]
  rw [show (dat2 V c).Φ t.succ = (dat2 V c).Φ t.castSucc from rfl,
    show (dat2 V c).owesAt () t.succ = (dat2 V c).owesAt () t.castSucc from rfl,
    dat2_after0, dat2_after1, dat2_after2, dat2_after3]
  iintro ⟨HΦ, Ho, ⟨%d0, H0⟩, ⟨%d1, H1⟩, ⟨%d2, H2⟩, ⟨%d3, H3⟩⟩
  iapply (body2_run c Set.univ _ _ _ _ _ _ _ _ _ (tile2 V c 0 t) (tile2 V c 1 t) (tile2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body's obligation to the pipeline, at every point. -/
theorem obligation2 (c : Dev nD) : BodyObligation (dat2 (F := F) V c) (defs₀ (F := F)) Variants.none () Set.univ := fun t => by
  rw [bigSep_W2, bigSep_W2]
  exact point2 V c t

end Cert.Kernel.Hand

end
-- ==== Proof.BitsProj4.lean ====
/-
  Projection stage 4 (y = x · Wᵀ + b on a tile of 1024 rows): what one grid point does to its four staged
  blocks. The row tile x, the weight matrix W and the bias row b are read and left as they were; the output tile
  ends holding the one function `k4_pay1` of the three blocks read. The weight and bias blocks are staged at the
  first point only and found unchanged at every later one, because their block index never moves.
-/
import proofs.«180034_j81982335746566_2_alg».proof.Proof.Gen.Kernel.Launch
import proofs.«180034_j81982335746566_2_alg».proof.Proof.Gen.Kernel.Skeleton
import proofs.«180034_j81982335746566_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Block `t` of window `w`'s array, the array taken as the stage finds it. -/
def tile4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's staging buffer holds block `t` of its array when point `t` starts, whether the block was
    copied in at `t` or at an earlier point with the same block index. -/
theorem staged4_0_of {c : Dev nD} (dat : Dat τ (Elt F) Unit ℕ (UR sig nD τ) ℕ cfg4 c) (hA : dat.A 0 = V c (Pipeline.arrRef spec4 0))
    (hafter : ∀ t, dat.after 0 t = tile4 V c 0 t) (t : Fin cfg4.N) (d) : dat.before 0 t d = tile4 V c 0 t :=
  (dat.before_in_eq_fetched 0 rfl (fun _ => rfl) (fun _ _ _ => rfl) (fun t => by rw [hafter]; unfold Dat.blockOf tile4; rw [hA]; try rfl) t d).trans
    (by unfold Dat.fetched Dat.blockOf tile4; rw [hA]; try rfl)

/-- Input window 1's staging buffer holds block `t` of its array when point `t` starts, whether the block was
    copied in at `t` or at an earlier point with the same block index. -/
theorem staged4_1_of {c : Dev nD} (dat : Dat τ (Elt F) Unit ℕ (UR sig nD τ) ℕ cfg4 c) (hA : dat.A 1 = V c (Pipeline.arrRef spec4 1))
    (hafter : ∀ t, dat.after 1 t = tile4 V c 1 t) (t : Fin cfg4.N) (d) : dat.before 1 t d = tile4 V c 1 t :=
  (dat.before_in_eq_fetched 1 rfl (fun _ => rfl) (fun _ _ _ => rfl) (fun t => by rw [hafter]; unfold Dat.blockOf tile4; rw [hA]; try rfl) t d).trans
    (by unfold Dat.fetched Dat.blockOf tile4; rw [hA]; try rfl)

/-- Input window 2's staging buffer holds block `t` of its array when point `t` starts, whether the block was
    copied in at `t` or at an earlier point with the same block index. -/
theorem staged4_2_of {c : Dev nD} (dat : Dat τ (Elt F) Unit ℕ (UR sig nD τ) ℕ cfg4 c) (hA : dat.A 2 = V c (Pipeline.arrRef spec4 2))
    (hafter : ∀ t, dat.after 2 t = tile4 V c 2 t) (t : Fin cfg4.N) (d) : dat.before 2 t d = tile4 V c 2 t :=
  (dat.before_in_eq_fetched 2 rfl (fun _ => rfl) (fun _ _ _ => rfl) (fun t => by rw [hafter]; unfold Dat.blockOf tile4; rw [hA]; try rfl) t d).trans
    (by unfold Dat.fetched Dat.blockOf tile4; rw [hA]; try rfl)

/-- The whole output tile, as a rectangle of its staging buffer. -/
abbrev whole4 : Rect S1024x512 := Rect.unit (s := S1024x512) ![0, 0] S1024x512.size inb_S1024x512_S1024x512_0_0

/-- The whole weight block and the whole bias row, as rectangles of their staging buffers. -/
abbrev wholeW4 : Rect S512x512 := Rect.unit (s := S512x512) ![0, 0] S512x512.size inb_S512x512_S512x512_0_0
abbrev wholeB4 : Rect S1x512 := Rect.unit (s := S1x512) ![0, 0] S1x512.size inb_S1x512_S1x512_0_0

/-- The output tile after the body: the single store of the projected rows, computed from the three blocks as the
    body loads them (each whole). -/
def outTile4 (x : Vec F S1024x512 .bf16) (w : Vec F S512x512 .f32) (b : Vec F S1x512 .f32) : Vec F S1024x512 .f32 :=
  View.canon [⟨whole4, k4_pay1 (View.ld x whole4) (View.ld w wholeW4) (View.ld b wholeB4)⟩]

/-- That store writes every entry of the tile. -/
theorem outTile4_cover (p : Vec F S1024x512 .f32) (y : S1024x512.Idx) :
    ∃ pc ∈ ([⟨whole4, p⟩] : List (View.Piece (Elt F) S1024x512 .f32)), y ∈ pc.1.set :=
  View.cover_of_tiled [⟨whole4, p⟩] S1024x512.size (by rfl) y

set_option maxHeartbeats 1000000 in
/-- One run of the body: from the three input blocks held at `x`, `w`, `b` and the output tile at anything, it
    returns with the inputs as they were and the output tile at `outTile4 x w b`. -/
theorem body4_run (c : Dev nD) (E : Set ℕ) (i : grid4.Coords)
    (a1 : Memref sig .tc .vmem S1024x512 .bf16) (h1 : a1.IsWhole) (a2 : Memref sig .tc .vmem S512x512 .f32) (h2 : a2.IsWhole)
    (a3 : Memref sig .tc .vmem S1x512 .f32) (h3 : a3.IsWhole) (a4 : Memref sig .tc .vmem S1024x512 .f32) (h4 : a4.IsWhole)
    (x : Vec F S1024x512 .bf16) (w : Vec F S512x512 .f32) (b : Vec F S1x512 .f32) (K : PUnit → sProp 𝕄) :
    iprop(owns (c : Thread nD τ) a1 fullShare x ∗ owns (c : Thread nD τ) a2 fullShare w ∗ owns (c : Thread nD τ) a3 fullShare b
        ∗ (∃ d, owns (c : Thread nD τ) a4 fullShare d)
        ∗ (iprop(owns (c : Thread nD τ) a1 fullShare x ∗ owns (c : Thread nD τ) a2 fullShare w ∗ owns (c : Thread nD τ) a3 fullShare b
            ∗ owns (c : Thread nD τ) a4 fullShare (outTile4 x w b)) -∗ K ⟨⟩))
      ⊢ wp frame (wpE (defs₀ (F := F)) Variants.none c none) E (cc4__linear_kernel i a1 h1 a2 h2 a3 h3 a4 h4) K := by
  simp only [cc4__linear_kernel_eq_skeleton]; unfold cc4__linear_kernel_skel
  unfold owns
  iintro ⟨⟨%f1, %hf1, H1⟩, ⟨%f2, %hf2, H2⟩, ⟨%f3, %hf3, H3⟩, ⟨%d4, %f4, -, H4⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (outTile4_cover (F := F) _)

/-! ## The stage's proof data, and the body at a generic point -/

/-- What is recorded of the stage on core `c`: the arrays as the stage finds them; after point `t` the three input
    buffers still at their blocks and the output buffer at the projected tile; nothing else held, nothing owed. -/
def dat4 (c : Dev nD) : Dat τ (Elt F) Unit ℕ (UR sig nD τ) ℕ cfg4 c where
  A w := V c (Pipeline.arrRef spec4 w)
  after w t := match w with
    | ⟨0, _⟩ => tile4 V c 0 t
    | ⟨1, _⟩ => tile4 V c 1 t
    | ⟨2, _⟩ => tile4 V c 2 t
    | ⟨3, _⟩ => outTile4 (tile4 V c 0 t) (tile4 V c 1 t) (tile4 V c 2 t)
  Φ _ := Pipeline.ΦA spec4 c
  q _ := fullShare
  owed _ := 0

theorem dat4_A (c : Dev nD) (w : Fin cfg4.W) : (dat4 V c).A w = V c (Pipeline.arrRef spec4 w) := by
  dsimp only [dat4]
theorem dat4_after0 (c : Dev nD) (t : Fin cfg4.N) : (dat4 V c).after 0 t = tile4 V c 0 t := by dsimp only [dat4]
theorem dat4_after1 (c : Dev nD) (t : Fin cfg4.N) : (dat4 V c).after 1 t = tile4 V c 1 t := by dsimp only [dat4]
theorem dat4_after2 (c : Dev nD) (t : Fin cfg4.N) : (dat4 V c).after 2 t = tile4 V c 2 t := by dsimp only [dat4]
theorem dat4_after3 (c : Dev nD) (t : Fin cfg4.N) :
    (dat4 V c).after 3 t = outTile4 (tile4 V c 0 t) (tile4 V c 1 t) (tile4 V c 2 t) := by dsimp only [dat4]

theorem dat4_staged0 (c : Dev nD) (t : Fin cfg4.N) (d) : (dat4 V c).before 0 t d = tile4 V c 0 t :=
  staged4_0_of V (dat4 V c) (dat4_A V c 0) (dat4_after0 V c) t d
theorem dat4_staged1 (c : Dev nD) (t : Fin cfg4.N) (d) : (dat4 V c).before 1 t d = tile4 V c 1 t :=
  staged4_1_of V (dat4 V c) (dat4_A V c 1) (dat4_after1 V c) t d
theorem dat4_staged2 (c : Dev nD) (t : Fin cfg4.N) (d) : (dat4 V c).before 2 t d = tile4 V c 2 t :=
  staged4_2_of V (dat4 V c) (dat4_A V c 2) (dat4_after2 V c) t d

/-- What the body is entered with at point `t`, -/
def enter4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

/-- and what it hands back. -/
def leave4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t))

/-- At every point the three input buffers hold their blocks, so the run of the body applies; what the body does
    not touch passes through. -/
theorem point4 (c : Dev nD) (t : Fin cfg4.N) :
    enter4 V c t ⊢ wp frame (wpE (defs₀ (F := F)) Variants.none c none) Set.univ (bodyAt4 t) (fun _ => leave4 V c t) := by
  unfold enter4 leave4 bodyAt4
  simp only [dat4_staged0, dat4_staged1, dat4_staged2]
  rw [show (dat4 V c).Φ t.succ = (dat4 V c).Φ t.castSucc from rfl,
    show (dat4 V c).owesAt () t.succ = (dat4 V c).owesAt () t.castSucc from rfl,
    dat4_after0, dat4_after1, dat4_after2, dat4_after3]
  iintro ⟨HΦ, Ho, ⟨%d0, H0⟩, ⟨%d1, H1⟩, ⟨%d2, H2⟩, ⟨%d3, H3⟩⟩
  iapply (body4_run c Set.univ _ _ _ _ _ _ _ _ _ (tile4 V c 0 t) (tile4 V c 1 t) (tile4 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body's obligation to the pipeline, at every point. -/
theorem obligation4 (c : Dev nD) : BodyObligation (dat4 (F := F) V c) (defs₀ (F := F)) Variants.none () Set.univ := fun t => by
  rw [bigSep_W4, bigSep_W4]
  exact point4 V c t

end Cert.Kernel.Hand

end
-- ==== Proof.BitsAttnBase.lean ====
/-
  The attention stage (one head pair, one tile of 1024 queries, scanned over eight tiles of 512 keys): what its
  runs share. A grid point is (batch, head pair, query tile, key tile), the key tile innermost. The six scratch
  buffers — running maximum, normaliser and weighted sum for each of the two heads — are reset at the first key
  tile, updated at every key tile, and turned into the output tile (weighted sum over normaliser, head by head)
  at the last key tile only; at the other seven points the output buffer is left as found and not written back.
-/
import proofs.«180034_j81982335746566_2_alg».proof.Proof.Gen.Kernel.Launch
import proofs.«180034_j81982335746566_2_alg».proof.Proof.Gen.Kernel.Skeleton
import proofs.«180034_j81982335746566_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Block `t` of window `w`'s array, the array taken as the stage finds it. -/
def tile3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's staging buffer holds block `t` of its array when point `t` starts, whether it was copied in
    at `t` or at an earlier point with the same block index. -/
theorem staged3_0_of {c : Dev nD} (dat : Dat τ (Elt F) Unit ℕ (UR sig nD τ) ℕ cfg3 c) (hA : dat.A 0 = V c (Pipeline.arrRef spec3 0))
    (hafter : ∀ t, dat.after 0 t = tile3 V c 0 t) (t : Fin cfg3.N) (d) : dat.before 0 t d = tile3 V c 0 t :=
  (dat.before_in_eq_fetched 0 rfl (fun _ => rfl) (fun _ _ _ => rfl) (fun t => by rw [hafter]; unfold Dat.blockOf tile3; rw [hA]; try rfl) t d).trans
    (by unfold Dat.fetched Dat.blockOf tile3; rw [hA]; try rfl)

/-- Input window 1's staging buffer holds block `t` of its array when point `t` starts, whether it was copied in
    at `t` or at an earlier point with the same block index. -/
theorem staged3_1_of {c : Dev nD} (dat : Dat τ (Elt F) Unit ℕ (UR sig nD τ) ℕ cfg3 c) (hA : dat.A 1 = V c (Pipeline.arrRef spec3 1))
    (hafter : ∀ t, dat.after 1 t = tile3 V c 1 t) (t : Fin cfg3.N) (d) : dat.before 1 t d = tile3 V c 1 t :=
  (dat.before_in_eq_fetched 1 rfl (fun _ => rfl) (fun _ _ _ => rfl) (fun t => by rw [hafter]; unfold Dat.blockOf tile3; rw [hA]; try rfl) t d).trans
    (by unfold Dat.fetched Dat.blockOf tile3; rw [hA]; try rfl)

/-- Input window 2's staging buffer holds block `t` of its array when point `t` starts, whether it was copied in
    at `t` or at an earlier point with the same block index. -/
theorem staged3_2_of {c : Dev nD} (dat : Dat τ (Elt F) Unit ℕ (UR sig nD τ) ℕ cfg3 c) (hA : dat.A 2 = V c (Pipeline.arrRef spec3 2))
    (hafter : ∀ t, dat.after 2 t = tile3 V c 2 t) (t : Fin cfg3.N) (d) : dat.before 2 t d = tile3 V c 2 t :=
  (dat.before_in_eq_fetched 2 rfl (fun _ => rfl) (fun _ _ _ => rfl) (fun t => by rw [hafter]; unfold Dat.blockOf tile3; rw [hA]; try rfl) t d).trans
    (by unfold Dat.fetched Dat.blockOf tile3; rw [hA]; try rfl)

/-! ## First and last key tile -/

/-- The point is at the first key tile (the body's reset condition, as it computes it from the coordinates). -/
abbrev first3 (i : grid3.Coords) : Prop := (Scalar.cmpi .ne (Scalar.extui (Scalar.cmpi .eq (BitVec.ofNat 32 (i 3).val) 0#32)) 0#32) = 1#1
/-- That is every eighth point, starting with point 0. -/
theorem first3_iff : ∀ t : Fin cfg3.N, first3 (grid3.coords t) ↔ t.val % 8 = 0 :=
  (by decide +kernel : ∀ t : Fin grid3.N, first3 (grid3.coords t) ↔ t.val % 8 = 0)

/-- The point is at the last key tile (the body's write-out condition). -/
abbrev last3 (i : grid3.Coords) : Prop := k3_cond2 i = 1#1
/-- That is every eighth point, starting with point 7. -/
theorem last3_iff : ∀ t : Fin cfg3.N, last3 (grid3.coords t) ↔ t.val % 8 = 7 :=
  (by decide +kernel : ∀ t : Fin grid3.N, last3 (grid3.coords t) ↔ t.val % 8 = 7)

/-! ## Which windows the body touches where -/

theorem live3_0 : ∀ t : Fin cfg3.N, cfg3.idle 0 (grid3.coords t) = false := by decide +kernel
theorem live3_1 : ∀ t : Fin cfg3.N, cfg3.idle 1 (grid3.coords t) = false := by decide +kernel
theorem live3_2 : ∀ t : Fin cfg3.N, cfg3.idle 2 (grid3.coords t) = false := by decide +kernel
/-- Away from the last key tile nothing is stored into the output tile, -/
theorem idle3_out : ∀ t : Fin cfg3.N, ¬last3 (grid3.coords t) → cfg3.idle 3 (grid3.coords t) = true := by decide +kernel
/-- and it is not written back there; -/
theorem keep3_out : ∀ t : Fin cfg3.N, ¬last3 (grid3.coords t) → (cfg3.win 3).flush t = false := by decide +kernel
/-- at the last key tile it is stored. -/
theorem live3_out : ∀ t : Fin cfg3.N, last3 (grid3.coords t) → cfg3.idle 3 (grid3.coords t) = false := by decide +kernel

/-! ## The buffers the body is handed -/

abbrev qM (t : Fin cfg3.N) : Memref sig .tc .vmem S1x1024x128 .bf16 := win3_0.stage (cfg3.slots t 0)
abbrev qW (t : Fin cfg3.N) : (qM t).IsWhole := hstage3_0 ((cfg3.slots t 0).cast nbuf3_0)
abbrev kM (t : Fin cfg3.N) : Memref sig .tc .vmem S1x512x128 .bf16 := win3_1.stage (cfg3.slots t 1)
abbrev kW (t : Fin cfg3.N) : (kM t).IsWhole := hstage3_1 ((cfg3.slots t 1).cast nbuf3_1)
abbrev vM (t : Fin cfg3.N) : Memref sig .tc .vmem S1x512x128 .bf16 := win3_2.stage (cfg3.slots t 2)
abbrev vW (t : Fin cfg3.N) : (vM t).IsWhole := hstage3_2 ((cfg3.slots t 2).cast nbuf3_2)
abbrev oM (t : Fin cfg3.N) : Memref sig .tc .vmem S1x1024x128 .bf16 := win3_3.stage (cfg3.slots t 3)
abbrev oW (t : Fin cfg3.N) : (oM t).IsWhole := hstage3_3 ((cfg3.slots t 3).cast nbuf3_3)
/-- The six scratch buffers: running maximum, normaliser, weighted sum of the first head, then of the second. -/
abbrev sM0 : Memref sig .tc .vmem S1024x1 .f32 := Memref.whole cc3_scratch0
abbrev sM1 : Memref sig .tc .vmem S1024x1 .f32 := Memref.whole cc3_scratch1
abbrev sM2 : Memref sig .tc .vmem S1024x64 .f32 := Memref.whole cc3_scratch2
abbrev sM3 : Memref sig .tc .vmem S1024x1 .f32 := Memref.whole cc3_scratch3
abbrev sM4 : Memref sig .tc .vmem S1024x1 .f32 := Memref.whole cc3_scratch4
abbrev sM5 : Memref sig .tc .vmem S1024x64 .f32 := Memref.whole cc3_scratch5
/-- Views through which the contents of the output tile and of the scratch buffers are stated. -/
abbrev oV : View sig .tc .vmem S1x1024x128 .bf16 := (Memref.whole cc3_stg3_0 : Memref sig .tc .vmem S1x1024x128 .bf16).view
abbrev sV0 : View sig .tc .vmem S1024x1 .f32 := sM0.view
abbrev sV1 : View sig .tc .vmem S1024x1 .f32 := sM1.view
abbrev sV2 : View sig .tc .vmem S1024x64 .f32 := sM2.view
abbrev sV3 : View sig .tc .vmem S1024x1 .f32 := sM3.view
abbrev sV4 : View sig .tc .vmem S1024x1 .f32 := sM4.view
abbrev sV5 : View sig .tc .vmem S1024x64 .f32 := sM5.view

/-- Everything scoped that is neither a staging buffer of this stage nor one of its six scratch buffers. -/
abbrev others3 (c : Dev nD) : sProp 𝕄 :=
  Pipeline.scopedRestBut (Ix := Unit) (Name := ℕ) (U := UR sig nD τ) (Lvl := ℕ) (Val := Elt F) spec3 c [cc3_scratch0, cc3_scratch1, cc3_scratch2, cc3_scratch3, cc3_scratch4, cc3_scratch5]

/-- What the stage is handed besides its windows: the six scratch buffers at some contents, the other scoped buffers,
    the generator register. -/
theorem held3_eq (c : Dev nD) :
    (Pipeline.ΦA spec3 c : sProp 𝕄)
      = iprop(iprop(iprop((∃ d, owns (c : Thread nD τ) sM0 fullShare d) ∗ (∃ d, owns (c : Thread nD τ) sM1 fullShare d) ∗ (∃ d, owns (c : Thread nD τ) sM2 fullShare d)
          ∗ (∃ d, owns (c : Thread nD τ) sM3 fullShare d) ∗ (∃ d, owns (c : Thread nD τ) sM4 fullShare d) ∗ (∃ d, owns (c : Thread nD τ) sM5 fullShare d))
          ∗ others3 c) ∗ (∃ r, prngReg c r)) := by
  unfold Pipeline.ΦA; rw [scopedRest3_split]; simp only [sM0, sM1, sM2, sM3, sM4, sM5, owns_whole]; try rfl

end Cert.Kernel.Hand

end
-- ==== Proof.BitsAttnFirst.lean ====
/-
  The attention stage at the FIRST key tile of a query tile: whatever the six scratch buffers held, the body resets
  them, then folds this key tile in. The output tile is not touched.
-/
import proofs.«180034_j81982335746566_2_alg».proof.Proof.BitsAttnBase

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- One run of the body in this case, on whole buffers: the three input tiles are handed back as they were, the output tile too;
    each scratch buffer comes back as a list of stores over what it held (latest first), the lists being whatever the run
    performs. -/
noncomputable def firstStep (c : Dev nD) (i : grid3.Coords) (aq : Memref sig .tc .vmem S1x1024x128 .bf16) (hq : aq.IsWhole) (ak : Memref sig .tc .vmem S1x512x128 .bf16) (hk : ak.IsWhole) (av : Memref sig .tc .vmem S1x512x128 .bf16) (hv : av.IsWhole) (ao : Memref sig .tc .vmem S1x1024x128 .bf16) (ho : ao.IsWhole) (s0 : Memref sig .tc .vmem S1024x1 .f32) (z0 : s0.IsWhole) (s1 : Memref sig .tc .vmem S1024x1 .f32) (z1 : s1.IsWhole) (s2 : Memref sig .tc .vmem S1024x64 .f32) (z2 : s2.IsWhole) (s3 : Memref sig .tc .vmem S1024x1 .f32) (z3 : s3.IsWhole) (s4 : Memref sig .tc .vmem S1024x1 .f32) (z4 : s4.IsWhole) (s5 : Memref sig .tc .vmem S1024x64 .f32) (z5 : s5.IsWhole) (hf : first3 i) (hl : ¬last3 i)
    (xq : Vec F S1x1024x128 .bf16) (xk : Vec F S1x512x128 .bf16) (xv : Vec F S1x512x128 .bf16) :
    Σ' (P0 : List (View.Piece (Elt F) S1024x1 .f32)) (P1 : List (View.Piece (Elt F) S1024x1 .f32)) (P2 : List (View.Piece (Elt F) S1024x64 .f32)) (P3 : List (View.Piece (Elt F) S1024x1 .f32)) (P4 : List (View.Piece (Elt F) S1024x1 .f32)), { P5 : List (View.Piece (Elt F) S1024x64 .f32) //
      ∀ (xo : Vec F S1x1024x128 .bf16) (E : Set ℕ) (K : PUnit → sProp 𝕄),
        iprop(owns (c : Thread nD τ) aq fullShare xq ∗ owns (c : Thread nD τ) ak fullShare xk ∗ owns (c : Thread nD τ) av fullShare xv ∗ owns (c : Thread nD τ) ao fullShare xo ∗ (∃ d, owns (c : Thread nD τ) s0 fullShare d) ∗ (∃ d, owns (c : Thread nD τ) s1 fullShare d) ∗ (∃ d, owns (c : Thread nD τ) s2 fullShare d) ∗ (∃ d, owns (c : Thread nD τ) s3 fullShare d) ∗ (∃ d, owns (c : Thread nD τ) s4 fullShare d) ∗ (∃ d, owns (c : Thread nD τ) s5 fullShare d)
            ∗ (iprop(owns (c : Thread nD τ) aq fullShare xq ∗ owns (c : Thread nD τ) ak fullShare xk ∗ owns (c : Thread nD τ) av fullShare xv ∗ owns (c : Thread nD τ) ao fullShare xo ∗ (∃ f, s0.view.loc (c : Thread nD τ) ↦[s0.view.set]{fullShare} s0.view.writes (Elt F) f P0) ∗ (∃ f, s1.view.loc (c : Thread nD τ) ↦[s1.view.set]{fullShare} s1.view.writes (Elt F) f P1) ∗ (∃ f, s2.view.loc (c : Thread nD τ) ↦[s2.view.set]{fullShare} s2.view.writes (Elt F) f P2) ∗ (∃ f, s3.view.loc (c : Thread nD τ) ↦[s3.view.set]{fullShare} s3.view.writes (Elt F) f P3) ∗ (∃ f, s4.view.loc (c : Thread nD τ) ↦[s4.view.set]{fullShare} s4.view.writes (Elt F) f P4) ∗ (∃ f, s5.view.loc (c : Thread nD τ) ↦[s5.view.set]{fullShare} s5.view.writes (Elt F) f P5)) -∗ K ⟨⟩))
          ⊢ wp frame (wpE (defs₀ (F := F)) Variants.none c none) E (cc3__flash_attn_kernel i aq hq ak hk av hv ao ho s0 z0 s1 z1 s2 z2 s3 z3 s4 z4 s5 z5) K } := by
  refine ⟨?_, ?_, ?_, ?_, ?_, ?_, fun xo E K => ?run⟩
  case run =>
    simp only [cc3__flash_attn_kernel_eq_skeleton]; unfold cc3__flash_attn_kernel_skel
    simp only [k3_part1_eq_skeleton, k3_part2_eq_skeleton]
    unfold owns
    iintro ⟨⟨%fq, %hfq, Hq⟩, ⟨%fk, %hfk, Hkk⟩, ⟨%fv, %hfv, Hv⟩, ⟨%fo, %hfo, Ho⟩, ⟨%d0, %g0, -, S0⟩, ⟨%d1, %g1, -, S1⟩, ⟨%d2, %g2, -, S2⟩, ⟨%d3, %g3, -, S3⟩, ⟨%d4, %g4, -, S4⟩, ⟨%d5, %g5, -, S5⟩, Hk⟩
    obtain rfl := hq.eq_unread hfq; obtain rfl := hk.eq_unread hfk; obtain rfl := hv.eq_unread hfv; obtain rfl := ho.eq_unread hfo
    sl_exec (disch := first | exact hf | exact hl)
    sl_step
    iapply Hk
    isplitl [Hq]
    · iexists _; isplitr; · ipureintro; exact hq.read_unread _
      iexact Hq
    isplitl [Hkk]
    · iexists _; isplitr; · ipureintro; exact hk.read_unread _
      iexact Hkk
    isplitl [Hv]
    · iexists _; isplitr; · ipureintro; exact hv.read_unread _
      iexact Hv
    isplitl [Ho]
    · iexists _; isplitr; · ipureintro; exact ho.read_unread _
      iexact Ho
    isplitl [S0]; · iexists _; iexact S0
    isplitl [S1]; · iexists _; iexact S1
    isplitl [S2]; · iexists _; iexact S2
    isplitl [S3]; · iexists _; iexact S3
    isplitl [S4]; · iexists _; iexact S4
    iexists _; iexact S5

end Cert.Kernel.Hand

end
-- ==== Proof.BitsAttnMid.lean ====
/-
  The attention stage at a key tile that is neither first nor last: the six scratch buffers, entered at what the
  previous key tile left, are folded with this key tile. The output tile is not touched.
-/
import proofs.«180034_j81982335746566_2_alg».proof.Proof.BitsAttnFirst

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- One run of the body in this case, on whole buffers: the three input tiles are handed back as they were, the output tile too;
    each scratch buffer comes back as a list of stores over what it held (latest first), the lists being whatever the run
    performs. -/
noncomputable def midStep (c : Dev nD) (i : grid3.Coords) (aq : Memref sig .tc .vmem S1x1024x128 .bf16) (hq : aq.IsWhole) (ak : Memref sig .tc .vmem S1x512x128 .bf16) (hk : ak.IsWhole) (av : Memref sig .tc .vmem S1x512x128 .bf16) (hv : av.IsWhole) (ao : Memref sig .tc .vmem S1x1024x128 .bf16) (ho : ao.IsWhole) (s0 : Memref sig .tc .vmem S1024x1 .f32) (z0 : s0.IsWhole) (s1 : Memref sig .tc .vmem S1024x1 .f32) (z1 : s1.IsWhole) (s2 : Memref sig .tc .vmem S1024x64 .f32) (z2 : s2.IsWhole) (s3 : Memref sig .tc .vmem S1024x1 .f32) (z3 : s3.IsWhole) (s4 : Memref sig .tc .vmem S1024x1 .f32) (z4 : s4.IsWhole) (s5 : Memref sig .tc .vmem S1024x64 .f32) (z5 : s5.IsWhole) (hf : ¬first3 i) (hl : ¬last3 i)
    (xq : Vec F S1x1024x128 .bf16) (xk : Vec F S1x512x128 .bf16) (xv : Vec F S1x512x128 .bf16) (xs0 : Vec F S1024x1 .f32) (xs1 : Vec F S1024x1 .f32) (xs2 : Vec F S1024x64 .f32) (xs3 : Vec F S1024x1 .f32) (xs4 : Vec F S1024x1 .f32) (xs5 : Vec F S1024x64 .f32) :
    Σ' (P0 : List (View.Piece (Elt F) S1024x1 .f32)) (P1 : List (View.Piece (Elt F) S1024x1 .f32)) (P2 : List (View.Piece (Elt F) S1024x64 .f32)) (P3 : List (View.Piece (Elt F) S1024x1 .f32)) (P4 : List (View.Piece (Elt F) S1024x1 .f32)), { P5 : List (View.Piece (Elt F) S1024x64 .f32) //
      ∀ (xo : Vec F S1x1024x128 .bf16) (E : Set ℕ) (K : PUnit → sProp 𝕄),
        iprop(owns (c : Thread nD τ) aq fullShare xq ∗ owns (c : Thread nD τ) ak fullShare xk ∗ owns (c : Thread nD τ) av fullShare xv ∗ owns (c : Thread nD τ) ao fullShare xo ∗ owns (c : Thread nD τ) s0 fullShare xs0 ∗ owns (c : Thread nD τ) s1 fullShare xs1 ∗ owns (c : Thread nD τ) s2 fullShare xs2 ∗ owns (c : Thread nD τ) s3 fullShare xs3 ∗ owns (c : Thread nD τ) s4 fullShare xs4 ∗ owns (c : Thread nD τ) s5 fullShare xs5
            ∗ (iprop(owns (c : Thread nD τ) aq fullShare xq ∗ owns (c : Thread nD τ) ak fullShare xk ∗ owns (c : Thread nD τ) av fullShare xv ∗ owns (c : Thread nD τ) ao fullShare xo ∗ (∃ f, s0.view.loc (c : Thread nD τ) ↦[s0.view.set]{fullShare} s0.view.writes (Elt F) f P0) ∗ (∃ f, s1.view.loc (c : Thread nD τ) ↦[s1.view.set]{fullShare} s1.view.writes (Elt F) f P1) ∗ (∃ f, s2.view.loc (c : Thread nD τ) ↦[s2.view.set]{fullShare} s2.view.writes (Elt F) f P2) ∗ (∃ f, s3.view.loc (c : Thread nD τ) ↦[s3.view.set]{fullShare} s3.view.writes (Elt F) f P3) ∗ (∃ f, s4.view.loc (c : Thread nD τ) ↦[s4.view.set]{fullShare} s4.view.writes (Elt F) f P4) ∗ (∃ f, s5.view.loc (c : Thread nD τ) ↦[s5.view.set]{fullShare} s5.view.writes (Elt F) f P5)) -∗ K ⟨⟩))
          ⊢ wp frame (wpE (defs₀ (F := F)) Variants.none c none) E (cc3__flash_attn_kernel i aq hq ak hk av hv ao ho s0 z0 s1 z1 s2 z2 s3 z3 s4 z4 s5 z5) K } := by
  refine ⟨?_, ?_, ?_, ?_, ?_, ?_, fun xo E K => ?run⟩
  case run =>
    simp only [cc3__flash_attn_kernel_eq_skeleton]; unfold cc3__flash_attn_kernel_skel
    simp only [k3_part1_eq_skeleton, k3_part2_eq_skeleton]
    unfold owns
    iintro ⟨⟨%fq, %hfq, Hq⟩, ⟨%fk, %hfk, Hkk⟩, ⟨%fv, %hfv, Hv⟩, ⟨%fo, %hfo, Ho⟩, ⟨%g0, %hg0, S0⟩, ⟨%g1, %hg1, S1⟩, ⟨%g2, %hg2, S2⟩, ⟨%g3, %hg3, S3⟩, ⟨%g4, %hg4, S4⟩, ⟨%g5, %hg5, S5⟩, Hk⟩
    obtain rfl := hq.eq_unread hfq; obtain rfl := hk.eq_unread hfk; obtain rfl := hv.eq_unread hfv; obtain rfl := ho.eq_unread hfo
    obtain rfl := z0.eq_unread hg0; obtain rfl := z1.eq_unread hg1; obtain rfl := z2.eq_unread hg2; obtain rfl := z3.eq_unread hg3; obtain rfl := z4.eq_unread hg4; obtain rfl := z5.eq_unread hg5
    sl_exec (disch := first | exact hf | exact hl)
    sl_step
    iapply Hk
    isplitl [Hq]
    · iexists _; isplitr; · ipureintro; exact hq.read_unread _
      iexact Hq
    isplitl [Hkk]
    · iexists _; isplitr; · ipureintro; exact hk.read_unread _
      iexact Hkk
    isplitl [Hv]
    · iexists _; isplitr; · ipureintro; exact hv.read_unread _
      iexact Hv
    isplitl [Ho]
    · iexists _; isplitr; · ipureintro; exact ho.read_unread _
      iexact Ho
    isplitl [S0]; · iexists _; iexact S0
    isplitl [S1]; · iexists _; iexact S1
    isplitl [S2]; · iexists _; iexact S2
    isplitl [S3]; · iexists _; iexact S3
    isplitl [S4]; · iexists _; iexact S4
    iexists _; iexact S5

end Cert.Kernel.Hand

end
-- ==== Proof.BitsAttnLast.lean ====
/-
  The attention stage at the LAST key tile: the six scratch buffers are folded with this key tile, and the output
  tile is stored, head by head, as weighted sum over normaliser.
-/
import proofs.«180034_j81982335746566_2_alg».proof.Proof.BitsAttnMid

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- One run of the body in this case, on whole buffers: the three input tiles are handed back as they were;
    each scratch buffer and the output tile comes back as a list of stores over what it held (latest first), the lists being whatever the run
    performs. -/
noncomputable def lastStep (c : Dev nD) (i : grid3.Coords) (aq : Memref sig .tc .vmem S1x1024x128 .bf16) (hq : aq.IsWhole) (ak : Memref sig .tc .vmem S1x512x128 .bf16) (hk : ak.IsWhole) (av : Memref sig .tc .vmem S1x512x128 .bf16) (hv : av.IsWhole) (ao : Memref sig .tc .vmem S1x1024x128 .bf16) (ho : ao.IsWhole) (s0 : Memref sig .tc .vmem S1024x1 .f32) (z0 : s0.IsWhole) (s1 : Memref sig .tc .vmem S1024x1 .f32) (z1 : s1.IsWhole) (s2 : Memref sig .tc .vmem S1024x64 .f32) (z2 : s2.IsWhole) (s3 : Memref sig .tc .vmem S1024x1 .f32) (z3 : s3.IsWhole) (s4 : Memref sig .tc .vmem S1024x1 .f32) (z4 : s4.IsWhole) (s5 : Memref sig .tc .vmem S1024x64 .f32) (z5 : s5.IsWhole) (hf : ¬first3 i) (hl : last3 i)
    (xq : Vec F S1x1024x128 .bf16) (xk : Vec F S1x512x128 .bf16) (xv : Vec F S1x512x128 .bf16) (xs0 : Vec F S1024x1 .f32) (xs1 : Vec F S1024x1 .f32) (xs2 : Vec F S1024x64 .f32) (xs3 : Vec F S1024x1 .f32) (xs4 : Vec F S1024x1 .f32) (xs5 : Vec F S1024x64 .f32) :
    Σ' (PO : List (View.Piece (Elt F) S1x1024x128 .bf16)) (P0 : List (View.Piece (Elt F) S1024x1 .f32)) (P1 : List (View.Piece (Elt F) S1024x1 .f32)) (P2 : List (View.Piece (Elt F) S1024x64 .f32)) (P3 : List (View.Piece (Elt F) S1024x1 .f32)) (P4 : List (View.Piece (Elt F) S1024x1 .f32)), { P5 : List (View.Piece (Elt F) S1024x64 .f32) //
      ∀ (E : Set ℕ) (K : PUnit → sProp 𝕄),
        iprop(owns (c : Thread nD τ) aq fullShare xq ∗ owns (c : Thread nD τ) ak fullShare xk ∗ owns (c : Thread nD τ) av fullShare xv ∗ (∃ d, owns (c : Thread nD τ) ao fullShare d) ∗ owns (c : Thread nD τ) s0 fullShare xs0 ∗ owns (c : Thread nD τ) s1 fullShare xs1 ∗ owns (c : Thread nD τ) s2 fullShare xs2 ∗ owns (c : Thread nD τ) s3 fullShare xs3 ∗ owns (c : Thread nD τ) s4 fullShare xs4 ∗ owns (c : Thread nD τ) s5 fullShare xs5
            ∗ (iprop(owns (c : Thread nD τ) aq fullShare xq ∗ owns (c : Thread nD τ) ak fullShare xk ∗ owns (c : Thread nD τ) av fullShare xv ∗ (∃ f, ao.view.loc (c : Thread nD τ) ↦[ao.view.set]{fullShare} ao.view.writes (Elt F) f PO) ∗ (∃ f, s0.view.loc (c : Thread nD τ) ↦[s0.view.set]{fullShare} s0.view.writes (Elt F) f P0) ∗ (∃ f, s1.view.loc (c : Thread nD τ) ↦[s1.view.set]{fullShare} s1.view.writes (Elt F) f P1) ∗ (∃ f, s2.view.loc (c : Thread nD τ) ↦[s2.view.set]{fullShare} s2.view.writes (Elt F) f P2) ∗ (∃ f, s3.view.loc (c : Thread nD τ) ↦[s3.view.set]{fullShare} s3.view.writes (Elt F) f P3) ∗ (∃ f, s4.view.loc (c : Thread nD τ) ↦[s4.view.set]{fullShare} s4.view.writes (Elt F) f P4) ∗ (∃ f, s5.view.loc (c : Thread nD τ) ↦[s5.view.set]{fullShare} s5.view.writes (Elt F) f P5)) -∗ K ⟨⟩))
          ⊢ wp frame (wpE (defs₀ (F := F)) Variants.none c none) E (cc3__flash_attn_kernel i aq hq ak hk av hv ao ho s0 z0 s1 z1 s2 z2 s3 z3 s4 z4 s5 z5) K } := by
  refine ⟨?_, ?_, ?_, ?_, ?_, ?_, ?_, fun E K => ?run⟩
  case run =>
    simp only [cc3__flash_attn_kernel_eq_skeleton]; unfold cc3__flash_attn_kernel_skel
    simp only [k3_part1_eq_skeleton, k3_part2_eq_skeleton]
    unfold owns
    iintro ⟨⟨%fq, %hfq, Hq⟩, ⟨%fk, %hfk, Hkk⟩, ⟨%fv, %hfv, Hv⟩, ⟨%dO, %fo, -, Ho⟩, ⟨%g0, %hg0, S0⟩, ⟨%g1, %hg1, S1⟩, ⟨%g2, %hg2, S2⟩, ⟨%g3, %hg3, S3⟩, ⟨%g4, %hg4, S4⟩, ⟨%g5, %hg5, S5⟩, Hk⟩
    obtain rfl := hq.eq_unread hfq; obtain rfl := hk.eq_unread hfk; obtain rfl := hv.eq_unread hfv
    obtain rfl := z0.eq_unread hg0; obtain rfl := z1.eq_unread hg1; obtain rfl := z2.eq_unread hg2; obtain rfl := z3.eq_unread hg3; obtain rfl := z4.eq_unread hg4; obtain rfl := z5.eq_unread hg5
    sl_exec (disch := first | exact hf | exact hl)
    sl_step
    iapply Hk
    isplitl [Hq]
    · iexists _; isplitr; · ipureintro; exact hq.read_unread _
      iexact Hq
    isplitl [Hkk]
    · iexists _; isplitr; · ipureintro; exact hk.read_unread _
      iexact Hkk
    isplitl [Hv]
    · iexists _; isplitr; · ipureintro; exact hv.read_unread _
      iexact Hv
    isplitl [Ho]; · iexists _; iexact Ho
    isplitl [S0]; · iexists _; iexact S0
    isplitl [S1]; · iexists _; iexact S1
    isplitl [S2]; · iexists _; iexact S2
    isplitl [S3]; · iexists _; iexact S3
    isplitl [S4]; · iexists _; iexact S4
    iexists _; iexact S5

end Cert.Kernel.Hand

end
-- ==== Proof.BitsAttnCarry.lean ====
/-
  The attention stage, point by point. Along each run of eight key tiles the six scratch buffers carry the running
  maximum, normaliser and weighted sum of the two heads: the first point of a run resets and folds, the others fold
  what the point before left, and the last one also stores the output tile. This module names what the scratch
  buffers hold after every point (by recursion on the point), records it as what the stage keeps between points,
  and proves that the body, run at any point, turns the record before the point into the record after it.
-/
import proofs.«180034_j81982335746566_2_alg».proof.Proof.BitsAttnLast

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the six scratch buffers hold: running maximum, normaliser and weighted sum of the first head, then of the
    second. -/
structure Carry (F : FTy → Type) [FloatOps F] where
  m0 : Vec F S1024x1 .f32
  l0 : Vec F S1024x1 .f32
  a0 : Vec F S1024x64 .f32
  m1 : Vec F S1024x1 .f32
  l1 : Vec F S1024x1 .f32
  a1 : Vec F S1024x64 .f32

/-! ## What each case leaves -/

/-- The stores of this case into scratch buffer 0 write every entry of it. -/
theorem first_cover0 (c : Dev nD) (i : grid3.Coords) (aq : Memref sig .tc .vmem S1x1024x128 .bf16) (hq : aq.IsWhole) (ak : Memref sig .tc .vmem S1x512x128 .bf16) (hk : ak.IsWhole) (av : Memref sig .tc .vmem S1x512x128 .bf16) (hv : av.IsWhole) (ao : Memref sig .tc .vmem S1x1024x128 .bf16) (ho : ao.IsWhole) (s0 : Memref sig .tc .vmem S1024x1 .f32) (z0 : s0.IsWhole) (s1 : Memref sig .tc .vmem S1024x1 .f32) (z1 : s1.IsWhole) (s2 : Memref sig .tc .vmem S1024x64 .f32) (z2 : s2.IsWhole) (s3 : Memref sig .tc .vmem S1024x1 .f32) (z3 : s3.IsWhole) (s4 : Memref sig .tc .vmem S1024x1 .f32) (z4 : s4.IsWhole) (s5 : Memref sig .tc .vmem S1024x64 .f32) (z5 : s5.IsWhole) (hf : first3 i) (hl : ¬last3 i) (xq : Vec F S1x1024x128 .bf16) (xk : Vec F S1x512x128 .bf16) (xv : Vec F S1x512x128 .bf16) (y : S1024x1.Idx) :
    ∃ pc ∈ (firstStep c i aq hq ak hk av hv ao ho s0 z0 s1 z1 s2 z2 s3 z3 s4 z4 s5 z5 hf hl xq xk xv).1, y ∈ pc.1.set :=
  View.cover_of_tiledL (firstStep c i aq hq ak hk av hv ao ho s0 z0 s1 z1 s2 z2 s3 z3 s4 z4 s5 z5 hf hl xq xk xv).1 S1024x1.size (by sl_kernel_rfl) y

/-- The stores of this case into scratch buffer 1 write every entry of it. -/
theorem first_cover1 (c : Dev nD) (i : grid3.Coords) (aq : Memref sig .tc .vmem S1x1024x128 .bf16) (hq : aq.IsWhole) (ak : Memref sig .tc .vmem S1x512x128 .bf16) (hk : ak.IsWhole) (av : Memref sig .tc .vmem S1x512x128 .bf16) (hv : av.IsWhole) (ao : Memref sig .tc .vmem S1x1024x128 .bf16) (ho : ao.IsWhole) (s0 : Memref sig .tc .vmem S1024x1 .f32) (z0 : s0.IsWhole) (s1 : Memref sig .tc .vmem S1024x1 .f32) (z1 : s1.IsWhole) (s2 : Memref sig .tc .vmem S1024x64 .f32) (z2 : s2.IsWhole) (s3 : Memref sig .tc .vmem S1024x1 .f32) (z3 : s3.IsWhole) (s4 : Memref sig .tc .vmem S1024x1 .f32) (z4 : s4.IsWhole) (s5 : Memref sig .tc .vmem S1024x64 .f32) (z5 : s5.IsWhole) (hf : first3 i) (hl : ¬last3 i) (xq : Vec F S1x1024x128 .bf16) (xk : Vec F S1x512x128 .bf16) (xv : Vec F S1x512x128 .bf16) (y : S1024x1.Idx) :
    ∃ pc ∈ (firstStep c i aq hq ak hk av hv ao ho s0 z0 s1 z1 s2 z2 s3 z3 s4 z4 s5 z5 hf hl xq xk xv).2.1, y ∈ pc.1.set :=
  View.cover_of_tiledL (firstStep c i aq hq ak hk av hv ao ho s0 z0 s1 z1 s2 z2 s3 z3 s4 z4 s5 z5 hf hl xq xk xv).2.1 S1024x1.size (by sl_kernel_rfl) y

/-- The stores of this case into scratch buffer 2 write every entry of it. -/
theorem first_cover2 (c : Dev nD) (i : grid3.Coords) (aq : Memref sig .tc .vmem S1x1024x128 .bf16) (hq : aq.IsWhole) (ak : Memref sig .tc .vmem S1x512x128 .bf16) (hk : ak.IsWhole) (av : Memref sig .tc .vmem S1x512x128 .bf16) (hv : av.IsWhole) (ao : Memref sig .tc .vmem S1x1024x128 .bf16) (ho : ao.IsWhole) (s0 : Memref sig .tc .vmem S1024x1 .f32) (z0 : s0.IsWhole) (s1 : Memref sig .tc .vmem S1024x1 .f32) (z1 : s1.IsWhole) (s2 : Memref sig .tc .vmem S1024x64 .f32) (z2 : s2.IsWhole) (s3 : Memref sig .tc .vmem S1024x1 .f32) (z3 : s3.IsWhole) (s4 : Memref sig .tc .vmem S1024x1 .f32) (z4 : s4.IsWhole) (s5 : Memref sig .tc .vmem S1024x64 .f32) (z5 : s5.IsWhole) (hf : first3 i) (hl : ¬last3 i) (xq : Vec F S1x1024x128 .bf16) (xk : Vec F S1x512x128 .bf16) (xv : Vec F S1x512x128 .bf16) (y : S1024x64.Idx) :
    ∃ pc ∈ (firstStep c i aq hq ak hk av hv ao ho s0 z0 s1 z1 s2 z2 s3 z3 s4 z4 s5 z5 hf hl xq xk xv).2.2.1, y ∈ pc.1.set :=
  View.cover_of_tiledL (firstStep c i aq hq ak hk av hv ao ho s0 z0 s1 z1 s2 z2 s3 z3 s4 z4 s5 z5 hf hl xq xk xv).2.2.1 S1024x64.size (by sl_kernel_rfl) y

/-- The stores of this case into scratch buffer 3 write every entry of it. -/
theorem first_cover3 (c : Dev nD) (i : grid3.Coords) (aq : Memref sig .tc .vmem S1x1024x128 .bf16) (hq : aq.IsWhole) (ak : Memref sig .tc .vmem S1x512x128 .bf16) (hk : ak.IsWhole) (av : Memref sig .tc .vmem S1x512x128 .bf16) (hv : av.IsWhole) (ao : Memref sig .tc .vmem S1x1024x128 .bf16) (ho : ao.IsWhole) (s0 : Memref sig .tc .vmem S1024x1 .f32) (z0 : s0.IsWhole) (s1 : Memref sig .tc .vmem S1024x1 .f32) (z1 : s1.IsWhole) (s2 : Memref sig .tc .vmem S1024x64 .f32) (z2 : s2.IsWhole) (s3 : Memref sig .tc .vmem S1024x1 .f32) (z3 : s3.IsWhole) (s4 : Memref sig .tc .vmem S1024x1 .f32) (z4 : s4.IsWhole) (s5 : Memref sig .tc .vmem S1024x64 .f32) (z5 : s5.IsWhole) (hf : first3 i) (hl : ¬last3 i) (xq : Vec F S1x1024x128 .bf16) (xk : Vec F S1x512x128 .bf16) (xv : Vec F S1x512x128 .bf16) (y : S1024x1.Idx) :
    ∃ pc ∈ (firstStep c i aq hq ak hk av hv ao ho s0 z0 s1 z1 s2 z2 s3 z3 s4 z4 s5 z5 hf hl xq xk xv).2.2.2.1, y ∈ pc.1.set :=
  View.cover_of_tiledL (firstStep c i aq hq ak hk av hv ao ho s0 z0 s1 z1 s2 z2 s3 z3 s4 z4 s5 z5 hf hl xq xk xv).2.2.2.1 S1024x1.size (by sl_kernel_rfl) y

/-- The stores of this case into scratch buffer 4 write every entry of it. -/
theorem first_cover4 (c : Dev nD) (i : grid3.Coords) (aq : Memref sig .tc .vmem S1x1024x128 .bf16) (hq : aq.IsWhole) (ak : Memref sig .tc .vmem S1x512x128 .bf16) (hk : ak.IsWhole) (av : Memref sig .tc .vmem S1x512x128 .bf16) (hv : av.IsWhole) (ao : Memref sig .tc .vmem S1x1024x128 .bf16) (ho : ao.IsWhole) (s0 : Memref sig .tc .vmem S1024x1 .f32) (z0 : s0.IsWhole) (s1 : Memref sig .tc .vmem S1024x1 .f32) (z1 : s1.IsWhole) (s2 : Memref sig .tc .vmem S1024x64 .f32) (z2 : s2.IsWhole) (s3 : Memref sig .tc .vmem S1024x1 .f32) (z3 : s3.IsWhole) (s4 : Memref sig .tc .vmem S1024x1 .f32) (z4 : s4.IsWhole) (s5 : Memref sig .tc .vmem S1024x64 .f32) (z5 : s5.IsWhole) (hf : first3 i) (hl : ¬last3 i) (xq : Vec F S1x1024x128 .bf16) (xk : Vec F S1x512x128 .bf16) (xv : Vec F S1x512x128 .bf16) (y : S1024x1.Idx) :
    ∃ pc ∈ (firstStep c i aq hq ak hk av hv ao ho s0 z0 s1 z1 s2 z2 s3 z3 s4 z4 s5 z5 hf hl xq xk xv).2.2.2.2.1, y ∈ pc.1.set :=
  View.cover_of_tiledL (firstStep c i aq hq ak hk av hv ao ho s0 z0 s1 z1 s2 z2 s3 z3 s4 z4 s5 z5 hf hl xq xk xv).2.2.2.2.1 S1024x1.size (by sl_kernel_rfl) y

/-- The stores of this case into scratch buffer 5 write every entry of it. -/
theorem first_cover5 (c : Dev nD) (i : grid3.Coords) (aq : Memref sig .tc .vmem S1x1024x128 .bf16) (hq : aq.IsWhole) (ak : Memref sig .tc .vmem S1x512x128 .bf16) (hk : ak.IsWhole) (av : Memref sig .tc .vmem S1x512x128 .bf16) (hv : av.IsWhole) (ao : Memref sig .tc .vmem S1x1024x128 .bf16) (ho : ao.IsWhole) (s0 : Memref sig .tc .vmem S1024x1 .f32) (z0 : s0.IsWhole) (s1 : Memref sig .tc .vmem S1024x1 .f32) (z1 : s1.IsWhole) (s2 : Memref sig .tc .vmem S1024x64 .f32) (z2 : s2.IsWhole) (s3 : Memref sig .tc .vmem S1024x1 .f32) (z3 : s3.IsWhole) (s4 : Memref sig .tc .vmem S1024x1 .f32) (z4 : s4.IsWhole) (s5 : Memref sig .tc .vmem S1024x64 .f32) (z5 : s5.IsWhole) (hf : first3 i) (hl : ¬last3 i) (xq : Vec F S1x1024x128 .bf16) (xk : Vec F S1x512x128 .bf16) (xv : Vec F S1x512x128 .bf16) (y : S1024x64.Idx) :
    ∃ pc ∈ (firstStep c i aq hq ak hk av hv ao ho s0 z0 s1 z1 s2 z2 s3 z3 s4 z4 s5 z5 hf hl xq xk xv).2.2.2.2.2.1, y ∈ pc.1.set :=
  View.cover_of_tiledL (firstStep c i aq hq ak hk av hv ao ho s0 z0 s1 z1 s2 z2 s3 z3 s4 z4 s5 z5 hf hl xq xk xv).2.2.2.2.2.1 S1024x64.size (by sl_kernel_rfl) y

/-- The six scratch buffers after a point of this case. -/
def firstCarry (c : Dev nD) (i : grid3.Coords) (aq : Memref sig .tc .vmem S1x1024x128 .bf16) (hq : aq.IsWhole) (ak : Memref sig .tc .vmem S1x512x128 .bf16) (hk : ak.IsWhole) (av : Memref sig .tc .vmem S1x512x128 .bf16) (hv : av.IsWhole) (ao : Memref sig .tc .vmem S1x1024x128 .bf16) (ho : ao.IsWhole) (s0 : Memref sig .tc .vmem S1024x1 .f32) (z0 : s0.IsWhole) (s1 : Memref sig .tc .vmem S1024x1 .f32) (z1 : s1.IsWhole) (s2 : Memref sig .tc .vmem S1024x64 .f32) (z2 : s2.IsWhole) (s3 : Memref sig .tc .vmem S1024x1 .f32) (z3 : s3.IsWhole) (s4 : Memref sig .tc .vmem S1024x1 .f32) (z4 : s4.IsWhole) (s5 : Memref sig .tc .vmem S1024x64 .f32) (z5 : s5.IsWhole) (hf : first3 i) (hl : ¬last3 i) (xq : Vec F S1x1024x128 .bf16) (xk : Vec F S1x512x128 .bf16) (xv : Vec F S1x512x128 .bf16) : Carry F :=
  ⟨sV0.read (Elt F) (sV0.writes (Elt F) sV0.junk (firstStep c i aq hq ak hk av hv ao ho s0 z0 s1 z1 s2 z2 s3 z3 s4 z4 s5 z5 hf hl xq xk xv).1),
   sV1.read (Elt F) (sV1.writes (Elt F) sV1.junk (firstStep c i aq hq ak hk av hv ao ho s0 z0 s1 z1 s2 z2 s3 z3 s4 z4 s5 z5 hf hl xq xk xv).2.1),
   sV2.read (Elt F) (sV2.writes (Elt F) sV2.junk (firstStep c i aq hq ak hk av hv ao ho s0 z0 s1 z1 s2 z2 s3 z3 s4 z4 s5 z5 hf hl xq xk xv).2.2.1),
   sV3.read (Elt F) (sV3.writes (Elt F) sV3.junk (firstStep c i aq hq ak hk av hv ao ho s0 z0 s1 z1 s2 z2 s3 z3 s4 z4 s5 z5 hf hl xq xk xv).2.2.2.1),
   sV4.read (Elt F) (sV4.writes (Elt F) sV4.junk (firstStep c i aq hq ak hk av hv ao ho s0 z0 s1 z1 s2 z2 s3 z3 s4 z4 s5 z5 hf hl xq xk xv).2.2.2.2.1),
   sV5.read (Elt F) (sV5.writes (Elt F) sV5.junk (firstStep c i aq hq ak hk av hv ao ho s0 z0 s1 z1 s2 z2 s3 z3 s4 z4 s5 z5 hf hl xq xk xv).2.2.2.2.2.1)⟩

/-- The stores of this case into scratch buffer 0 write every entry of it. -/
theorem mid_cover0 (c : Dev nD) (i : grid3.Coords) (aq : Memref sig .tc .vmem S1x1024x128 .bf16) (hq : aq.IsWhole) (ak : Memref sig .tc .vmem S1x512x128 .bf16) (hk : ak.IsWhole) (av : Memref sig .tc .vmem S1x512x128 .bf16) (hv : av.IsWhole) (ao : Memref sig .tc .vmem S1x1024x128 .bf16) (ho : ao.IsWhole) (s0 : Memref sig .tc .vmem S1024x1 .f32) (z0 : s0.IsWhole) (s1 : Memref sig .tc .vmem S1024x1 .f32) (z1 : s1.IsWhole) (s2 : Memref sig .tc .vmem S1024x64 .f32) (z2 : s2.IsWhole) (s3 : Memref sig .tc .vmem S1024x1 .f32) (z3 : s3.IsWhole) (s4 : Memref sig .tc .vmem S1024x1 .f32) (z4 : s4.IsWhole) (s5 : Memref sig .tc .vmem S1024x64 .f32) (z5 : s5.IsWhole) (hf : ¬first3 i) (hl : ¬last3 i) (xq : Vec F S1x1024x128 .bf16) (xk : Vec F S1x512x128 .bf16) (xv : Vec F S1x512x128 .bf16) (xs0 : Vec F S1024x1 .f32) (xs1 : Vec F S1024x1 .f32) (xs2 : Vec F S1024x64 .f32) (xs3 : Vec F S1024x1 .f32) (xs4 : Vec F S1024x1 .f32) (xs5 : Vec F S1024x64 .f32) (y : S1024x1.Idx) :
    ∃ pc ∈ (midStep c i aq hq ak hk av hv ao ho s0 z0 s1 z1 s2 z2 s3 z3 s4 z4 s5 z5 hf hl xq xk xv xs0 xs1 xs2 xs3 xs4 xs5).1, y ∈ pc.1.set :=
  View.cover_of_tiledL (midStep c i aq hq ak hk av hv ao ho s0 z0 s1 z1 s2 z2 s3 z3 s4 z4 s5 z5 hf hl xq xk xv xs0 xs1 xs2 xs3 xs4 xs5).1 S1024x1.size (by sl_kernel_rfl) y

/-- The stores of this case into scratch buffer 1 write every entry of it. -/
theorem mid_cover1 (c : Dev nD) (i : grid3.Coords) (aq : Memref sig .tc .vmem S1x1024x128 .bf16) (hq : aq.IsWhole) (ak : Memref sig .tc .vmem S1x512x128 .bf16) (hk : ak.IsWhole) (av : Memref sig .tc .vmem S1x512x128 .bf16) (hv : av.IsWhole) (ao : Memref sig .tc .vmem S1x1024x128 .bf16) (ho : ao.IsWhole) (s0 : Memref sig .tc .vmem S1024x1 .f32) (z0 : s0.IsWhole) (s1 : Memref sig .tc .vmem S1024x1 .f32) (z1 : s1.IsWhole) (s2 : Memref sig .tc .vmem S1024x64 .f32) (z2 : s2.IsWhole) (s3 : Memref sig .tc .vmem S1024x1 .f32) (z3 : s3.IsWhole) (s4 : Memref sig .tc .vmem S1024x1 .f32) (z4 : s4.IsWhole) (s5 : Memref sig .tc .vmem S1024x64 .f32) (z5 : s5.IsWhole) (hf : ¬first3 i) (hl : ¬last3 i) (xq : Vec F S1x1024x128 .bf16) (xk : Vec F S1x512x128 .bf16) (xv : Vec F S1x512x128 .bf16) (xs0 : Vec F S1024x1 .f32) (xs1 : Vec F S1024x1 .f32) (xs2 : Vec F S1024x64 .f32) (xs3 : Vec F S1024x1 .f32) (xs4 : Vec F S1024x1 .f32) (xs5 : Vec F S1024x64 .f32) (y : S1024x1.Idx) :
    ∃ pc ∈ (midStep c i aq hq ak hk av hv ao ho s0 z0 s1 z1 s2 z2 s3 z3 s4 z4 s5 z5 hf hl xq xk xv xs0 xs1 xs2 xs3 xs4 xs5).2.1, y ∈ pc.1.set :=
  View.cover_of_tiledL (midStep c i aq hq ak hk av hv ao ho s0 z0 s1 z1 s2 z2 s3 z3 s4 z4 s5 z5 hf hl xq xk xv xs0 xs1 xs2 xs3 xs4 xs5).2.1 S1024x1.size (by sl_kernel_rfl) y

/-- The stores of this case into scratch buffer 2 write every entry of it. -/
theorem mid_cover2 (c : Dev nD) (i : grid3.Coords) (aq : Memref sig .tc .vmem S1x1024x128 .bf16) (hq : aq.IsWhole) (ak : Memref sig .tc .vmem S1x512x128 .bf16) (hk : ak.IsWhole) (av : Memref sig .tc .vmem S1x512x128 .bf16) (hv : av.IsWhole) (ao : Memref sig .tc .vmem S1x1024x128 .bf16) (ho : ao.IsWhole) (s0 : Memref sig .tc .vmem S1024x1 .f32) (z0 : s0.IsWhole) (s1 : Memref sig .tc .vmem S1024x1 .f32) (z1 : s1.IsWhole) (s2 : Memref sig .tc .vmem S1024x64 .f32) (z2 : s2.IsWhole) (s3 : Memref sig .tc .vmem S1024x1 .f32) (z3 : s3.IsWhole) (s4 : Memref sig .tc .vmem S1024x1 .f32) (z4 : s4.IsWhole) (s5 : Memref sig .tc .vmem S1024x64 .f32) (z5 : s5.IsWhole) (hf : ¬first3 i) (hl : ¬last3 i) (xq : Vec F S1x1024x128 .bf16) (xk : Vec F S1x512x128 .bf16) (xv : Vec F S1x512x128 .bf16) (xs0 : Vec F S1024x1 .f32) (xs1 : Vec F S1024x1 .f32) (xs2 : Vec F S1024x64 .f32) (xs3 : Vec F S1024x1 .f32) (xs4 : Vec F S1024x1 .f32) (xs5 : Vec F S1024x64 .f32) (y : S1024x64.Idx) :
    ∃ pc ∈ (midStep c i aq hq ak hk av hv ao ho s0 z0 s1 z1 s2 z2 s3 z3 s4 z4 s5 z5 hf hl xq xk xv xs0 xs1 xs2 xs3 xs4 xs5).2.2.1, y ∈ pc.1.set :=
  View.cover_of_tiledL (midStep c i aq hq ak hk av hv ao ho s0 z0 s1 z1 s2 z2 s3 z3 s4 z4 s5 z5 hf hl xq xk xv xs0 xs1 xs2 xs3 xs4 xs5).2.2.1 S1024x64.size (by sl_kernel_rfl) y

/-- The stores of this case into scratch buffer 3 write every entry of it. -/
theorem mid_cover3 (c : Dev nD) (i : grid3.Coords) (aq : Memref sig .tc .vmem S1x1024x128 .bf16) (hq : aq.IsWhole) (ak : Memref sig .tc .vmem S1x512x128 .bf16) (hk : ak.IsWhole) (av : Memref sig .tc .vmem S1x512x128 .bf16) (hv : av.IsWhole) (ao : Memref sig .tc .vmem S1x1024x128 .bf16) (ho : ao.IsWhole) (s0 : Memref sig .tc .vmem S1024x1 .f32) (z0 : s0.IsWhole) (s1 : Memref sig .tc .vmem S1024x1 .f32) (z1 : s1.IsWhole) (s2 : Memref sig .tc .vmem S1024x64 .f32) (z2 : s2.IsWhole) (s3 : Memref sig .tc .vmem S1024x1 .f32) (z3 : s3.IsWhole) (s4 : Memref sig .tc .vmem S1024x1 .f32) (z4 : s4.IsWhole) (s5 : Memref sig .tc .vmem S1024x64 .f32) (z5 : s5.IsWhole) (hf : ¬first3 i) (hl : ¬last3 i) (xq : Vec F S1x1024x128 .bf16) (xk : Vec F S1x512x128 .bf16) (xv : Vec F S1x512x128 .bf16) (xs0 : Vec F S1024x1 .f32) (xs1 : Vec F S1024x1 .f32) (xs2 : Vec F S1024x64 .f32) (xs3 : Vec F S1024x1 .f32) (xs4 : Vec F S1024x1 .f32) (xs5 : Vec F S1024x64 .f32) (y : S1024x1.Idx) :
    ∃ pc ∈ (midStep c i aq hq ak hk av hv ao ho s0 z0 s1 z1 s2 z2 s3 z3 s4 z4 s5 z5 hf hl xq xk xv xs0 xs1 xs2 xs3 xs4 xs5).2.2.2.1, y ∈ pc.1.set :=
  View.cover_of_tiledL (midStep c i aq hq ak hk av hv ao ho s0 z0 s1 z1 s2 z2 s3 z3 s4 z4 s5 z5 hf hl xq xk xv xs0 xs1 xs2 xs3 xs4 xs5).2.2.2.1 S1024x1.size (by sl_kernel_rfl) y

/-- The stores of this case into scratch buffer 4 write every entry of it. -/
theorem mid_cover4 (c : Dev nD) (i : grid3.Coords) (aq : Memref sig .tc .vmem S1x1024x128 .bf16) (hq : aq.IsWhole) (ak : Memref sig .tc .vmem S1x512x128 .bf16) (hk : ak.IsWhole) (av : Memref sig .tc .vmem S1x512x128 .bf16) (hv : av.IsWhole) (ao : Memref sig .tc .vmem S1x1024x128 .bf16) (ho : ao.IsWhole) (s0 : Memref sig .tc .vmem S1024x1 .f32) (z0 : s0.IsWhole) (s1 : Memref sig .tc .vmem S1024x1 .f32) (z1 : s1.IsWhole) (s2 : Memref sig .tc .vmem S1024x64 .f32) (z2 : s2.IsWhole) (s3 : Memref sig .tc .vmem S1024x1 .f32) (z3 : s3.IsWhole) (s4 : Memref sig .tc .vmem S1024x1 .f32) (z4 : s4.IsWhole) (s5 : Memref sig .tc .vmem S1024x64 .f32) (z5 : s5.IsWhole) (hf : ¬first3 i) (hl : ¬last3 i) (xq : Vec F S1x1024x128 .bf16) (xk : Vec F S1x512x128 .bf16) (xv : Vec F S1x512x128 .bf16) (xs0 : Vec F S1024x1 .f32) (xs1 : Vec F S1024x1 .f32) (xs2 : Vec F S1024x64 .f32) (xs3 : Vec F S1024x1 .f32) (xs4 : Vec F S1024x1 .f32) (xs5 : Vec F S1024x64 .f32) (y : S1024x1.Idx) :
    ∃ pc ∈ (midStep c i aq hq ak hk av hv ao ho s0 z0 s1 z1 s2 z2 s3 z3 s4 z4 s5 z5 hf hl xq xk xv xs0 xs1 xs2 xs3 xs4 xs5).2.2.2.2.1, y ∈ pc.1.set :=
  View.cover_of_tiledL (midStep c i aq hq ak hk av hv ao ho s0 z0 s1 z1 s2 z2 s3 z3 s4 z4 s5 z5 hf hl xq xk xv xs0 xs1 xs2 xs3 xs4 xs5).2.2.2.2.1 S1024x1.size (by sl_kernel_rfl) y

/-- The stores of this case into scratch buffer 5 write every entry of it. -/
theorem mid_cover5 (c : Dev nD) (i : grid3.Coords) (aq : Memref sig .tc .vmem S1x1024x128 .bf16) (hq : aq.IsWhole) (ak : Memref sig .tc .vmem S1x512x128 .bf16) (hk : ak.IsWhole) (av : Memref sig .tc .vmem S1x512x128 .bf16) (hv : av.IsWhole) (ao : Memref sig .tc .vmem S1x1024x128 .bf16) (ho : ao.IsWhole) (s0 : Memref sig .tc .vmem S1024x1 .f32) (z0 : s0.IsWhole) (s1 : Memref sig .tc .vmem S1024x1 .f32) (z1 : s1.IsWhole) (s2 : Memref sig .tc .vmem S1024x64 .f32) (z2 : s2.IsWhole) (s3 : Memref sig .tc .vmem S1024x1 .f32) (z3 : s3.IsWhole) (s4 : Memref sig .tc .vmem S1024x1 .f32) (z4 : s4.IsWhole) (s5 : Memref sig .tc .vmem S1024x64 .f32) (z5 : s5.IsWhole) (hf : ¬first3 i) (hl : ¬last3 i) (xq : Vec F S1x1024x128 .bf16) (xk : Vec F S1x512x128 .bf16) (xv : Vec F S1x512x128 .bf16) (xs0 : Vec F S1024x1 .f32) (xs1 : Vec F S1024x1 .f32) (xs2 : Vec F S1024x64 .f32) (xs3 : Vec F S1024x1 .f32) (xs4 : Vec F S1024x1 .f32) (xs5 : Vec F S1024x64 .f32) (y : S1024x64.Idx) :
    ∃ pc ∈ (midStep c i aq hq ak hk av hv ao ho s0 z0 s1 z1 s2 z2 s3 z3 s4 z4 s5 z5 hf hl xq xk xv xs0 xs1 xs2 xs3 xs4 xs5).2.2.2.2.2.1, y ∈ pc.1.set :=
  View.cover_of_tiledL (midStep c i aq hq ak hk av hv ao ho s0 z0 s1 z1 s2 z2 s3 z3 s4 z4 s5 z5 hf hl xq xk xv xs0 xs1 xs2 xs3 xs4 xs5).2.2.2.2.2.1 S1024x64.size (by sl_kernel_rfl) y

/-- The six scratch buffers after a point of this case. -/
def midCarry (c : Dev nD) (i : grid3.Coords) (aq : Memref sig .tc .vmem S1x1024x128 .bf16) (hq : aq.IsWhole) (ak : Memref sig .tc .vmem S1x512x128 .bf16) (hk : ak.IsWhole) (av : Memref sig .tc .vmem S1x512x128 .bf16) (hv : av.IsWhole) (ao : Memref sig .tc .vmem S1x1024x128 .bf16) (ho : ao.IsWhole) (s0 : Memref sig .tc .vmem S1024x1 .f32) (z0 : s0.IsWhole) (s1 : Memref sig .tc .vmem S1024x1 .f32) (z1 : s1.IsWhole) (s2 : Memref sig .tc .vmem S1024x64 .f32) (z2 : s2.IsWhole) (s3 : Memref sig .tc .vmem S1024x1 .f32) (z3 : s3.IsWhole) (s4 : Memref sig .tc .vmem S1024x1 .f32) (z4 : s4.IsWhole) (s5 : Memref sig .tc .vmem S1024x64 .f32) (z5 : s5.IsWhole) (hf : ¬first3 i) (hl : ¬last3 i) (xq : Vec F S1x1024x128 .bf16) (xk : Vec F S1x512x128 .bf16) (xv : Vec F S1x512x128 .bf16) (xs0 : Vec F S1024x1 .f32) (xs1 : Vec F S1024x1 .f32) (xs2 : Vec F S1024x64 .f32) (xs3 : Vec F S1024x1 .f32) (xs4 : Vec F S1024x1 .f32) (xs5 : Vec F S1024x64 .f32) : Carry F :=
  ⟨sV0.read (Elt F) (sV0.writes (Elt F) sV0.junk (midStep c i aq hq ak hk av hv ao ho s0 z0 s1 z1 s2 z2 s3 z3 s4 z4 s5 z5 hf hl xq xk xv xs0 xs1 xs2 xs3 xs4 xs5).1),
   sV1.read (Elt F) (sV1.writes (Elt F) sV1.junk (midStep c i aq hq ak hk av hv ao ho s0 z0 s1 z1 s2 z2 s3 z3 s4 z4 s5 z5 hf hl xq xk xv xs0 xs1 xs2 xs3 xs4 xs5).2.1),
   sV2.read (Elt F) (sV2.writes (Elt F) sV2.junk (midStep c i aq hq ak hk av hv ao ho s0 z0 s1 z1 s2 z2 s3 z3 s4 z4 s5 z5 hf hl xq xk xv xs0 xs1 xs2 xs3 xs4 xs5).2.2.1),
   sV3.read (Elt F) (sV3.writes (Elt F) sV3.junk (midStep c i aq hq ak hk av hv ao ho s0 z0 s1 z1 s2 z2 s3 z3 s4 z4 s5 z5 hf hl xq xk xv xs0 xs1 xs2 xs3 xs4 xs5).2.2.2.1),
   sV4.read (Elt F) (sV4.writes (Elt F) sV4.junk (midStep c i aq hq ak hk av hv ao ho s0 z0 s1 z1 s2 z2 s3 z3 s4 z4 s5 z5 hf hl xq xk xv xs0 xs1 xs2 xs3 xs4 xs5).2.2.2.2.1),
   sV5.read (Elt F) (sV5.writes (Elt F) sV5.junk (midStep c i aq hq ak hk av hv ao ho s0 z0 s1 z1 s2 z2 s3 z3 s4 z4 s5 z5 hf hl xq xk xv xs0 xs1 xs2 xs3 xs4 xs5).2.2.2.2.2.1)⟩

/-- The stores of this case into scratch buffer 0 write every entry of it. -/
theorem last_cover0 (c : Dev nD) (i : grid3.Coords) (aq : Memref sig .tc .vmem S1x1024x128 .bf16) (hq : aq.IsWhole) (ak : Memref sig .tc .vmem S1x512x128 .bf16) (hk : ak.IsWhole) (av : Memref sig .tc .vmem S1x512x128 .bf16) (hv : av.IsWhole) (ao : Memref sig .tc .vmem S1x1024x128 .bf16) (ho : ao.IsWhole) (s0 : Memref sig .tc .vmem S1024x1 .f32) (z0 : s0.IsWhole) (s1 : Memref sig .tc .vmem S1024x1 .f32) (z1 : s1.IsWhole) (s2 : Memref sig .tc .vmem S1024x64 .f32) (z2 : s2.IsWhole) (s3 : Memref sig .tc .vmem S1024x1 .f32) (z3 : s3.IsWhole) (s4 : Memref sig .tc .vmem S1024x1 .f32) (z4 : s4.IsWhole) (s5 : Memref sig .tc .vmem S1024x64 .f32) (z5 : s5.IsWhole) (hf : ¬first3 i) (hl : last3 i) (xq : Vec F S1x1024x128 .bf16) (xk : Vec F S1x512x128 .bf16) (xv : Vec F S1x512x128 .bf16) (xs0 : Vec F S1024x1 .f32) (xs1 : Vec F S1024x1 .f32) (xs2 : Vec F S1024x64 .f32) (xs3 : Vec F S1024x1 .f32) (xs4 : Vec F S1024x1 .f32) (xs5 : Vec F S1024x64 .f32) (y : S1024x1.Idx) :
    ∃ pc ∈ (lastStep c i aq hq ak hk av hv ao ho s0 z0 s1 z1 s2 z2 s3 z3 s4 z4 s5 z5 hf hl xq xk xv xs0 xs1 xs2 xs3 xs4 xs5).2.1, y ∈ pc.1.set :=
  View.cover_of_tiledL (lastStep c i aq hq ak hk av hv ao ho s0 z0 s1 z1 s2 z2 s3 z3 s4 z4 s5 z5 hf hl xq xk xv xs0 xs1 xs2 xs3 xs4 xs5).2.1 S1024x1.size (by sl_kernel_rfl) y

/-- The stores of this case into scratch buffer 1 write every entry of it. -/
theorem last_cover1 (c : Dev nD) (i : grid3.Coords) (aq : Memref sig .tc .vmem S1x1024x128 .bf16) (hq : aq.IsWhole) (ak : Memref sig .tc .vmem S1x512x128 .bf16) (hk : ak.IsWhole) (av : Memref sig .tc .vmem S1x512x128 .bf16) (hv : av.IsWhole) (ao : Memref sig .tc .vmem S1x1024x128 .bf16) (ho : ao.IsWhole) (s0 : Memref sig .tc .vmem S1024x1 .f32) (z0 : s0.IsWhole) (s1 : Memref sig .tc .vmem S1024x1 .f32) (z1 : s1.IsWhole) (s2 : Memref sig .tc .vmem S1024x64 .f32) (z2 : s2.IsWhole) (s3 : Memref sig .tc .vmem S1024x1 .f32) (z3 : s3.IsWhole) (s4 : Memref sig .tc .vmem S1024x1 .f32) (z4 : s4.IsWhole) (s5 : Memref sig .tc .vmem S1024x64 .f32) (z5 : s5.IsWhole) (hf : ¬first3 i) (hl : last3 i) (xq : Vec F S1x1024x128 .bf16) (xk : Vec F S1x512x128 .bf16) (xv : Vec F S1x512x128 .bf16) (xs0 : Vec F S1024x1 .f32) (xs1 : Vec F S1024x1 .f32) (xs2 : Vec F S1024x64 .f32) (xs3 : Vec F S1024x1 .f32) (xs4 : Vec F S1024x1 .f32) (xs5 : Vec F S1024x64 .f32) (y : S1024x1.Idx) :
    ∃ pc ∈ (lastStep c i aq hq ak hk av hv ao ho s0 z0 s1 z1 s2 z2 s3 z3 s4 z4 s5 z5 hf hl xq xk xv xs0 xs1 xs2 xs3 xs4 xs5).2.2.1, y ∈ pc.1.set :=
  View.cover_of_tiledL (lastStep c i aq hq ak hk av hv ao ho s0 z0 s1 z1 s2 z2 s3 z3 s4 z4 s5 z5 hf hl xq xk xv xs0 xs1 xs2 xs3 xs4 xs5).2.2.1 S1024x1.size (by sl_kernel_rfl) y

/-- The stores of this case into scratch buffer 2 write every entry of it. -/
theorem last_cover2 (c : Dev nD) (i : grid3.Coords) (aq : Memref sig .tc .vmem S1x1024x128 .bf16) (hq : aq.IsWhole) (ak : Memref sig .tc .vmem S1x512x128 .bf16) (hk : ak.IsWhole) (av : Memref sig .tc .vmem S1x512x128 .bf16) (hv : av.IsWhole) (ao : Memref sig .tc .vmem S1x1024x128 .bf16) (ho : ao.IsWhole) (s0 : Memref sig .tc .vmem S1024x1 .f32) (z0 : s0.IsWhole) (s1 : Memref sig .tc .vmem S1024x1 .f32) (z1 : s1.IsWhole) (s2 : Memref sig .tc .vmem S1024x64 .f32) (z2 : s2.IsWhole) (s3 : Memref sig .tc .vmem S1024x1 .f32) (z3 : s3.IsWhole) (s4 : Memref sig .tc .vmem S1024x1 .f32) (z4 : s4.IsWhole) (s5 : Memref sig .tc .vmem S1024x64 .f32) (z5 : s5.IsWhole) (hf : ¬first3 i) (hl : last3 i) (xq : Vec F S1x1024x128 .bf16) (xk : Vec F S1x512x128 .bf16) (xv : Vec F S1x512x128 .bf16) (xs0 : Vec F S1024x1 .f32) (xs1 : Vec F S1024x1 .f32) (xs2 : Vec F S1024x64 .f32) (xs3 : Vec F S1024x1 .f32) (xs4 : Vec F S1024x1 .f32) (xs5 : Vec F S1024x64 .f32) (y : S1024x64.Idx) :
    ∃ pc ∈ (lastStep c i aq hq ak hk av hv ao ho s0 z0 s1 z1 s2 z2 s3 z3 s4 z4 s5 z5 hf hl xq xk xv xs0 xs1 xs2 xs3 xs4 xs5).2.2.2.1, y ∈ pc.1.set :=
  View.cover_of_tiledL (lastStep c i aq hq ak hk av hv ao ho s0 z0 s1 z1 s2 z2 s3 z3 s4 z4 s5 z5 hf hl xq xk xv xs0 xs1 xs2 xs3 xs4 xs5).2.2.2.1 S1024x64.size (by sl_kernel_rfl) y

/-- The stores of this case into scratch buffer 3 write every entry of it. -/
theorem last_cover3 (c : Dev nD) (i : grid3.Coords) (aq : Memref sig .tc .vmem S1x1024x128 .bf16) (hq : aq.IsWhole) (ak : Memref sig .tc .vmem S1x512x128 .bf16) (hk : ak.IsWhole) (av : Memref sig .tc .vmem S1x512x128 .bf16) (hv : av.IsWhole) (ao : Memref sig .tc .vmem S1x1024x128 .bf16) (ho : ao.IsWhole) (s0 : Memref sig .tc .vmem S1024x1 .f32) (z0 : s0.IsWhole) (s1 : Memref sig .tc .vmem S1024x1 .f32) (z1 : s1.IsWhole) (s2 : Memref sig .tc .vmem S1024x64 .f32) (z2 : s2.IsWhole) (s3 : Memref sig .tc .vmem S1024x1 .f32) (z3 : s3.IsWhole) (s4 : Memref sig .tc .vmem S1024x1 .f32) (z4 : s4.IsWhole) (s5 : Memref sig .tc .vmem S1024x64 .f32) (z5 : s5.IsWhole) (hf : ¬first3 i) (hl : last3 i) (xq : Vec F S1x1024x128 .bf16) (xk : Vec F S1x512x128 .bf16) (xv : Vec F S1x512x128 .bf16) (xs0 : Vec F S1024x1 .f32) (xs1 : Vec F S1024x1 .f32) (xs2 : Vec F S1024x64 .f32) (xs3 : Vec F S1024x1 .f32) (xs4 : Vec F S1024x1 .f32) (xs5 : Vec F S1024x64 .f32) (y : S1024x1.Idx) :
    ∃ pc ∈ (lastStep c i aq hq ak hk av hv ao ho s0 z0 s1 z1 s2 z2 s3 z3 s4 z4 s5 z5 hf hl xq xk xv xs0 xs1 xs2 xs3 xs4 xs5).2.2.2.2.1, y ∈ pc.1.set :=
  View.cover_of_tiledL (lastStep c i aq hq ak hk av hv ao ho s0 z0 s1 z1 s2 z2 s3 z3 s4 z4 s5 z5 hf hl xq xk xv xs0 xs1 xs2 xs3 xs4 xs5).2.2.2.2.1 S1024x1.size (by sl_kernel_rfl) y

/-- The stores of this case into scratch buffer 4 write every entry of it. -/
theorem last_cover4 (c : Dev nD) (i : grid3.Coords) (aq : Memref sig .tc .vmem S1x1024x128 .bf16) (hq : aq.IsWhole) (ak : Memref sig .tc .vmem S1x512x128 .bf16) (hk : ak.IsWhole) (av : Memref sig .tc .vmem S1x512x128 .bf16) (hv : av.IsWhole) (ao : Memref sig .tc .vmem S1x1024x128 .bf16) (ho : ao.IsWhole) (s0 : Memref sig .tc .vmem S1024x1 .f32) (z0 : s0.IsWhole) (s1 : Memref sig .tc .vmem S1024x1 .f32) (z1 : s1.IsWhole) (s2 : Memref sig .tc .vmem S1024x64 .f32) (z2 : s2.IsWhole) (s3 : Memref sig .tc .vmem S1024x1 .f32) (z3 : s3.IsWhole) (s4 : Memref sig .tc .vmem S1024x1 .f32) (z4 : s4.IsWhole) (s5 : Memref sig .tc .vmem S1024x64 .f32) (z5 : s5.IsWhole) (hf : ¬first3 i) (hl : last3 i) (xq : Vec F S1x1024x128 .bf16) (xk : Vec F S1x512x128 .bf16) (xv : Vec F S1x512x128 .bf16) (xs0 : Vec F S1024x1 .f32) (xs1 : Vec F S1024x1 .f32) (xs2 : Vec F S1024x64 .f32) (xs3 : Vec F S1024x1 .f32) (xs4 : Vec F S1024x1 .f32) (xs5 : Vec F S1024x64 .f32) (y : S1024x1.Idx) :
    ∃ pc ∈ (lastStep c i aq hq ak hk av hv ao ho s0 z0 s1 z1 s2 z2 s3 z3 s4 z4 s5 z5 hf hl xq xk xv xs0 xs1 xs2 xs3 xs4 xs5).2.2.2.2.2.1, y ∈ pc.1.set :=
  View.cover_of_tiledL (lastStep c i aq hq ak hk av hv ao ho s0 z0 s1 z1 s2 z2 s3 z3 s4 z4 s5 z5 hf hl xq xk xv xs0 xs1 xs2 xs3 xs4 xs5).2.2.2.2.2.1 S1024x1.size (by sl_kernel_rfl) y

/-- The stores of this case into scratch buffer 5 write every entry of it. -/
theorem last_cover5 (c : Dev nD) (i : grid3.Coords) (aq : Memref sig .tc .vmem S1x1024x128 .bf16) (hq : aq.IsWhole) (ak : Memref sig .tc .vmem S1x512x128 .bf16) (hk : ak.IsWhole) (av : Memref sig .tc .vmem S1x512x128 .bf16) (hv : av.IsWhole) (ao : Memref sig .tc .vmem S1x1024x128 .bf16) (ho : ao.IsWhole) (s0 : Memref sig .tc .vmem S1024x1 .f32) (z0 : s0.IsWhole) (s1 : Memref sig .tc .vmem S1024x1 .f32) (z1 : s1.IsWhole) (s2 : Memref sig .tc .vmem S1024x64 .f32) (z2 : s2.IsWhole) (s3 : Memref sig .tc .vmem S1024x1 .f32) (z3 : s3.IsWhole) (s4 : Memref sig .tc .vmem S1024x1 .f32) (z4 : s4.IsWhole) (s5 : Memref sig .tc .vmem S1024x64 .f32) (z5 : s5.IsWhole) (hf : ¬first3 i) (hl : last3 i) (xq : Vec F S1x1024x128 .bf16) (xk : Vec F S1x512x128 .bf16) (xv : Vec F S1x512x128 .bf16) (xs0 : Vec F S1024x1 .f32) (xs1 : Vec F S1024x1 .f32) (xs2 : Vec F S1024x64 .f32) (xs3 : Vec F S1024x1 .f32) (xs4 : Vec F S1024x1 .f32) (xs5 : Vec F S1024x64 .f32) (y : S1024x64.Idx) :
    ∃ pc ∈ (lastStep c i aq hq ak hk av hv ao ho s0 z0 s1 z1 s2 z2 s3 z3 s4 z4 s5 z5 hf hl xq xk xv xs0 xs1 xs2 xs3 xs4 xs5).2.2.2.2.2.2.1, y ∈ pc.1.set :=
  View.cover_of_tiledL (lastStep c i aq hq ak hk av hv ao ho s0 z0 s1 z1 s2 z2 s3 z3 s4 z4 s5 z5 hf hl xq xk xv xs0 xs1 xs2 xs3 xs4 xs5).2.2.2.2.2.2.1 S1024x64.size (by sl_kernel_rfl) y

/-- The two stores of the last key tile, one per head, write every entry of the output tile. -/
theorem last_coverO (c : Dev nD) (i : grid3.Coords) (aq : Memref sig .tc .vmem S1x1024x128 .bf16) (hq : aq.IsWhole) (ak : Memref sig .tc .vmem S1x512x128 .bf16) (hk : ak.IsWhole) (av : Memref sig .tc .vmem S1x512x128 .bf16) (hv : av.IsWhole) (ao : Memref sig .tc .vmem S1x1024x128 .bf16) (ho : ao.IsWhole) (s0 : Memref sig .tc .vmem S1024x1 .f32) (z0 : s0.IsWhole) (s1 : Memref sig .tc .vmem S1024x1 .f32) (z1 : s1.IsWhole) (s2 : Memref sig .tc .vmem S1024x64 .f32) (z2 : s2.IsWhole) (s3 : Memref sig .tc .vmem S1024x1 .f32) (z3 : s3.IsWhole) (s4 : Memref sig .tc .vmem S1024x1 .f32) (z4 : s4.IsWhole) (s5 : Memref sig .tc .vmem S1024x64 .f32) (z5 : s5.IsWhole) (hf : ¬first3 i) (hl : last3 i) (xq : Vec F S1x1024x128 .bf16) (xk : Vec F S1x512x128 .bf16) (xv : Vec F S1x512x128 .bf16) (xs0 : Vec F S1024x1 .f32) (xs1 : Vec F S1024x1 .f32) (xs2 : Vec F S1024x64 .f32) (xs3 : Vec F S1024x1 .f32) (xs4 : Vec F S1024x1 .f32) (xs5 : Vec F S1024x64 .f32) (y : S1x1024x128.Idx) :
    ∃ pc ∈ (lastStep c i aq hq ak hk av hv ao ho s0 z0 s1 z1 s2 z2 s3 z3 s4 z4 s5 z5 hf hl xq xk xv xs0 xs1 xs2 xs3 xs4 xs5).1, y ∈ pc.1.set :=
  View.cover_of_tiledL (lastStep c i aq hq ak hk av hv ao ho s0 z0 s1 z1 s2 z2 s3 z3 s4 z4 s5 z5 hf hl xq xk xv xs0 xs1 xs2 xs3 xs4 xs5).1 S1x1024x64.size (by sl_kernel_rfl) y

/-- The output tile the last key tile stores. -/
def lastOut (c : Dev nD) (i : grid3.Coords) (aq : Memref sig .tc .vmem S1x1024x128 .bf16) (hq : aq.IsWhole) (ak : Memref sig .tc .vmem S1x512x128 .bf16) (hk : ak.IsWhole) (av : Memref sig .tc .vmem S1x512x128 .bf16) (hv : av.IsWhole) (ao : Memref sig .tc .vmem S1x1024x128 .bf16) (ho : ao.IsWhole) (s0 : Memref sig .tc .vmem S1024x1 .f32) (z0 : s0.IsWhole) (s1 : Memref sig .tc .vmem S1024x1 .f32) (z1 : s1.IsWhole) (s2 : Memref sig .tc .vmem S1024x64 .f32) (z2 : s2.IsWhole) (s3 : Memref sig .tc .vmem S1024x1 .f32) (z3 : s3.IsWhole) (s4 : Memref sig .tc .vmem S1024x1 .f32) (z4 : s4.IsWhole) (s5 : Memref sig .tc .vmem S1024x64 .f32) (z5 : s5.IsWhole) (hf : ¬first3 i) (hl : last3 i) (xq : Vec F S1x1024x128 .bf16) (xk : Vec F S1x512x128 .bf16) (xv : Vec F S1x512x128 .bf16) (xs0 : Vec F S1024x1 .f32) (xs1 : Vec F S1024x1 .f32) (xs2 : Vec F S1024x64 .f32) (xs3 : Vec F S1024x1 .f32) (xs4 : Vec F S1024x1 .f32) (xs5 : Vec F S1024x64 .f32) : Vec F S1x1024x128 .bf16 :=
  oV.read (Elt F) (oV.writes (Elt F) oV.junk (lastStep c i aq hq ak hk av hv ao ho s0 z0 s1 z1 s2 z2 s3 z3 s4 z4 s5 z5 hf hl xq xk xv xs0 xs1 xs2 xs3 xs4 xs5).1)

/-- The six scratch buffers after a point of this case. -/
def lastCarry (c : Dev nD) (i : grid3.Coords) (aq : Memref sig .tc .vmem S1x1024x128 .bf16) (hq : aq.IsWhole) (ak : Memref sig .tc .vmem S1x512x128 .bf16) (hk : ak.IsWhole) (av : Memref sig .tc .vmem S1x512x128 .bf16) (hv : av.IsWhole) (ao : Memref sig .tc .vmem S1x1024x128 .bf16) (ho : ao.IsWhole) (s0 : Memref sig .tc .vmem S1024x1 .f32) (z0 : s0.IsWhole) (s1 : Memref sig .tc .vmem S1024x1 .f32) (z1 : s1.IsWhole) (s2 : Memref sig .tc .vmem S1024x64 .f32) (z2 : s2.IsWhole) (s3 : Memref sig .tc .vmem S1024x1 .f32) (z3 : s3.IsWhole) (s4 : Memref sig .tc .vmem S1024x1 .f32) (z4 : s4.IsWhole) (s5 : Memref sig .tc .vmem S1024x64 .f32) (z5 : s5.IsWhole) (hf : ¬first3 i) (hl : last3 i) (xq : Vec F S1x1024x128 .bf16) (xk : Vec F S1x512x128 .bf16) (xv : Vec F S1x512x128 .bf16) (xs0 : Vec F S1024x1 .f32) (xs1 : Vec F S1024x1 .f32) (xs2 : Vec F S1024x64 .f32) (xs3 : Vec F S1024x1 .f32) (xs4 : Vec F S1024x1 .f32) (xs5 : Vec F S1024x64 .f32) : Carry F :=
  ⟨sV0.read (Elt F) (sV0.writes (Elt F) sV0.junk (lastStep c i aq hq ak hk av hv ao ho s0 z0 s1 z1 s2 z2 s3 z3 s4 z4 s5 z5 hf hl xq xk xv xs0 xs1 xs2 xs3 xs4 xs5).2.1),
   sV1.read (Elt F) (sV1.writes (Elt F) sV1.junk (lastStep c i aq hq ak hk av hv ao ho s0 z0 s1 z1 s2 z2 s3 z3 s4 z4 s5 z5 hf hl xq xk xv xs0 xs1 xs2 xs3 xs4 xs5).2.2.1),
   sV2.read (Elt F) (sV2.writes (Elt F) sV2.junk (lastStep c i aq hq ak hk av hv ao ho s0 z0 s1 z1 s2 z2 s3 z3 s4 z4 s5 z5 hf hl xq xk xv xs0 xs1 xs2 xs3 xs4 xs5).2.2.2.1),
   sV3.read (Elt F) (sV3.writes (Elt F) sV3.junk (lastStep c i aq hq ak hk av hv ao ho s0 z0 s1 z1 s2 z2 s3 z3 s4 z4 s5 z5 hf hl xq xk xv xs0 xs1 xs2 xs3 xs4 xs5).2.2.2.2.1),
   sV4.read (Elt F) (sV4.writes (Elt F) sV4.junk (lastStep c i aq hq ak hk av hv ao ho s0 z0 s1 z1 s2 z2 s3 z3 s4 z4 s5 z5 hf hl xq xk xv xs0 xs1 xs2 xs3 xs4 xs5).2.2.2.2.2.1),
   sV5.read (Elt F) (sV5.writes (Elt F) sV5.junk (lastStep c i aq hq ak hk av hv ao ho s0 z0 s1 z1 s2 z2 s3 z3 s4 z4 s5 z5 hf hl xq xk xv xs0 xs1 xs2 xs3 xs4 xs5).2.2.2.2.2.2.1)⟩

/-! ## What the scratch buffers hold after each point -/

/-- After point `n`: at the first key tile of a run the reset-and-fold of that tile; otherwise the fold of the tile
    into what point `n - 1` left. -/
def carryAt (c : Dev nD) : (n : ℕ) → n < cfg3.N → Carry F
  | 0, hn => firstCarry c (grid3.coords ⟨0, hn⟩) (qM ⟨0, hn⟩) (qW ⟨0, hn⟩) (kM ⟨0, hn⟩) (kW ⟨0, hn⟩) (vM ⟨0, hn⟩) (vW ⟨0, hn⟩) (oM ⟨0, hn⟩) (oW ⟨0, hn⟩) sM0 (Memref.isWhole_whole _) sM1 (Memref.isWhole_whole _) sM2 (Memref.isWhole_whole _) sM3 (Memref.isWhole_whole _) sM4 (Memref.isWhole_whole _) sM5 (Memref.isWhole_whole _) ((first3_iff ⟨0, hn⟩).mpr (Nat.zero_mod _)) (fun h => (fun h' => by (try dsimp only at h'); omega) ((last3_iff ⟨0, hn⟩).mp h)) (tile3 V c 0 ⟨0, hn⟩) (tile3 V c 1 ⟨0, hn⟩) (tile3 V c 2 ⟨0, hn⟩)
  | n + 1, hn =>
    if h0 : (n + 1) % 8 = 0 then
      firstCarry c (grid3.coords ⟨n + 1, hn⟩) (qM ⟨n + 1, hn⟩) (qW ⟨n + 1, hn⟩) (kM ⟨n + 1, hn⟩) (kW ⟨n + 1, hn⟩) (vM ⟨n + 1, hn⟩) (vW ⟨n + 1, hn⟩) (oM ⟨n + 1, hn⟩) (oW ⟨n + 1, hn⟩) sM0 (Memref.isWhole_whole _) sM1 (Memref.isWhole_whole _) sM2 (Memref.isWhole_whole _) sM3 (Memref.isWhole_whole _) sM4 (Memref.isWhole_whole _) sM5 (Memref.isWhole_whole _) ((first3_iff ⟨n + 1, hn⟩).mpr h0) (fun h => (fun h' => by (try dsimp only at h'); omega) ((last3_iff ⟨n + 1, hn⟩).mp h)) (tile3 V c 0 ⟨n + 1, hn⟩) (tile3 V c 1 ⟨n + 1, hn⟩) (tile3 V c 2 ⟨n + 1, hn⟩)
    else
      if h7 : (n + 1) % 8 = 7 then
        lastCarry c (grid3.coords ⟨n + 1, hn⟩) (qM ⟨n + 1, hn⟩) (qW ⟨n + 1, hn⟩) (kM ⟨n + 1, hn⟩) (kW ⟨n + 1, hn⟩) (vM ⟨n + 1, hn⟩) (vW ⟨n + 1, hn⟩) (oM ⟨n + 1, hn⟩) (oW ⟨n + 1, hn⟩) sM0 (Memref.isWhole_whole _) sM1 (Memref.isWhole_whole _) sM2 (Memref.isWhole_whole _) sM3 (Memref.isWhole_whole _) sM4 (Memref.isWhole_whole _) sM5 (Memref.isWhole_whole _) (fun h => h0 ((first3_iff ⟨n + 1, hn⟩).mp h)) ((last3_iff ⟨n + 1, hn⟩).mpr h7) (tile3 V c 0 ⟨n + 1, hn⟩) (tile3 V c 1 ⟨n + 1, hn⟩) (tile3 V c 2 ⟨n + 1, hn⟩) (carryAt c n (Nat.lt_of_succ_lt hn)).m0 (carryAt c n (Nat.lt_of_succ_lt hn)).l0 (carryAt c n (Nat.lt_of_succ_lt hn)).a0 (carryAt c n (Nat.lt_of_succ_lt hn)).m1 (carryAt c n (Nat.lt_of_succ_lt hn)).l1 (carryAt c n (Nat.lt_of_succ_lt hn)).a1
      else
        midCarry c (grid3.coords ⟨n + 1, hn⟩) (qM ⟨n + 1, hn⟩) (qW ⟨n + 1, hn⟩) (kM ⟨n + 1, hn⟩) (kW ⟨n + 1, hn⟩) (vM ⟨n + 1, hn⟩) (vW ⟨n + 1, hn⟩) (oM ⟨n + 1, hn⟩) (oW ⟨n + 1, hn⟩) sM0 (Memref.isWhole_whole _) sM1 (Memref.isWhole_whole _) sM2 (Memref.isWhole_whole _) sM3 (Memref.isWhole_whole _) sM4 (Memref.isWhole_whole _) sM5 (Memref.isWhole_whole _) (fun h => h0 ((first3_iff ⟨n + 1, hn⟩).mp h)) (fun h => h7 ((last3_iff ⟨n + 1, hn⟩).mp h)) (tile3 V c 0 ⟨n + 1, hn⟩) (tile3 V c 1 ⟨n + 1, hn⟩) (tile3 V c 2 ⟨n + 1, hn⟩) (carryAt c n (Nat.lt_of_succ_lt hn)).m0 (carryAt c n (Nat.lt_of_succ_lt hn)).l0 (carryAt c n (Nat.lt_of_succ_lt hn)).a0 (carryAt c n (Nat.lt_of_succ_lt hn)).m1 (carryAt c n (Nat.lt_of_succ_lt hn)).l1 (carryAt c n (Nat.lt_of_succ_lt hn)).a1

theorem carryAt_first (c : Dev nD) (t : Fin cfg3.N) (h0 : t.val % 8 = 0) (h7 : ¬t.val % 8 = 7) :
    carryAt V c t.val t.isLt = firstCarry c (grid3.coords t) (qM t) (qW t) (kM t) (kW t) (vM t) (vW t) (oM t) (oW t) sM0 (Memref.isWhole_whole _) sM1 (Memref.isWhole_whole _) sM2 (Memref.isWhole_whole _) sM3 (Memref.isWhole_whole _) sM4 (Memref.isWhole_whole _) sM5 (Memref.isWhole_whole _) ((first3_iff t).mpr h0) (fun h => h7 ((last3_iff t).mp h)) (tile3 V c 0 t) (tile3 V c 1 t) (tile3 V c 2 t) := by
  obtain ⟨n, hn⟩ := t
  cases n with
  | zero => exact rfl
  | succ n => exact (dif_pos h0).trans rfl

theorem carryAt_mid (c : Dev nD) (t : Fin cfg3.N) (h0 : ¬t.val % 8 = 0) (h7 : ¬t.val % 8 = 7) :
    carryAt V c t.val t.isLt = midCarry c (grid3.coords t) (qM t) (qW t) (kM t) (kW t) (vM t) (vW t) (oM t) (oW t) sM0 (Memref.isWhole_whole _) sM1 (Memref.isWhole_whole _) sM2 (Memref.isWhole_whole _) sM3 (Memref.isWhole_whole _) sM4 (Memref.isWhole_whole _) sM5 (Memref.isWhole_whole _) (fun h => h0 ((first3_iff t).mp h)) (fun h => h7 ((last3_iff t).mp h)) (tile3 V c 0 t) (tile3 V c 1 t) (tile3 V c 2 t) (carryAt V c (t.val - 1) (Nat.lt_of_le_of_lt (Nat.sub_le _ _) t.isLt)).m0 (carryAt V c (t.val - 1) (Nat.lt_of_le_of_lt (Nat.sub_le _ _) t.isLt)).l0 (carryAt V c (t.val - 1) (Nat.lt_of_le_of_lt (Nat.sub_le _ _) t.isLt)).a0 (carryAt V c (t.val - 1) (Nat.lt_of_le_of_lt (Nat.sub_le _ _) t.isLt)).m1 (carryAt V c (t.val - 1) (Nat.lt_of_le_of_lt (Nat.sub_le _ _) t.isLt)).l1 (carryAt V c (t.val - 1) (Nat.lt_of_le_of_lt (Nat.sub_le _ _) t.isLt)).a1 := by
  obtain ⟨n, hn⟩ := t
  cases n with
  | zero => exact (by exfalso; (try dsimp only at h0); exact absurd (Nat.zero_mod _) h0)
  | succ n => exact (dif_neg h0).trans ((dif_neg h7).trans rfl)

theorem carryAt_last (c : Dev nD) (t : Fin cfg3.N) (h0 : ¬t.val % 8 = 0) (h7 : t.val % 8 = 7) :
    carryAt V c t.val t.isLt = lastCarry c (grid3.coords t) (qM t) (qW t) (kM t) (kW t) (vM t) (vW t) (oM t) (oW t) sM0 (Memref.isWhole_whole _) sM1 (Memref.isWhole_whole _) sM2 (Memref.isWhole_whole _) sM3 (Memref.isWhole_whole _) sM4 (Memref.isWhole_whole _) sM5 (Memref.isWhole_whole _) (fun h => h0 ((first3_iff t).mp h)) ((last3_iff t).mpr h7) (tile3 V c 0 t) (tile3 V c 1 t) (tile3 V c 2 t) (carryAt V c (t.val - 1) (Nat.lt_of_le_of_lt (Nat.sub_le _ _) t.isLt)).m0 (carryAt V c (t.val - 1) (Nat.lt_of_le_of_lt (Nat.sub_le _ _) t.isLt)).l0 (carryAt V c (t.val - 1) (Nat.lt_of_le_of_lt (Nat.sub_le _ _) t.isLt)).a0 (carryAt V c (t.val - 1) (Nat.lt_of_le_of_lt (Nat.sub_le _ _) t.isLt)).m1 (carryAt V c (t.val - 1) (Nat.lt_of_le_of_lt (Nat.sub_le _ _) t.isLt)).l1 (carryAt V c (t.val - 1) (Nat.lt_of_le_of_lt (Nat.sub_le _ _) t.isLt)).a1 := by
  obtain ⟨n, hn⟩ := t
  cases n with
  | zero => exact (by exfalso; (try dsimp only at h0); exact absurd (Nat.zero_mod _) h0)
  | succ n => exact (dif_neg h0).trans ((dif_pos h7).trans rfl)

/-- The output tile after point `t`: at a last key tile what that point stores (from what the point before left in
    the scratch buffers); elsewhere the point stores nothing and this value is never consulted. -/
def outAt3 (c : Dev nD) (t : Fin cfg3.N) : Vec F S1x1024x128 .bf16 :=
  if h7 : t.val % 8 = 7 then
    lastOut c (grid3.coords t) (qM t) (qW t) (kM t) (kW t) (vM t) (vW t) (oM t) (oW t) sM0 (Memref.isWhole_whole _) sM1 (Memref.isWhole_whole _) sM2 (Memref.isWhole_whole _) sM3 (Memref.isWhole_whole _) sM4 (Memref.isWhole_whole _) sM5 (Memref.isWhole_whole _) (fun h => (fun h' => by omega) ((first3_iff t).mp h)) ((last3_iff t).mpr h7) (tile3 V c 0 t) (tile3 V c 1 t) (tile3 V c 2 t) (carryAt V c (t.val - 1) (Nat.lt_of_le_of_lt (Nat.sub_le _ _) t.isLt)).m0 (carryAt V c (t.val - 1) (Nat.lt_of_le_of_lt (Nat.sub_le _ _) t.isLt)).l0 (carryAt V c (t.val - 1) (Nat.lt_of_le_of_lt (Nat.sub_le _ _) t.isLt)).a0 (carryAt V c (t.val - 1) (Nat.lt_of_le_of_lt (Nat.sub_le _ _) t.isLt)).m1 (carryAt V c (t.val - 1) (Nat.lt_of_le_of_lt (Nat.sub_le _ _) t.isLt)).l1 (carryAt V c (t.val - 1) (Nat.lt_of_le_of_lt (Nat.sub_le _ _) t.isLt)).a1
  else tile3 V c 3 t

theorem outAt3_last (c : Dev nD) (t : Fin cfg3.N) (h0 : ¬t.val % 8 = 0) (h7 : t.val % 8 = 7) :
    outAt3 V c t = lastOut c (grid3.coords t) (qM t) (qW t) (kM t) (kW t) (vM t) (vW t) (oM t) (oW t) sM0 (Memref.isWhole_whole _) sM1 (Memref.isWhole_whole _) sM2 (Memref.isWhole_whole _) sM3 (Memref.isWhole_whole _) sM4 (Memref.isWhole_whole _) sM5 (Memref.isWhole_whole _) (fun h => h0 ((first3_iff t).mp h)) ((last3_iff t).mpr h7) (tile3 V c 0 t) (tile3 V c 1 t) (tile3 V c 2 t) (carryAt V c (t.val - 1) (Nat.lt_of_le_of_lt (Nat.sub_le _ _) t.isLt)).m0 (carryAt V c (t.val - 1) (Nat.lt_of_le_of_lt (Nat.sub_le _ _) t.isLt)).l0 (carryAt V c (t.val - 1) (Nat.lt_of_le_of_lt (Nat.sub_le _ _) t.isLt)).a0 (carryAt V c (t.val - 1) (Nat.lt_of_le_of_lt (Nat.sub_le _ _) t.isLt)).m1 (carryAt V c (t.val - 1) (Nat.lt_of_le_of_lt (Nat.sub_le _ _) t.isLt)).l1 (carryAt V c (t.val - 1) (Nat.lt_of_le_of_lt (Nat.sub_le _ _) t.isLt)).a1 := by
  unfold outAt3; exact dif_pos h7

/-! ## What the stage keeps between points -/

/-- Before position `n`: at the very start what the stage was handed (every scratch buffer at anything); afterwards
    the six scratch buffers at what point `n - 1` left, the other scoped buffers, the generator register. -/
def heldAt (c : Dev nD) : (n : ℕ) → n ≤ cfg3.N → sProp 𝕄
  | 0, _ => Pipeline.ΦA spec3 c
  | n + 1, hn => iprop(iprop(iprop(owns (c : Thread nD τ) sM0 fullShare (carryAt V c n hn).m0 ∗ owns (c : Thread nD τ) sM1 fullShare (carryAt V c n hn).l0 ∗ owns (c : Thread nD τ) sM2 fullShare (carryAt V c n hn).a0 ∗ owns (c : Thread nD τ) sM3 fullShare (carryAt V c n hn).m1 ∗ owns (c : Thread nD τ) sM4 fullShare (carryAt V c n hn).l1 ∗ owns (c : Thread nD τ) sM5 fullShare (carryAt V c n hn).a1) ∗ others3 c) ∗ (∃ r, prngReg c r))

theorem heldAt_zero (c : Dev nD) (n : ℕ) (h : n ≤ cfg3.N) (hz : n = 0) : heldAt V c n h = Pipeline.ΦA spec3 c := by
  subst hz; rfl

theorem heldAt_succ (c : Dev nD) (n : ℕ) (hn : n < cfg3.N) :
    heldAt V c (n + 1) hn = iprop(iprop(iprop(owns (c : Thread nD τ) sM0 fullShare (carryAt V c n hn).m0 ∗ owns (c : Thread nD τ) sM1 fullShare (carryAt V c n hn).l0 ∗ owns (c : Thread nD τ) sM2 fullShare (carryAt V c n hn).a0 ∗ owns (c : Thread nD τ) sM3 fullShare (carryAt V c n hn).m1 ∗ owns (c : Thread nD τ) sM4 fullShare (carryAt V c n hn).l1 ∗ owns (c : Thread nD τ) sM5 fullShare (carryAt V c n hn).a1) ∗ others3 c) ∗ (∃ r, prngReg c r)) := rfl

theorem heldAt_pos (c : Dev nD) (n : ℕ) (h : n ≤ cfg3.N) (hz : n ≠ 0) :
    heldAt V c n h = iprop(iprop(iprop(owns (c : Thread nD τ) sM0 fullShare (carryAt V c (n - 1) (by omega)).m0 ∗ owns (c : Thread nD τ) sM1 fullShare (carryAt V c (n - 1) (by omega)).l0 ∗ owns (c : Thread nD τ) sM2 fullShare (carryAt V c (n - 1) (by omega)).a0 ∗ owns (c : Thread nD τ) sM3 fullShare (carryAt V c (n - 1) (by omega)).m1 ∗ owns (c : Thread nD τ) sM4 fullShare (carryAt V c (n - 1) (by omega)).l1 ∗ owns (c : Thread nD τ) sM5 fullShare (carryAt V c (n - 1) (by omega)).a1) ∗ others3 c) ∗ (∃ r, prngReg c r)) := by
  cases n with
  | zero => exact absurd rfl hz
  | succ n => rfl

/-- Forgetting what the scratch buffers hold gives back what the stage was handed. -/
theorem heldAt_forget (c : Dev nD) (n : ℕ) (h : n ≤ cfg3.N) : heldAt V c n h ⊢ Pipeline.ΦA spec3 c := by
  by_cases hz : n = 0
  · rw [heldAt_zero V c n h hz]
  · rw [heldAt_pos V c n h hz, held3_eq]
    iintro ⟨⟨⟨S0, S1, S2, S3, S4, S5⟩, Hr⟩, Hg⟩
    isplitl [S0 S1 S2 S3 S4 S5 Hr]
    · isplitl [S0 S1 S2 S3 S4 S5]
      · isplitl [S0]; · iexists _; iexact S0
        isplitl [S1]; · iexists _; iexact S1
        isplitl [S2]; · iexists _; iexact S2
        isplitl [S3]; · iexists _; iexact S3
        isplitl [S4]; · iexists _; iexact S4
        iexists _; iexact S5
      iexact Hr
    iexact Hg

/-- The same, with the six scratch buffers listed. -/
theorem heldAt_open (c : Dev nD) (n : ℕ) (h : n ≤ cfg3.N) : heldAt V c n h ⊢
    (iprop(iprop(iprop((∃ d, owns (c : Thread nD τ) sM0 fullShare d) ∗ (∃ d, owns (c : Thread nD τ) sM1 fullShare d) ∗ (∃ d, owns (c : Thread nD τ) sM2 fullShare d)
          ∗ (∃ d, owns (c : Thread nD τ) sM3 fullShare d) ∗ (∃ d, owns (c : Thread nD τ) sM4 fullShare d) ∗ (∃ d, owns (c : Thread nD τ) sM5 fullShare d))
          ∗ others3 c) ∗ (∃ r, prngReg c r)) : sProp 𝕄) := by
  have h1 := heldAt_forget V c n h
  rw [held3_eq] at h1
  exact h1

/-! ## The stage's proof data -/

/-- What is recorded of the stage on core `c`: the arrays as the stage finds them; after point `t` the three input
    buffers still at their blocks and the output buffer at `outAt3`; between points what `heldAt` says; nothing
    owed. -/
def dat3 (c : Dev nD) : Dat τ (Elt F) Unit ℕ (UR sig nD τ) ℕ cfg3 c where
  A w := V c (Pipeline.arrRef spec3 w)
  after w t := match w with
    | ⟨0, _⟩ => tile3 V c 0 t
    | ⟨1, _⟩ => tile3 V c 1 t
    | ⟨2, _⟩ => tile3 V c 2 t
    | ⟨3, _⟩ => outAt3 V c t
  Φ t := heldAt V c t.val (Nat.le_of_lt_succ t.isLt)
  q _ := fullShare
  owed _ := 0

theorem dat3_A (c : Dev nD) (w : Fin cfg3.W) : (dat3 V c).A w = V c (Pipeline.arrRef spec3 w) := by dsimp only [dat3]
theorem heldAt_castSucc (c : Dev nD) (t : Fin cfg3.N) :
    (dat3 V c).Φ t.castSucc = heldAt V c t.val (Nat.le_of_lt t.isLt) := by
  dsimp only [dat3]; simp only [Fin.coe_castSucc]
theorem dat3_after0 (c : Dev nD) (t : Fin cfg3.N) : (dat3 V c).after 0 t = tile3 V c 0 t := by dsimp only [dat3]
theorem dat3_after1 (c : Dev nD) (t : Fin cfg3.N) : (dat3 V c).after 1 t = tile3 V c 1 t := by dsimp only [dat3]
theorem dat3_after2 (c : Dev nD) (t : Fin cfg3.N) : (dat3 V c).after 2 t = tile3 V c 2 t := by dsimp only [dat3]
theorem dat3_after3 (c : Dev nD) (t : Fin cfg3.N) : (dat3 V c).after 3 t = outAt3 V c t := by dsimp only [dat3]
theorem dat3_staged0 (c : Dev nD) (t : Fin cfg3.N) (d) : (dat3 V c).before 0 t d = tile3 V c 0 t :=
  staged3_0_of V (dat3 V c) (dat3_A V c 0) (dat3_after0 V c) t d
theorem dat3_staged1 (c : Dev nD) (t : Fin cfg3.N) (d) : (dat3 V c).before 1 t d = tile3 V c 1 t :=
  staged3_1_of V (dat3 V c) (dat3_A V c 1) (dat3_after1 V c) t d
theorem dat3_staged2 (c : Dev nD) (t : Fin cfg3.N) (d) : (dat3 V c).before 2 t d = tile3 V c 2 t :=
  staged3_2_of V (dat3 V c) (dat3_A V c 2) (dat3_after2 V c) t d

end Cert.Kernel.Hand

end
-- ==== Proof.BitsAttn.lean ====
/-
  The attention stage's body, run at any point, turns what the stage keeps before the point into what it keeps
  after it: the key-tile coordinate says which of the three cases the point is in, and that case's run applies.
-/
import proofs.«180034_j81982335746566_2_alg».proof.Proof.BitsAttnCarry

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The body at a generic point -/

/-- What the body is entered with at point `t`, -/
def enter3 (c : Dev nD) (t : Fin cfg3.N) : sProp 𝕄 :=
  iprop((dat3 V c).Φ t.castSucc ∗ (dat3 V c).owesAt () t.castSucc
    ∗ (∃ d, owns (c : Thread nD τ) (qM t) fullShare ((dat3 V c).before 0 t d))
    ∗ (∃ d, owns (c : Thread nD τ) (kM t) fullShare ((dat3 V c).before 1 t d))
    ∗ (∃ d, owns (c : Thread nD τ) (vM t) fullShare ((dat3 V c).before 2 t d))
    ∗ (∃ d, owns (c : Thread nD τ) (oM t) fullShare ((dat3 V c).before 3 t d)))

/-- and what it hands back. -/
def leave3 (c : Dev nD) (t : Fin cfg3.N) : sProp 𝕄 :=
  iprop((dat3 V c).Φ t.succ ∗ (dat3 V c).owesAt () t.succ
    ∗ (dat3 V c).leavesExact 0 t ∗ (dat3 V c).leavesExact 1 t ∗ (dat3 V c).leavesExact 2 t ∗ (dat3 V c).leavesExact 3 t)

set_option maxHeartbeats 8000000 in
/-- At every point the three input buffers hold their blocks; the key-tile coordinate says which case the point is
    in; the run of that case applies, entered with the scratch buffers at what the point before left (at anything,
    at a first key tile) and left with them at this point's contents. -/
theorem point3 (c : Dev nD) (t : Fin cfg3.N) :
    enter3 V c t ⊢ wp frame (wpE (defs₀ (F := F)) Variants.none c none) Set.univ (bodyAt3 t) (fun _ => leave3 V c t) := by
  unfold enter3 leave3 bodyAt3
  simp only [dat3_staged0, dat3_staged1, dat3_staged2]
  rw [show (dat3 V c).owesAt () t.succ = (dat3 V c).owesAt () t.castSucc from rfl]
  rw [show (dat3 V c).Φ t.succ = heldAt V c (t.val + 1) t.isLt from rfl, heldAt_succ]
  rw [show (dat3 V c).leavesExact 0 t = owns (c : Thread nD τ) (qM t) fullShare ((dat3 V c).after 0 t) from by
    unfold Dat.leavesExact; rw [live3_0 t], dat3_after0]
  rw [show (dat3 V c).leavesExact 1 t = owns (c : Thread nD τ) (kM t) fullShare ((dat3 V c).after 1 t) from by
    unfold Dat.leavesExact; rw [live3_1 t], dat3_after1]
  rw [show (dat3 V c).leavesExact 2 t = owns (c : Thread nD τ) (vM t) fullShare ((dat3 V c).after 2 t) from by
    unfold Dat.leavesExact; rw [live3_2 t], dat3_after2]
  by_cases h0 : t.val % 8 = 0
  · have h7 : ¬t.val % 8 = 7 := by omega
    rw [Dat.leavesExact_idle (dat3 V c) 3 t (idle3_out t (fun h => h7 ((last3_iff t).mp h))) (keep3_out t (fun h => h7 ((last3_iff t).mp h)))]
    rw [carryAt_first V c t h0 h7]
    unfold firstCarry; (try dsimp only)
    rw [heldAt_castSucc V c t]
    iintro ⟨Hh, Hw, ⟨%d0, H0⟩, ⟨%d1, H1⟩, ⟨%d2, H2⟩, ⟨%d3, H3⟩⟩
    ihave Hh' := (heldAt_open V c _ _) $$ Hh
    icases Hh' with ⟨⟨⟨S0, S1, S2, S3, S4, S5⟩, Hr⟩, Hg⟩
    iapply ((firstStep c (grid3.coords t) _ _ _ _ _ _ _ _ _ _ _ _ _ _ _ _ _ _ _ _ ((first3_iff t).mpr h0) (fun h => h7 ((last3_iff t).mp h)) (tile3 V c 0 t) (tile3 V c 1 t) (tile3 V c 2 t)).2.2.2.2.2.2 _ Set.univ _)
    isplitl [H0]; · iexact H0
    isplitl [H1]; · iexact H1
    isplitl [H2]; · iexact H2
    isplitl [H3]; · iexact H3
    isplitl [S0]; · iexact S0
    isplitl [S1]; · iexact S1
    isplitl [S2]; · iexact S2
    isplitl [S3]; · iexact S3
    isplitl [S4]; · iexact S4
    isplitl [S5]; · iexact S5
    iintro ⟨H0, H1, H2, H3, ⟨%e0, S0⟩, ⟨%e1, S1⟩, ⟨%e2, S2⟩, ⟨%e3, S3⟩, ⟨%e4, S4⟩, ⟨%e5, S5⟩⟩
    isplitl [S0 S1 S2 S3 S4 S5 Hr Hg]
    · isplitl [S0 S1 S2 S3 S4 S5 Hr]
      · isplitl [S0 S1 S2 S3 S4 S5]
        · skip
          isplitl [S0]; · (unfold owns; iexists _; isplitr; (swap; iexact S0); ipureintro; exact View.read_writes_of_cover _ _ _ _ _ (first_cover0 (F := F) c _ _ _ _ _ _ _ _ _ _ _ _ _ _ _ _ _ _ _ _ _ _ _ _ _ _))
          isplitl [S1]; · (unfold owns; iexists _; isplitr; (swap; iexact S1); ipureintro; exact View.read_writes_of_cover _ _ _ _ _ (first_cover1 (F := F) c _ _ _ _ _ _ _ _ _ _ _ _ _ _ _ _ _ _ _ _ _ _ _ _ _ _))
          isplitl [S2]; · (unfold owns; iexists _; isplitr; (swap; iexact S2); ipureintro; exact View.read_writes_of_cover _ _ _ _ _ (first_cover2 (F := F) c _ _ _ _ _ _ _ _ _ _ _ _ _ _ _ _ _ _ _ _ _ _ _ _ _ _))
          isplitl [S3]; · (unfold owns; iexists _; isplitr; (swap; iexact S3); ipureintro; exact View.read_writes_of_cover _ _ _ _ _ (first_cover3 (F := F) c _ _ _ _ _ _ _ _ _ _ _ _ _ _ _ _ _ _ _ _ _ _ _ _ _ _))
          isplitl [S4]; · (unfold owns; iexists _; isplitr; (swap; iexact S4); ipureintro; exact View.read_writes_of_cover _ _ _ _ _ (first_cover4 (F := F) c _ _ _ _ _ _ _ _ _ _ _ _ _ _ _ _ _ _ _ _ _ _ _ _ _ _))
          (unfold owns; iexists _; isplitr; (swap; iexact S5); ipureintro; exact View.read_writes_of_cover _ _ _ _ _ (first_cover5 (F := F) c _ _ _ _ _ _ _ _ _ _ _ _ _ _ _ _ _ _ _ _ _ _ _ _ _ _))
        iexact Hr
      iexact Hg
    isplitl [Hw]; · iexact Hw
    isplitl [H0]; · iexact H0
    isplitl [H1]; · iexact H1
    isplitl [H2]; · iexact H2
    iexists _; iexact H3
  · have hz : t.val ≠ 0 := fun e => h0 (by rw [e])
    by_cases h7 : t.val % 8 = 7
    · rw [show (dat3 V c).leavesExact 3 t = owns (c : Thread nD τ) (oM t) fullShare ((dat3 V c).after 3 t) from by
        unfold Dat.leavesExact; rw [live3_out t ((last3_iff t).mpr h7)], dat3_after3]
      rw [carryAt_last V c t h0 h7, outAt3_last V c t h0 h7]
      unfold lastCarry lastOut; (try dsimp only)
      rw [heldAt_castSucc V c t, heldAt_pos V c _ _ hz]
      iintro ⟨⟨⟨⟨S0, S1, S2, S3, S4, S5⟩, Hr⟩, Hg⟩, Hw, ⟨%d0, H0⟩, ⟨%d1, H1⟩, ⟨%d2, H2⟩, ⟨%d3, H3⟩⟩
      iapply ((lastStep c (grid3.coords t) _ _ _ _ _ _ _ _ _ _ _ _ _ _ _ _ _ _ _ _ (fun h => h0 ((first3_iff t).mp h)) ((last3_iff t).mpr h7) (tile3 V c 0 t) (tile3 V c 1 t) (tile3 V c 2 t) _ _ _ _ _ _).2.2.2.2.2.2.2 Set.univ _)
      isplitl [H0]; · iexact H0
      isplitl [H1]; · iexact H1
      isplitl [H2]; · iexact H2
      isplitl [H3]; · iexists _; iexact H3
      isplitl [S0]; · iexact S0
      isplitl [S1]; · iexact S1
      isplitl [S2]; · iexact S2
      isplitl [S3]; · iexact S3
      isplitl [S4]; · iexact S4
      isplitl [S5]; · iexact S5
      iintro ⟨H0, H1, H2, ⟨%eo, H3⟩, ⟨%e0, S0⟩, ⟨%e1, S1⟩, ⟨%e2, S2⟩, ⟨%e3, S3⟩, ⟨%e4, S4⟩, ⟨%e5, S5⟩⟩
      isplitl [S0 S1 S2 S3 S4 S5 Hr Hg]
      · isplitl [S0 S1 S2 S3 S4 S5 Hr]
        · isplitl [S0 S1 S2 S3 S4 S5]
          · skip
            isplitl [S0]; · (unfold owns; iexists _; isplitr; (swap; iexact S0); ipureintro; exact View.read_writes_of_cover _ _ _ _ _ (last_cover0 (F := F) c _ _ _ _ _ _ _ _ _ _ _ _ _ _ _ _ _ _ _ _ _ _ _ _ _ _ _ _ _ _ _ _))
            isplitl [S1]; · (unfold owns; iexists _; isplitr; (swap; iexact S1); ipureintro; exact View.read_writes_of_cover _ _ _ _ _ (last_cover1 (F := F) c _ _ _ _ _ _ _ _ _ _ _ _ _ _ _ _ _ _ _ _ _ _ _ _ _ _ _ _ _ _ _ _))
            isplitl [S2]; · (unfold owns; iexists _; isplitr; (swap; iexact S2); ipureintro; exact View.read_writes_of_cover _ _ _ _ _ (last_cover2 (F := F) c _ _ _ _ _ _ _ _ _ _ _ _ _ _ _ _ _ _ _ _ _ _ _ _ _ _ _ _ _ _ _ _))
            isplitl [S3]; · (unfold owns; iexists _; isplitr; (swap; iexact S3); ipureintro; exact View.read_writes_of_cover _ _ _ _ _ (last_cover3 (F := F) c _ _ _ _ _ _ _ _ _ _ _ _ _ _ _ _ _ _ _ _ _ _ _ _ _ _ _ _ _ _ _ _))
            isplitl [S4]; · (unfold owns; iexists _; isplitr; (swap; iexact S4); ipureintro; exact View.read_writes_of_cover _ _ _ _ _ (last_cover4 (F := F) c _ _ _ _ _ _ _ _ _ _ _ _ _ _ _ _ _ _ _ _ _ _ _ _ _ _ _ _ _ _ _ _))
            (unfold owns; iexists _; isplitr; (swap; iexact S5); ipureintro; exact View.read_writes_of_cover _ _ _ _ _ (last_cover5 (F := F) c _ _ _ _ _ _ _ _ _ _ _ _ _ _ _ _ _ _ _ _ _ _ _ _ _ _ _ _ _ _ _ _))
          iexact Hr
        iexact Hg
      isplitl [Hw]; · iexact Hw
      isplitl [H0]; · iexact H0
      isplitl [H1]; · iexact H1
      isplitl [H2]; · iexact H2
      unfold owns; iexists _; isplitr
      swap; · iexact H3
      ipureintro; exact View.read_writes_of_cover _ _ _ _ _ (last_coverO (F := F) c _ _ _ _ _ _ _ _ _ _ _ _ _ _ _ _ _ _ _ _ _ _ _ _ _ _ _ _ _ _ _ _)
    · rw [Dat.leavesExact_idle (dat3 V c) 3 t (idle3_out t (fun h => h7 ((last3_iff t).mp h))) (keep3_out t (fun h => h7 ((last3_iff t).mp h)))]
      rw [carryAt_mid V c t h0 h7]
      unfold midCarry; (try dsimp only)
      rw [heldAt_castSucc V c t, heldAt_pos V c _ _ hz]
      iintro ⟨⟨⟨⟨S0, S1, S2, S3, S4, S5⟩, Hr⟩, Hg⟩, Hw, ⟨%d0, H0⟩, ⟨%d1, H1⟩, ⟨%d2, H2⟩, ⟨%d3, H3⟩⟩
      iapply ((midStep c (grid3.coords t) _ _ _ _ _ _ _ _ _ _ _ _ _ _ _ _ _ _ _ _ (fun h => h0 ((first3_iff t).mp h)) (fun h => h7 ((last3_iff t).mp h)) (tile3 V c 0 t) (tile3 V c 1 t) (tile3 V c 2 t) _ _ _ _ _ _).2.2.2.2.2.2 _ Set.univ _)
      isplitl [H0]; · iexact H0
      isplitl [H1]; · iexact H1
      isplitl [H2]; · iexact H2
      isplitl [H3]; · iexact H3
      isplitl [S0]; · iexact S0
      isplitl [S1]; · iexact S1
      isplitl [S2]; · iexact S2
      isplitl [S3]; · iexact S3
      isplitl [S4]; · iexact S4
      isplitl [S5]; · iexact S5
      iintro ⟨H0, H1, H2, H3, ⟨%e0, S0⟩, ⟨%e1, S1⟩, ⟨%e2, S2⟩, ⟨%e3, S3⟩, ⟨%e4, S4⟩, ⟨%e5, S5⟩⟩
      isplitl [S0 S1 S2 S3 S4 S5 Hr Hg]
      · isplitl [S0 S1 S2 S3 S4 S5 Hr]
        · isplitl [S0 S1 S2 S3 S4 S5]
          · skip
            isplitl [S0]; · (unfold owns; iexists _; isplitr; (swap; iexact S0); ipureintro; exact View.read_writes_of_cover _ _ _ _ _ (mid_cover0 (F := F) c _ _ _ _ _ _ _ _ _ _ _ _ _ _ _ _ _ _ _ _ _ _ _ _ _ _ _ _ _ _ _ _))
            isplitl [S1]; · (unfold owns; iexists _; isplitr; (swap; iexact S1); ipureintro; exact View.read_writes_of_cover _ _ _ _ _ (mid_cover1 (F := F) c _ _ _ _ _ _ _ _ _ _ _ _ _ _ _ _ _ _ _ _ _ _ _ _ _ _ _ _ _ _ _ _))
            isplitl [S2]; · (unfold owns; iexists _; isplitr; (swap; iexact S2); ipureintro; exact View.read_writes_of_cover _ _ _ _ _ (mid_cover2 (F := F) c _ _ _ _ _ _ _ _ _ _ _ _ _ _ _ _ _ _ _ _ _ _ _ _ _ _ _ _ _ _ _ _))
            isplitl [S3]; · (unfold owns; iexists _; isplitr; (swap; iexact S3); ipureintro; exact View.read_writes_of_cover _ _ _ _ _ (mid_cover3 (F := F) c _ _ _ _ _ _ _ _ _ _ _ _ _ _ _ _ _ _ _ _ _ _ _ _ _ _ _ _ _ _ _ _))
            isplitl [S4]; · (unfold owns; iexists _; isplitr; (swap; iexact S4); ipureintro; exact View.read_writes_of_cover _ _ _ _ _ (mid_cover4 (F := F) c _ _ _ _ _ _ _ _ _ _ _ _ _ _ _ _ _ _ _ _ _ _ _ _ _ _ _ _ _ _ _ _))
            (unfold owns; iexists _; isplitr; (swap; iexact S5); ipureintro; exact View.read_writes_of_cover _ _ _ _ _ (mid_cover5 (F := F) c _ _ _ _ _ _ _ _ _ _ _ _ _ _ _ _ _ _ _ _ _ _ _ _ _ _ _ _ _ _ _ _))
          iexact Hr
        iexact Hg
      isplitl [Hw]; · iexact Hw
      isplitl [H0]; · iexact H0
      isplitl [H1]; · iexact H1
      isplitl [H2]; · iexact H2
      iexists _; iexact H3

/-- The body's obligation to the pipeline, at every point. -/
theorem obligation3 (c : Dev nD) : BodyObligation (dat3 (F := F) V c) (defs₀ (F := F)) Variants.none () Set.univ := fun t => by
  rw [bigSep_W3, bigSep_W3]
  exact point3 V c t

/-- What the stage is handed is what it keeps before the first point, -/
theorem held_in3 (c : Dev nD) : Pipeline.ΦA spec3 c ⊢ (dat3 V c).Φ 0 := by
  rw [show (dat3 V c).Φ 0 = heldAt V c 0 (Nat.zero_le _) from rfl, heldAt_zero V c 0 _ rfl]
  try exact Idealize.SL.BI.Entails.refl _

/-- and after the last point it gives that back. -/
theorem held_out3 (c : Dev nD) : (dat3 V c).Φ (Fin.last cfg3.N) ⊢ Pipeline.ΦA spec3 c := by
  rw [show (dat3 V c).Φ (Fin.last cfg3.N) = heldAt V c (Fin.last cfg3.N).val (Nat.le_of_lt_succ (Fin.last cfg3.N).isLt) from rfl]
  exact heldAt_forget V c _ _

end Cert.Kernel.Hand

end
-- ==== Proof.BitsRun.lean ====
/-
  The whole program as eleven segments — six stretches of host operations around five kernel stages — and what
  every unscoped buffer holds at each of the twelve boundaries: a fold from the launch memory, a host stretch
  applying its operations, a stage replacing its arrays by what its write-backs leave and touching nothing else.
  One launch over the segments shows that every execution ends with every buffer at the end of that fold. No
  stretch and no stage writes an argument, so each argument is read back through the fold to its launch contents.
-/
import proofs.«180034_j81982335746566_2_alg».proof.Proof.BitsProj0
import proofs.«180034_j81982335746566_2_alg».proof.Proof.BitsProj1
import proofs.«180034_j81982335746566_2_alg».proof.Proof.BitsProj2
import proofs.«180034_j81982335746566_2_alg».proof.Proof.BitsProj4
import proofs.«180034_j81982335746566_2_alg».proof.Proof.BitsAttn
import proofs.«180034_j81982335746566_2_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers at each boundary -/

/-- At launch. -/
abbrev B0 : Dev nD → Valuation τ sig (Elt F) := fun c b => m (c, b)
/-- After host stretch 0 (where stage 0 starts). -/
abbrev B1 : Dev nD → Valuation τ sig (Elt F) := fun c => StableHlo.after hostOps0 (B0 m c)
/-- The same, read at the TensorCore's references. -/
abbrev R1 : (c : Dev nD) → (b : Ref sig .tc) → Buf (Elt F) ((c : Thread nD τ).loc b) := fun c b => B1 m c b
/-- After stage 0: its arrays at what its write-backs leave, every other buffer as it was. -/
def B2 (c : Dev nD) : Valuation τ sig (Elt F) :=
  Pipeline.withArrays spec0 c (B1 m c) fun w => (dat0 (R1 m) c).arrAt w cfg0.N
theorem B2_arr (c : Dev nD) (w : Fin cfg0.W) :
    B2 m c (Proc.devRef .tc (Pipeline.arrRef spec0 w)) = (dat0 (R1 m) c).arrAt w cfg0.N := by
  unfold B2; exact Pipeline.withArrays_arr spec0 launch0.win.arr_inj c _ _ w
theorem B2_other (c : Dev nD) (b : Ref sig .tc) (hb : ∀ w, Pipeline.arrRef spec0 w ≠ b) :
    B2 m c (Proc.devRef .tc b) = B1 m c (Proc.devRef .tc b) := by
  unfold B2; exact Pipeline.withArrays_of_ne spec0 c _ _ b hb
abbrev R2 : (c : Dev nD) → (b : Ref sig .tc) → Buf (Elt F) ((c : Thread nD τ).loc b) := fun c b => B2 m c b
theorem arrs0 (c : Dev nD) (w : Fin cfg0.W) : (dat0 (R1 m) c).arrAt w cfg0.N = R2 m c (Pipeline.arrRef spec0 w) :=
  (B2_arr m c w).symm
theorem rest0 (c : Dev nD) : ∀ b, b ∉ Finset.univ.image (Pipeline.arrRef spec0) → R2 m c b = R1 m c b :=
  fun b hb => B2_other m c b fun w e => hb (Finset.mem_image.mpr ⟨w, Finset.mem_univ _, e⟩)
/-- Stage 0 changes no buffer but its output array `main_v4`: an input array comes back as it went in. -/
theorem B2_keep (c : Dev nD) (b : Ref sig .tc) (hb : b ≠ main_v4) : B2 m c (Proc.devRef .tc b) = B1 m c (Proc.devRef .tc b) := by
  by_cases h0 : Pipeline.arrRef spec0 0 = b
  · subst h0; exact (B2_arr m c 0).trans (((dat0 (R1 m) c).arrAt_in 0 rfl _).trans (dat0_A (R1 m) c 0))
  by_cases h1 : Pipeline.arrRef spec0 1 = b
  · subst h1; exact (B2_arr m c 1).trans (((dat0 (R1 m) c).arrAt_in 1 rfl _).trans (dat0_A (R1 m) c 1))
  by_cases h2 : Pipeline.arrRef spec0 2 = b
  · subst h2; exact (B2_arr m c 2).trans (((dat0 (R1 m) c).arrAt_in 2 rfl _).trans (dat0_A (R1 m) c 2))
  · refine B2_other m c b fun w => ?_
    match w with
    | ⟨0, _⟩ => exact h0
    | ⟨1, _⟩ => exact h1
    | ⟨2, _⟩ => exact h2
    | ⟨3, _⟩ => exact fun e => hb e.symm
/-- After host stretch 1 (where stage 1 starts). -/
abbrev B3 : Dev nD → Valuation τ sig (Elt F) := fun c => StableHlo.after hostOps1 (B2 m c)
/-- The same, read at the TensorCore's references. -/
abbrev R3 : (c : Dev nD) → (b : Ref sig .tc) → Buf (Elt F) ((c : Thread nD τ).loc b) := fun c b => B3 m c b
/-- After stage 1: its arrays at what its write-backs leave, every other buffer as it was. -/
def B4 (c : Dev nD) : Valuation τ sig (Elt F) :=
  Pipeline.withArrays spec1 c (B3 m c) fun w => (dat1 (R3 m) c).arrAt w cfg1.N
theorem B4_arr (c : Dev nD) (w : Fin cfg1.W) :
    B4 m c (Proc.devRef .tc (Pipeline.arrRef spec1 w)) = (dat1 (R3 m) c).arrAt w cfg1.N := by
  unfold B4; exact Pipeline.withArrays_arr spec1 launch1.win.arr_inj c _ _ w
theorem B4_other (c : Dev nD) (b : Ref sig .tc) (hb : ∀ w, Pipeline.arrRef spec1 w ≠ b) :
    B4 m c (Proc.devRef .tc b) = B3 m c (Proc.devRef .tc b) := by
  unfold B4; exact Pipeline.withArrays_of_ne spec1 c _ _ b hb
abbrev R4 : (c : Dev nD) → (b : Ref sig .tc) → Buf (Elt F) ((c : Thread nD τ).loc b) := fun c b => B4 m c b
theorem arrs1 (c : Dev nD) (w : Fin cfg1.W) : (dat1 (R3 m) c).arrAt w cfg1.N = R4 m c (Pipeline.arrRef spec1 w) :=
  (B4_arr m c w).symm
theorem rest1 (c : Dev nD) : ∀ b, b ∉ Finset.univ.image (Pipeline.arrRef spec1) → R4 m c b = R3 m c b :=
  fun b hb => B4_other m c b fun w e => hb (Finset.mem_image.mpr ⟨w, Finset.mem_univ _, e⟩)
/-- Stage 1 changes no buffer but its output array `main_v7`: an input array comes back as it went in. -/
theorem B4_keep (c : Dev nD) (b : Ref sig .tc) (hb : b ≠ main_v7) : B4 m c (Proc.devRef .tc b) = B3 m c (Proc.devRef .tc b) := by
  by_cases h0 : Pipeline.arrRef spec1 0 = b
  · subst h0; exact (B4_arr m c 0).trans (((dat1 (R3 m) c).arrAt_in 0 rfl _).trans (dat1_A (R3 m) c 0))
  by_cases h1 : Pipeline.arrRef spec1 1 = b
  · subst h1; exact (B4_arr m c 1).trans (((dat1 (R3 m) c).arrAt_in 1 rfl _).trans (dat1_A (R3 m) c 1))
  by_cases h2 : Pipeline.arrRef spec1 2 = b
  · subst h2; exact (B4_arr m c 2).trans (((dat1 (R3 m) c).arrAt_in 2 rfl _).trans (dat1_A (R3 m) c 2))
  · refine B4_other m c b fun w => ?_
    match w with
    | ⟨0, _⟩ => exact h0
    | ⟨1, _⟩ => exact h1
    | ⟨2, _⟩ => exact h2
    | ⟨3, _⟩ => exact fun e => hb e.symm
/-- After host stretch 2 (where stage 2 starts). -/
abbrev B5 : Dev nD → Valuation τ sig (Elt F) := fun c => StableHlo.after hostOps2 (B4 m c)
/-- The same, read at the TensorCore's references. -/
abbrev R5 : (c : Dev nD) → (b : Ref sig .tc) → Buf (Elt F) ((c : Thread nD τ).loc b) := fun c b => B5 m c b
/-- After stage 2: its arrays at what its write-backs leave, every other buffer as it was. -/
def B6 (c : Dev nD) : Valuation τ sig (Elt F) :=
  Pipeline.withArrays spec2 c (B5 m c) fun w => (dat2 (R5 m) c).arrAt w cfg2.N
theorem B6_arr (c : Dev nD) (w : Fin cfg2.W) :
    B6 m c (Proc.devRef .tc (Pipeline.arrRef spec2 w)) = (dat2 (R5 m) c).arrAt w cfg2.N := by
  unfold B6; exact Pipeline.withArrays_arr spec2 launch2.win.arr_inj c _ _ w
theorem B6_other (c : Dev nD) (b : Ref sig .tc) (hb : ∀ w, Pipeline.arrRef spec2 w ≠ b) :
    B6 m c (Proc.devRef .tc b) = B5 m c (Proc.devRef .tc b) := by
  unfold B6; exact Pipeline.withArrays_of_ne spec2 c _ _ b hb
abbrev R6 : (c : Dev nD) → (b : Ref sig .tc) → Buf (Elt F) ((c : Thread nD τ).loc b) := fun c b => B6 m c b
theorem arrs2 (c : Dev nD) (w : Fin cfg2.W) : (dat2 (R5 m) c).arrAt w cfg2.N = R6 m c (Pipeline.arrRef spec2 w) :=
  (B6_arr m c w).symm
theorem rest2 (c : Dev nD) : ∀ b, b ∉ Finset.univ.image (Pipeline.arrRef spec2) → R6 m c b = R5 m c b :=
  fun b hb => B6_other m c b fun w e => hb (Finset.mem_image.mpr ⟨w, Finset.mem_univ _, e⟩)
/-- Stage 2 changes no buffer but its output array `main_v10`: an input array comes back as it went in. -/
theorem B6_keep (c : Dev nD) (b : Ref sig .tc) (hb : b ≠ main_v10) : B6 m c (Proc.devRef .tc b) = B5 m c (Proc.devRef .tc b) := by
  by_cases h0 : Pipeline.arrRef spec2 0 = b
  · subst h0; exact (B6_arr m c 0).trans (((dat2 (R5 m) c).arrAt_in 0 rfl _).trans (dat2_A (R5 m) c 0))
  by_cases h1 : Pipeline.arrRef spec2 1 = b
  · subst h1; exact (B6_arr m c 1).trans (((dat2 (R5 m) c).arrAt_in 1 rfl _).trans (dat2_A (R5 m) c 1))
  by_cases h2 : Pipeline.arrRef spec2 2 = b
  · subst h2; exact (B6_arr m c 2).trans (((dat2 (R5 m) c).arrAt_in 2 rfl _).trans (dat2_A (R5 m) c 2))
  · refine B6_other m c b fun w => ?_
    match w with
    | ⟨0, _⟩ => exact h0
    | ⟨1, _⟩ => exact h1
    | ⟨2, _⟩ => exact h2
    | ⟨3, _⟩ => exact fun e => hb e.symm
/-- After host stretch 3 (where stage 3 starts). -/
abbrev B7 : Dev nD → Valuation τ sig (Elt F) := fun c => StableHlo.after hostOps3 (B6 m c)
/-- The same, read at the TensorCore's references. -/
abbrev R7 : (c : Dev nD) → (b : Ref sig .tc) → Buf (Elt F) ((c : Thread nD τ).loc b) := fun c b => B7 m c b
/-- After stage 3: its arrays at what its write-backs leave, every other buffer as it was. -/
def B8 (c : Dev nD) : Valuation τ sig (Elt F) :=
  Pipeline.withArrays spec3 c (B7 m c) fun w => (dat3 (R7 m) c).arrAt w cfg3.N
theorem B8_arr (c : Dev nD) (w : Fin cfg3.W) :
    B8 m c (Proc.devRef .tc (Pipeline.arrRef spec3 w)) = (dat3 (R7 m) c).arrAt w cfg3.N := by
  unfold B8; exact Pipeline.withArrays_arr spec3 launch3.win.arr_inj c _ _ w
theorem B8_other (c : Dev nD) (b : Ref sig .tc) (hb : ∀ w, Pipeline.arrRef spec3 w ≠ b) :
    B8 m c (Proc.devRef .tc b) = B7 m c (Proc.devRef .tc b) := by
  unfold B8; exact Pipeline.withArrays_of_ne spec3 c _ _ b hb
abbrev R8 : (c : Dev nD) → (b : Ref sig .tc) → Buf (Elt F) ((c : Thread nD τ).loc b) := fun c b => B8 m c b
theorem arrs3 (c : Dev nD) (w : Fin cfg3.W) : (dat3 (R7 m) c).arrAt w cfg3.N = R8 m c (Pipeline.arrRef spec3 w) :=
  (B8_arr m c w).symm
theorem rest3 (c : Dev nD) : ∀ b, b ∉ Finset.univ.image (Pipeline.arrRef spec3) → R8 m c b = R7 m c b :=
  fun b hb => B8_other m c b fun w e => hb (Finset.mem_image.mpr ⟨w, Finset.mem_univ _, e⟩)
/-- Stage 3 changes no buffer but its output array `main_v12`: an input array comes back as it went in. -/
theorem B8_keep (c : Dev nD) (b : Ref sig .tc) (hb : b ≠ main_v12) : B8 m c (Proc.devRef .tc b) = B7 m c (Proc.devRef .tc b) := by
  by_cases h0 : Pipeline.arrRef spec3 0 = b
  · subst h0; exact (B8_arr m c 0).trans (((dat3 (R7 m) c).arrAt_in 0 rfl _).trans (dat3_A (R7 m) c 0))
  by_cases h1 : Pipeline.arrRef spec3 1 = b
  · subst h1; exact (B8_arr m c 1).trans (((dat3 (R7 m) c).arrAt_in 1 rfl _).trans (dat3_A (R7 m) c 1))
  by_cases h2 : Pipeline.arrRef spec3 2 = b
  · subst h2; exact (B8_arr m c 2).trans (((dat3 (R7 m) c).arrAt_in 2 rfl _).trans (dat3_A (R7 m) c 2))
  · refine B8_other m c b fun w => ?_
    match w with
    | ⟨0, _⟩ => exact h0
    | ⟨1, _⟩ => exact h1
    | ⟨2, _⟩ => exact h2
    | ⟨3, _⟩ => exact fun e => hb e.symm
/-- After host stretch 4 (where stage 4 starts). -/
abbrev B9 : Dev nD → Valuation τ sig (Elt F) := fun c => StableHlo.after hostOps4 (B8 m c)
/-- The same, read at the TensorCore's references. -/
abbrev R9 : (c : Dev nD) → (b : Ref sig .tc) → Buf (Elt F) ((c : Thread nD τ).loc b) := fun c b => B9 m c b
/-- After stage 4: its arrays at what its write-backs leave, every other buffer as it was. -/
def B10 (c : Dev nD) : Valuation τ sig (Elt F) :=
  Pipeline.withArrays spec4 c (B9 m c) fun w => (dat4 (R9 m) c).arrAt w cfg4.N
theorem B10_arr (c : Dev nD) (w : Fin cfg4.W) :
    B10 m c (Proc.devRef .tc (Pipeline.arrRef spec4 w)) = (dat4 (R9 m) c).arrAt w cfg4.N := by
  unfold B10; exact Pipeline.withArrays_arr spec4 launch4.win.arr_inj c _ _ w
theorem B10_other (c : Dev nD) (b : Ref sig .tc) (hb : ∀ w, Pipeline.arrRef spec4 w ≠ b) :
    B10 m c (Proc.devRef .tc b) = B9 m c (Proc.devRef .tc b) := by
  unfold B10; exact Pipeline.withArrays_of_ne spec4 c _ _ b hb
abbrev R10 : (c : Dev nD) → (b : Ref sig .tc) → Buf (Elt F) ((c : Thread nD τ).loc b) := fun c b => B10 m c b
theorem arrs4 (c : Dev nD) (w : Fin cfg4.W) : (dat4 (R9 m) c).arrAt w cfg4.N = R10 m c (Pipeline.arrRef spec4 w) :=
  (B10_arr m c w).symm
theorem rest4 (c : Dev nD) : ∀ b, b ∉ Finset.univ.image (Pipeline.arrRef spec4) → R10 m c b = R9 m c b :=
  fun b hb => B10_other m c b fun w e => hb (Finset.mem_image.mpr ⟨w, Finset.mem_univ _, e⟩)
/-- Stage 4 changes no buffer but its output array `main_v15`: an input array comes back as it went in. -/
theorem B10_keep (c : Dev nD) (b : Ref sig .tc) (hb : b ≠ main_v15) : B10 m c (Proc.devRef .tc b) = B9 m c (Proc.devRef .tc b) := by
  by_cases h0 : Pipeline.arrRef spec4 0 = b
  · subst h0; exact (B10_arr m c 0).trans (((dat4 (R9 m) c).arrAt_in 0 rfl _).trans (dat4_A (R9 m) c 0))
  by_cases h1 : Pipeline.arrRef spec4 1 = b
  · subst h1; exact (B10_arr m c 1).trans (((dat4 (R9 m) c).arrAt_in 1 rfl _).trans (dat4_A (R9 m) c 1))
  by_cases h2 : Pipeline.arrRef spec4 2 = b
  · subst h2; exact (B10_arr m c 2).trans (((dat4 (R9 m) c).arrAt_in 2 rfl _).trans (dat4_A (R9 m) c 2))
  · refine B10_other m c b fun w => ?_
    match w with
    | ⟨0, _⟩ => exact h0
    | ⟨1, _⟩ => exact h1
    | ⟨2, _⟩ => exact h2
    | ⟨3, _⟩ => exact fun e => hb e.symm
/-- After host stretch 5: the end. -/
abbrev B11 : Dev nD → Valuation τ sig (Elt F) := fun c => StableHlo.after hostOps5 (B10 m c)

/-- A host stretch changes no buffer but the ones its operations write. -/
theorem B1_keep (c : Dev nD) (r : Ref sig .tc) (h : r ∉ hostOps0_W) : B1 m c (Proc.devRef .tc r) = B0 m c (Proc.devRef .tc r) :=
  StableHlo.after_of_writes_sub hostOps0 _ hostOps0_writes h
theorem B3_keep (c : Dev nD) (r : Ref sig .tc) (h : r ∉ hostOps1_W) : B3 m c (Proc.devRef .tc r) = B2 m c (Proc.devRef .tc r) :=
  StableHlo.after_of_writes_sub hostOps1 _ hostOps1_writes h
theorem B5_keep (c : Dev nD) (r : Ref sig .tc) (h : r ∉ hostOps2_W) : B5 m c (Proc.devRef .tc r) = B4 m c (Proc.devRef .tc r) :=
  StableHlo.after_of_writes_sub hostOps2 _ hostOps2_writes h
theorem B7_keep (c : Dev nD) (r : Ref sig .tc) (h : r ∉ hostOps3_W) : B7 m c (Proc.devRef .tc r) = B6 m c (Proc.devRef .tc r) :=
  StableHlo.after_of_writes_sub hostOps3 _ hostOps3_writes h
theorem B9_keep (c : Dev nD) (r : Ref sig .tc) (h : r ∉ hostOps4_W) : B9 m c (Proc.devRef .tc r) = B8 m c (Proc.devRef .tc r) :=
  StableHlo.after_of_writes_sub hostOps4 _ hostOps4_writes h
theorem B11_keep (c : Dev nD) (r : Ref sig .tc) (h : r ∉ hostOps5_W) : B11 m c (Proc.devRef .tc r) = B10 m c (Proc.devRef .tc r) :=
  StableHlo.after_of_writes_sub hostOps5 _ hostOps5_writes h

/-! ## The arguments come through unchanged -/
theorem B11_arg0 (c : Dev nD) : B11 m c (Proc.devRef .tc main_arg0) = m ((c : Thread nD τ).loc main_arg0) :=
  (B11_keep m c main_arg0 (by decide)).trans <| (B10_keep m c main_arg0 (by decide)).trans <| (B9_keep m c main_arg0 (by decide)).trans <| (B8_keep m c main_arg0 (by decide)).trans <| (B7_keep m c main_arg0 (by decide)).trans <| (B6_keep m c main_arg0 (by decide)).trans <| (B5_keep m c main_arg0 (by decide)).trans <| (B4_keep m c main_arg0 (by decide)).trans <| (B3_keep m c main_arg0 (by decide)).trans <| (B2_keep m c main_arg0 (by decide)).trans <| (B1_keep m c main_arg0 (by decide)).trans <| rfl
theorem B11_arg1 (c : Dev nD) : B11 m c (Proc.devRef .tc main_arg1) = m ((c : Thread nD τ).loc main_arg1) :=
  (B11_keep m c main_arg1 (by decide)).trans <| (B10_keep m c main_arg1 (by decide)).trans <| (B9_keep m c main_arg1 (by decide)).trans <| (B8_keep m c main_arg1 (by decide)).trans <| (B7_keep m c main_arg1 (by decide)).trans <| (B6_keep m c main_arg1 (by decide)).trans <| (B5_keep m c main_arg1 (by decide)).trans <| (B4_keep m c main_arg1 (by decide)).trans <| (B3_keep m c main_arg1 (by decide)).trans <| (B2_keep m c main_arg1 (by decide)).trans <| (B1_keep m c main_arg1 (by decide)).trans <| rfl
theorem B11_arg2 (c : Dev nD) : B11 m c (Proc.devRef .tc main_arg2) = m ((c : Thread nD τ).loc main_arg2) :=
  (B11_keep m c main_arg2 (by decide)).trans <| (B10_keep m c main_arg2 (by decide)).trans <| (B9_keep m c main_arg2 (by decide)).trans <| (B8_keep m c main_arg2 (by decide)).trans <| (B7_keep m c main_arg2 (by decide)).trans <| (B6_keep m c main_arg2 (by decide)).trans <| (B5_keep m c main_arg2 (by decide)).trans <| (B4_keep m c main_arg2 (by decide)).trans <| (B3_keep m c main_arg2 (by decide)).trans <| (B2_keep m c main_arg2 (by decide)).trans <| (B1_keep m c main_arg2 (by decide)).trans <| rfl
theorem B11_arg3 (c : Dev nD) : B11 m c (Proc.devRef .tc main_arg3) = m ((c : Thread nD τ).loc main_arg3) :=
  (B11_keep m c main_arg3 (by decide)).trans <| (B10_keep m c main_arg3 (by decide)).trans <| (B9_keep m c main_arg3 (by decide)).trans <| (B8_keep m c main_arg3 (by decide)).trans <| (B7_keep m c main_arg3 (by decide)).trans <| (B6_keep m c main_arg3 (by decide)).trans <| (B5_keep m c main_arg3 (by decide)).trans <| (B4_keep m c main_arg3 (by decide)).trans <| (B3_keep m c main_arg3 (by decide)).trans <| (B2_keep m c main_arg3 (by decide)).trans <| (B1_keep m c main_arg3 (by decide)).trans <| rfl
theorem B11_arg4 (c : Dev nD) : B11 m c (Proc.devRef .tc main_arg4) = m ((c : Thread nD τ).loc main_arg4) :=
  (B11_keep m c main_arg4 (by decide)).trans <| (B10_keep m c main_arg4 (by decide)).trans <| (B9_keep m c main_arg4 (by decide)).trans <| (B8_keep m c main_arg4 (by decide)).trans <| (B7_keep m c main_arg4 (by decide)).trans <| (B6_keep m c main_arg4 (by decide)).trans <| (B5_keep m c main_arg4 (by decide)).trans <| (B4_keep m c main_arg4 (by decide)).trans <| (B3_keep m c main_arg4 (by decide)).trans <| (B2_keep m c main_arg4 (by decide)).trans <| (B1_keep m c main_arg4 (by decide)).trans <| rfl
theorem B11_arg5 (c : Dev nD) : B11 m c (Proc.devRef .tc main_arg5) = m ((c : Thread nD τ).loc main_arg5) :=
  (B11_keep m c main_arg5 (by decide)).trans <| (B10_keep m c main_arg5 (by decide)).trans <| (B9_keep m c main_arg5 (by decide)).trans <| (B8_keep m c main_arg5 (by decide)).trans <| (B7_keep m c main_arg5 (by decide)).trans <| (B6_keep m c main_arg5 (by decide)).trans <| (B5_keep m c main_arg5 (by decide)).trans <| (B4_keep m c main_arg5 (by decide)).trans <| (B3_keep m c main_arg5 (by decide)).trans <| (B2_keep m c main_arg5 (by decide)).trans <| (B1_keep m c main_arg5 (by decide)).trans <| rfl
theorem B11_arg6 (c : Dev nD) : B11 m c (Proc.devRef .tc main_arg6) = m ((c : Thread nD τ).loc main_arg6) :=
  (B11_keep m c main_arg6 (by decide)).trans <| (B10_keep m c main_arg6 (by decide)).trans <| (B9_keep m c main_arg6 (by decide)).trans <| (B8_keep m c main_arg6 (by decide)).trans <| (B7_keep m c main_arg6 (by decide)).trans <| (B6_keep m c main_arg6 (by decide)).trans <| (B5_keep m c main_arg6 (by decide)).trans <| (B4_keep m c main_arg6 (by decide)).trans <| (B3_keep m c main_arg6 (by decide)).trans <| (B2_keep m c main_arg6 (by decide)).trans <| (B1_keep m c main_arg6 (by decide)).trans <| rfl
theorem B11_arg7 (c : Dev nD) : B11 m c (Proc.devRef .tc main_arg7) = m ((c : Thread nD τ).loc main_arg7) :=
  (B11_keep m c main_arg7 (by decide)).trans <| (B10_keep m c main_arg7 (by decide)).trans <| (B9_keep m c main_arg7 (by decide)).trans <| (B8_keep m c main_arg7 (by decide)).trans <| (B7_keep m c main_arg7 (by decide)).trans <| (B6_keep m c main_arg7 (by decide)).trans <| (B5_keep m c main_arg7 (by decide)).trans <| (B4_keep m c main_arg7 (by decide)).trans <| (B3_keep m c main_arg7 (by decide)).trans <| (B2_keep m c main_arg7 (by decide)).trans <| (B1_keep m c main_arg7 (by decide)).trans <| rfl
theorem B11_arg8 (c : Dev nD) : B11 m c (Proc.devRef .tc main_arg8) = m ((c : Thread nD τ).loc main_arg8) :=
  (B11_keep m c main_arg8 (by decide)).trans <| (B10_keep m c main_arg8 (by decide)).trans <| (B9_keep m c main_arg8 (by decide)).trans <| (B8_keep m c main_arg8 (by decide)).trans <| (B7_keep m c main_arg8 (by decide)).trans <| (B6_keep m c main_arg8 (by decide)).trans <| (B5_keep m c main_arg8 (by decide)).trans <| (B4_keep m c main_arg8 (by decide)).trans <| (B3_keep m c main_arg8 (by decide)).trans <| (B2_keep m c main_arg8 (by decide)).trans <| (B1_keep m c main_arg8 (by decide)).trans <| rfl
theorem B11_arg9 (c : Dev nD) : B11 m c (Proc.devRef .tc main_arg9) = m ((c : Thread nD τ).loc main_arg9) :=
  (B11_keep m c main_arg9 (by decide)).trans <| (B10_keep m c main_arg9 (by decide)).trans <| (B9_keep m c main_arg9 (by decide)).trans <| (B8_keep m c main_arg9 (by decide)).trans <| (B7_keep m c main_arg9 (by decide)).trans <| (B6_keep m c main_arg9 (by decide)).trans <| (B5_keep m c main_arg9 (by decide)).trans <| (B4_keep m c main_arg9 (by decide)).trans <| (B3_keep m c main_arg9 (by decide)).trans <| (B2_keep m c main_arg9 (by decide)).trans <| (B1_keep m c main_arg9 (by decide)).trans <| rfl
theorem B11_arg10 (c : Dev nD) : B11 m c (Proc.devRef .tc main_arg10) = m ((c : Thread nD τ).loc main_arg10) :=
  (B11_keep m c main_arg10 (by decide)).trans <| (B10_keep m c main_arg10 (by decide)).trans <| (B9_keep m c main_arg10 (by decide)).trans <| (B8_keep m c main_arg10 (by decide)).trans <| (B7_keep m c main_arg10 (by decide)).trans <| (B6_keep m c main_arg10 (by decide)).trans <| (B5_keep m c main_arg10 (by decide)).trans <| (B4_keep m c main_arg10 (by decide)).trans <| (B3_keep m c main_arg10 (by decide)).trans <| (B2_keep m c main_arg10 (by decide)).trans <| (B1_keep m c main_arg10 (by decide)).trans <| rfl

/-! ## The stages as segments -/

/-- Every stage's proof data, each at the contents its stage starts from. -/
def pdats : (p : Fin 5) → (c : Dev nD) → Dat τ (Elt F) Unit ℕ (UR sig nD τ) ℕ (Pipeline.pin (pcfgs (F := F)) adm p) c
  | ⟨0, _⟩ => fun c => dat0 (R1 m) c
  | ⟨1, _⟩ => fun c => dat1 (R3 m) c
  | ⟨2, _⟩ => fun c => dat2 (R5 m) c
  | ⟨3, _⟩ => fun c => dat3 (R7 m) c
  | ⟨4, _⟩ => fun c => dat4 (R9 m) c
abbrev 𝒱₀ : Variants := Variants.none
/-- No core owes another anything. -/
abbrev L : GSem nD τ sig → Finset Unit := fun _ => ∅
abbrev lv : GSem nD τ sig → Unit → ℕ := fun _ _ => 0
/-- What rides beside the buffers through every segment: the generator register at some state, nothing owed. -/
abbrev Ride (c : Dev nD) : sProp 𝕄 := iprop((∃ r, prngReg c r) ∗ ∃ W, owes (c : Thread nD τ) (0 : CellTallies nD τ sig Unit) W)
/-- A host stretch as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Ride
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tend (c : Dev nD) : sProp 𝕄 := iprop(StableHlo.held (c : Thread nD τ) (Pipeline.ucRefs τ sig) (B11 m c) ∗ ∃ r, prngReg c r)

set_option backward.isDefEq.respectTransparency.types false in
/-- Stage 0 over the thread state: entered with every unscoped buffer at boundary 1, left with them at boundary 2. -/
def stage0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (obligation0 (R1 m) c).loose
  hwaits := Pipeline.hwaits_of_owed_zero _ _ _ _ L lv 0 fun _ _ => rfl
  pre c := iprop(StableHlo.held (c : Thread nD τ) (Pipeline.ucRefs τ sig) (B1 m c) ∗ Ride c)
  post c := iprop(StableHlo.held (c : Thread nD τ) (Pipeline.ucRefs τ sig) (B2 m c) ∗ Ride c)
  X c := iprop(∃ r, prngReg c r)
  Y c := iprop(∃ r, prngReg c r)
  Z c := Pipeline.unscopedRest (Ix := Unit) (Name := ℕ) (U := UR sig nD τ) (Lvl := ℕ) spec0 c (R1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (R1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (R1 m c) (R2 m c) ((pdats m 0 c).arrAt · cfg0.N) (arrs0 m c) (rest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Stage 1 over the thread state: entered with every unscoped buffer at boundary 3, left with them at boundary 4. -/
def stage1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (obligation1 (R3 m) c).loose
  hwaits := Pipeline.hwaits_of_owed_zero _ _ _ _ L lv 1 fun _ _ => rfl
  pre c := iprop(StableHlo.held (c : Thread nD τ) (Pipeline.ucRefs τ sig) (B3 m c) ∗ Ride c)
  post c := iprop(StableHlo.held (c : Thread nD τ) (Pipeline.ucRefs τ sig) (B4 m c) ∗ Ride c)
  X c := iprop(∃ r, prngReg c r)
  Y c := iprop(∃ r, prngReg c r)
  Z c := Pipeline.unscopedRest (Ix := Unit) (Name := ℕ) (U := UR sig nD τ) (Lvl := ℕ) spec1 c (R3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (R3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (R3 m c) (R4 m c) ((pdats m 1 c).arrAt · cfg1.N) (arrs1 m c) (rest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Stage 2 over the thread state: entered with every unscoped buffer at boundary 5, left with them at boundary 6. -/
def stage2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (obligation2 (R5 m) c).loose
  hwaits := Pipeline.hwaits_of_owed_zero _ _ _ _ L lv 2 fun _ _ => rfl
  pre c := iprop(StableHlo.held (c : Thread nD τ) (Pipeline.ucRefs τ sig) (B5 m c) ∗ Ride c)
  post c := iprop(StableHlo.held (c : Thread nD τ) (Pipeline.ucRefs τ sig) (B6 m c) ∗ Ride c)
  X c := iprop(∃ r, prngReg c r)
  Y c := iprop(∃ r, prngReg c r)
  Z c := Pipeline.unscopedRest (Ix := Unit) (Name := ℕ) (U := UR sig nD τ) (Lvl := ℕ) spec2 c (R5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (R5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (R5 m c) (R6 m c) ((pdats m 2 c).arrAt · cfg2.N) (arrs2 m c) (rest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Stage 3 over the thread state: entered with every unscoped buffer at boundary 7, left with them at boundary 8. -/
def stage3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (obligation3 (R7 m) c).loose
  hwaits := Pipeline.hwaits_of_owed_zero _ _ _ _ L lv 3 fun _ _ => rfl
  pre c := iprop(StableHlo.held (c : Thread nD τ) (Pipeline.ucRefs τ sig) (B7 m c) ∗ Ride c)
  post c := iprop(StableHlo.held (c : Thread nD τ) (Pipeline.ucRefs τ sig) (B8 m c) ∗ Ride c)
  X c := iprop(∃ r, prngReg c r)
  Y c := iprop(∃ r, prngReg c r)
  Z c := Pipeline.unscopedRest (Ix := Unit) (Name := ℕ) (U := UR sig nD τ) (Lvl := ℕ) spec3 c (R7 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (R7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = (dat3 (R7 m) c).Φ 0 from rfl]
    iintro ⟨Hp, -, Hr⟩
    iapply (held_in3 (R7 m) c)
    unfold Pipeline.ΦA
    isplitl [Hr]; · iexact Hr
    iexact Hp
  hout c := by
    rw [Pipeline.ownSems0_none, show (pdats m 3 c).Φ (Fin.last _) = (dat3 (R7 m) c).Φ (Fin.last cfg3.N) from rfl]
    refine (held_out3 (R7 m) c).trans ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (R7 m c) (R8 m c) ((pdats m 3 c).arrAt · cfg3.N) (arrs3 m c) (rest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Stage 4 over the thread state: entered with every unscoped buffer at boundary 9, left with them at boundary 10. -/
def stage4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (obligation4 (R9 m) c).loose
  hwaits := Pipeline.hwaits_of_owed_zero _ _ _ _ L lv 4 fun _ _ => rfl
  pre c := iprop(StableHlo.held (c : Thread nD τ) (Pipeline.ucRefs τ sig) (B9 m c) ∗ Ride c)
  post c := iprop(StableHlo.held (c : Thread nD τ) (Pipeline.ucRefs τ sig) (B10 m c) ∗ Ride c)
  X c := iprop(∃ r, prngReg c r)
  Y c := iprop(∃ r, prngReg c r)
  Z c := Pipeline.unscopedRest (Ix := Unit) (Name := ℕ) (U := UR sig nD τ) (Lvl := ℕ) spec4 c (R9 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (R9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (R9 m c) (R10 m c) ((pdats m 4 c).arrAt · cfg4.N) (arrs4 m c) (rest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The last stretch's thread state, re-associated: the buffers and the generator register on one side, the core owing
    nothing on the other. -/
theorem tail_assoc (c : Dev nD) :
    (iprop(StableHlo.held (c : Thread nD τ) (Pipeline.ucRefs τ sig) (B11 m c) ∗ Ride c) : sProp 𝕄)
      ⊢ iprop(Tend m c ∗ ∃ W, owes (c : Thread nD τ) (0 : CellTallies nD τ sig Unit) W) := by
  iintro ⟨Hh, ⟨Hp, HO⟩⟩
  isplitl [Hh Hp]
  · isplitl [Hh]; · iexact Hh
    iexact Hp
  iexact HO

/-! ## The launch -/

/-- The eleven segments in order. -/
abbrev segs : List (Pipeline.Seg (pcfgs (F := F)) adm (pdats m) () defs₀ 𝒱₀ L lv) :=
  [ .host (hseg hostOps0 hostOps0_sub hostOps0_fresh (B0 m)),
    .region (stage0 m),
    .host (hseg hostOps1 hostOps1_sub hostOps1_fresh (B2 m)),
    .region (stage1 m),
    .host (hseg hostOps2 hostOps2_sub hostOps2_fresh (B4 m)),
    .region (stage2 m),
    .host (hseg hostOps3 hostOps3_sub hostOps3_fresh (B6 m)),
    .region (stage3 m),
    .host (hseg hostOps4 hostOps4_sub hostOps4_fresh (B8 m)),
    .region (stage4 m),
    .host (hseg hostOps5 hostOps5_sub hostOps5_fresh (B10 m)) ]
/-- The program is the run of the segments. -/
theorem main_run (c : Dev nD) : main (F := F) c = Pipeline.Seg.run (segs m) := (main_chain c).trans (by chain_rfl)

set_option backward.isDefEq.respectTransparency.types false in
/-- From any memory with zero counters, every weakly fair execution of the program on the TensorCores terminates,
    nothing faulting, and every final state has every unscoped buffer at the end of the fold. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B11 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ Ride c)) (Tₙ := Tend m)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => tail_assoc m c⟩)
    (hinit := by
      refine Pipeline.initEach L lv fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B11 m c b)
    (hfin := fun c s' => by
      iintro ⟨⟨Hh, -⟩, HSI⟩
      unfold StableHlo.held
      imodintro
      iapply (pointsTo_read_all (Pipeline.ucRefs τ sig) (fun b => (((c : Thread nD τ)).1, b)) (B11 m c) s')
      isplitl [Hh] <;> iassumption)
    (hQ := fun s h c => h c)

/-- The frame: every argument array ends as launched. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨(h c _ (mem_uc main_arg0 (by decide))).trans (B11_arg0 m c),
    (h c _ (mem_uc main_arg1 (by decide))).trans (B11_arg1 m c),
    (h c _ (mem_uc main_arg2 (by decide))).trans (B11_arg2 m c),
    (h c _ (mem_uc main_arg3 (by decide))).trans (B11_arg3 m c),
    (h c _ (mem_uc main_arg4 (by decide))).trans (B11_arg4 m c),
    (h c _ (mem_uc main_arg5 (by decide))).trans (B11_arg5 m c),
    (h c _ (mem_uc main_arg6 (by decide))).trans (B11_arg6 m c),
    (h c _ (mem_uc main_arg7 (by decide))).trans (B11_arg7 m c),
    (h c _ (mem_uc main_arg8 (by decide))).trans (B11_arg8 m c),
    (h c _ (mem_uc main_arg9 (by decide))).trans (B11_arg9 m c),
    (h c _ (mem_uc main_arg10 (by decide))).trans (B11_arg10 m c)⟩) (run_all m ρ)

end Cert.Kernel.Hand

end
-- ==== Proof.IdealProj0.lean ====
/-
  Projection stage 0 (y = x · Wᵀ + b on a tile of 1024 rows): what one grid point does to its four staged
  blocks. The row tile x, the weight matrix W and the bias row b are read and left as they were; the output tile
  ends holding the one function `k0_pay1` of the three blocks read. The weight and bias blocks are staged at the
  first point only and found unchanged at every later one, because their block index never moves.
-/
import proofs.«180034_j81982335746566_2_alg».proof.Proof.Gen.KernelIdeal.Launch
import proofs.«180034_j81982335746566_2_alg».proof.Proof.Gen.KernelIdeal.Skeleton
import proofs.«180034_j81982335746566_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Block `t` of window `w`'s array, the array taken as the stage finds it. -/
def tile0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds block `t` of its array when point `t` starts, whether the block was
    copied in at `t` or at an earlier point with the same block index. -/
theorem staged0_0_of {c : Dev nD} (dat : Dat τ (Elt F) Unit ℕ (UR sig nD τ) ℕ cfg0 c) (hA : dat.A 0 = V c (Pipeline.arrRef spec0 0))
    (hafter : ∀ t, dat.after 0 t = tile0 V c 0 t) (t : Fin cfg0.N) (d) : dat.before 0 t d = tile0 V c 0 t :=
  (dat.before_in_eq_fetched 0 rfl (fun _ => rfl) (fun _ _ _ => rfl) (fun t => by rw [hafter]; unfold Dat.blockOf tile0; rw [hA]; try rfl) t d).trans
    (by unfold Dat.fetched Dat.blockOf tile0; rw [hA]; try rfl)

/-- Input window 1's staging buffer holds block `t` of its array when point `t` starts, whether the block was
    copied in at `t` or at an earlier point with the same block index. -/
theorem staged0_1_of {c : Dev nD} (dat : Dat τ (Elt F) Unit ℕ (UR sig nD τ) ℕ cfg0 c) (hA : dat.A 1 = V c (Pipeline.arrRef spec0 1))
    (hafter : ∀ t, dat.after 1 t = tile0 V c 1 t) (t : Fin cfg0.N) (d) : dat.before 1 t d = tile0 V c 1 t :=
  (dat.before_in_eq_fetched 1 rfl (fun _ => rfl) (fun _ _ _ => rfl) (fun t => by rw [hafter]; unfold Dat.blockOf tile0; rw [hA]; try rfl) t d).trans
    (by unfold Dat.fetched Dat.blockOf tile0; rw [hA]; try rfl)

/-- Input window 2's staging buffer holds block `t` of its array when point `t` starts, whether the block was
    copied in at `t` or at an earlier point with the same block index. -/
theorem staged0_2_of {c : Dev nD} (dat : Dat τ (Elt F) Unit ℕ (UR sig nD τ) ℕ cfg0 c) (hA : dat.A 2 = V c (Pipeline.arrRef spec0 2))
    (hafter : ∀ t, dat.after 2 t = tile0 V c 2 t) (t : Fin cfg0.N) (d) : dat.before 2 t d = tile0 V c 2 t :=
  (dat.before_in_eq_fetched 2 rfl (fun _ => rfl) (fun _ _ _ => rfl) (fun t => by rw [hafter]; unfold Dat.blockOf tile0; rw [hA]; try rfl) t d).trans
    (by unfold Dat.fetched Dat.blockOf tile0; rw [hA]; try rfl)

/-- The whole output tile, as a rectangle of its staging buffer. -/
abbrev whole0 : Rect S1024x512 := Rect.unit (s := S1024x512) ![0, 0] S1024x512.size inb_S1024x512_S1024x512_0_0

/-- The whole weight block and the whole bias row, as rectangles of their staging buffers. -/
abbrev wholeW0 : Rect S512x512 := Rect.unit (s := S512x512) ![0, 0] S512x512.size inb_S512x512_S512x512_0_0
abbrev wholeB0 : Rect S1x512 := Rect.unit (s := S1x512) ![0, 0] S1x512.size inb_S1x512_S1x512_0_0

/-- The output tile after the body: the single store of the projected rows, computed from the three blocks as the
    body loads them (each whole). -/
def outTile0 (x : Vec F S1024x512 .f32) (w : Vec F S512x512 .f32) (b : Vec F S1x512 .f32) : Vec F S1024x512 .bf16 :=
  View.canon [⟨whole0, k0_pay1 (View.ld x whole0) (View.ld w wholeW0) (View.ld b wholeB0)⟩]

/-- That store writes every entry of the tile. -/
theorem outTile0_cover (p : Vec F S1024x512 .bf16) (y : S1024x512.Idx) :
    ∃ pc ∈ ([⟨whole0, p⟩] : List (View.Piece (Elt F) S1024x512 .bf16)), y ∈ pc.1.set :=
  View.cover_of_tiled [⟨whole0, p⟩] S1024x512.size (by rfl) y

set_option maxHeartbeats 1000000 in
/-- One run of the body: from the three input blocks held at `x`, `w`, `b` and the output tile at anything, it
    returns with the inputs as they were and the output tile at `outTile0 x w b`. -/
theorem body0_run (c : Dev nD) (E : Set ℕ) (i : grid0.Coords)
    (a1 : Memref sig .tc .vmem S1024x512 .f32) (h1 : a1.IsWhole) (a2 : Memref sig .tc .vmem S512x512 .f32) (h2 : a2.IsWhole)
    (a3 : Memref sig .tc .vmem S1x512 .f32) (h3 : a3.IsWhole) (a4 : Memref sig .tc .vmem S1024x512 .bf16) (h4 : a4.IsWhole)
    (x : Vec F S1024x512 .f32) (w : Vec F S512x512 .f32) (b : Vec F S1x512 .f32) (K : PUnit → sProp 𝕄) :
    iprop(owns (c : Thread nD τ) a1 fullShare x ∗ owns (c : Thread nD τ) a2 fullShare w ∗ owns (c : Thread nD τ) a3 fullShare b
        ∗ (∃ d, owns (c : Thread nD τ) a4 fullShare d)
        ∗ (iprop(owns (c : Thread nD τ) a1 fullShare x ∗ owns (c : Thread nD τ) a2 fullShare w ∗ owns (c : Thread nD τ) a3 fullShare b
            ∗ owns (c : Thread nD τ) a4 fullShare (outTile0 x w b)) -∗ K ⟨⟩))
      ⊢ wp frame (wpE (defs₀ (F := F)) Variants.none c none) E (cc0__linear_kernel i a1 h1 a2 h2 a3 h3 a4 h4) K := by
  simp only [cc0__linear_kernel_eq_skeleton]; unfold cc0__linear_kernel_skel
  unfold owns
  iintro ⟨⟨%f1, %hf1, H1⟩, ⟨%f2, %hf2, H2⟩, ⟨%f3, %hf3, H3⟩, ⟨%d4, %f4, -, H4⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (outTile0_cover (F := F) _)

/-! ## The stage's proof data, and the body at a generic point -/

/-- What is recorded of the stage on core `c`: the arrays as the stage finds them; after point `t` the three input
    buffers still at their blocks and the output buffer at the projected tile; nothing else held, nothing owed. -/
def dat0 (c : Dev nD) : Dat τ (Elt F) Unit ℕ (UR sig nD τ) ℕ cfg0 c where
  A w := V c (Pipeline.arrRef spec0 w)
  after w t := match w with
    | ⟨0, _⟩ => tile0 V c 0 t
    | ⟨1, _⟩ => tile0 V c 1 t
    | ⟨2, _⟩ => tile0 V c 2 t
    | ⟨3, _⟩ => outTile0 (tile0 V c 0 t) (tile0 V c 1 t) (tile0 V c 2 t)
  Φ _ := Pipeline.ΦA spec0 c
  q _ := fullShare
  owed _ := 0

theorem dat0_A (c : Dev nD) (w : Fin cfg0.W) : (dat0 V c).A w = V c (Pipeline.arrRef spec0 w) := by
  dsimp only [dat0]
theorem dat0_after0 (c : Dev nD) (t : Fin cfg0.N) : (dat0 V c).after 0 t = tile0 V c 0 t := by dsimp only [dat0]
theorem dat0_after1 (c : Dev nD) (t : Fin cfg0.N) : (dat0 V c).after 1 t = tile0 V c 1 t := by dsimp only [dat0]
theorem dat0_after2 (c : Dev nD) (t : Fin cfg0.N) : (dat0 V c).after 2 t = tile0 V c 2 t := by dsimp only [dat0]
theorem dat0_after3 (c : Dev nD) (t : Fin cfg0.N) :
    (dat0 V c).after 3 t = outTile0 (tile0 V c 0 t) (tile0 V c 1 t) (tile0 V c 2 t) := by dsimp only [dat0]

theorem dat0_staged0 (c : Dev nD) (t : Fin cfg0.N) (d) : (dat0 V c).before 0 t d = tile0 V c 0 t :=
  staged0_0_of V (dat0 V c) (dat0_A V c 0) (dat0_after0 V c) t d
theorem dat0_staged1 (c : Dev nD) (t : Fin cfg0.N) (d) : (dat0 V c).before 1 t d = tile0 V c 1 t :=
  staged0_1_of V (dat0 V c) (dat0_A V c 1) (dat0_after1 V c) t d
theorem dat0_staged2 (c : Dev nD) (t : Fin cfg0.N) (d) : (dat0 V c).before 2 t d = tile0 V c 2 t :=
  staged0_2_of V (dat0 V c) (dat0_A V c 2) (dat0_after2 V c) t d

/-- What the body is entered with at point `t`, -/
def enter0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it hands back. -/
def leave0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- At every point the three input buffers hold their blocks, so the run of the body applies; what the body does
    not touch passes through. -/
theorem point0 (c : Dev nD) (t : Fin cfg0.N) :
    enter0 V c t ⊢ wp frame (wpE (defs₀ (F := F)) Variants.none c none) Set.univ (bodyAt0 t) (fun _ => leave0 V c t) := by
  unfold enter0 leave0 bodyAt0
  simp only [dat0_staged0, dat0_staged1, dat0_staged2]
  rw [show (dat0 V c).Φ t.succ = (dat0 V c).Φ t.castSucc from rfl,
    show (dat0 V c).owesAt () t.succ = (dat0 V c).owesAt () t.castSucc from rfl,
    dat0_after0, dat0_after1, dat0_after2, dat0_after3]
  iintro ⟨HΦ, Ho, ⟨%d0, H0⟩, ⟨%d1, H1⟩, ⟨%d2, H2⟩, ⟨%d3, H3⟩⟩
  iapply (body0_run c Set.univ _ _ _ _ _ _ _ _ _ (tile0 V c 0 t) (tile0 V c 1 t) (tile0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body's obligation to the pipeline, at every point. -/
theorem obligation0 (c : Dev nD) : BodyObligation (dat0 (F := F) V c) (defs₀ (F := F)) Variants.none () Set.univ := fun t => by
  rw [bigSep_W0, bigSep_W0]
  exact point0 V c t

end Cert.KernelIdeal.Hand

end
-- ==== Proof.IdealProj1.lean ====
/-
  Projection stage 1 (y = x · Wᵀ + b on a tile of 1024 rows): what one grid point does to its four staged
  blocks. The row tile x, the weight matrix W and the bias row b are read and left as they were; the output tile
  ends holding the one function `k1_pay1` of the three blocks read. The weight and bias blocks are staged at the
  first point only and found unchanged at every later one, because their block index never moves.
-/
import proofs.«180034_j81982335746566_2_alg».proof.Proof.Gen.KernelIdeal.Launch
import proofs.«180034_j81982335746566_2_alg».proof.Proof.Gen.KernelIdeal.Skeleton
import proofs.«180034_j81982335746566_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Block `t` of window `w`'s array, the array taken as the stage finds it. -/
def tile1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds block `t` of its array when point `t` starts, whether the block was
    copied in at `t` or at an earlier point with the same block index. -/
theorem staged1_0_of {c : Dev nD} (dat : Dat τ (Elt F) Unit ℕ (UR sig nD τ) ℕ cfg1 c) (hA : dat.A 0 = V c (Pipeline.arrRef spec1 0))
    (hafter : ∀ t, dat.after 0 t = tile1 V c 0 t) (t : Fin cfg1.N) (d) : dat.before 0 t d = tile1 V c 0 t :=
  (dat.before_in_eq_fetched 0 rfl (fun _ => rfl) (fun _ _ _ => rfl) (fun t => by rw [hafter]; unfold Dat.blockOf tile1; rw [hA]; try rfl) t d).trans
    (by unfold Dat.fetched Dat.blockOf tile1; rw [hA]; try rfl)

/-- Input window 1's staging buffer holds block `t` of its array when point `t` starts, whether the block was
    copied in at `t` or at an earlier point with the same block index. -/
theorem staged1_1_of {c : Dev nD} (dat : Dat τ (Elt F) Unit ℕ (UR sig nD τ) ℕ cfg1 c) (hA : dat.A 1 = V c (Pipeline.arrRef spec1 1))
    (hafter : ∀ t, dat.after 1 t = tile1 V c 1 t) (t : Fin cfg1.N) (d) : dat.before 1 t d = tile1 V c 1 t :=
  (dat.before_in_eq_fetched 1 rfl (fun _ => rfl) (fun _ _ _ => rfl) (fun t => by rw [hafter]; unfold Dat.blockOf tile1; rw [hA]; try rfl) t d).trans
    (by unfold Dat.fetched Dat.blockOf tile1; rw [hA]; try rfl)

/-- Input window 2's staging buffer holds block `t` of its array when point `t` starts, whether the block was
    copied in at `t` or at an earlier point with the same block index. -/
theorem staged1_2_of {c : Dev nD} (dat : Dat τ (Elt F) Unit ℕ (UR sig nD τ) ℕ cfg1 c) (hA : dat.A 2 = V c (Pipeline.arrRef spec1 2))
    (hafter : ∀ t, dat.after 2 t = tile1 V c 2 t) (t : Fin cfg1.N) (d) : dat.before 2 t d = tile1 V c 2 t :=
  (dat.before_in_eq_fetched 2 rfl (fun _ => rfl) (fun _ _ _ => rfl) (fun t => by rw [hafter]; unfold Dat.blockOf tile1; rw [hA]; try rfl) t d).trans
    (by unfold Dat.fetched Dat.blockOf tile1; rw [hA]; try rfl)

/-- The whole output tile, as a rectangle of its staging buffer. -/
abbrev whole1 : Rect S1024x512 := Rect.unit (s := S1024x512) ![0, 0] S1024x512.size inb_S1024x512_S1024x512_0_0

/-- The whole weight block and the whole bias row, as rectangles of their staging buffers. -/
abbrev wholeW1 : Rect S512x512 := Rect.unit (s := S512x512) ![0, 0] S512x512.size inb_S512x512_S512x512_0_0
abbrev wholeB1 : Rect S1x512 := Rect.unit (s := S1x512) ![0, 0] S1x512.size inb_S1x512_S1x512_0_0

/-- The output tile after the body: the single store of the projected rows, computed from the three blocks as the
    body loads them (each whole). -/
def outTile1 (x : Vec F S1024x512 .f32) (w : Vec F S512x512 .f32) (b : Vec F S1x512 .f32) : Vec F S1024x512 .bf16 :=
  View.canon [⟨whole1, k1_pay1 (View.ld x whole1) (View.ld w wholeW1) (View.ld b wholeB1)⟩]

/-- That store writes every entry of the tile. -/
theorem outTile1_cover (p : Vec F S1024x512 .bf16) (y : S1024x512.Idx) :
    ∃ pc ∈ ([⟨whole1, p⟩] : List (View.Piece (Elt F) S1024x512 .bf16)), y ∈ pc.1.set :=
  View.cover_of_tiled [⟨whole1, p⟩] S1024x512.size (by rfl) y

set_option maxHeartbeats 1000000 in
/-- One run of the body: from the three input blocks held at `x`, `w`, `b` and the output tile at anything, it
    returns with the inputs as they were and the output tile at `outTile1 x w b`. -/
theorem body1_run (c : Dev nD) (E : Set ℕ) (i : grid1.Coords)
    (a1 : Memref sig .tc .vmem S1024x512 .f32) (h1 : a1.IsWhole) (a2 : Memref sig .tc .vmem S512x512 .f32) (h2 : a2.IsWhole)
    (a3 : Memref sig .tc .vmem S1x512 .f32) (h3 : a3.IsWhole) (a4 : Memref sig .tc .vmem S1024x512 .bf16) (h4 : a4.IsWhole)
    (x : Vec F S1024x512 .f32) (w : Vec F S512x512 .f32) (b : Vec F S1x512 .f32) (K : PUnit → sProp 𝕄) :
    iprop(owns (c : Thread nD τ) a1 fullShare x ∗ owns (c : Thread nD τ) a2 fullShare w ∗ owns (c : Thread nD τ) a3 fullShare b
        ∗ (∃ d, owns (c : Thread nD τ) a4 fullShare d)
        ∗ (iprop(owns (c : Thread nD τ) a1 fullShare x ∗ owns (c : Thread nD τ) a2 fullShare w ∗ owns (c : Thread nD τ) a3 fullShare b
            ∗ owns (c : Thread nD τ) a4 fullShare (outTile1 x w b)) -∗ K ⟨⟩))
      ⊢ wp frame (wpE (defs₀ (F := F)) Variants.none c none) E (cc1__linear_kernel i a1 h1 a2 h2 a3 h3 a4 h4) K := by
  simp only [cc1__linear_kernel_eq_skeleton]; unfold cc1__linear_kernel_skel
  unfold owns
  iintro ⟨⟨%f1, %hf1, H1⟩, ⟨%f2, %hf2, H2⟩, ⟨%f3, %hf3, H3⟩, ⟨%d4, %f4, -, H4⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (outTile1_cover (F := F) _)

/-! ## The stage's proof data, and the body at a generic point -/

/-- What is recorded of the stage on core `c`: the arrays as the stage finds them; after point `t` the three input
    buffers still at their blocks and the output buffer at the projected tile; nothing else held, nothing owed. -/
def dat1 (c : Dev nD) : Dat τ (Elt F) Unit ℕ (UR sig nD τ) ℕ cfg1 c where
  A w := V c (Pipeline.arrRef spec1 w)
  after w t := match w with
    | ⟨0, _⟩ => tile1 V c 0 t
    | ⟨1, _⟩ => tile1 V c 1 t
    | ⟨2, _⟩ => tile1 V c 2 t
    | ⟨3, _⟩ => outTile1 (tile1 V c 0 t) (tile1 V c 1 t) (tile1 V c 2 t)
  Φ _ := Pipeline.ΦA spec1 c
  q _ := fullShare
  owed _ := 0

theorem dat1_A (c : Dev nD) (w : Fin cfg1.W) : (dat1 V c).A w = V c (Pipeline.arrRef spec1 w) := by
  dsimp only [dat1]
theorem dat1_after0 (c : Dev nD) (t : Fin cfg1.N) : (dat1 V c).after 0 t = tile1 V c 0 t := by dsimp only [dat1]
theorem dat1_after1 (c : Dev nD) (t : Fin cfg1.N) : (dat1 V c).after 1 t = tile1 V c 1 t := by dsimp only [dat1]
theorem dat1_after2 (c : Dev nD) (t : Fin cfg1.N) : (dat1 V c).after 2 t = tile1 V c 2 t := by dsimp only [dat1]
theorem dat1_after3 (c : Dev nD) (t : Fin cfg1.N) :
    (dat1 V c).after 3 t = outTile1 (tile1 V c 0 t) (tile1 V c 1 t) (tile1 V c 2 t) := by dsimp only [dat1]

theorem dat1_staged0 (c : Dev nD) (t : Fin cfg1.N) (d) : (dat1 V c).before 0 t d = tile1 V c 0 t :=
  staged1_0_of V (dat1 V c) (dat1_A V c 0) (dat1_after0 V c) t d
theorem dat1_staged1 (c : Dev nD) (t : Fin cfg1.N) (d) : (dat1 V c).before 1 t d = tile1 V c 1 t :=
  staged1_1_of V (dat1 V c) (dat1_A V c 1) (dat1_after1 V c) t d
theorem dat1_staged2 (c : Dev nD) (t : Fin cfg1.N) (d) : (dat1 V c).before 2 t d = tile1 V c 2 t :=
  staged1_2_of V (dat1 V c) (dat1_A V c 2) (dat1_after2 V c) t d

/-- What the body is entered with at point `t`, -/
def enter1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it hands back. -/
def leave1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- At every point the three input buffers hold their blocks, so the run of the body applies; what the body does
    not touch passes through. -/
theorem point1 (c : Dev nD) (t : Fin cfg1.N) :
    enter1 V c t ⊢ wp frame (wpE (defs₀ (F := F)) Variants.none c none) Set.univ (bodyAt1 t) (fun _ => leave1 V c t) := by
  unfold enter1 leave1 bodyAt1
  simp only [dat1_staged0, dat1_staged1, dat1_staged2]
  rw [show (dat1 V c).Φ t.succ = (dat1 V c).Φ t.castSucc from rfl,
    show (dat1 V c).owesAt () t.succ = (dat1 V c).owesAt () t.castSucc from rfl,
    dat1_after0, dat1_after1, dat1_after2, dat1_after3]
  iintro ⟨HΦ, Ho, ⟨%d0, H0⟩, ⟨%d1, H1⟩, ⟨%d2, H2⟩, ⟨%d3, H3⟩⟩
  iapply (body1_run c Set.univ _ _ _ _ _ _ _ _ _ (tile1 V c 0 t) (tile1 V c 1 t) (tile1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body's obligation to the pipeline, at every point. -/
theorem obligation1 (c : Dev nD) : BodyObligation (dat1 (F := F) V c) (defs₀ (F := F)) Variants.none () Set.univ := fun t => by
  rw [bigSep_W1, bigSep_W1]
  exact point1 V c t

end Cert.KernelIdeal.Hand

end
-- ==== Proof.IdealProj2.lean ====
/-
  Projection stage 2 (y = x · Wᵀ + b on a tile of 1024 rows): what one grid point does to its four staged
  blocks. The row tile x, the weight matrix W and the bias row b are read and left as they were; the output tile
  ends holding the one function `k2_pay1` of the three blocks read. The weight and bias blocks are staged at the
  first point only and found unchanged at every later one, because their block index never moves.
-/
import proofs.«180034_j81982335746566_2_alg».proof.Proof.Gen.KernelIdeal.Launch
import proofs.«180034_j81982335746566_2_alg».proof.Proof.Gen.KernelIdeal.Skeleton
import proofs.«180034_j81982335746566_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Block `t` of window `w`'s array, the array taken as the stage finds it. -/
def tile2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds block `t` of its array when point `t` starts, whether the block was
    copied in at `t` or at an earlier point with the same block index. -/
theorem staged2_0_of {c : Dev nD} (dat : Dat τ (Elt F) Unit ℕ (UR sig nD τ) ℕ cfg2 c) (hA : dat.A 0 = V c (Pipeline.arrRef spec2 0))
    (hafter : ∀ t, dat.after 0 t = tile2 V c 0 t) (t : Fin cfg2.N) (d) : dat.before 0 t d = tile2 V c 0 t :=
  (dat.before_in_eq_fetched 0 rfl (fun _ => rfl) (fun _ _ _ => rfl) (fun t => by rw [hafter]; unfold Dat.blockOf tile2; rw [hA]; try rfl) t d).trans
    (by unfold Dat.fetched Dat.blockOf tile2; rw [hA]; try rfl)

/-- Input window 1's staging buffer holds block `t` of its array when point `t` starts, whether the block was
    copied in at `t` or at an earlier point with the same block index. -/
theorem staged2_1_of {c : Dev nD} (dat : Dat τ (Elt F) Unit ℕ (UR sig nD τ) ℕ cfg2 c) (hA : dat.A 1 = V c (Pipeline.arrRef spec2 1))
    (hafter : ∀ t, dat.after 1 t = tile2 V c 1 t) (t : Fin cfg2.N) (d) : dat.before 1 t d = tile2 V c 1 t :=
  (dat.before_in_eq_fetched 1 rfl (fun _ => rfl) (fun _ _ _ => rfl) (fun t => by rw [hafter]; unfold Dat.blockOf tile2; rw [hA]; try rfl) t d).trans
    (by unfold Dat.fetched Dat.blockOf tile2; rw [hA]; try rfl)

/-- Input window 2's staging buffer holds block `t` of its array when point `t` starts, whether the block was
    copied in at `t` or at an earlier point with the same block index. -/
theorem staged2_2_of {c : Dev nD} (dat : Dat τ (Elt F) Unit ℕ (UR sig nD τ) ℕ cfg2 c) (hA : dat.A 2 = V c (Pipeline.arrRef spec2 2))
    (hafter : ∀ t, dat.after 2 t = tile2 V c 2 t) (t : Fin cfg2.N) (d) : dat.before 2 t d = tile2 V c 2 t :=
  (dat.before_in_eq_fetched 2 rfl (fun _ => rfl) (fun _ _ _ => rfl) (fun t => by rw [hafter]; unfold Dat.blockOf tile2; rw [hA]; try rfl) t d).trans
    (by unfold Dat.fetched Dat.blockOf tile2; rw [hA]; try rfl)

/-- The whole output tile, as a rectangle of its staging buffer. -/
abbrev whole2 : Rect S1024x512 := Rect.unit (s := S1024x512) ![0, 0] S1024x512.size inb_S1024x512_S1024x512_0_0

/-- The whole weight block and the whole bias row, as rectangles of their staging buffers. -/
abbrev wholeW2 : Rect S512x512 := Rect.unit (s := S512x512) ![0, 0] S512x512.size inb_S512x512_S512x512_0_0
abbrev wholeB2 : Rect S1x512 := Rect.unit (s := S1x512) ![0, 0] S1x512.size inb_S1x512_S1x512_0_0

/-- The output tile after the body: the single store of the projected rows, computed from the three blocks as the
    body loads them (each whole). -/
def outTile2 (x : Vec F S1024x512 .f32) (w : Vec F S512x512 .f32) (b : Vec F S1x512 .f32) : Vec F S1024x512 .bf16 :=
  View.canon [⟨whole2, k2_pay1 (View.ld x whole2) (View.ld w wholeW2) (View.ld b wholeB2)⟩]

/-- That store writes every entry of the tile. -/
theorem outTile2_cover (p : Vec F S1024x512 .bf16) (y : S1024x512.Idx) :
    ∃ pc ∈ ([⟨whole2, p⟩] : List (View.Piece (Elt F) S1024x512 .bf16)), y ∈ pc.1.set :=
  View.cover_of_tiled [⟨whole2, p⟩] S1024x512.size (by rfl) y

set_option maxHeartbeats 1000000 in
/-- One run of the body: from the three input blocks held at `x`, `w`, `b` and the output tile at anything, it
    returns with the inputs as they were and the output tile at `outTile2 x w b`. -/
theorem body2_run (c : Dev nD) (E : Set ℕ) (i : grid2.Coords)
    (a1 : Memref sig .tc .vmem S1024x512 .f32) (h1 : a1.IsWhole) (a2 : Memref sig .tc .vmem S512x512 .f32) (h2 : a2.IsWhole)
    (a3 : Memref sig .tc .vmem S1x512 .f32) (h3 : a3.IsWhole) (a4 : Memref sig .tc .vmem S1024x512 .bf16) (h4 : a4.IsWhole)
    (x : Vec F S1024x512 .f32) (w : Vec F S512x512 .f32) (b : Vec F S1x512 .f32) (K : PUnit → sProp 𝕄) :
    iprop(owns (c : Thread nD τ) a1 fullShare x ∗ owns (c : Thread nD τ) a2 fullShare w ∗ owns (c : Thread nD τ) a3 fullShare b
        ∗ (∃ d, owns (c : Thread nD τ) a4 fullShare d)
        ∗ (iprop(owns (c : Thread nD τ) a1 fullShare x ∗ owns (c : Thread nD τ) a2 fullShare w ∗ owns (c : Thread nD τ) a3 fullShare b
            ∗ owns (c : Thread nD τ) a4 fullShare (outTile2 x w b)) -∗ K ⟨⟩))
      ⊢ wp frame (wpE (defs₀ (F := F)) Variants.none c none) E (cc2__linear_kernel i a1 h1 a2 h2 a3 h3 a4 h4) K := by
  simp only [cc2__linear_kernel_eq_skeleton]; unfold cc2__linear_kernel_skel
  unfold owns
  iintro ⟨⟨%f1, %hf1, H1⟩, ⟨%f2, %hf2, H2⟩, ⟨%f3, %hf3, H3⟩, ⟨%d4, %f4, -, H4⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (outTile2_cover (F := F) _)

/-! ## The stage's proof data, and the body at a generic point -/

/-- What is recorded of the stage on core `c`: the arrays as the stage finds them; after point `t` the three input
    buffers still at their blocks and the output buffer at the projected tile; nothing else held, nothing owed. -/
def dat2 (c : Dev nD) : Dat τ (Elt F) Unit ℕ (UR sig nD τ) ℕ cfg2 c where
  A w := V c (Pipeline.arrRef spec2 w)
  after w t := match w with
    | ⟨0, _⟩ => tile2 V c 0 t
    | ⟨1, _⟩ => tile2 V c 1 t
    | ⟨2, _⟩ => tile2 V c 2 t
    | ⟨3, _⟩ => outTile2 (tile2 V c 0 t) (tile2 V c 1 t) (tile2 V c 2 t)
  Φ _ := Pipeline.ΦA spec2 c
  q _ := fullShare
  owed _ := 0

theorem dat2_A (c : Dev nD) (w : Fin cfg2.W) : (dat2 V c).A w = V c (Pipeline.arrRef spec2 w) := by
  dsimp only [dat2]
theorem dat2_after0 (c : Dev nD) (t : Fin cfg2.N) : (dat2 V c).after 0 t = tile2 V c 0 t := by dsimp only [dat2]
theorem dat2_after1 (c : Dev nD) (t : Fin cfg2.N) : (dat2 V c).after 1 t = tile2 V c 1 t := by dsimp only [dat2]
theorem dat2_after2 (c : Dev nD) (t : Fin cfg2.N) : (dat2 V c).after 2 t = tile2 V c 2 t := by dsimp only [dat2]
theorem dat2_after3 (c : Dev nD) (t : Fin cfg2.N) :
    (dat2 V c).after 3 t = outTile2 (tile2 V c 0 t) (tile2 V c 1 t) (tile2 V c 2 t) := by dsimp only [dat2]

theorem dat2_staged0 (c : Dev nD) (t : Fin cfg2.N) (d) : (dat2 V c).before 0 t d = tile2 V c 0 t :=
  staged2_0_of V (dat2 V c) (dat2_A V c 0) (dat2_after0 V c) t d
theorem dat2_staged1 (c : Dev nD) (t : Fin cfg2.N) (d) : (dat2 V c).before 1 t d = tile2 V c 1 t :=
  staged2_1_of V (dat2 V c) (dat2_A V c 1) (dat2_after1 V c) t d
theorem dat2_staged2 (c : Dev nD) (t : Fin cfg2.N) (d) : (dat2 V c).before 2 t d = tile2 V c 2 t :=
  staged2_2_of V (dat2 V c) (dat2_A V c 2) (dat2_after2 V c) t d

/-- What the body is entered with at point `t`, -/
def enter2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it hands back. -/
def leave2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- At every point the three input buffers hold their blocks, so the run of the body applies; what the body does
    not touch passes through. -/
theorem point2 (c : Dev nD) (t : Fin cfg2.N) :
    enter2 V c t ⊢ wp frame (wpE (defs₀ (F := F)) Variants.none c none) Set.univ (bodyAt2 t) (fun _ => leave2 V c t) := by
  unfold enter2 leave2 bodyAt2
  simp only [dat2_staged0, dat2_staged1, dat2_staged2]
  rw [show (dat2 V c).Φ t.succ = (dat2 V c).Φ t.castSucc from rfl,
    show (dat2 V c).owesAt () t.succ = (dat2 V c).owesAt () t.castSucc from rfl,
    dat2_after0, dat2_after1, dat2_after2, dat2_after3]
  iintro ⟨HΦ, Ho, ⟨%d0, H0⟩, ⟨%d1, H1⟩, ⟨%d2, H2⟩, ⟨%d3, H3⟩⟩
  iapply (body2_run c Set.univ _ _ _ _ _ _ _ _ _ (tile2 V c 0 t) (tile2 V c 1 t) (tile2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body's obligation to the pipeline, at every point. -/
theorem obligation2 (c : Dev nD) : BodyObligation (dat2 (F := F) V c) (defs₀ (F := F)) Variants.none () Set.univ := fun t => by
  rw [bigSep_W2, bigSep_W2]
  exact point2 V c t

end Cert.KernelIdeal.Hand

end
-- ==== Proof.IdealProj4.lean ====
/-
  Projection stage 4 (y = x · Wᵀ + b on a tile of 1024 rows): what one grid point does to its four staged
  blocks. The row tile x, the weight matrix W and the bias row b are read and left as they were; the output tile
  ends holding the one function `k4_pay1` of the three blocks read. The weight and bias blocks are staged at the
  first point only and found unchanged at every later one, because their block index never moves.
-/
import proofs.«180034_j81982335746566_2_alg».proof.Proof.Gen.KernelIdeal.Launch
import proofs.«180034_j81982335746566_2_alg».proof.Proof.Gen.KernelIdeal.Skeleton
import proofs.«180034_j81982335746566_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Block `t` of window `w`'s array, the array taken as the stage finds it. -/
def tile4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's staging buffer holds block `t` of its array when point `t` starts, whether the block was
    copied in at `t` or at an earlier point with the same block index. -/
theorem staged4_0_of {c : Dev nD} (dat : Dat τ (Elt F) Unit ℕ (UR sig nD τ) ℕ cfg4 c) (hA : dat.A 0 = V c (Pipeline.arrRef spec4 0))
    (hafter : ∀ t, dat.after 0 t = tile4 V c 0 t) (t : Fin cfg4.N) (d) : dat.before 0 t d = tile4 V c 0 t :=
  (dat.before_in_eq_fetched 0 rfl (fun _ => rfl) (fun _ _ _ => rfl) (fun t => by rw [hafter]; unfold Dat.blockOf tile4; rw [hA]; try rfl) t d).trans
    (by unfold Dat.fetched Dat.blockOf tile4; rw [hA]; try rfl)

/-- Input window 1's staging buffer holds block `t` of its array when point `t` starts, whether the block was
    copied in at `t` or at an earlier point with the same block index. -/
theorem staged4_1_of {c : Dev nD} (dat : Dat τ (Elt F) Unit ℕ (UR sig nD τ) ℕ cfg4 c) (hA : dat.A 1 = V c (Pipeline.arrRef spec4 1))
    (hafter : ∀ t, dat.after 1 t = tile4 V c 1 t) (t : Fin cfg4.N) (d) : dat.before 1 t d = tile4 V c 1 t :=
  (dat.before_in_eq_fetched 1 rfl (fun _ => rfl) (fun _ _ _ => rfl) (fun t => by rw [hafter]; unfold Dat.blockOf tile4; rw [hA]; try rfl) t d).trans
    (by unfold Dat.fetched Dat.blockOf tile4; rw [hA]; try rfl)

/-- Input window 2's staging buffer holds block `t` of its array when point `t` starts, whether the block was
    copied in at `t` or at an earlier point with the same block index. -/
theorem staged4_2_of {c : Dev nD} (dat : Dat τ (Elt F) Unit ℕ (UR sig nD τ) ℕ cfg4 c) (hA : dat.A 2 = V c (Pipeline.arrRef spec4 2))
    (hafter : ∀ t, dat.after 2 t = tile4 V c 2 t) (t : Fin cfg4.N) (d) : dat.before 2 t d = tile4 V c 2 t :=
  (dat.before_in_eq_fetched 2 rfl (fun _ => rfl) (fun _ _ _ => rfl) (fun t => by rw [hafter]; unfold Dat.blockOf tile4; rw [hA]; try rfl) t d).trans
    (by unfold Dat.fetched Dat.blockOf tile4; rw [hA]; try rfl)

/-- The whole output tile, as a rectangle of its staging buffer. -/
abbrev whole4 : Rect S1024x512 := Rect.unit (s := S1024x512) ![0, 0] S1024x512.size inb_S1024x512_S1024x512_0_0

/-- The whole weight block and the whole bias row, as rectangles of their staging buffers. -/
abbrev wholeW4 : Rect S512x512 := Rect.unit (s := S512x512) ![0, 0] S512x512.size inb_S512x512_S512x512_0_0
abbrev wholeB4 : Rect S1x512 := Rect.unit (s := S1x512) ![0, 0] S1x512.size inb_S1x512_S1x512_0_0

/-- The output tile after the body: the single store of the projected rows, computed from the three blocks as the
    body loads them (each whole). -/
def outTile4 (x : Vec F S1024x512 .bf16) (w : Vec F S512x512 .f32) (b : Vec F S1x512 .f32) : Vec F S1024x512 .f32 :=
  View.canon [⟨whole4, k4_pay1 (View.ld x whole4) (View.ld w wholeW4) (View.ld b wholeB4)⟩]

/-- That store writes every entry of the tile. -/
theorem outTile4_cover (p : Vec F S1024x512 .f32) (y : S1024x512.Idx) :
    ∃ pc ∈ ([⟨whole4, p⟩] : List (View.Piece (Elt F) S1024x512 .f32)), y ∈ pc.1.set :=
  View.cover_of_tiled [⟨whole4, p⟩] S1024x512.size (by rfl) y

set_option maxHeartbeats 1000000 in
/-- One run of the body: from the three input blocks held at `x`, `w`, `b` and the output tile at anything, it
    returns with the inputs as they were and the output tile at `outTile4 x w b`. -/
theorem body4_run (c : Dev nD) (E : Set ℕ) (i : grid4.Coords)
    (a1 : Memref sig .tc .vmem S1024x512 .bf16) (h1 : a1.IsWhole) (a2 : Memref sig .tc .vmem S512x512 .f32) (h2 : a2.IsWhole)
    (a3 : Memref sig .tc .vmem S1x512 .f32) (h3 : a3.IsWhole) (a4 : Memref sig .tc .vmem S1024x512 .f32) (h4 : a4.IsWhole)
    (x : Vec F S1024x512 .bf16) (w : Vec F S512x512 .f32) (b : Vec F S1x512 .f32) (K : PUnit → sProp 𝕄) :
    iprop(owns (c : Thread nD τ) a1 fullShare x ∗ owns (c : Thread nD τ) a2 fullShare w ∗ owns (c : Thread nD τ) a3 fullShare b
        ∗ (∃ d, owns (c : Thread nD τ) a4 fullShare d)
        ∗ (iprop(owns (c : Thread nD τ) a1 fullShare x ∗ owns (c : Thread nD τ) a2 fullShare w ∗ owns (c : Thread nD τ) a3 fullShare b
            ∗ owns (c : Thread nD τ) a4 fullShare (outTile4 x w b)) -∗ K ⟨⟩))
      ⊢ wp frame (wpE (defs₀ (F := F)) Variants.none c none) E (cc4__linear_kernel i a1 h1 a2 h2 a3 h3 a4 h4) K := by
  simp only [cc4__linear_kernel_eq_skeleton]; unfold cc4__linear_kernel_skel
  unfold owns
  iintro ⟨⟨%f1, %hf1, H1⟩, ⟨%f2, %hf2, H2⟩, ⟨%f3, %hf3, H3⟩, ⟨%d4, %f4, -, H4⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (outTile4_cover (F := F) _)

/-! ## The stage's proof data, and the body at a generic point -/

/-- What is recorded of the stage on core `c`: the arrays as the stage finds them; after point `t` the three input
    buffers still at their blocks and the output buffer at the projected tile; nothing else held, nothing owed. -/
def dat4 (c : Dev nD) : Dat τ (Elt F) Unit ℕ (UR sig nD τ) ℕ cfg4 c where
  A w := V c (Pipeline.arrRef spec4 w)
  after w t := match w with
    | ⟨0, _⟩ => tile4 V c 0 t
    | ⟨1, _⟩ => tile4 V c 1 t
    | ⟨2, _⟩ => tile4 V c 2 t
    | ⟨3, _⟩ => outTile4 (tile4 V c 0 t) (tile4 V c 1 t) (tile4 V c 2 t)
  Φ _ := Pipeline.ΦA spec4 c
  q _ := fullShare
  owed _ := 0

theorem dat4_A (c : Dev nD) (w : Fin cfg4.W) : (dat4 V c).A w = V c (Pipeline.arrRef spec4 w) := by
  dsimp only [dat4]
theorem dat4_after0 (c : Dev nD) (t : Fin cfg4.N) : (dat4 V c).after 0 t = tile4 V c 0 t := by dsimp only [dat4]
theorem dat4_after1 (c : Dev nD) (t : Fin cfg4.N) : (dat4 V c).after 1 t = tile4 V c 1 t := by dsimp only [dat4]
theorem dat4_after2 (c : Dev nD) (t : Fin cfg4.N) : (dat4 V c).after 2 t = tile4 V c 2 t := by dsimp only [dat4]
theorem dat4_after3 (c : Dev nD) (t : Fin cfg4.N) :
    (dat4 V c).after 3 t = outTile4 (tile4 V c 0 t) (tile4 V c 1 t) (tile4 V c 2 t) := by dsimp only [dat4]

theorem dat4_staged0 (c : Dev nD) (t : Fin cfg4.N) (d) : (dat4 V c).before 0 t d = tile4 V c 0 t :=
  staged4_0_of V (dat4 V c) (dat4_A V c 0) (dat4_after0 V c) t d
theorem dat4_staged1 (c : Dev nD) (t : Fin cfg4.N) (d) : (dat4 V c).before 1 t d = tile4 V c 1 t :=
  staged4_1_of V (dat4 V c) (dat4_A V c 1) (dat4_after1 V c) t d
theorem dat4_staged2 (c : Dev nD) (t : Fin cfg4.N) (d) : (dat4 V c).before 2 t d = tile4 V c 2 t :=
  staged4_2_of V (dat4 V c) (dat4_A V c 2) (dat4_after2 V c) t d

/-- What the body is entered with at point `t`, -/
def enter4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

/-- and what it hands back. -/
def leave4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t))

/-- At every point the three input buffers hold their blocks, so the run of the body applies; what the body does
    not touch passes through. -/
theorem point4 (c : Dev nD) (t : Fin cfg4.N) :
    enter4 V c t ⊢ wp frame (wpE (defs₀ (F := F)) Variants.none c none) Set.univ (bodyAt4 t) (fun _ => leave4 V c t) := by
  unfold enter4 leave4 bodyAt4
  simp only [dat4_staged0, dat4_staged1, dat4_staged2]
  rw [show (dat4 V c).Φ t.succ = (dat4 V c).Φ t.castSucc from rfl,
    show (dat4 V c).owesAt () t.succ = (dat4 V c).owesAt () t.castSucc from rfl,
    dat4_after0, dat4_after1, dat4_after2, dat4_after3]
  iintro ⟨HΦ, Ho, ⟨%d0, H0⟩, ⟨%d1, H1⟩, ⟨%d2, H2⟩, ⟨%d3, H3⟩⟩
  iapply (body4_run c Set.univ _ _ _ _ _ _ _ _ _ (tile4 V c 0 t) (tile4 V c 1 t) (tile4 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body's obligation to the pipeline, at every point. -/
theorem obligation4 (c : Dev nD) : BodyObligation (dat4 (F := F) V c) (defs₀ (F := F)) Variants.none () Set.univ := fun t => by
  rw [bigSep_W4, bigSep_W4]
  exact point4 V c t

end Cert.KernelIdeal.Hand

end
-- ==== Proof.IdealAttnBase.lean ====
/-
  The attention stage (one head pair, one tile of 1024 queries, scanned over eight tiles of 512 keys): what its
  runs share. A grid point is (batch, head pair, query tile, key tile), the key tile innermost. The six scratch
  buffers — running maximum, normaliser and weighted sum for each of the two heads — are reset at the first key
  tile, updated at every key tile, and turned into the output tile (weighted sum over normaliser, head by head)
  at the last key tile only; at the other seven points the output buffer is left as found and not written back.
-/
import proofs.«180034_j81982335746566_2_alg».proof.Proof.Gen.KernelIdeal.Launch
import proofs.«180034_j81982335746566_2_alg».proof.Proof.Gen.KernelIdeal.Skeleton
import proofs.«180034_j81982335746566_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Block `t` of window `w`'s array, the array taken as the stage finds it. -/
def tile3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's staging buffer holds block `t` of its array when point `t` starts, whether it was copied in
    at `t` or at an earlier point with the same block index. -/
theorem staged3_0_of {c : Dev nD} (dat : Dat τ (Elt F) Unit ℕ (UR sig nD τ) ℕ cfg3 c) (hA : dat.A 0 = V c (Pipeline.arrRef spec3 0))
    (hafter : ∀ t, dat.after 0 t = tile3 V c 0 t) (t : Fin cfg3.N) (d) : dat.before 0 t d = tile3 V c 0 t :=
  (dat.before_in_eq_fetched 0 rfl (fun _ => rfl) (fun _ _ _ => rfl) (fun t => by rw [hafter]; unfold Dat.blockOf tile3; rw [hA]; try rfl) t d).trans
    (by unfold Dat.fetched Dat.blockOf tile3; rw [hA]; try rfl)

/-- Input window 1's staging buffer holds block `t` of its array when point `t` starts, whether it was copied in
    at `t` or at an earlier point with the same block index. -/
theorem staged3_1_of {c : Dev nD} (dat : Dat τ (Elt F) Unit ℕ (UR sig nD τ) ℕ cfg3 c) (hA : dat.A 1 = V c (Pipeline.arrRef spec3 1))
    (hafter : ∀ t, dat.after 1 t = tile3 V c 1 t) (t : Fin cfg3.N) (d) : dat.before 1 t d = tile3 V c 1 t :=
  (dat.before_in_eq_fetched 1 rfl (fun _ => rfl) (fun _ _ _ => rfl) (fun t => by rw [hafter]; unfold Dat.blockOf tile3; rw [hA]; try rfl) t d).trans
    (by unfold Dat.fetched Dat.blockOf tile3; rw [hA]; try rfl)

/-- Input window 2's staging buffer holds block `t` of its array when point `t` starts, whether it was copied in
    at `t` or at an earlier point with the same block index. -/
theorem staged3_2_of {c : Dev nD} (dat : Dat τ (Elt F) Unit ℕ (UR sig nD τ) ℕ cfg3 c) (hA : dat.A 2 = V c (Pipeline.arrRef spec3 2))
    (hafter : ∀ t, dat.after 2 t = tile3 V c 2 t) (t : Fin cfg3.N) (d) : dat.before 2 t d = tile3 V c 2 t :=
  (dat.before_in_eq_fetched 2 rfl (fun _ => rfl) (fun _ _ _ => rfl) (fun t => by rw [hafter]; unfold Dat.blockOf tile3; rw [hA]; try rfl) t d).trans
    (by unfold Dat.fetched Dat.blockOf tile3; rw [hA]; try rfl)

/-! ## First and last key tile -/

/-- The point is at the first key tile (the body's reset condition, as it computes it from the coordinates). -/
abbrev first3 (i : grid3.Coords) : Prop := (Scalar.cmpi .ne (Scalar.extui (Scalar.cmpi .eq (BitVec.ofNat 32 (i 3).val) 0#32)) 0#32) = 1#1
/-- That is every eighth point, starting with point 0. -/
theorem first3_iff : ∀ t : Fin cfg3.N, first3 (grid3.coords t) ↔ t.val % 8 = 0 :=
  (by decide +kernel : ∀ t : Fin grid3.N, first3 (grid3.coords t) ↔ t.val % 8 = 0)

/-- The point is at the last key tile (the body's write-out condition). -/
abbrev last3 (i : grid3.Coords) : Prop := k3_cond2 i = 1#1
/-- That is every eighth point, starting with point 7. -/
theorem last3_iff : ∀ t : Fin cfg3.N, last3 (grid3.coords t) ↔ t.val % 8 = 7 :=
  (by decide +kernel : ∀ t : Fin grid3.N, last3 (grid3.coords t) ↔ t.val % 8 = 7)

/-! ## Which windows the body touches where -/

theorem live3_0 : ∀ t : Fin cfg3.N, cfg3.idle 0 (grid3.coords t) = false := by decide +kernel
theorem live3_1 : ∀ t : Fin cfg3.N, cfg3.idle 1 (grid3.coords t) = false := by decide +kernel
theorem live3_2 : ∀ t : Fin cfg3.N, cfg3.idle 2 (grid3.coords t) = false := by decide +kernel
/-- Away from the last key tile nothing is stored into the output tile, -/
theorem idle3_out : ∀ t : Fin cfg3.N, ¬last3 (grid3.coords t) → cfg3.idle 3 (grid3.coords t) = true := by decide +kernel
/-- and it is not written back there; -/
theorem keep3_out : ∀ t : Fin cfg3.N, ¬last3 (grid3.coords t) → (cfg3.win 3).flush t = false := by decide +kernel
/-- at the last key tile it is stored. -/
theorem live3_out : ∀ t : Fin cfg3.N, last3 (grid3.coords t) → cfg3.idle 3 (grid3.coords t) = false := by decide +kernel

/-! ## The buffers the body is handed -/

abbrev qM (t : Fin cfg3.N) : Memref sig .tc .vmem S1x1024x128 .bf16 := win3_0.stage (cfg3.slots t 0)
abbrev qW (t : Fin cfg3.N) : (qM t).IsWhole := hstage3_0 ((cfg3.slots t 0).cast nbuf3_0)
abbrev kM (t : Fin cfg3.N) : Memref sig .tc .vmem S1x512x128 .bf16 := win3_1.stage (cfg3.slots t 1)
abbrev kW (t : Fin cfg3.N) : (kM t).IsWhole := hstage3_1 ((cfg3.slots t 1).cast nbuf3_1)
abbrev vM (t : Fin cfg3.N) : Memref sig .tc .vmem S1x512x128 .bf16 := win3_2.stage (cfg3.slots t 2)
abbrev vW (t : Fin cfg3.N) : (vM t).IsWhole := hstage3_2 ((cfg3.slots t 2).cast nbuf3_2)
abbrev oM (t : Fin cfg3.N) : Memref sig .tc .vmem S1x1024x128 .bf16 := win3_3.stage (cfg3.slots t 3)
abbrev oW (t : Fin cfg3.N) : (oM t).IsWhole := hstage3_3 ((cfg3.slots t 3).cast nbuf3_3)
/-- The six scratch buffers: running maximum, normaliser, weighted sum of the first head, then of the second. -/
abbrev sM0 : Memref sig .tc .vmem S1024x1 .f32 := Memref.whole cc3_scratch0
abbrev sM1 : Memref sig .tc .vmem S1024x1 .f32 := Memref.whole cc3_scratch1
abbrev sM2 : Memref sig .tc .vmem S1024x64 .f32 := Memref.whole cc3_scratch2
abbrev sM3 : Memref sig .tc .vmem S1024x1 .f32 := Memref.whole cc3_scratch3
abbrev sM4 : Memref sig .tc .vmem S1024x1 .f32 := Memref.whole cc3_scratch4
abbrev sM5 : Memref sig .tc .vmem S1024x64 .f32 := Memref.whole cc3_scratch5
/-- Views through which the contents of the output tile and of the scratch buffers are stated. -/
abbrev oV : View sig .tc .vmem S1x1024x128 .bf16 := (Memref.whole cc3_stg3_0 : Memref sig .tc .vmem S1x1024x128 .bf16).view
abbrev sV0 : View sig .tc .vmem S1024x1 .f32 := sM0.view
abbrev sV1 : View sig .tc .vmem S1024x1 .f32 := sM1.view
abbrev sV2 : View sig .tc .vmem S1024x64 .f32 := sM2.view
abbrev sV3 : View sig .tc .vmem S1024x1 .f32 := sM3.view
abbrev sV4 : View sig .tc .vmem S1024x1 .f32 := sM4.view
abbrev sV5 : View sig .tc .vmem S1024x64 .f32 := sM5.view

/-- Everything scoped that is neither a staging buffer of this stage nor one of its six scratch buffers. -/
abbrev others3 (c : Dev nD) : sProp 𝕄 :=
  Pipeline.scopedRestBut (Ix := Unit) (Name := ℕ) (U := UR sig nD τ) (Lvl := ℕ) (Val := Elt F) spec3 c [cc3_scratch0, cc3_scratch1, cc3_scratch2, cc3_scratch3, cc3_scratch4, cc3_scratch5]

/-- What the stage is handed besides its windows: the six scratch buffers at some contents, the other scoped buffers,
    the generator register. -/
theorem held3_eq (c : Dev nD) :
    (Pipeline.ΦA spec3 c : sProp 𝕄)
      = iprop(iprop(iprop((∃ d, owns (c : Thread nD τ) sM0 fullShare d) ∗ (∃ d, owns (c : Thread nD τ) sM1 fullShare d) ∗ (∃ d, owns (c : Thread nD τ) sM2 fullShare d)
          ∗ (∃ d, owns (c : Thread nD τ) sM3 fullShare d) ∗ (∃ d, owns (c : Thread nD τ) sM4 fullShare d) ∗ (∃ d, owns (c : Thread nD τ) sM5 fullShare d))
          ∗ others3 c) ∗ (∃ r, prngReg c r)) := by
  unfold Pipeline.ΦA; rw [scopedRest3_split]; simp only [sM0, sM1, sM2, sM3, sM4, sM5, owns_whole]; try rfl

end Cert.KernelIdeal.Hand

end
-- ==== Proof.IdealAttnFirst.lean ====
/-
  The attention stage at the FIRST key tile of a query tile: whatever the six scratch buffers held, the body resets
  them, then folds this key tile in. The output tile is not touched.
-/
import proofs.«180034_j81982335746566_2_alg».proof.Proof.IdealAttnBase

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- One run of the body in this case, on whole buffers: the three input tiles are handed back as they were, the output tile too;
    each scratch buffer comes back as a list of stores over what it held (latest first), the lists being whatever the run
    performs. -/
noncomputable def firstStep (c : Dev nD) (i : grid3.Coords) (aq : Memref sig .tc .vmem S1x1024x128 .bf16) (hq : aq.IsWhole) (ak : Memref sig .tc .vmem S1x512x128 .bf16) (hk : ak.IsWhole) (av : Memref sig .tc .vmem S1x512x128 .bf16) (hv : av.IsWhole) (ao : Memref sig .tc .vmem S1x1024x128 .bf16) (ho : ao.IsWhole) (s0 : Memref sig .tc .vmem S1024x1 .f32) (z0 : s0.IsWhole) (s1 : Memref sig .tc .vmem S1024x1 .f32) (z1 : s1.IsWhole) (s2 : Memref sig .tc .vmem S1024x64 .f32) (z2 : s2.IsWhole) (s3 : Memref sig .tc .vmem S1024x1 .f32) (z3 : s3.IsWhole) (s4 : Memref sig .tc .vmem S1024x1 .f32) (z4 : s4.IsWhole) (s5 : Memref sig .tc .vmem S1024x64 .f32) (z5 : s5.IsWhole) (hf : first3 i) (hl : ¬last3 i)
    (xq : Vec F S1x1024x128 .bf16) (xk : Vec F S1x512x128 .bf16) (xv : Vec F S1x512x128 .bf16) :
    Σ' (P0 : List (View.Piece (Elt F) S1024x1 .f32)) (P1 : List (View.Piece (Elt F) S1024x1 .f32)) (P2 : List (View.Piece (Elt F) S1024x64 .f32)) (P3 : List (View.Piece (Elt F) S1024x1 .f32)) (P4 : List (View.Piece (Elt F) S1024x1 .f32)), { P5 : List (View.Piece (Elt F) S1024x64 .f32) //
      ∀ (xo : Vec F S1x1024x128 .bf16) (E : Set ℕ) (K : PUnit → sProp 𝕄),
        iprop(owns (c : Thread nD τ) aq fullShare xq ∗ owns (c : Thread nD τ) ak fullShare xk ∗ owns (c : Thread nD τ) av fullShare xv ∗ owns (c : Thread nD τ) ao fullShare xo ∗ (∃ d, owns (c : Thread nD τ) s0 fullShare d) ∗ (∃ d, owns (c : Thread nD τ) s1 fullShare d) ∗ (∃ d, owns (c : Thread nD τ) s2 fullShare d) ∗ (∃ d, owns (c : Thread nD τ) s3 fullShare d) ∗ (∃ d, owns (c : Thread nD τ) s4 fullShare d) ∗ (∃ d, owns (c : Thread nD τ) s5 fullShare d)
            ∗ (iprop(owns (c : Thread nD τ) aq fullShare xq ∗ owns (c : Thread nD τ) ak fullShare xk ∗ owns (c : Thread nD τ) av fullShare xv ∗ owns (c : Thread nD τ) ao fullShare xo ∗ (∃ f, s0.view.loc (c : Thread nD τ) ↦[s0.view.set]{fullShare} s0.view.writes (Elt F) f P0) ∗ (∃ f, s1.view.loc (c : Thread nD τ) ↦[s1.view.set]{fullShare} s1.view.writes (Elt F) f P1) ∗ (∃ f, s2.view.loc (c : Thread nD τ) ↦[s2.view.set]{fullShare} s2.view.writes (Elt F) f P2) ∗ (∃ f, s3.view.loc (c : Thread nD τ) ↦[s3.view.set]{fullShare} s3.view.writes (Elt F) f P3) ∗ (∃ f, s4.view.loc (c : Thread nD τ) ↦[s4.view.set]{fullShare} s4.view.writes (Elt F) f P4) ∗ (∃ f, s5.view.loc (c : Thread nD τ) ↦[s5.view.set]{fullShare} s5.view.writes (Elt F) f P5)) -∗ K ⟨⟩))
          ⊢ wp frame (wpE (defs₀ (F := F)) Variants.none c none) E (cc3__flash_attn_kernel i aq hq ak hk av hv ao ho s0 z0 s1 z1 s2 z2 s3 z3 s4 z4 s5 z5) K } := by
  refine ⟨?_, ?_, ?_, ?_, ?_, ?_, fun xo E K => ?run⟩
  case run =>
    simp only [cc3__flash_attn_kernel_eq_skeleton]; unfold cc3__flash_attn_kernel_skel
    simp only [k3_part1_eq_skeleton, k3_part2_eq_skeleton]
    unfold owns
    iintro ⟨⟨%fq, %hfq, Hq⟩, ⟨%fk, %hfk, Hkk⟩, ⟨%fv, %hfv, Hv⟩, ⟨%fo, %hfo, Ho⟩, ⟨%d0, %g0, -, S0⟩, ⟨%d1, %g1, -, S1⟩, ⟨%d2, %g2, -, S2⟩, ⟨%d3, %g3, -, S3⟩, ⟨%d4, %g4, -, S4⟩, ⟨%d5, %g5, -, S5⟩, Hk⟩
    obtain rfl := hq.eq_unread hfq; obtain rfl := hk.eq_unread hfk; obtain rfl := hv.eq_unread hfv; obtain rfl := ho.eq_unread hfo
    sl_exec (disch := first | exact hf | exact hl)
    sl_step
    iapply Hk
    isplitl [Hq]
    · iexists _; isplitr; · ipureintro; exact hq.read_unread _
      iexact Hq
    isplitl [Hkk]
    · iexists _; isplitr; · ipureintro; exact hk.read_unread _
      iexact Hkk
    isplitl [Hv]
    · iexists _; isplitr; · ipureintro; exact hv.read_unread _
      iexact Hv
    isplitl [Ho]
    · iexists _; isplitr; · ipureintro; exact ho.read_unread _
      iexact Ho
    isplitl [S0]; · iexists _; iexact S0
    isplitl [S1]; · iexists _; iexact S1
    isplitl [S2]; · iexists _; iexact S2
    isplitl [S3]; · iexists _; iexact S3
    isplitl [S4]; · iexists _; iexact S4
    iexists _; iexact S5

end Cert.KernelIdeal.Hand

end
-- ==== Proof.IdealAttnMid.lean ====
/-
  The attention stage at a key tile that is neither first nor last: the six scratch buffers, entered at what the
  previous key tile left, are folded with this key tile. The output tile is not touched.
-/
import proofs.«180034_j81982335746566_2_alg».proof.Proof.IdealAttnFirst

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- One run of the body in this case, on whole buffers: the three input tiles are handed back as they were, the output tile too;
    each scratch buffer comes back as a list of stores over what it held (latest first), the lists being whatever the run
    performs. -/
noncomputable def midStep (c : Dev nD) (i : grid3.Coords) (aq : Memref sig .tc .vmem S1x1024x128 .bf16) (hq : aq.IsWhole) (ak : Memref sig .tc .vmem S1x512x128 .bf16) (hk : ak.IsWhole) (av : Memref sig .tc .vmem S1x512x128 .bf16) (hv : av.IsWhole) (ao : Memref sig .tc .vmem S1x1024x128 .bf16) (ho : ao.IsWhole) (s0 : Memref sig .tc .vmem S1024x1 .f32) (z0 : s0.IsWhole) (s1 : Memref sig .tc .vmem S1024x1 .f32) (z1 : s1.IsWhole) (s2 : Memref sig .tc .vmem S1024x64 .f32) (z2 : s2.IsWhole) (s3 : Memref sig .tc .vmem S1024x1 .f32) (z3 : s3.IsWhole) (s4 : Memref sig .tc .vmem S1024x1 .f32) (z4 : s4.IsWhole) (s5 : Memref sig .tc .vmem S1024x64 .f32) (z5 : s5.IsWhole) (hf : ¬first3 i) (hl : ¬last3 i)
    (xq : Vec F S1x1024x128 .bf16) (xk : Vec F S1x512x128 .bf16) (xv : Vec F S1x512x128 .bf16) (xs0 : Vec F S1024x1 .f32) (xs1 : Vec F S1024x1 .f32) (xs2 : Vec F S1024x64 .f32) (xs3 : Vec F S1024x1 .f32) (xs4 : Vec F S1024x1 .f32) (xs5 : Vec F S1024x64 .f32) :
    Σ' (P0 : List (View.Piece (Elt F) S1024x1 .f32)) (P1 : List (View.Piece (Elt F) S1024x1 .f32)) (P2 : List (View.Piece (Elt F) S1024x64 .f32)) (P3 : List (View.Piece (Elt F) S1024x1 .f32)) (P4 : List (View.Piece (Elt F) S1024x1 .f32)), { P5 : List (View.Piece (Elt F) S1024x64 .f32) //
      ∀ (xo : Vec F S1x1024x128 .bf16) (E : Set ℕ) (K : PUnit → sProp 𝕄),
        iprop(owns (c : Thread nD τ) aq fullShare xq ∗ owns (c : Thread nD τ) ak fullShare xk ∗ owns (c : Thread nD τ) av fullShare xv ∗ owns (c : Thread nD τ) ao fullShare xo ∗ owns (c : Thread nD τ) s0 fullShare xs0 ∗ owns (c : Thread nD τ) s1 fullShare xs1 ∗ owns (c : Thread nD τ) s2 fullShare xs2 ∗ owns (c : Thread nD τ) s3 fullShare xs3 ∗ owns (c : Thread nD τ) s4 fullShare xs4 ∗ owns (c : Thread nD τ) s5 fullShare xs5
            ∗ (iprop(owns (c : Thread nD τ) aq fullShare xq ∗ owns (c : Thread nD τ) ak fullShare xk ∗ owns (c : Thread nD τ) av fullShare xv ∗ owns (c : Thread nD τ) ao fullShare xo ∗ (∃ f, s0.view.loc (c : Thread nD τ) ↦[s0.view.set]{fullShare} s0.view.writes (Elt F) f P0) ∗ (∃ f, s1.view.loc (c : Thread nD τ) ↦[s1.view.set]{fullShare} s1.view.writes (Elt F) f P1) ∗ (∃ f, s2.view.loc (c : Thread nD τ) ↦[s2.view.set]{fullShare} s2.view.writes (Elt F) f P2) ∗ (∃ f, s3.view.loc (c : Thread nD τ) ↦[s3.view.set]{fullShare} s3.view.writes (Elt F) f P3) ∗ (∃ f, s4.view.loc (c : Thread nD τ) ↦[s4.view.set]{fullShare} s4.view.writes (Elt F) f P4) ∗ (∃ f, s5.view.loc (c : Thread nD τ) ↦[s5.view.set]{fullShare} s5.view.writes (Elt F) f P5)) -∗ K ⟨⟩))
          ⊢ wp frame (wpE (defs₀ (F := F)) Variants.none c none) E (cc3__flash_attn_kernel i aq hq ak hk av hv ao ho s0 z0 s1 z1 s2 z2 s3 z3 s4 z4 s5 z5) K } := by
  refine ⟨?_, ?_, ?_, ?_, ?_, ?_, fun xo E K => ?run⟩
  case run =>
    simp only [cc3__flash_attn_kernel_eq_skeleton]; unfold cc3__flash_attn_kernel_skel
    simp only [k3_part1_eq_skeleton, k3_part2_eq_skeleton]
    unfold owns
    iintro ⟨⟨%fq, %hfq, Hq⟩, ⟨%fk, %hfk, Hkk⟩, ⟨%fv, %hfv, Hv⟩, ⟨%fo, %hfo, Ho⟩, ⟨%g0, %hg0, S0⟩, ⟨%g1, %hg1, S1⟩, ⟨%g2, %hg2, S2⟩, ⟨%g3, %hg3, S3⟩, ⟨%g4, %hg4, S4⟩, ⟨%g5, %hg5, S5⟩, Hk⟩
    obtain rfl := hq.eq_unread hfq; obtain rfl := hk.eq_unread hfk; obtain rfl := hv.eq_unread hfv; obtain rfl := ho.eq_unread hfo
    obtain rfl := z0.eq_unread hg0; obtain rfl := z1.eq_unread hg1; obtain rfl := z2.eq_unread hg2; obtain rfl := z3.eq_unread hg3; obtain rfl := z4.eq_unread hg4; obtain rfl := z5.eq_unread hg5
    sl_exec (disch := first | exact hf | exact hl)
    sl_step
    iapply Hk
    isplitl [Hq]
    · iexists _; isplitr; · ipureintro; exact hq.read_unread _
      iexact Hq
    isplitl [Hkk]
    · iexists _; isplitr; · ipureintro; exact hk.read_unread _
      iexact Hkk
    isplitl [Hv]
    · iexists _; isplitr; · ipureintro; exact hv.read_unread _
      iexact Hv
    isplitl [Ho]
    · iexists _; isplitr; · ipureintro; exact ho.read_unread _
      iexact Ho
    isplitl [S0]; · iexists _; iexact S0
    isplitl [S1]; · iexists _; iexact S1
    isplitl [S2]; · iexists _; iexact S2
    isplitl [S3]; · iexists _; iexact S3
    isplitl [S4]; · iexists _; iexact S4
    iexists _; iexact S5

end Cert.KernelIdeal.Hand

end
-- ==== Proof.IdealAttnLast.lean ====
/-
  The attention stage at the LAST key tile: the six scratch buffers are folded with this key tile, and the output
  tile is stored, head by head, as weighted sum over normaliser.
-/
import proofs.«180034_j81982335746566_2_alg».proof.Proof.IdealAttnMid

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- One run of the body in this case, on whole buffers: the three input tiles are handed back as they were;
    each scratch buffer and the output tile comes back as a list of stores over what it held (latest first), the lists being whatever the run
    performs. -/
noncomputable def lastStep (c : Dev nD) (i : grid3.Coords) (aq : Memref sig .tc .vmem S1x1024x128 .bf16) (hq : aq.IsWhole) (ak : Memref sig .tc .vmem S1x512x128 .bf16) (hk : ak.IsWhole) (av : Memref sig .tc .vmem S1x512x128 .bf16) (hv : av.IsWhole) (ao : Memref sig .tc .vmem S1x1024x128 .bf16) (ho : ao.IsWhole) (s0 : Memref sig .tc .vmem S1024x1 .f32) (z0 : s0.IsWhole) (s1 : Memref sig .tc .vmem S1024x1 .f32) (z1 : s1.IsWhole) (s2 : Memref sig .tc .vmem S1024x64 .f32) (z2 : s2.IsWhole) (s3 : Memref sig .tc .vmem S1024x1 .f32) (z3 : s3.IsWhole) (s4 : Memref sig .tc .vmem S1024x1 .f32) (z4 : s4.IsWhole) (s5 : Memref sig .tc .vmem S1024x64 .f32) (z5 : s5.IsWhole) (hf : ¬first3 i) (hl : last3 i)
    (xq : Vec F S1x1024x128 .bf16) (xk : Vec F S1x512x128 .bf16) (xv : Vec F S1x512x128 .bf16) (xs0 : Vec F S1024x1 .f32) (xs1 : Vec F S1024x1 .f32) (xs2 : Vec F S1024x64 .f32) (xs3 : Vec F S1024x1 .f32) (xs4 : Vec F S1024x1 .f32) (xs5 : Vec F S1024x64 .f32) :
    Σ' (PO : List (View.Piece (Elt F) S1x1024x128 .bf16)) (P0 : List (View.Piece (Elt F) S1024x1 .f32)) (P1 : List (View.Piece (Elt F) S1024x1 .f32)) (P2 : List (View.Piece (Elt F) S1024x64 .f32)) (P3 : List (View.Piece (Elt F) S1024x1 .f32)) (P4 : List (View.Piece (Elt F) S1024x1 .f32)), { P5 : List (View.Piece (Elt F) S1024x64 .f32) //
      ∀ (E : Set ℕ) (K : PUnit → sProp 𝕄),
        iprop(owns (c : Thread nD τ) aq fullShare xq ∗ owns (c : Thread nD τ) ak fullShare xk ∗ owns (c : Thread nD τ) av fullShare xv ∗ (∃ d, owns (c : Thread nD τ) ao fullShare d) ∗ owns (c : Thread nD τ) s0 fullShare xs0 ∗ owns (c : Thread nD τ) s1 fullShare xs1 ∗ owns (c : Thread nD τ) s2 fullShare xs2 ∗ owns (c : Thread nD τ) s3 fullShare xs3 ∗ owns (c : Thread nD τ) s4 fullShare xs4 ∗ owns (c : Thread nD τ) s5 fullShare xs5
            ∗ (iprop(owns (c : Thread nD τ) aq fullShare xq ∗ owns (c : Thread nD τ) ak fullShare xk ∗ owns (c : Thread nD τ) av fullShare xv ∗ (∃ f, ao.view.loc (c : Thread nD τ) ↦[ao.view.set]{fullShare} ao.view.writes (Elt F) f PO) ∗ (∃ f, s0.view.loc (c : Thread nD τ) ↦[s0.view.set]{fullShare} s0.view.writes (Elt F) f P0) ∗ (∃ f, s1.view.loc (c : Thread nD τ) ↦[s1.view.set]{fullShare} s1.view.writes (Elt F) f P1) ∗ (∃ f, s2.view.loc (c : Thread nD τ) ↦[s2.view.set]{fullShare} s2.view.writes (Elt F) f P2) ∗ (∃ f, s3.view.loc (c : Thread nD τ) ↦[s3.view.set]{fullShare} s3.view.writes (Elt F) f P3) ∗ (∃ f, s4.view.loc (c : Thread nD τ) ↦[s4.view.set]{fullShare} s4.view.writes (Elt F) f P4) ∗ (∃ f, s5.view.loc (c : Thread nD τ) ↦[s5.view.set]{fullShare} s5.view.writes (Elt F) f P5)) -∗ K ⟨⟩))
          ⊢ wp frame (wpE (defs₀ (F := F)) Variants.none c none) E (cc3__flash_attn_kernel i aq hq ak hk av hv ao ho s0 z0 s1 z1 s2 z2 s3 z3 s4 z4 s5 z5) K } := by
  refine ⟨?_, ?_, ?_, ?_, ?_, ?_, ?_, fun E K => ?run⟩
  case run =>
    simp only [cc3__flash_attn_kernel_eq_skeleton]; unfold cc3__flash_attn_kernel_skel
    simp only [k3_part1_eq_skeleton, k3_part2_eq_skeleton]
    unfold owns
    iintro ⟨⟨%fq, %hfq, Hq⟩, ⟨%fk, %hfk, Hkk⟩, ⟨%fv, %hfv, Hv⟩, ⟨%dO, %fo, -, Ho⟩, ⟨%g0, %hg0, S0⟩, ⟨%g1, %hg1, S1⟩, ⟨%g2, %hg2, S2⟩, ⟨%g3, %hg3, S3⟩, ⟨%g4, %hg4, S4⟩, ⟨%g5, %hg5, S5⟩, Hk⟩
    obtain rfl := hq.eq_unread hfq; obtain rfl := hk.eq_unread hfk; obtain rfl := hv.eq_unread hfv
    obtain rfl := z0.eq_unread hg0; obtain rfl := z1.eq_unread hg1; obtain rfl := z2.eq_unread hg2; obtain rfl := z3.eq_unread hg3; obtain rfl := z4.eq_unread hg4; obtain rfl := z5.eq_unread hg5
    sl_exec (disch := first | exact hf | exact hl)
    sl_step
    iapply Hk
    isplitl [Hq]
    · iexists _; isplitr; · ipureintro; exact hq.read_unread _
      iexact Hq
    isplitl [Hkk]
    · iexists _; isplitr; · ipureintro; exact hk.read_unread _
      iexact Hkk
    isplitl [Hv]
    · iexists _; isplitr; · ipureintro; exact hv.read_unread _
      iexact Hv
    isplitl [Ho]; · iexists _; iexact Ho
    isplitl [S0]; · iexists _; iexact S0
    isplitl [S1]; · iexists _; iexact S1
    isplitl [S2]; · iexists _; iexact S2
    isplitl [S3]; · iexists _; iexact S3
    isplitl [S4]; · iexists _; iexact S4
    iexists _; iexact S5

end Cert.KernelIdeal.Hand

end
-- ==== Proof.IdealAttnCarry.lean ====
/-
  The attention stage, point by point. Along each run of eight key tiles the six scratch buffers carry the running
  maximum, normaliser and weighted sum of the two heads: the first point of a run resets and folds, the others fold
  what the point before left, and the last one also stores the output tile. This module names what the scratch
  buffers hold after every point (by recursion on the point), records it as what the stage keeps between points,
  and proves that the body, run at any point, turns the record before the point into the record after it.
-/
import proofs.«180034_j81982335746566_2_alg».proof.Proof.IdealAttnLast

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the six scratch buffers hold: running maximum, normaliser and weighted sum of the first head, then of the
    second. -/
structure Carry (F : FTy → Type) [FloatOps F] where
  m0 : Vec F S1024x1 .f32
  l0 : Vec F S1024x1 .f32
  a0 : Vec F S1024x64 .f32
  m1 : Vec F S1024x1 .f32
  l1 : Vec F S1024x1 .f32
  a1 : Vec F S1024x64 .f32

/-! ## What each case leaves -/

/-- The stores of this case into scratch buffer 0 write every entry of it. -/
theorem first_cover0 (c : Dev nD) (i : grid3.Coords) (aq : Memref sig .tc .vmem S1x1024x128 .bf16) (hq : aq.IsWhole) (ak : Memref sig .tc .vmem S1x512x128 .bf16) (hk : ak.IsWhole) (av : Memref sig .tc .vmem S1x512x128 .bf16) (hv : av.IsWhole) (ao : Memref sig .tc .vmem S1x1024x128 .bf16) (ho : ao.IsWhole) (s0 : Memref sig .tc .vmem S1024x1 .f32) (z0 : s0.IsWhole) (s1 : Memref sig .tc .vmem S1024x1 .f32) (z1 : s1.IsWhole) (s2 : Memref sig .tc .vmem S1024x64 .f32) (z2 : s2.IsWhole) (s3 : Memref sig .tc .vmem S1024x1 .f32) (z3 : s3.IsWhole) (s4 : Memref sig .tc .vmem S1024x1 .f32) (z4 : s4.IsWhole) (s5 : Memref sig .tc .vmem S1024x64 .f32) (z5 : s5.IsWhole) (hf : first3 i) (hl : ¬last3 i) (xq : Vec F S1x1024x128 .bf16) (xk : Vec F S1x512x128 .bf16) (xv : Vec F S1x512x128 .bf16) (y : S1024x1.Idx) :
    ∃ pc ∈ (firstStep c i aq hq ak hk av hv ao ho s0 z0 s1 z1 s2 z2 s3 z3 s4 z4 s5 z5 hf hl xq xk xv).1, y ∈ pc.1.set :=
  View.cover_of_tiledL (firstStep c i aq hq ak hk av hv ao ho s0 z0 s1 z1 s2 z2 s3 z3 s4 z4 s5 z5 hf hl xq xk xv).1 S1024x1.size (by sl_kernel_rfl) y

/-- The stores of this case into scratch buffer 1 write every entry of it. -/
theorem first_cover1 (c : Dev nD) (i : grid3.Coords) (aq : Memref sig .tc .vmem S1x1024x128 .bf16) (hq : aq.IsWhole) (ak : Memref sig .tc .vmem S1x512x128 .bf16) (hk : ak.IsWhole) (av : Memref sig .tc .vmem S1x512x128 .bf16) (hv : av.IsWhole) (ao : Memref sig .tc .vmem S1x1024x128 .bf16) (ho : ao.IsWhole) (s0 : Memref sig .tc .vmem S1024x1 .f32) (z0 : s0.IsWhole) (s1 : Memref sig .tc .vmem S1024x1 .f32) (z1 : s1.IsWhole) (s2 : Memref sig .tc .vmem S1024x64 .f32) (z2 : s2.IsWhole) (s3 : Memref sig .tc .vmem S1024x1 .f32) (z3 : s3.IsWhole) (s4 : Memref sig .tc .vmem S1024x1 .f32) (z4 : s4.IsWhole) (s5 : Memref sig .tc .vmem S1024x64 .f32) (z5 : s5.IsWhole) (hf : first3 i) (hl : ¬last3 i) (xq : Vec F S1x1024x128 .bf16) (xk : Vec F S1x512x128 .bf16) (xv : Vec F S1x512x128 .bf16) (y : S1024x1.Idx) :
    ∃ pc ∈ (firstStep c i aq hq ak hk av hv ao ho s0 z0 s1 z1 s2 z2 s3 z3 s4 z4 s5 z5 hf hl xq xk xv).2.1, y ∈ pc.1.set :=
  View.cover_of_tiledL (firstStep c i aq hq ak hk av hv ao ho s0 z0 s1 z1 s2 z2 s3 z3 s4 z4 s5 z5 hf hl xq xk xv).2.1 S1024x1.size (by sl_kernel_rfl) y

/-- The stores of this case into scratch buffer 2 write every entry of it. -/
theorem first_cover2 (c : Dev nD) (i : grid3.Coords) (aq : Memref sig .tc .vmem S1x1024x128 .bf16) (hq : aq.IsWhole) (ak : Memref sig .tc .vmem S1x512x128 .bf16) (hk : ak.IsWhole) (av : Memref sig .tc .vmem S1x512x128 .bf16) (hv : av.IsWhole) (ao : Memref sig .tc .vmem S1x1024x128 .bf16) (ho : ao.IsWhole) (s0 : Memref sig .tc .vmem S1024x1 .f32) (z0 : s0.IsWhole) (s1 : Memref sig .tc .vmem S1024x1 .f32) (z1 : s1.IsWhole) (s2 : Memref sig .tc .vmem S1024x64 .f32) (z2 : s2.IsWhole) (s3 : Memref sig .tc .vmem S1024x1 .f32) (z3 : s3.IsWhole) (s4 : Memref sig .tc .vmem S1024x1 .f32) (z4 : s4.IsWhole) (s5 : Memref sig .tc .vmem S1024x64 .f32) (z5 : s5.IsWhole) (hf : first3 i) (hl : ¬last3 i) (xq : Vec F S1x1024x128 .bf16) (xk : Vec F S1x512x128 .bf16) (xv : Vec F S1x512x128 .bf16) (y : S1024x64.Idx) :
    ∃ pc ∈ (firstStep c i aq hq ak hk av hv ao ho s0 z0 s1 z1 s2 z2 s3 z3 s4 z4 s5 z5 hf hl xq xk xv).2.2.1, y ∈ pc.1.set :=
  View.cover_of_tiledL (firstStep c i aq hq ak hk av hv ao ho s0 z0 s1 z1 s2 z2 s3 z3 s4 z4 s5 z5 hf hl xq xk xv).2.2.1 S1024x64.size (by sl_kernel_rfl) y

/-- The stores of this case into scratch buffer 3 write every entry of it. -/
theorem first_cover3 (c : Dev nD) (i : grid3.Coords) (aq : Memref sig .tc .vmem S1x1024x128 .bf16) (hq : aq.IsWhole) (ak : Memref sig .tc .vmem S1x512x128 .bf16) (hk : ak.IsWhole) (av : Memref sig .tc .vmem S1x512x128 .bf16) (hv : av.IsWhole) (ao : Memref sig .tc .vmem S1x1024x128 .bf16) (ho : ao.IsWhole) (s0 : Memref sig .tc .vmem S1024x1 .f32) (z0 : s0.IsWhole) (s1 : Memref sig .tc .vmem S1024x1 .f32) (z1 : s1.IsWhole) (s2 : Memref sig .tc .vmem S1024x64 .f32) (z2 : s2.IsWhole) (s3 : Memref sig .tc .vmem S1024x1 .f32) (z3 : s3.IsWhole) (s4 : Memref sig .tc .vmem S1024x1 .f32) (z4 : s4.IsWhole) (s5 : Memref sig .tc .vmem S1024x64 .f32) (z5 : s5.IsWhole) (hf : first3 i) (hl : ¬last3 i) (xq : Vec F S1x1024x128 .bf16) (xk : Vec F S1x512x128 .bf16) (xv : Vec F S1x512x128 .bf16) (y : S1024x1.Idx) :
    ∃ pc ∈ (firstStep c i aq hq ak hk av hv ao ho s0 z0 s1 z1 s2 z2 s3 z3 s4 z4 s5 z5 hf hl xq xk xv).2.2.2.1, y ∈ pc.1.set :=
  View.cover_of_tiledL (firstStep c i aq hq ak hk av hv ao ho s0 z0 s1 z1 s2 z2 s3 z3 s4 z4 s5 z5 hf hl xq xk xv).2.2.2.1 S1024x1.size (by sl_kernel_rfl) y

/-- The stores of this case into scratch buffer 4 write every entry of it. -/
theorem first_cover4 (c : Dev nD) (i : grid3.Coords) (aq : Memref sig .tc .vmem S1x1024x128 .bf16) (hq : aq.IsWhole) (ak : Memref sig .tc .vmem S1x512x128 .bf16) (hk : ak.IsWhole) (av : Memref sig .tc .vmem S1x512x128 .bf16) (hv : av.IsWhole) (ao : Memref sig .tc .vmem S1x1024x128 .bf16) (ho : ao.IsWhole) (s0 : Memref sig .tc .vmem S1024x1 .f32) (z0 : s0.IsWhole) (s1 : Memref sig .tc .vmem S1024x1 .f32) (z1 : s1.IsWhole) (s2 : Memref sig .tc .vmem S1024x64 .f32) (z2 : s2.IsWhole) (s3 : Memref sig .tc .vmem S1024x1 .f32) (z3 : s3.IsWhole) (s4 : Memref sig .tc .vmem S1024x1 .f32) (z4 : s4.IsWhole) (s5 : Memref sig .tc .vmem S1024x64 .f32) (z5 : s5.IsWhole) (hf : first3 i) (hl : ¬last3 i) (xq : Vec F S1x1024x128 .bf16) (xk : Vec F S1x512x128 .bf16) (xv : Vec F S1x512x128 .bf16) (y : S1024x1.Idx) :
    ∃ pc ∈ (firstStep c i aq hq ak hk av hv ao ho s0 z0 s1 z1 s2 z2 s3 z3 s4 z4 s5 z5 hf hl xq xk xv).2.2.2.2.1, y ∈ pc.1.set :=
  View.cover_of_tiledL (firstStep c i aq hq ak hk av hv ao ho s0 z0 s1 z1 s2 z2 s3 z3 s4 z4 s5 z5 hf hl xq xk xv).2.2.2.2.1 S1024x1.size (by sl_kernel_rfl) y

/-- The stores of this case into scratch buffer 5 write every entry of it. -/
theorem first_cover5 (c : Dev nD) (i : grid3.Coords) (aq : Memref sig .tc .vmem S1x1024x128 .bf16) (hq : aq.IsWhole) (ak : Memref sig .tc .vmem S1x512x128 .bf16) (hk : ak.IsWhole) (av : Memref sig .tc .vmem S1x512x128 .bf16) (hv : av.IsWhole) (ao : Memref sig .tc .vmem S1x1024x128 .bf16) (ho : ao.IsWhole) (s0 : Memref sig .tc .vmem S1024x1 .f32) (z0 : s0.IsWhole) (s1 : Memref sig .tc .vmem S1024x1 .f32) (z1 : s1.IsWhole) (s2 : Memref sig .tc .vmem S1024x64 .f32) (z2 : s2.IsWhole) (s3 : Memref sig .tc .vmem S1024x1 .f32) (z3 : s3.IsWhole) (s4 : Memref sig .tc .vmem S1024x1 .f32) (z4 : s4.IsWhole) (s5 : Memref sig .tc .vmem S1024x64 .f32) (z5 : s5.IsWhole) (hf : first3 i) (hl : ¬last3 i) (xq : Vec F S1x1024x128 .bf16) (xk : Vec F S1x512x128 .bf16) (xv : Vec F S1x512x128 .bf16) (y : S1024x64.Idx) :
    ∃ pc ∈ (firstStep c i aq hq ak hk av hv ao ho s0 z0 s1 z1 s2 z2 s3 z3 s4 z4 s5 z5 hf hl xq xk xv).2.2.2.2.2.1, y ∈ pc.1.set :=
  View.cover_of_tiledL (firstStep c i aq hq ak hk av hv ao ho s0 z0 s1 z1 s2 z2 s3 z3 s4 z4 s5 z5 hf hl xq xk xv).2.2.2.2.2.1 S1024x64.size (by sl_kernel_rfl) y

/-- The six scratch buffers after a point of this case. -/
def firstCarry (c : Dev nD) (i : grid3.Coords) (aq : Memref sig .tc .vmem S1x1024x128 .bf16) (hq : aq.IsWhole) (ak : Memref sig .tc .vmem S1x512x128 .bf16) (hk : ak.IsWhole) (av : Memref sig .tc .vmem S1x512x128 .bf16) (hv : av.IsWhole) (ao : Memref sig .tc .vmem S1x1024x128 .bf16) (ho : ao.IsWhole) (s0 : Memref sig .tc .vmem S1024x1 .f32) (z0 : s0.IsWhole) (s1 : Memref sig .tc .vmem S1024x1 .f32) (z1 : s1.IsWhole) (s2 : Memref sig .tc .vmem S1024x64 .f32) (z2 : s2.IsWhole) (s3 : Memref sig .tc .vmem S1024x1 .f32) (z3 : s3.IsWhole) (s4 : Memref sig .tc .vmem S1024x1 .f32) (z4 : s4.IsWhole) (s5 : Memref sig .tc .vmem S1024x64 .f32) (z5 : s5.IsWhole) (hf : first3 i) (hl : ¬last3 i) (xq : Vec F S1x1024x128 .bf16) (xk : Vec F S1x512x128 .bf16) (xv : Vec F S1x512x128 .bf16) : Carry F :=
  ⟨sV0.read (Elt F) (sV0.writes (Elt F) sV0.junk (firstStep c i aq hq ak hk av hv ao ho s0 z0 s1 z1 s2 z2 s3 z3 s4 z4 s5 z5 hf hl xq xk xv).1),
   sV1.read (Elt F) (sV1.writes (Elt F) sV1.junk (firstStep c i aq hq ak hk av hv ao ho s0 z0 s1 z1 s2 z2 s3 z3 s4 z4 s5 z5 hf hl xq xk xv).2.1),
   sV2.read (Elt F) (sV2.writes (Elt F) sV2.junk (firstStep c i aq hq ak hk av hv ao ho s0 z0 s1 z1 s2 z2 s3 z3 s4 z4 s5 z5 hf hl xq xk xv).2.2.1),
   sV3.read (Elt F) (sV3.writes (Elt F) sV3.junk (firstStep c i aq hq ak hk av hv ao ho s0 z0 s1 z1 s2 z2 s3 z3 s4 z4 s5 z5 hf hl xq xk xv).2.2.2.1),
   sV4.read (Elt F) (sV4.writes (Elt F) sV4.junk (firstStep c i aq hq ak hk av hv ao ho s0 z0 s1 z1 s2 z2 s3 z3 s4 z4 s5 z5 hf hl xq xk xv).2.2.2.2.1),
   sV5.read (Elt F) (sV5.writes (Elt F) sV5.junk (firstStep c i aq hq ak hk av hv ao ho s0 z0 s1 z1 s2 z2 s3 z3 s4 z4 s5 z5 hf hl xq xk xv).2.2.2.2.2.1)⟩

/-- The stores of this case into scratch buffer 0 write every entry of it. -/
theorem mid_cover0 (c : Dev nD) (i : grid3.Coords) (aq : Memref sig .tc .vmem S1x1024x128 .bf16) (hq : aq.IsWhole) (ak : Memref sig .tc .vmem S1x512x128 .bf16) (hk : ak.IsWhole) (av : Memref sig .tc .vmem S1x512x128 .bf16) (hv : av.IsWhole) (ao : Memref sig .tc .vmem S1x1024x128 .bf16) (ho : ao.IsWhole) (s0 : Memref sig .tc .vmem S1024x1 .f32) (z0 : s0.IsWhole) (s1 : Memref sig .tc .vmem S1024x1 .f32) (z1 : s1.IsWhole) (s2 : Memref sig .tc .vmem S1024x64 .f32) (z2 : s2.IsWhole) (s3 : Memref sig .tc .vmem S1024x1 .f32) (z3 : s3.IsWhole) (s4 : Memref sig .tc .vmem S1024x1 .f32) (z4 : s4.IsWhole) (s5 : Memref sig .tc .vmem S1024x64 .f32) (z5 : s5.IsWhole) (hf : ¬first3 i) (hl : ¬last3 i) (xq : Vec F S1x1024x128 .bf16) (xk : Vec F S1x512x128 .bf16) (xv : Vec F S1x512x128 .bf16) (xs0 : Vec F S1024x1 .f32) (xs1 : Vec F S1024x1 .f32) (xs2 : Vec F S1024x64 .f32) (xs3 : Vec F S1024x1 .f32) (xs4 : Vec F S1024x1 .f32) (xs5 : Vec F S1024x64 .f32) (y : S1024x1.Idx) :
    ∃ pc ∈ (midStep c i aq hq ak hk av hv ao ho s0 z0 s1 z1 s2 z2 s3 z3 s4 z4 s5 z5 hf hl xq xk xv xs0 xs1 xs2 xs3 xs4 xs5).1, y ∈ pc.1.set :=
  View.cover_of_tiledL (midStep c i aq hq ak hk av hv ao ho s0 z0 s1 z1 s2 z2 s3 z3 s4 z4 s5 z5 hf hl xq xk xv xs0 xs1 xs2 xs3 xs4 xs5).1 S1024x1.size (by sl_kernel_rfl) y

/-- The stores of this case into scratch buffer 1 write every entry of it. -/
theorem mid_cover1 (c : Dev nD) (i : grid3.Coords) (aq : Memref sig .tc .vmem S1x1024x128 .bf16) (hq : aq.IsWhole) (ak : Memref sig .tc .vmem S1x512x128 .bf16) (hk : ak.IsWhole) (av : Memref sig .tc .vmem S1x512x128 .bf16) (hv : av.IsWhole) (ao : Memref sig .tc .vmem S1x1024x128 .bf16) (ho : ao.IsWhole) (s0 : Memref sig .tc .vmem S1024x1 .f32) (z0 : s0.IsWhole) (s1 : Memref sig .tc .vmem S1024x1 .f32) (z1 : s1.IsWhole) (s2 : Memref sig .tc .vmem S1024x64 .f32) (z2 : s2.IsWhole) (s3 : Memref sig .tc .vmem S1024x1 .f32) (z3 : s3.IsWhole) (s4 : Memref sig .tc .vmem S1024x1 .f32) (z4 : s4.IsWhole) (s5 : Memref sig .tc .vmem S1024x64 .f32) (z5 : s5.IsWhole) (hf : ¬first3 i) (hl : ¬last3 i) (xq : Vec F S1x1024x128 .bf16) (xk : Vec F S1x512x128 .bf16) (xv : Vec F S1x512x128 .bf16) (xs0 : Vec F S1024x1 .f32) (xs1 : Vec F S1024x1 .f32) (xs2 : Vec F S1024x64 .f32) (xs3 : Vec F S1024x1 .f32) (xs4 : Vec F S1024x1 .f32) (xs5 : Vec F S1024x64 .f32) (y : S1024x1.Idx) :
    ∃ pc ∈ (midStep c i aq hq ak hk av hv ao ho s0 z0 s1 z1 s2 z2 s3 z3 s4 z4 s5 z5 hf hl xq xk xv xs0 xs1 xs2 xs3 xs4 xs5).2.1, y ∈ pc.1.set :=
  View.cover_of_tiledL (midStep c i aq hq ak hk av hv ao ho s0 z0 s1 z1 s2 z2 s3 z3 s4 z4 s5 z5 hf hl xq xk xv xs0 xs1 xs2 xs3 xs4 xs5).2.1 S1024x1.size (by sl_kernel_rfl) y

/-- The stores of this case into scratch buffer 2 write every entry of it. -/
theorem mid_cover2 (c : Dev nD) (i : grid3.Coords) (aq : Memref sig .tc .vmem S1x1024x128 .bf16) (hq : aq.IsWhole) (ak : Memref sig .tc .vmem S1x512x128 .bf16) (hk : ak.IsWhole) (av : Memref sig .tc .vmem S1x512x128 .bf16) (hv : av.IsWhole) (ao : Memref sig .tc .vmem S1x1024x128 .bf16) (ho : ao.IsWhole) (s0 : Memref sig .tc .vmem S1024x1 .f32) (z0 : s0.IsWhole) (s1 : Memref sig .tc .vmem S1024x1 .f32) (z1 : s1.IsWhole) (s2 : Memref sig .tc .vmem S1024x64 .f32) (z2 : s2.IsWhole) (s3 : Memref sig .tc .vmem S1024x1 .f32) (z3 : s3.IsWhole) (s4 : Memref sig .tc .vmem S1024x1 .f32) (z4 : s4.IsWhole) (s5 : Memref sig .tc .vmem S1024x64 .f32) (z5 : s5.IsWhole) (hf : ¬first3 i) (hl : ¬last3 i) (xq : Vec F S1x1024x128 .bf16) (xk : Vec F S1x512x128 .bf16) (xv : Vec F S1x512x128 .bf16) (xs0 : Vec F S1024x1 .f32) (xs1 : Vec F S1024x1 .f32) (xs2 : Vec F S1024x64 .f32) (xs3 : Vec F S1024x1 .f32) (xs4 : Vec F S1024x1 .f32) (xs5 : Vec F S1024x64 .f32) (y : S1024x64.Idx) :
    ∃ pc ∈ (midStep c i aq hq ak hk av hv ao ho s0 z0 s1 z1 s2 z2 s3 z3 s4 z4 s5 z5 hf hl xq xk xv xs0 xs1 xs2 xs3 xs4 xs5).2.2.1, y ∈ pc.1.set :=
  View.cover_of_tiledL (midStep c i aq hq ak hk av hv ao ho s0 z0 s1 z1 s2 z2 s3 z3 s4 z4 s5 z5 hf hl xq xk xv xs0 xs1 xs2 xs3 xs4 xs5).2.2.1 S1024x64.size (by sl_kernel_rfl) y

/-- The stores of this case into scratch buffer 3 write every entry of it. -/
theorem mid_cover3 (c : Dev nD) (i : grid3.Coords) (aq : Memref sig .tc .vmem S1x1024x128 .bf16) (hq : aq.IsWhole) (ak : Memref sig .tc .vmem S1x512x128 .bf16) (hk : ak.IsWhole) (av : Memref sig .tc .vmem S1x512x128 .bf16) (hv : av.IsWhole) (ao : Memref sig .tc .vmem S1x1024x128 .bf16) (ho : ao.IsWhole) (s0 : Memref sig .tc .vmem S1024x1 .f32) (z0 : s0.IsWhole) (s1 : Memref sig .tc .vmem S1024x1 .f32) (z1 : s1.IsWhole) (s2 : Memref sig .tc .vmem S1024x64 .f32) (z2 : s2.IsWhole) (s3 : Memref sig .tc .vmem S1024x1 .f32) (z3 : s3.IsWhole) (s4 : Memref sig .tc .vmem S1024x1 .f32) (z4 : s4.IsWhole) (s5 : Memref sig .tc .vmem S1024x64 .f32) (z5 : s5.IsWhole) (hf : ¬first3 i) (hl : ¬last3 i) (xq : Vec F S1x1024x128 .bf16) (xk : Vec F S1x512x128 .bf16) (xv : Vec F S1x512x128 .bf16) (xs0 : Vec F S1024x1 .f32) (xs1 : Vec F S1024x1 .f32) (xs2 : Vec F S1024x64 .f32) (xs3 : Vec F S1024x1 .f32) (xs4 : Vec F S1024x1 .f32) (xs5 : Vec F S1024x64 .f32) (y : S1024x1.Idx) :
    ∃ pc ∈ (midStep c i aq hq ak hk av hv ao ho s0 z0 s1 z1 s2 z2 s3 z3 s4 z4 s5 z5 hf hl xq xk xv xs0 xs1 xs2 xs3 xs4 xs5).2.2.2.1, y ∈ pc.1.set :=
  View.cover_of_tiledL (midStep c i aq hq ak hk av hv ao ho s0 z0 s1 z1 s2 z2 s3 z3 s4 z4 s5 z5 hf hl xq xk xv xs0 xs1 xs2 xs3 xs4 xs5).2.2.2.1 S1024x1.size (by sl_kernel_rfl) y

/-- The stores of this case into scratch buffer 4 write every entry of it. -/
theorem mid_cover4 (c : Dev nD) (i : grid3.Coords) (aq : Memref sig .tc .vmem S1x1024x128 .bf16) (hq : aq.IsWhole) (ak : Memref sig .tc .vmem S1x512x128 .bf16) (hk : ak.IsWhole) (av : Memref sig .tc .vmem S1x512x128 .bf16) (hv : av.IsWhole) (ao : Memref sig .tc .vmem S1x1024x128 .bf16) (ho : ao.IsWhole) (s0 : Memref sig .tc .vmem S1024x1 .f32) (z0 : s0.IsWhole) (s1 : Memref sig .tc .vmem S1024x1 .f32) (z1 : s1.IsWhole) (s2 : Memref sig .tc .vmem S1024x64 .f32) (z2 : s2.IsWhole) (s3 : Memref sig .tc .vmem S1024x1 .f32) (z3 : s3.IsWhole) (s4 : Memref sig .tc .vmem S1024x1 .f32) (z4 : s4.IsWhole) (s5 : Memref sig .tc .vmem S1024x64 .f32) (z5 : s5.IsWhole) (hf : ¬first3 i) (hl : ¬last3 i) (xq : Vec F S1x1024x128 .bf16) (xk : Vec F S1x512x128 .bf16) (xv : Vec F S1x512x128 .bf16) (xs0 : Vec F S1024x1 .f32) (xs1 : Vec F S1024x1 .f32) (xs2 : Vec F S1024x64 .f32) (xs3 : Vec F S1024x1 .f32) (xs4 : Vec F S1024x1 .f32) (xs5 : Vec F S1024x64 .f32) (y : S1024x1.Idx) :
    ∃ pc ∈ (midStep c i aq hq ak hk av hv ao ho s0 z0 s1 z1 s2 z2 s3 z3 s4 z4 s5 z5 hf hl xq xk xv xs0 xs1 xs2 xs3 xs4 xs5).2.2.2.2.1, y ∈ pc.1.set :=
  View.cover_of_tiledL (midStep c i aq hq ak hk av hv ao ho s0 z0 s1 z1 s2 z2 s3 z3 s4 z4 s5 z5 hf hl xq xk xv xs0 xs1 xs2 xs3 xs4 xs5).2.2.2.2.1 S1024x1.size (by sl_kernel_rfl) y

/-- The stores of this case into scratch buffer 5 write every entry of it. -/
theorem mid_cover5 (c : Dev nD) (i : grid3.Coords) (aq : Memref sig .tc .vmem S1x1024x128 .bf16) (hq : aq.IsWhole) (ak : Memref sig .tc .vmem S1x512x128 .bf16) (hk : ak.IsWhole) (av : Memref sig .tc .vmem S1x512x128 .bf16) (hv : av.IsWhole) (ao : Memref sig .tc .vmem S1x1024x128 .bf16) (ho : ao.IsWhole) (s0 : Memref sig .tc .vmem S1024x1 .f32) (z0 : s0.IsWhole) (s1 : Memref sig .tc .vmem S1024x1 .f32) (z1 : s1.IsWhole) (s2 : Memref sig .tc .vmem S1024x64 .f32) (z2 : s2.IsWhole) (s3 : Memref sig .tc .vmem S1024x1 .f32) (z3 : s3.IsWhole) (s4 : Memref sig .tc .vmem S1024x1 .f32) (z4 : s4.IsWhole) (s5 : Memref sig .tc .vmem S1024x64 .f32) (z5 : s5.IsWhole) (hf : ¬first3 i) (hl : ¬last3 i) (xq : Vec F S1x1024x128 .bf16) (xk : Vec F S1x512x128 .bf16) (xv : Vec F S1x512x128 .bf16) (xs0 : Vec F S1024x1 .f32) (xs1 : Vec F S1024x1 .f32) (xs2 : Vec F S1024x64 .f32) (xs3 : Vec F S1024x1 .f32) (xs4 : Vec F S1024x1 .f32) (xs5 : Vec F S1024x64 .f32) (y : S1024x64.Idx) :
    ∃ pc ∈ (midStep c i aq hq ak hk av hv ao ho s0 z0 s1 z1 s2 z2 s3 z3 s4 z4 s5 z5 hf hl xq xk xv xs0 xs1 xs2 xs3 xs4 xs5).2.2.2.2.2.1, y ∈ pc.1.set :=
  View.cover_of_tiledL (midStep c i aq hq ak hk av hv ao ho s0 z0 s1 z1 s2 z2 s3 z3 s4 z4 s5 z5 hf hl xq xk xv xs0 xs1 xs2 xs3 xs4 xs5).2.2.2.2.2.1 S1024x64.size (by sl_kernel_rfl) y

/-- The six scratch buffers after a point of this case. -/
def midCarry (c : Dev nD) (i : grid3.Coords) (aq : Memref sig .tc .vmem S1x1024x128 .bf16) (hq : aq.IsWhole) (ak : Memref sig .tc .vmem S1x512x128 .bf16) (hk : ak.IsWhole) (av : Memref sig .tc .vmem S1x512x128 .bf16) (hv : av.IsWhole) (ao : Memref sig .tc .vmem S1x1024x128 .bf16) (ho : ao.IsWhole) (s0 : Memref sig .tc .vmem S1024x1 .f32) (z0 : s0.IsWhole) (s1 : Memref sig .tc .vmem S1024x1 .f32) (z1 : s1.IsWhole) (s2 : Memref sig .tc .vmem S1024x64 .f32) (z2 : s2.IsWhole) (s3 : Memref sig .tc .vmem S1024x1 .f32) (z3 : s3.IsWhole) (s4 : Memref sig .tc .vmem S1024x1 .f32) (z4 : s4.IsWhole) (s5 : Memref sig .tc .vmem S1024x64 .f32) (z5 : s5.IsWhole) (hf : ¬first3 i) (hl : ¬last3 i) (xq : Vec F S1x1024x128 .bf16) (xk : Vec F S1x512x128 .bf16) (xv : Vec F S1x512x128 .bf16) (xs0 : Vec F S1024x1 .f32) (xs1 : Vec F S1024x1 .f32) (xs2 : Vec F S1024x64 .f32) (xs3 : Vec F S1024x1 .f32) (xs4 : Vec F S1024x1 .f32) (xs5 : Vec F S1024x64 .f32) : Carry F :=
  ⟨sV0.read (Elt F) (sV0.writes (Elt F) sV0.junk (midStep c i aq hq ak hk av hv ao ho s0 z0 s1 z1 s2 z2 s3 z3 s4 z4 s5 z5 hf hl xq xk xv xs0 xs1 xs2 xs3 xs4 xs5).1),
   sV1.read (Elt F) (sV1.writes (Elt F) sV1.junk (midStep c i aq hq ak hk av hv ao ho s0 z0 s1 z1 s2 z2 s3 z3 s4 z4 s5 z5 hf hl xq xk xv xs0 xs1 xs2 xs3 xs4 xs5).2.1),
   sV2.read (Elt F) (sV2.writes (Elt F) sV2.junk (midStep c i aq hq ak hk av hv ao ho s0 z0 s1 z1 s2 z2 s3 z3 s4 z4 s5 z5 hf hl xq xk xv xs0 xs1 xs2 xs3 xs4 xs5).2.2.1),
   sV3.read (Elt F) (sV3.writes (Elt F) sV3.junk (midStep c i aq hq ak hk av hv ao ho s0 z0 s1 z1 s2 z2 s3 z3 s4 z4 s5 z5 hf hl xq xk xv xs0 xs1 xs2 xs3 xs4 xs5).2.2.2.1),
   sV4.read (Elt F) (sV4.writes (Elt F) sV4.junk (midStep c i aq hq ak hk av hv ao ho s0 z0 s1 z1 s2 z2 s3 z3 s4 z4 s5 z5 hf hl xq xk xv xs0 xs1 xs2 xs3 xs4 xs5).2.2.2.2.1),
   sV5.read (Elt F) (sV5.writes (Elt F) sV5.junk (midStep c i aq hq ak hk av hv ao ho s0 z0 s1 z1 s2 z2 s3 z3 s4 z4 s5 z5 hf hl xq xk xv xs0 xs1 xs2 xs3 xs4 xs5).2.2.2.2.2.1)⟩

/-- The stores of this case into scratch buffer 0 write every entry of it. -/
theorem last_cover0 (c : Dev nD) (i : grid3.Coords) (aq : Memref sig .tc .vmem S1x1024x128 .bf16) (hq : aq.IsWhole) (ak : Memref sig .tc .vmem S1x512x128 .bf16) (hk : ak.IsWhole) (av : Memref sig .tc .vmem S1x512x128 .bf16) (hv : av.IsWhole) (ao : Memref sig .tc .vmem S1x1024x128 .bf16) (ho : ao.IsWhole) (s0 : Memref sig .tc .vmem S1024x1 .f32) (z0 : s0.IsWhole) (s1 : Memref sig .tc .vmem S1024x1 .f32) (z1 : s1.IsWhole) (s2 : Memref sig .tc .vmem S1024x64 .f32) (z2 : s2.IsWhole) (s3 : Memref sig .tc .vmem S1024x1 .f32) (z3 : s3.IsWhole) (s4 : Memref sig .tc .vmem S1024x1 .f32) (z4 : s4.IsWhole) (s5 : Memref sig .tc .vmem S1024x64 .f32) (z5 : s5.IsWhole) (hf : ¬first3 i) (hl : last3 i) (xq : Vec F S1x1024x128 .bf16) (xk : Vec F S1x512x128 .bf16) (xv : Vec F S1x512x128 .bf16) (xs0 : Vec F S1024x1 .f32) (xs1 : Vec F S1024x1 .f32) (xs2 : Vec F S1024x64 .f32) (xs3 : Vec F S1024x1 .f32) (xs4 : Vec F S1024x1 .f32) (xs5 : Vec F S1024x64 .f32) (y : S1024x1.Idx) :
    ∃ pc ∈ (lastStep c i aq hq ak hk av hv ao ho s0 z0 s1 z1 s2 z2 s3 z3 s4 z4 s5 z5 hf hl xq xk xv xs0 xs1 xs2 xs3 xs4 xs5).2.1, y ∈ pc.1.set :=
  View.cover_of_tiledL (lastStep c i aq hq ak hk av hv ao ho s0 z0 s1 z1 s2 z2 s3 z3 s4 z4 s5 z5 hf hl xq xk xv xs0 xs1 xs2 xs3 xs4 xs5).2.1 S1024x1.size (by sl_kernel_rfl) y

/-- The stores of this case into scratch buffer 1 write every entry of it. -/
theorem last_cover1 (c : Dev nD) (i : grid3.Coords) (aq : Memref sig .tc .vmem S1x1024x128 .bf16) (hq : aq.IsWhole) (ak : Memref sig .tc .vmem S1x512x128 .bf16) (hk : ak.IsWhole) (av : Memref sig .tc .vmem S1x512x128 .bf16) (hv : av.IsWhole) (ao : Memref sig .tc .vmem S1x1024x128 .bf16) (ho : ao.IsWhole) (s0 : Memref sig .tc .vmem S1024x1 .f32) (z0 : s0.IsWhole) (s1 : Memref sig .tc .vmem S1024x1 .f32) (z1 : s1.IsWhole) (s2 : Memref sig .tc .vmem S1024x64 .f32) (z2 : s2.IsWhole) (s3 : Memref sig .tc .vmem S1024x1 .f32) (z3 : s3.IsWhole) (s4 : Memref sig .tc .vmem S1024x1 .f32) (z4 : s4.IsWhole) (s5 : Memref sig .tc .vmem S1024x64 .f32) (z5 : s5.IsWhole) (hf : ¬first3 i) (hl : last3 i) (xq : Vec F S1x1024x128 .bf16) (xk : Vec F S1x512x128 .bf16) (xv : Vec F S1x512x128 .bf16) (xs0 : Vec F S1024x1 .f32) (xs1 : Vec F S1024x1 .f32) (xs2 : Vec F S1024x64 .f32) (xs3 : Vec F S1024x1 .f32) (xs4 : Vec F S1024x1 .f32) (xs5 : Vec F S1024x64 .f32) (y : S1024x1.Idx) :
    ∃ pc ∈ (lastStep c i aq hq ak hk av hv ao ho s0 z0 s1 z1 s2 z2 s3 z3 s4 z4 s5 z5 hf hl xq xk xv xs0 xs1 xs2 xs3 xs4 xs5).2.2.1, y ∈ pc.1.set :=
  View.cover_of_tiledL (lastStep c i aq hq ak hk av hv ao ho s0 z0 s1 z1 s2 z2 s3 z3 s4 z4 s5 z5 hf hl xq xk xv xs0 xs1 xs2 xs3 xs4 xs5).2.2.1 S1024x1.size (by sl_kernel_rfl) y

/-- The stores of this case into scratch buffer 2 write every entry of it. -/
theorem last_cover2 (c : Dev nD) (i : grid3.Coords) (aq : Memref sig .tc .vmem S1x1024x128 .bf16) (hq : aq.IsWhole) (ak : Memref sig .tc .vmem S1x512x128 .bf16) (hk : ak.IsWhole) (av : Memref sig .tc .vmem S1x512x128 .bf16) (hv : av.IsWhole) (ao : Memref sig .tc .vmem S1x1024x128 .bf16) (ho : ao.IsWhole) (s0 : Memref sig .tc .vmem S1024x1 .f32) (z0 : s0.IsWhole) (s1 : Memref sig .tc .vmem S1024x1 .f32) (z1 : s1.IsWhole) (s2 : Memref sig .tc .vmem S1024x64 .f32) (z2 : s2.IsWhole) (s3 : Memref sig .tc .vmem S1024x1 .f32) (z3 : s3.IsWhole) (s4 : Memref sig .tc .vmem S1024x1 .f32) (z4 : s4.IsWhole) (s5 : Memref sig .tc .vmem S1024x64 .f32) (z5 : s5.IsWhole) (hf : ¬first3 i) (hl : last3 i) (xq : Vec F S1x1024x128 .bf16) (xk : Vec F S1x512x128 .bf16) (xv : Vec F S1x512x128 .bf16) (xs0 : Vec F S1024x1 .f32) (xs1 : Vec F S1024x1 .f32) (xs2 : Vec F S1024x64 .f32) (xs3 : Vec F S1024x1 .f32) (xs4 : Vec F S1024x1 .f32) (xs5 : Vec F S1024x64 .f32) (y : S1024x64.Idx) :
    ∃ pc ∈ (lastStep c i aq hq ak hk av hv ao ho s0 z0 s1 z1 s2 z2 s3 z3 s4 z4 s5 z5 hf hl xq xk xv xs0 xs1 xs2 xs3 xs4 xs5).2.2.2.1, y ∈ pc.1.set :=
  View.cover_of_tiledL (lastStep c i aq hq ak hk av hv ao ho s0 z0 s1 z1 s2 z2 s3 z3 s4 z4 s5 z5 hf hl xq xk xv xs0 xs1 xs2 xs3 xs4 xs5).2.2.2.1 S1024x64.size (by sl_kernel_rfl) y

/-- The stores of this case into scratch buffer 3 write every entry of it. -/
theorem last_cover3 (c : Dev nD) (i : grid3.Coords) (aq : Memref sig .tc .vmem S1x1024x128 .bf16) (hq : aq.IsWhole) (ak : Memref sig .tc .vmem S1x512x128 .bf16) (hk : ak.IsWhole) (av : Memref sig .tc .vmem S1x512x128 .bf16) (hv : av.IsWhole) (ao : Memref sig .tc .vmem S1x1024x128 .bf16) (ho : ao.IsWhole) (s0 : Memref sig .tc .vmem S1024x1 .f32) (z0 : s0.IsWhole) (s1 : Memref sig .tc .vmem S1024x1 .f32) (z1 : s1.IsWhole) (s2 : Memref sig .tc .vmem S1024x64 .f32) (z2 : s2.IsWhole) (s3 : Memref sig .tc .vmem S1024x1 .f32) (z3 : s3.IsWhole) (s4 : Memref sig .tc .vmem S1024x1 .f32) (z4 : s4.IsWhole) (s5 : Memref sig .tc .vmem S1024x64 .f32) (z5 : s5.IsWhole) (hf : ¬first3 i) (hl : last3 i) (xq : Vec F S1x1024x128 .bf16) (xk : Vec F S1x512x128 .bf16) (xv : Vec F S1x512x128 .bf16) (xs0 : Vec F S1024x1 .f32) (xs1 : Vec F S1024x1 .f32) (xs2 : Vec F S1024x64 .f32) (xs3 : Vec F S1024x1 .f32) (xs4 : Vec F S1024x1 .f32) (xs5 : Vec F S1024x64 .f32) (y : S1024x1.Idx) :
    ∃ pc ∈ (lastStep c i aq hq ak hk av hv ao ho s0 z0 s1 z1 s2 z2 s3 z3 s4 z4 s5 z5 hf hl xq xk xv xs0 xs1 xs2 xs3 xs4 xs5).2.2.2.2.1, y ∈ pc.1.set :=
  View.cover_of_tiledL (lastStep c i aq hq ak hk av hv ao ho s0 z0 s1 z1 s2 z2 s3 z3 s4 z4 s5 z5 hf hl xq xk xv xs0 xs1 xs2 xs3 xs4 xs5).2.2.2.2.1 S1024x1.size (by sl_kernel_rfl) y

/-- The stores of this case into scratch buffer 4 write every entry of it. -/
theorem last_cover4 (c : Dev nD) (i : grid3.Coords) (aq : Memref sig .tc .vmem S1x1024x128 .bf16) (hq : aq.IsWhole) (ak : Memref sig .tc .vmem S1x512x128 .bf16) (hk : ak.IsWhole) (av : Memref sig .tc .vmem S1x512x128 .bf16) (hv : av.IsWhole) (ao : Memref sig .tc .vmem S1x1024x128 .bf16) (ho : ao.IsWhole) (s0 : Memref sig .tc .vmem S1024x1 .f32) (z0 : s0.IsWhole) (s1 : Memref sig .tc .vmem S1024x1 .f32) (z1 : s1.IsWhole) (s2 : Memref sig .tc .vmem S1024x64 .f32) (z2 : s2.IsWhole) (s3 : Memref sig .tc .vmem S1024x1 .f32) (z3 : s3.IsWhole) (s4 : Memref sig .tc .vmem S1024x1 .f32) (z4 : s4.IsWhole) (s5 : Memref sig .tc .vmem S1024x64 .f32) (z5 : s5.IsWhole) (hf : ¬first3 i) (hl : last3 i) (xq : Vec F S1x1024x128 .bf16) (xk : Vec F S1x512x128 .bf16) (xv : Vec F S1x512x128 .bf16) (xs0 : Vec F S1024x1 .f32) (xs1 : Vec F S1024x1 .f32) (xs2 : Vec F S1024x64 .f32) (xs3 : Vec F S1024x1 .f32) (xs4 : Vec F S1024x1 .f32) (xs5 : Vec F S1024x64 .f32) (y : S1024x1.Idx) :
    ∃ pc ∈ (lastStep c i aq hq ak hk av hv ao ho s0 z0 s1 z1 s2 z2 s3 z3 s4 z4 s5 z5 hf hl xq xk xv xs0 xs1 xs2 xs3 xs4 xs5).2.2.2.2.2.1, y ∈ pc.1.set :=
  View.cover_of_tiledL (lastStep c i aq hq ak hk av hv ao ho s0 z0 s1 z1 s2 z2 s3 z3 s4 z4 s5 z5 hf hl xq xk xv xs0 xs1 xs2 xs3 xs4 xs5).2.2.2.2.2.1 S1024x1.size (by sl_kernel_rfl) y

/-- The stores of this case into scratch buffer 5 write every entry of it. -/
theorem last_cover5 (c : Dev nD) (i : grid3.Coords) (aq : Memref sig .tc .vmem S1x1024x128 .bf16) (hq : aq.IsWhole) (ak : Memref sig .tc .vmem S1x512x128 .bf16) (hk : ak.IsWhole) (av : Memref sig .tc .vmem S1x512x128 .bf16) (hv : av.IsWhole) (ao : Memref sig .tc .vmem S1x1024x128 .bf16) (ho : ao.IsWhole) (s0 : Memref sig .tc .vmem S1024x1 .f32) (z0 : s0.IsWhole) (s1 : Memref sig .tc .vmem S1024x1 .f32) (z1 : s1.IsWhole) (s2 : Memref sig .tc .vmem S1024x64 .f32) (z2 : s2.IsWhole) (s3 : Memref sig .tc .vmem S1024x1 .f32) (z3 : s3.IsWhole) (s4 : Memref sig .tc .vmem S1024x1 .f32) (z4 : s4.IsWhole) (s5 : Memref sig .tc .vmem S1024x64 .f32) (z5 : s5.IsWhole) (hf : ¬first3 i) (hl : last3 i) (xq : Vec F S1x1024x128 .bf16) (xk : Vec F S1x512x128 .bf16) (xv : Vec F S1x512x128 .bf16) (xs0 : Vec F S1024x1 .f32) (xs1 : Vec F S1024x1 .f32) (xs2 : Vec F S1024x64 .f32) (xs3 : Vec F S1024x1 .f32) (xs4 : Vec F S1024x1 .f32) (xs5 : Vec F S1024x64 .f32) (y : S1024x64.Idx) :
    ∃ pc ∈ (lastStep c i aq hq ak hk av hv ao ho s0 z0 s1 z1 s2 z2 s3 z3 s4 z4 s5 z5 hf hl xq xk xv xs0 xs1 xs2 xs3 xs4 xs5).2.2.2.2.2.2.1, y ∈ pc.1.set :=
  View.cover_of_tiledL (lastStep c i aq hq ak hk av hv ao ho s0 z0 s1 z1 s2 z2 s3 z3 s4 z4 s5 z5 hf hl xq xk xv xs0 xs1 xs2 xs3 xs4 xs5).2.2.2.2.2.2.1 S1024x64.size (by sl_kernel_rfl) y

/-- The two stores of the last key tile, one per head, write every entry of the output tile. -/
theorem last_coverO (c : Dev nD) (i : grid3.Coords) (aq : Memref sig .tc .vmem S1x1024x128 .bf16) (hq : aq.IsWhole) (ak : Memref sig .tc .vmem S1x512x128 .bf16) (hk : ak.IsWhole) (av : Memref sig .tc .vmem S1x512x128 .bf16) (hv : av.IsWhole) (ao : Memref sig .tc .vmem S1x1024x128 .bf16) (ho : ao.IsWhole) (s0 : Memref sig .tc .vmem S1024x1 .f32) (z0 : s0.IsWhole) (s1 : Memref sig .tc .vmem S1024x1 .f32) (z1 : s1.IsWhole) (s2 : Memref sig .tc .vmem S1024x64 .f32) (z2 : s2.IsWhole) (s3 : Memref sig .tc .vmem S1024x1 .f32) (z3 : s3.IsWhole) (s4 : Memref sig .tc .vmem S1024x1 .f32) (z4 : s4.IsWhole) (s5 : Memref sig .tc .vmem S1024x64 .f32) (z5 : s5.IsWhole) (hf : ¬first3 i) (hl : last3 i) (xq : Vec F S1x1024x128 .bf16) (xk : Vec F S1x512x128 .bf16) (xv : Vec F S1x512x128 .bf16) (xs0 : Vec F S1024x1 .f32) (xs1 : Vec F S1024x1 .f32) (xs2 : Vec F S1024x64 .f32) (xs3 : Vec F S1024x1 .f32) (xs4 : Vec F S1024x1 .f32) (xs5 : Vec F S1024x64 .f32) (y : S1x1024x128.Idx) :
    ∃ pc ∈ (lastStep c i aq hq ak hk av hv ao ho s0 z0 s1 z1 s2 z2 s3 z3 s4 z4 s5 z5 hf hl xq xk xv xs0 xs1 xs2 xs3 xs4 xs5).1, y ∈ pc.1.set :=
  View.cover_of_tiledL (lastStep c i aq hq ak hk av hv ao ho s0 z0 s1 z1 s2 z2 s3 z3 s4 z4 s5 z5 hf hl xq xk xv xs0 xs1 xs2 xs3 xs4 xs5).1 S1x1024x64.size (by sl_kernel_rfl) y

/-- The output tile the last key tile stores. -/
def lastOut (c : Dev nD) (i : grid3.Coords) (aq : Memref sig .tc .vmem S1x1024x128 .bf16) (hq : aq.IsWhole) (ak : Memref sig .tc .vmem S1x512x128 .bf16) (hk : ak.IsWhole) (av : Memref sig .tc .vmem S1x512x128 .bf16) (hv : av.IsWhole) (ao : Memref sig .tc .vmem S1x1024x128 .bf16) (ho : ao.IsWhole) (s0 : Memref sig .tc .vmem S1024x1 .f32) (z0 : s0.IsWhole) (s1 : Memref sig .tc .vmem S1024x1 .f32) (z1 : s1.IsWhole) (s2 : Memref sig .tc .vmem S1024x64 .f32) (z2 : s2.IsWhole) (s3 : Memref sig .tc .vmem S1024x1 .f32) (z3 : s3.IsWhole) (s4 : Memref sig .tc .vmem S1024x1 .f32) (z4 : s4.IsWhole) (s5 : Memref sig .tc .vmem S1024x64 .f32) (z5 : s5.IsWhole) (hf : ¬first3 i) (hl : last3 i) (xq : Vec F S1x1024x128 .bf16) (xk : Vec F S1x512x128 .bf16) (xv : Vec F S1x512x128 .bf16) (xs0 : Vec F S1024x1 .f32) (xs1 : Vec F S1024x1 .f32) (xs2 : Vec F S1024x64 .f32) (xs3 : Vec F S1024x1 .f32) (xs4 : Vec F S1024x1 .f32) (xs5 : Vec F S1024x64 .f32) : Vec F S1x1024x128 .bf16 :=
  oV.read (Elt F) (oV.writes (Elt F) oV.junk (lastStep c i aq hq ak hk av hv ao ho s0 z0 s1 z1 s2 z2 s3 z3 s4 z4 s5 z5 hf hl xq xk xv xs0 xs1 xs2 xs3 xs4 xs5).1)

/-- The six scratch buffers after a point of this case. -/
def lastCarry (c : Dev nD) (i : grid3.Coords) (aq : Memref sig .tc .vmem S1x1024x128 .bf16) (hq : aq.IsWhole) (ak : Memref sig .tc .vmem S1x512x128 .bf16) (hk : ak.IsWhole) (av : Memref sig .tc .vmem S1x512x128 .bf16) (hv : av.IsWhole) (ao : Memref sig .tc .vmem S1x1024x128 .bf16) (ho : ao.IsWhole) (s0 : Memref sig .tc .vmem S1024x1 .f32) (z0 : s0.IsWhole) (s1 : Memref sig .tc .vmem S1024x1 .f32) (z1 : s1.IsWhole) (s2 : Memref sig .tc .vmem S1024x64 .f32) (z2 : s2.IsWhole) (s3 : Memref sig .tc .vmem S1024x1 .f32) (z3 : s3.IsWhole) (s4 : Memref sig .tc .vmem S1024x1 .f32) (z4 : s4.IsWhole) (s5 : Memref sig .tc .vmem S1024x64 .f32) (z5 : s5.IsWhole) (hf : ¬first3 i) (hl : last3 i) (xq : Vec F S1x1024x128 .bf16) (xk : Vec F S1x512x128 .bf16) (xv : Vec F S1x512x128 .bf16) (xs0 : Vec F S1024x1 .f32) (xs1 : Vec F S1024x1 .f32) (xs2 : Vec F S1024x64 .f32) (xs3 : Vec F S1024x1 .f32) (xs4 : Vec F S1024x1 .f32) (xs5 : Vec F S1024x64 .f32) : Carry F :=
  ⟨sV0.read (Elt F) (sV0.writes (Elt F) sV0.junk (lastStep c i aq hq ak hk av hv ao ho s0 z0 s1 z1 s2 z2 s3 z3 s4 z4 s5 z5 hf hl xq xk xv xs0 xs1 xs2 xs3 xs4 xs5).2.1),
   sV1.read (Elt F) (sV1.writes (Elt F) sV1.junk (lastStep c i aq hq ak hk av hv ao ho s0 z0 s1 z1 s2 z2 s3 z3 s4 z4 s5 z5 hf hl xq xk xv xs0 xs1 xs2 xs3 xs4 xs5).2.2.1),
   sV2.read (Elt F) (sV2.writes (Elt F) sV2.junk (lastStep c i aq hq ak hk av hv ao ho s0 z0 s1 z1 s2 z2 s3 z3 s4 z4 s5 z5 hf hl xq xk xv xs0 xs1 xs2 xs3 xs4 xs5).2.2.2.1),
   sV3.read (Elt F) (sV3.writes (Elt F) sV3.junk (lastStep c i aq hq ak hk av hv ao ho s0 z0 s1 z1 s2 z2 s3 z3 s4 z4 s5 z5 hf hl xq xk xv xs0 xs1 xs2 xs3 xs4 xs5).2.2.2.2.1),
   sV4.read (Elt F) (sV4.writes (Elt F) sV4.junk (lastStep c i aq hq ak hk av hv ao ho s0 z0 s1 z1 s2 z2 s3 z3 s4 z4 s5 z5 hf hl xq xk xv xs0 xs1 xs2 xs3 xs4 xs5).2.2.2.2.2.1),
   sV5.read (Elt F) (sV5.writes (Elt F) sV5.junk (lastStep c i aq hq ak hk av hv ao ho s0 z0 s1 z1 s2 z2 s3 z3 s4 z4 s5 z5 hf hl xq xk xv xs0 xs1 xs2 xs3 xs4 xs5).2.2.2.2.2.2.1)⟩

/-! ## What the scratch buffers hold after each point -/

/-- After point `n`: at the first key tile of a run the reset-and-fold of that tile; otherwise the fold of the tile
    into what point `n - 1` left. -/
def carryAt (c : Dev nD) : (n : ℕ) → n < cfg3.N → Carry F
  | 0, hn => firstCarry c (grid3.coords ⟨0, hn⟩) (qM ⟨0, hn⟩) (qW ⟨0, hn⟩) (kM ⟨0, hn⟩) (kW ⟨0, hn⟩) (vM ⟨0, hn⟩) (vW ⟨0, hn⟩) (oM ⟨0, hn⟩) (oW ⟨0, hn⟩) sM0 (Memref.isWhole_whole _) sM1 (Memref.isWhole_whole _) sM2 (Memref.isWhole_whole _) sM3 (Memref.isWhole_whole _) sM4 (Memref.isWhole_whole _) sM5 (Memref.isWhole_whole _) ((first3_iff ⟨0, hn⟩).mpr (Nat.zero_mod _)) (fun h => (fun h' => by (try dsimp only at h'); omega) ((last3_iff ⟨0, hn⟩).mp h)) (tile3 V c 0 ⟨0, hn⟩) (tile3 V c 1 ⟨0, hn⟩) (tile3 V c 2 ⟨0, hn⟩)
  | n + 1, hn =>
    if h0 : (n + 1) % 8 = 0 then
      firstCarry c (grid3.coords ⟨n + 1, hn⟩) (qM ⟨n + 1, hn⟩) (qW ⟨n + 1, hn⟩) (kM ⟨n + 1, hn⟩) (kW ⟨n + 1, hn⟩) (vM ⟨n + 1, hn⟩) (vW ⟨n + 1, hn⟩) (oM ⟨n + 1, hn⟩) (oW ⟨n + 1, hn⟩) sM0 (Memref.isWhole_whole _) sM1 (Memref.isWhole_whole _) sM2 (Memref.isWhole_whole _) sM3 (Memref.isWhole_whole _) sM4 (Memref.isWhole_whole _) sM5 (Memref.isWhole_whole _) ((first3_iff ⟨n + 1, hn⟩).mpr h0) (fun h => (fun h' => by (try dsimp only at h'); omega) ((last3_iff ⟨n + 1, hn⟩).mp h)) (tile3 V c 0 ⟨n + 1, hn⟩) (tile3 V c 1 ⟨n + 1, hn⟩) (tile3 V c 2 ⟨n + 1, hn⟩)
    else
      if h7 : (n + 1) % 8 = 7 then
        lastCarry c (grid3.coords ⟨n + 1, hn⟩) (qM ⟨n + 1, hn⟩) (qW ⟨n + 1, hn⟩) (kM ⟨n + 1, hn⟩) (kW ⟨n + 1, hn⟩) (vM ⟨n + 1, hn⟩) (vW ⟨n + 1, hn⟩) (oM ⟨n + 1, hn⟩) (oW ⟨n + 1, hn⟩) sM0 (Memref.isWhole_whole _) sM1 (Memref.isWhole_whole _) sM2 (Memref.isWhole_whole _) sM3 (Memref.isWhole_whole _) sM4 (Memref.isWhole_whole _) sM5 (Memref.isWhole_whole _) (fun h => h0 ((first3_iff ⟨n + 1, hn⟩).mp h)) ((last3_iff ⟨n + 1, hn⟩).mpr h7) (tile3 V c 0 ⟨n + 1, hn⟩) (tile3 V c 1 ⟨n + 1, hn⟩) (tile3 V c 2 ⟨n + 1, hn⟩) (carryAt c n (Nat.lt_of_succ_lt hn)).m0 (carryAt c n (Nat.lt_of_succ_lt hn)).l0 (carryAt c n (Nat.lt_of_succ_lt hn)).a0 (carryAt c n (Nat.lt_of_succ_lt hn)).m1 (carryAt c n (Nat.lt_of_succ_lt hn)).l1 (carryAt c n (Nat.lt_of_succ_lt hn)).a1
      else
        midCarry c (grid3.coords ⟨n + 1, hn⟩) (qM ⟨n + 1, hn⟩) (qW ⟨n + 1, hn⟩) (kM ⟨n + 1, hn⟩) (kW ⟨n + 1, hn⟩) (vM ⟨n + 1, hn⟩) (vW ⟨n + 1, hn⟩) (oM ⟨n + 1, hn⟩) (oW ⟨n + 1, hn⟩) sM0 (Memref.isWhole_whole _) sM1 (Memref.isWhole_whole _) sM2 (Memref.isWhole_whole _) sM3 (Memref.isWhole_whole _) sM4 (Memref.isWhole_whole _) sM5 (Memref.isWhole_whole _) (fun h => h0 ((first3_iff ⟨n + 1, hn⟩).mp h)) (fun h => h7 ((last3_iff ⟨n + 1, hn⟩).mp h)) (tile3 V c 0 ⟨n + 1, hn⟩) (tile3 V c 1 ⟨n + 1, hn⟩) (tile3 V c 2 ⟨n + 1, hn⟩) (carryAt c n (Nat.lt_of_succ_lt hn)).m0 (carryAt c n (Nat.lt_of_succ_lt hn)).l0 (carryAt c n (Nat.lt_of_succ_lt hn)).a0 (carryAt c n (Nat.lt_of_succ_lt hn)).m1 (carryAt c n (Nat.lt_of_succ_lt hn)).l1 (carryAt c n (Nat.lt_of_succ_lt hn)).a1

theorem carryAt_first (c : Dev nD) (t : Fin cfg3.N) (h0 : t.val % 8 = 0) (h7 : ¬t.val % 8 = 7) :
    carryAt V c t.val t.isLt = firstCarry c (grid3.coords t) (qM t) (qW t) (kM t) (kW t) (vM t) (vW t) (oM t) (oW t) sM0 (Memref.isWhole_whole _) sM1 (Memref.isWhole_whole _) sM2 (Memref.isWhole_whole _) sM3 (Memref.isWhole_whole _) sM4 (Memref.isWhole_whole _) sM5 (Memref.isWhole_whole _) ((first3_iff t).mpr h0) (fun h => h7 ((last3_iff t).mp h)) (tile3 V c 0 t) (tile3 V c 1 t) (tile3 V c 2 t) := by
  obtain ⟨n, hn⟩ := t
  cases n with
  | zero => exact rfl
  | succ n => exact (dif_pos h0).trans rfl

theorem carryAt_mid (c : Dev nD) (t : Fin cfg3.N) (h0 : ¬t.val % 8 = 0) (h7 : ¬t.val % 8 = 7) :
    carryAt V c t.val t.isLt = midCarry c (grid3.coords t) (qM t) (qW t) (kM t) (kW t) (vM t) (vW t) (oM t) (oW t) sM0 (Memref.isWhole_whole _) sM1 (Memref.isWhole_whole _) sM2 (Memref.isWhole_whole _) sM3 (Memref.isWhole_whole _) sM4 (Memref.isWhole_whole _) sM5 (Memref.isWhole_whole _) (fun h => h0 ((first3_iff t).mp h)) (fun h => h7 ((last3_iff t).mp h)) (tile3 V c 0 t) (tile3 V c 1 t) (tile3 V c 2 t) (carryAt V c (t.val - 1) (Nat.lt_of_le_of_lt (Nat.sub_le _ _) t.isLt)).m0 (carryAt V c (t.val - 1) (Nat.lt_of_le_of_lt (Nat.sub_le _ _) t.isLt)).l0 (carryAt V c (t.val - 1) (Nat.lt_of_le_of_lt (Nat.sub_le _ _) t.isLt)).a0 (carryAt V c (t.val - 1) (Nat.lt_of_le_of_lt (Nat.sub_le _ _) t.isLt)).m1 (carryAt V c (t.val - 1) (Nat.lt_of_le_of_lt (Nat.sub_le _ _) t.isLt)).l1 (carryAt V c (t.val - 1) (Nat.lt_of_le_of_lt (Nat.sub_le _ _) t.isLt)).a1 := by
  obtain ⟨n, hn⟩ := t
  cases n with
  | zero => exact (by exfalso; (try dsimp only at h0); exact absurd (Nat.zero_mod _) h0)
  | succ n => exact (dif_neg h0).trans ((dif_neg h7).trans rfl)

theorem carryAt_last (c : Dev nD) (t : Fin cfg3.N) (h0 : ¬t.val % 8 = 0) (h7 : t.val % 8 = 7) :
    carryAt V c t.val t.isLt = lastCarry c (grid3.coords t) (qM t) (qW t) (kM t) (kW t) (vM t) (vW t) (oM t) (oW t) sM0 (Memref.isWhole_whole _) sM1 (Memref.isWhole_whole _) sM2 (Memref.isWhole_whole _) sM3 (Memref.isWhole_whole _) sM4 (Memref.isWhole_whole _) sM5 (Memref.isWhole_whole _) (fun h => h0 ((first3_iff t).mp h)) ((last3_iff t).mpr h7) (tile3 V c 0 t) (tile3 V c 1 t) (tile3 V c 2 t) (carryAt V c (t.val - 1) (Nat.lt_of_le_of_lt (Nat.sub_le _ _) t.isLt)).m0 (carryAt V c (t.val - 1) (Nat.lt_of_le_of_lt (Nat.sub_le _ _) t.isLt)).l0 (carryAt V c (t.val - 1) (Nat.lt_of_le_of_lt (Nat.sub_le _ _) t.isLt)).a0 (carryAt V c (t.val - 1) (Nat.lt_of_le_of_lt (Nat.sub_le _ _) t.isLt)).m1 (carryAt V c (t.val - 1) (Nat.lt_of_le_of_lt (Nat.sub_le _ _) t.isLt)).l1 (carryAt V c (t.val - 1) (Nat.lt_of_le_of_lt (Nat.sub_le _ _) t.isLt)).a1 := by
  obtain ⟨n, hn⟩ := t
  cases n with
  | zero => exact (by exfalso; (try dsimp only at h0); exact absurd (Nat.zero_mod _) h0)
  | succ n => exact (dif_neg h0).trans ((dif_pos h7).trans rfl)

/-- The output tile after point `t`: at a last key tile what that point stores (from what the point before left in
    the scratch buffers); elsewhere the point stores nothing and this value is never consulted. -/
def outAt3 (c : Dev nD) (t : Fin cfg3.N) : Vec F S1x1024x128 .bf16 :=
  if h7 : t.val % 8 = 7 then
    lastOut c (grid3.coords t) (qM t) (qW t) (kM t) (kW t) (vM t) (vW t) (oM t) (oW t) sM0 (Memref.isWhole_whole _) sM1 (Memref.isWhole_whole _) sM2 (Memref.isWhole_whole _) sM3 (Memref.isWhole_whole _) sM4 (Memref.isWhole_whole _) sM5 (Memref.isWhole_whole _) (fun h => (fun h' => by omega) ((first3_iff t).mp h)) ((last3_iff t).mpr h7) (tile3 V c 0 t) (tile3 V c 1 t) (tile3 V c 2 t) (carryAt V c (t.val - 1) (Nat.lt_of_le_of_lt (Nat.sub_le _ _) t.isLt)).m0 (carryAt V c (t.val - 1) (Nat.lt_of_le_of_lt (Nat.sub_le _ _) t.isLt)).l0 (carryAt V c (t.val - 1) (Nat.lt_of_le_of_lt (Nat.sub_le _ _) t.isLt)).a0 (carryAt V c (t.val - 1) (Nat.lt_of_le_of_lt (Nat.sub_le _ _) t.isLt)).m1 (carryAt V c (t.val - 1) (Nat.lt_of_le_of_lt (Nat.sub_le _ _) t.isLt)).l1 (carryAt V c (t.val - 1) (Nat.lt_of_le_of_lt (Nat.sub_le _ _) t.isLt)).a1
  else tile3 V c 3 t

theorem outAt3_last (c : Dev nD) (t : Fin cfg3.N) (h0 : ¬t.val % 8 = 0) (h7 : t.val % 8 = 7) :
    outAt3 V c t = lastOut c (grid3.coords t) (qM t) (qW t) (kM t) (kW t) (vM t) (vW t) (oM t) (oW t) sM0 (Memref.isWhole_whole _) sM1 (Memref.isWhole_whole _) sM2 (Memref.isWhole_whole _) sM3 (Memref.isWhole_whole _) sM4 (Memref.isWhole_whole _) sM5 (Memref.isWhole_whole _) (fun h => h0 ((first3_iff t).mp h)) ((last3_iff t).mpr h7) (tile3 V c 0 t) (tile3 V c 1 t) (tile3 V c 2 t) (carryAt V c (t.val - 1) (Nat.lt_of_le_of_lt (Nat.sub_le _ _) t.isLt)).m0 (carryAt V c (t.val - 1) (Nat.lt_of_le_of_lt (Nat.sub_le _ _) t.isLt)).l0 (carryAt V c (t.val - 1) (Nat.lt_of_le_of_lt (Nat.sub_le _ _) t.isLt)).a0 (carryAt V c (t.val - 1) (Nat.lt_of_le_of_lt (Nat.sub_le _ _) t.isLt)).m1 (carryAt V c (t.val - 1) (Nat.lt_of_le_of_lt (Nat.sub_le _ _) t.isLt)).l1 (carryAt V c (t.val - 1) (Nat.lt_of_le_of_lt (Nat.sub_le _ _) t.isLt)).a1 := by
  unfold outAt3; exact dif_pos h7

/-! ## What the stage keeps between points -/

/-- Before position `n`: at the very start what the stage was handed (every scratch buffer at anything); afterwards
    the six scratch buffers at what point `n - 1` left, the other scoped buffers, the generator register. -/
def heldAt (c : Dev nD) : (n : ℕ) → n ≤ cfg3.N → sProp 𝕄
  | 0, _ => Pipeline.ΦA spec3 c
  | n + 1, hn => iprop(iprop(iprop(owns (c : Thread nD τ) sM0 fullShare (carryAt V c n hn).m0 ∗ owns (c : Thread nD τ) sM1 fullShare (carryAt V c n hn).l0 ∗ owns (c : Thread nD τ) sM2 fullShare (carryAt V c n hn).a0 ∗ owns (c : Thread nD τ) sM3 fullShare (carryAt V c n hn).m1 ∗ owns (c : Thread nD τ) sM4 fullShare (carryAt V c n hn).l1 ∗ owns (c : Thread nD τ) sM5 fullShare (carryAt V c n hn).a1) ∗ others3 c) ∗ (∃ r, prngReg c r))

theorem heldAt_zero (c : Dev nD) (n : ℕ) (h : n ≤ cfg3.N) (hz : n = 0) : heldAt V c n h = Pipeline.ΦA spec3 c := by
  subst hz; rfl

theorem heldAt_succ (c : Dev nD) (n : ℕ) (hn : n < cfg3.N) :
    heldAt V c (n + 1) hn = iprop(iprop(iprop(owns (c : Thread nD τ) sM0 fullShare (carryAt V c n hn).m0 ∗ owns (c : Thread nD τ) sM1 fullShare (carryAt V c n hn).l0 ∗ owns (c : Thread nD τ) sM2 fullShare (carryAt V c n hn).a0 ∗ owns (c : Thread nD τ) sM3 fullShare (carryAt V c n hn).m1 ∗ owns (c : Thread nD τ) sM4 fullShare (carryAt V c n hn).l1 ∗ owns (c : Thread nD τ) sM5 fullShare (carryAt V c n hn).a1) ∗ others3 c) ∗ (∃ r, prngReg c r)) := rfl

theorem heldAt_pos (c : Dev nD) (n : ℕ) (h : n ≤ cfg3.N) (hz : n ≠ 0) :
    heldAt V c n h = iprop(iprop(iprop(owns (c : Thread nD τ) sM0 fullShare (carryAt V c (n - 1) (by omega)).m0 ∗ owns (c : Thread nD τ) sM1 fullShare (carryAt V c (n - 1) (by omega)).l0 ∗ owns (c : Thread nD τ) sM2 fullShare (carryAt V c (n - 1) (by omega)).a0 ∗ owns (c : Thread nD τ) sM3 fullShare (carryAt V c (n - 1) (by omega)).m1 ∗ owns (c : Thread nD τ) sM4 fullShare (carryAt V c (n - 1) (by omega)).l1 ∗ owns (c : Thread nD τ) sM5 fullShare (carryAt V c (n - 1) (by omega)).a1) ∗ others3 c) ∗ (∃ r, prngReg c r)) := by
  cases n with
  | zero => exact absurd rfl hz
  | succ n => rfl

/-- Forgetting what the scratch buffers hold gives back what the stage was handed. -/
theorem heldAt_forget (c : Dev nD) (n : ℕ) (h : n ≤ cfg3.N) : heldAt V c n h ⊢ Pipeline.ΦA spec3 c := by
  by_cases hz : n = 0
  · rw [heldAt_zero V c n h hz]
  · rw [heldAt_pos V c n h hz, held3_eq]
    iintro ⟨⟨⟨S0, S1, S2, S3, S4, S5⟩, Hr⟩, Hg⟩
    isplitl [S0 S1 S2 S3 S4 S5 Hr]
    · isplitl [S0 S1 S2 S3 S4 S5]
      · isplitl [S0]; · iexists _; iexact S0
        isplitl [S1]; · iexists _; iexact S1
        isplitl [S2]; · iexists _; iexact S2
        isplitl [S3]; · iexists _; iexact S3
        isplitl [S4]; · iexists _; iexact S4
        iexists _; iexact S5
      iexact Hr
    iexact Hg

/-- The same, with the six scratch buffers listed. -/
theorem heldAt_open (c : Dev nD) (n : ℕ) (h : n ≤ cfg3.N) : heldAt V c n h ⊢
    (iprop(iprop(iprop((∃ d, owns (c : Thread nD τ) sM0 fullShare d) ∗ (∃ d, owns (c : Thread nD τ) sM1 fullShare d) ∗ (∃ d, owns (c : Thread nD τ) sM2 fullShare d)
          ∗ (∃ d, owns (c : Thread nD τ) sM3 fullShare d) ∗ (∃ d, owns (c : Thread nD τ) sM4 fullShare d) ∗ (∃ d, owns (c : Thread nD τ) sM5 fullShare d))
          ∗ others3 c) ∗ (∃ r, prngReg c r)) : sProp 𝕄) := by
  have h1 := heldAt_forget V c n h
  rw [held3_eq] at h1
  exact h1

/-! ## The stage's proof data -/

/-- What is recorded of the stage on core `c`: the arrays as the stage finds them; after point `t` the three input
    buffers still at their blocks and the output buffer at `outAt3`; between points what `heldAt` says; nothing
    owed. -/
def dat3 (c : Dev nD) : Dat τ (Elt F) Unit ℕ (UR sig nD τ) ℕ cfg3 c where
  A w := V c (Pipeline.arrRef spec3 w)
  after w t := match w with
    | ⟨0, _⟩ => tile3 V c 0 t
    | ⟨1, _⟩ => tile3 V c 1 t
    | ⟨2, _⟩ => tile3 V c 2 t
    | ⟨3, _⟩ => outAt3 V c t
  Φ t := heldAt V c t.val (Nat.le_of_lt_succ t.isLt)
  q _ := fullShare
  owed _ := 0

theorem dat3_A (c : Dev nD) (w : Fin cfg3.W) : (dat3 V c).A w = V c (Pipeline.arrRef spec3 w) := by dsimp only [dat3]
theorem heldAt_castSucc (c : Dev nD) (t : Fin cfg3.N) :
    (dat3 V c).Φ t.castSucc = heldAt V c t.val (Nat.le_of_lt t.isLt) := by
  dsimp only [dat3]; simp only [Fin.coe_castSucc]
theorem dat3_after0 (c : Dev nD) (t : Fin cfg3.N) : (dat3 V c).after 0 t = tile3 V c 0 t := by dsimp only [dat3]
theorem dat3_after1 (c : Dev nD) (t : Fin cfg3.N) : (dat3 V c).after 1 t = tile3 V c 1 t := by dsimp only [dat3]
theorem dat3_after2 (c : Dev nD) (t : Fin cfg3.N) : (dat3 V c).after 2 t = tile3 V c 2 t := by dsimp only [dat3]
theorem dat3_after3 (c : Dev nD) (t : Fin cfg3.N) : (dat3 V c).after 3 t = outAt3 V c t := by dsimp only [dat3]
theorem dat3_staged0 (c : Dev nD) (t : Fin cfg3.N) (d) : (dat3 V c).before 0 t d = tile3 V c 0 t :=
  staged3_0_of V (dat3 V c) (dat3_A V c 0) (dat3_after0 V c) t d
theorem dat3_staged1 (c : Dev nD) (t : Fin cfg3.N) (d) : (dat3 V c).before 1 t d = tile3 V c 1 t :=
  staged3_1_of V (dat3 V c) (dat3_A V c 1) (dat3_after1 V c) t d
theorem dat3_staged2 (c : Dev nD) (t : Fin cfg3.N) (d) : (dat3 V c).before 2 t d = tile3 V c 2 t :=
  staged3_2_of V (dat3 V c) (dat3_A V c 2) (dat3_after2 V c) t d

end Cert.KernelIdeal.Hand

end
-- ==== Proof.IdealAttn.lean ====
/-
  The attention stage's body, run at any point, turns what the stage keeps before the point into what it keeps
  after it: the key-tile coordinate says which of the three cases the point is in, and that case's run applies.
-/
import proofs.«180034_j81982335746566_2_alg».proof.Proof.IdealAttnCarry

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The body at a generic point -/

/-- What the body is entered with at point `t`, -/
def enter3 (c : Dev nD) (t : Fin cfg3.N) : sProp 𝕄 :=
  iprop((dat3 V c).Φ t.castSucc ∗ (dat3 V c).owesAt () t.castSucc
    ∗ (∃ d, owns (c : Thread nD τ) (qM t) fullShare ((dat3 V c).before 0 t d))
    ∗ (∃ d, owns (c : Thread nD τ) (kM t) fullShare ((dat3 V c).before 1 t d))
    ∗ (∃ d, owns (c : Thread nD τ) (vM t) fullShare ((dat3 V c).before 2 t d))
    ∗ (∃ d, owns (c : Thread nD τ) (oM t) fullShare ((dat3 V c).before 3 t d)))

/-- and what it hands back. -/
def leave3 (c : Dev nD) (t : Fin cfg3.N) : sProp 𝕄 :=
  iprop((dat3 V c).Φ t.succ ∗ (dat3 V c).owesAt () t.succ
    ∗ (dat3 V c).leavesExact 0 t ∗ (dat3 V c).leavesExact 1 t ∗ (dat3 V c).leavesExact 2 t ∗ (dat3 V c).leavesExact 3 t)

set_option maxHeartbeats 8000000 in
/-- At every point the three input buffers hold their blocks; the key-tile coordinate says which case the point is
    in; the run of that case applies, entered with the scratch buffers at what the point before left (at anything,
    at a first key tile) and left with them at this point's contents. -/
theorem point3 (c : Dev nD) (t : Fin cfg3.N) :
    enter3 V c t ⊢ wp frame (wpE (defs₀ (F := F)) Variants.none c none) Set.univ (bodyAt3 t) (fun _ => leave3 V c t) := by
  unfold enter3 leave3 bodyAt3
  simp only [dat3_staged0, dat3_staged1, dat3_staged2]
  rw [show (dat3 V c).owesAt () t.succ = (dat3 V c).owesAt () t.castSucc from rfl]
  rw [show (dat3 V c).Φ t.succ = heldAt V c (t.val + 1) t.isLt from rfl, heldAt_succ]
  rw [show (dat3 V c).leavesExact 0 t = owns (c : Thread nD τ) (qM t) fullShare ((dat3 V c).after 0 t) from by
    unfold Dat.leavesExact; rw [live3_0 t], dat3_after0]
  rw [show (dat3 V c).leavesExact 1 t = owns (c : Thread nD τ) (kM t) fullShare ((dat3 V c).after 1 t) from by
    unfold Dat.leavesExact; rw [live3_1 t], dat3_after1]
  rw [show (dat3 V c).leavesExact 2 t = owns (c : Thread nD τ) (vM t) fullShare ((dat3 V c).after 2 t) from by
    unfold Dat.leavesExact; rw [live3_2 t], dat3_after2]
  by_cases h0 : t.val % 8 = 0
  · have h7 : ¬t.val % 8 = 7 := by omega
    rw [Dat.leavesExact_idle (dat3 V c) 3 t (idle3_out t (fun h => h7 ((last3_iff t).mp h))) (keep3_out t (fun h => h7 ((last3_iff t).mp h)))]
    rw [carryAt_first V c t h0 h7]
    unfold firstCarry; (try dsimp only)
    rw [heldAt_castSucc V c t]
    iintro ⟨Hh, Hw, ⟨%d0, H0⟩, ⟨%d1, H1⟩, ⟨%d2, H2⟩, ⟨%d3, H3⟩⟩
    ihave Hh' := (heldAt_open V c _ _) $$ Hh
    icases Hh' with ⟨⟨⟨S0, S1, S2, S3, S4, S5⟩, Hr⟩, Hg⟩
    iapply ((firstStep c (grid3.coords t) _ _ _ _ _ _ _ _ _ _ _ _ _ _ _ _ _ _ _ _ ((first3_iff t).mpr h0) (fun h => h7 ((last3_iff t).mp h)) (tile3 V c 0 t) (tile3 V c 1 t) (tile3 V c 2 t)).2.2.2.2.2.2 _ Set.univ _)
    isplitl [H0]; · iexact H0
    isplitl [H1]; · iexact H1
    isplitl [H2]; · iexact H2
    isplitl [H3]; · iexact H3
    isplitl [S0]; · iexact S0
    isplitl [S1]; · iexact S1
    isplitl [S2]; · iexact S2
    isplitl [S3]; · iexact S3
    isplitl [S4]; · iexact S4
    isplitl [S5]; · iexact S5
    iintro ⟨H0, H1, H2, H3, ⟨%e0, S0⟩, ⟨%e1, S1⟩, ⟨%e2, S2⟩, ⟨%e3, S3⟩, ⟨%e4, S4⟩, ⟨%e5, S5⟩⟩
    isplitl [S0 S1 S2 S3 S4 S5 Hr Hg]
    · isplitl [S0 S1 S2 S3 S4 S5 Hr]
      · isplitl [S0 S1 S2 S3 S4 S5]
        · skip
          isplitl [S0]; · (unfold owns; iexists _; isplitr; (swap; iexact S0); ipureintro; exact View.read_writes_of_cover _ _ _ _ _ (first_cover0 (F := F) c _ _ _ _ _ _ _ _ _ _ _ _ _ _ _ _ _ _ _ _ _ _ _ _ _ _))
          isplitl [S1]; · (unfold owns; iexists _; isplitr; (swap; iexact S1); ipureintro; exact View.read_writes_of_cover _ _ _ _ _ (first_cover1 (F := F) c _ _ _ _ _ _ _ _ _ _ _ _ _ _ _ _ _ _ _ _ _ _ _ _ _ _))
          isplitl [S2]; · (unfold owns; iexists _; isplitr; (swap; iexact S2); ipureintro; exact View.read_writes_of_cover _ _ _ _ _ (first_cover2 (F := F) c _ _ _ _ _ _ _ _ _ _ _ _ _ _ _ _ _ _ _ _ _ _ _ _ _ _))
          isplitl [S3]; · (unfold owns; iexists _; isplitr; (swap; iexact S3); ipureintro; exact View.read_writes_of_cover _ _ _ _ _ (first_cover3 (F := F) c _ _ _ _ _ _ _ _ _ _ _ _ _ _ _ _ _ _ _ _ _ _ _ _ _ _))
          isplitl [S4]; · (unfold owns; iexists _; isplitr; (swap; iexact S4); ipureintro; exact View.read_writes_of_cover _ _ _ _ _ (first_cover4 (F := F) c _ _ _ _ _ _ _ _ _ _ _ _ _ _ _ _ _ _ _ _ _ _ _ _ _ _))
          (unfold owns; iexists _; isplitr; (swap; iexact S5); ipureintro; exact View.read_writes_of_cover _ _ _ _ _ (first_cover5 (F := F) c _ _ _ _ _ _ _ _ _ _ _ _ _ _ _ _ _ _ _ _ _ _ _ _ _ _))
        iexact Hr
      iexact Hg
    isplitl [Hw]; · iexact Hw
    isplitl [H0]; · iexact H0
    isplitl [H1]; · iexact H1
    isplitl [H2]; · iexact H2
    iexists _; iexact H3
  · have hz : t.val ≠ 0 := fun e => h0 (by rw [e])
    by_cases h7 : t.val % 8 = 7
    · rw [show (dat3 V c).leavesExact 3 t = owns (c : Thread nD τ) (oM t) fullShare ((dat3 V c).after 3 t) from by
        unfold Dat.leavesExact; rw [live3_out t ((last3_iff t).mpr h7)], dat3_after3]
      rw [carryAt_last V c t h0 h7, outAt3_last V c t h0 h7]
      unfold lastCarry lastOut; (try dsimp only)
      rw [heldAt_castSucc V c t, heldAt_pos V c _ _ hz]
      iintro ⟨⟨⟨⟨S0, S1, S2, S3, S4, S5⟩, Hr⟩, Hg⟩, Hw, ⟨%d0, H0⟩, ⟨%d1, H1⟩, ⟨%d2, H2⟩, ⟨%d3, H3⟩⟩
      iapply ((lastStep c (grid3.coords t) _ _ _ _ _ _ _ _ _ _ _ _ _ _ _ _ _ _ _ _ (fun h => h0 ((first3_iff t).mp h)) ((last3_iff t).mpr h7) (tile3 V c 0 t) (tile3 V c 1 t) (tile3 V c 2 t) _ _ _ _ _ _).2.2.2.2.2.2.2 Set.univ _)
      isplitl [H0]; · iexact H0
      isplitl [H1]; · iexact H1
      isplitl [H2]; · iexact H2
      isplitl [H3]; · iexists _; iexact H3
      isplitl [S0]; · iexact S0
      isplitl [S1]; · iexact S1
      isplitl [S2]; · iexact S2
      isplitl [S3]; · iexact S3
      isplitl [S4]; · iexact S4
      isplitl [S5]; · iexact S5
      iintro ⟨H0, H1, H2, ⟨%eo, H3⟩, ⟨%e0, S0⟩, ⟨%e1, S1⟩, ⟨%e2, S2⟩, ⟨%e3, S3⟩, ⟨%e4, S4⟩, ⟨%e5, S5⟩⟩
      isplitl [S0 S1 S2 S3 S4 S5 Hr Hg]
      · isplitl [S0 S1 S2 S3 S4 S5 Hr]
        · isplitl [S0 S1 S2 S3 S4 S5]
          · skip
            isplitl [S0]; · (unfold owns; iexists _; isplitr; (swap; iexact S0); ipureintro; exact View.read_writes_of_cover _ _ _ _ _ (last_cover0 (F := F) c _ _ _ _ _ _ _ _ _ _ _ _ _ _ _ _ _ _ _ _ _ _ _ _ _ _ _ _ _ _ _ _))
            isplitl [S1]; · (unfold owns; iexists _; isplitr; (swap; iexact S1); ipureintro; exact View.read_writes_of_cover _ _ _ _ _ (last_cover1 (F := F) c _ _ _ _ _ _ _ _ _ _ _ _ _ _ _ _ _ _ _ _ _ _ _ _ _ _ _ _ _ _ _ _))
            isplitl [S2]; · (unfold owns; iexists _; isplitr; (swap; iexact S2); ipureintro; exact View.read_writes_of_cover _ _ _ _ _ (last_cover2 (F := F) c _ _ _ _ _ _ _ _ _ _ _ _ _ _ _ _ _ _ _ _ _ _ _ _ _ _ _ _ _ _ _ _))
            isplitl [S3]; · (unfold owns; iexists _; isplitr; (swap; iexact S3); ipureintro; exact View.read_writes_of_cover _ _ _ _ _ (last_cover3 (F := F) c _ _ _ _ _ _ _ _ _ _ _ _ _ _ _ _ _ _ _ _ _ _ _ _ _ _ _ _ _ _ _ _))
            isplitl [S4]; · (unfold owns; iexists _; isplitr; (swap; iexact S4); ipureintro; exact View.read_writes_of_cover _ _ _ _ _ (last_cover4 (F := F) c _ _ _ _ _ _ _ _ _ _ _ _ _ _ _ _ _ _ _ _ _ _ _ _ _ _ _ _ _ _ _ _))
            (unfold owns; iexists _; isplitr; (swap; iexact S5); ipureintro; exact View.read_writes_of_cover _ _ _ _ _ (last_cover5 (F := F) c _ _ _ _ _ _ _ _ _ _ _ _ _ _ _ _ _ _ _ _ _ _ _ _ _ _ _ _ _ _ _ _))
          iexact Hr
        iexact Hg
      isplitl [Hw]; · iexact Hw
      isplitl [H0]; · iexact H0
      isplitl [H1]; · iexact H1
      isplitl [H2]; · iexact H2
      unfold owns; iexists _; isplitr
      swap; · iexact H3
      ipureintro; exact View.read_writes_of_cover _ _ _ _ _ (last_coverO (F := F) c _ _ _ _ _ _ _ _ _ _ _ _ _ _ _ _ _ _ _ _ _ _ _ _ _ _ _ _ _ _ _ _)
    · rw [Dat.leavesExact_idle (dat3 V c) 3 t (idle3_out t (fun h => h7 ((last3_iff t).mp h))) (keep3_out t (fun h => h7 ((last3_iff t).mp h)))]
      rw [carryAt_mid V c t h0 h7]
      unfold midCarry; (try dsimp only)
      rw [heldAt_castSucc V c t, heldAt_pos V c _ _ hz]
      iintro ⟨⟨⟨⟨S0, S1, S2, S3, S4, S5⟩, Hr⟩, Hg⟩, Hw, ⟨%d0, H0⟩, ⟨%d1, H1⟩, ⟨%d2, H2⟩, ⟨%d3, H3⟩⟩
      iapply ((midStep c (grid3.coords t) _ _ _ _ _ _ _ _ _ _ _ _ _ _ _ _ _ _ _ _ (fun h => h0 ((first3_iff t).mp h)) (fun h => h7 ((last3_iff t).mp h)) (tile3 V c 0 t) (tile3 V c 1 t) (tile3 V c 2 t) _ _ _ _ _ _).2.2.2.2.2.2 _ Set.univ _)
      isplitl [H0]; · iexact H0
      isplitl [H1]; · iexact H1
      isplitl [H2]; · iexact H2
      isplitl [H3]; · iexact H3
      isplitl [S0]; · iexact S0
      isplitl [S1]; · iexact S1
      isplitl [S2]; · iexact S2
      isplitl [S3]; · iexact S3
      isplitl [S4]; · iexact S4
      isplitl [S5]; · iexact S5
      iintro ⟨H0, H1, H2, H3, ⟨%e0, S0⟩, ⟨%e1, S1⟩, ⟨%e2, S2⟩, ⟨%e3, S3⟩, ⟨%e4, S4⟩, ⟨%e5, S5⟩⟩
      isplitl [S0 S1 S2 S3 S4 S5 Hr Hg]
      · isplitl [S0 S1 S2 S3 S4 S5 Hr]
        · isplitl [S0 S1 S2 S3 S4 S5]
          · skip
            isplitl [S0]; · (unfold owns; iexists _; isplitr; (swap; iexact S0); ipureintro; exact View.read_writes_of_cover _ _ _ _ _ (mid_cover0 (F := F) c _ _ _ _ _ _ _ _ _ _ _ _ _ _ _ _ _ _ _ _ _ _ _ _ _ _ _ _ _ _ _ _))
            isplitl [S1]; · (unfold owns; iexists _; isplitr; (swap; iexact S1); ipureintro; exact View.read_writes_of_cover _ _ _ _ _ (mid_cover1 (F := F) c _ _ _ _ _ _ _ _ _ _ _ _ _ _ _ _ _ _ _ _ _ _ _ _ _ _ _ _ _ _ _ _))
            isplitl [S2]; · (unfold owns; iexists _; isplitr; (swap; iexact S2); ipureintro; exact View.read_writes_of_cover _ _ _ _ _ (mid_cover2 (F := F) c _ _ _ _ _ _ _ _ _ _ _ _ _ _ _ _ _ _ _ _ _ _ _ _ _ _ _ _ _ _ _ _))
            isplitl [S3]; · (unfold owns; iexists _; isplitr; (swap; iexact S3); ipureintro; exact View.read_writes_of_cover _ _ _ _ _ (mid_cover3 (F := F) c _ _ _ _ _ _ _ _ _ _ _ _ _ _ _ _ _ _ _ _ _ _ _ _ _ _ _ _ _ _ _ _))
            isplitl [S4]; · (unfold owns; iexists _; isplitr; (swap; iexact S4); ipureintro; exact View.read_writes_of_cover _ _ _ _ _ (mid_cover4 (F := F) c _ _ _ _ _ _ _ _ _ _ _ _ _ _ _ _ _ _ _ _ _ _ _ _ _ _ _ _ _ _ _ _))
            (unfold owns; iexists _; isplitr; (swap; iexact S5); ipureintro; exact View.read_writes_of_cover _ _ _ _ _ (mid_cover5 (F := F) c _ _ _ _ _ _ _ _ _ _ _ _ _ _ _ _ _ _ _ _ _ _ _ _ _ _ _ _ _ _ _ _))
          iexact Hr
        iexact Hg
      isplitl [Hw]; · iexact Hw
      isplitl [H0]; · iexact H0
      isplitl [H1]; · iexact H1
      isplitl [H2]; · iexact H2
      iexists _; iexact H3

/-- The body's obligation to the pipeline, at every point. -/
theorem obligation3 (c : Dev nD) : BodyObligation (dat3 (F := F) V c) (defs₀ (F := F)) Variants.none () Set.univ := fun t => by
  rw [bigSep_W3, bigSep_W3]
  exact point3 V c t

/-- What the stage is handed is what it keeps before the first point, -/
theorem held_in3 (c : Dev nD) : Pipeline.ΦA spec3 c ⊢ (dat3 V c).Φ 0 := by
  rw [show (dat3 V c).Φ 0 = heldAt V c 0 (Nat.zero_le _) from rfl, heldAt_zero V c 0 _ rfl]
  try exact Idealize.SL.BI.Entails.refl _

/-- and after the last point it gives that back. -/
theorem held_out3 (c : Dev nD) : (dat3 V c).Φ (Fin.last cfg3.N) ⊢ Pipeline.ΦA spec3 c := by
  rw [show (dat3 V c).Φ (Fin.last cfg3.N) = heldAt V c (Fin.last cfg3.N).val (Nat.le_of_lt_succ (Fin.last cfg3.N).isLt) from rfl]
  exact heldAt_forget V c _ _

end Cert.KernelIdeal.Hand

end
-- ==== Proof.IdealRun.lean ====
/-
  The whole program as eleven segments — six stretches of host operations around five kernel stages — and what
  every unscoped buffer holds at each of the twelve boundaries: a fold from the launch memory, a host stretch
  applying its operations, a stage replacing its arrays by what its write-backs leave and touching nothing else.
  One launch over the segments shows that every execution ends with every buffer at the end of that fold. No
  stretch and no stage writes an argument, so each argument is read back through the fold to its launch contents.
-/
import proofs.«180034_j81982335746566_2_alg».proof.Proof.IdealProj0
import proofs.«180034_j81982335746566_2_alg».proof.Proof.IdealProj1
import proofs.«180034_j81982335746566_2_alg».proof.Proof.IdealProj2
import proofs.«180034_j81982335746566_2_alg».proof.Proof.IdealProj4
import proofs.«180034_j81982335746566_2_alg».proof.Proof.IdealAttn
import proofs.«180034_j81982335746566_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers at each boundary -/

/-- At launch. -/
abbrev B0 : Dev nD → Valuation τ sig (Elt F) := fun c b => m (c, b)
/-- After host stretch 0 (where stage 0 starts). -/
abbrev B1 : Dev nD → Valuation τ sig (Elt F) := fun c => StableHlo.after hostOps0 (B0 m c)
/-- The same, read at the TensorCore's references. -/
abbrev R1 : (c : Dev nD) → (b : Ref sig .tc) → Buf (Elt F) ((c : Thread nD τ).loc b) := fun c b => B1 m c b
/-- After stage 0: its arrays at what its write-backs leave, every other buffer as it was. -/
def B2 (c : Dev nD) : Valuation τ sig (Elt F) :=
  Pipeline.withArrays spec0 c (B1 m c) fun w => (dat0 (R1 m) c).arrAt w cfg0.N
theorem B2_arr (c : Dev nD) (w : Fin cfg0.W) :
    B2 m c (Proc.devRef .tc (Pipeline.arrRef spec0 w)) = (dat0 (R1 m) c).arrAt w cfg0.N := by
  unfold B2; exact Pipeline.withArrays_arr spec0 launch0.win.arr_inj c _ _ w
theorem B2_other (c : Dev nD) (b : Ref sig .tc) (hb : ∀ w, Pipeline.arrRef spec0 w ≠ b) :
    B2 m c (Proc.devRef .tc b) = B1 m c (Proc.devRef .tc b) := by
  unfold B2; exact Pipeline.withArrays_of_ne spec0 c _ _ b hb
abbrev R2 : (c : Dev nD) → (b : Ref sig .tc) → Buf (Elt F) ((c : Thread nD τ).loc b) := fun c b => B2 m c b
theorem arrs0 (c : Dev nD) (w : Fin cfg0.W) : (dat0 (R1 m) c).arrAt w cfg0.N = R2 m c (Pipeline.arrRef spec0 w) :=
  (B2_arr m c w).symm
theorem rest0 (c : Dev nD) : ∀ b, b ∉ Finset.univ.image (Pipeline.arrRef spec0) → R2 m c b = R1 m c b :=
  fun b hb => B2_other m c b fun w e => hb (Finset.mem_image.mpr ⟨w, Finset.mem_univ _, e⟩)
/-- Stage 0 changes no buffer but its output array `main_v4`: an input array comes back as it went in. -/
theorem B2_keep (c : Dev nD) (b : Ref sig .tc) (hb : b ≠ main_v4) : B2 m c (Proc.devRef .tc b) = B1 m c (Proc.devRef .tc b) := by
  by_cases h0 : Pipeline.arrRef spec0 0 = b
  · subst h0; exact (B2_arr m c 0).trans (((dat0 (R1 m) c).arrAt_in 0 rfl _).trans (dat0_A (R1 m) c 0))
  by_cases h1 : Pipeline.arrRef spec0 1 = b
  · subst h1; exact (B2_arr m c 1).trans (((dat0 (R1 m) c).arrAt_in 1 rfl _).trans (dat0_A (R1 m) c 1))
  by_cases h2 : Pipeline.arrRef spec0 2 = b
  · subst h2; exact (B2_arr m c 2).trans (((dat0 (R1 m) c).arrAt_in 2 rfl _).trans (dat0_A (R1 m) c 2))
  · refine B2_other m c b fun w => ?_
    match w with
    | ⟨0, _⟩ => exact h0
    | ⟨1, _⟩ => exact h1
    | ⟨2, _⟩ => exact h2
    | ⟨3, _⟩ => exact fun e => hb e.symm
/-- After host stretch 1 (where stage 1 starts). -/
abbrev B3 : Dev nD → Valuation τ sig (Elt F) := fun c => StableHlo.after hostOps1 (B2 m c)
/-- The same, read at the TensorCore's references. -/
abbrev R3 : (c : Dev nD) → (b : Ref sig .tc) → Buf (Elt F) ((c : Thread nD τ).loc b) := fun c b => B3 m c b
/-- After stage 1: its arrays at what its write-backs leave, every other buffer as it was. -/
def B4 (c : Dev nD) : Valuation τ sig (Elt F) :=
  Pipeline.withArrays spec1 c (B3 m c) fun w => (dat1 (R3 m) c).arrAt w cfg1.N
theorem B4_arr (c : Dev nD) (w : Fin cfg1.W) :
    B4 m c (Proc.devRef .tc (Pipeline.arrRef spec1 w)) = (dat1 (R3 m) c).arrAt w cfg1.N := by
  unfold B4; exact Pipeline.withArrays_arr spec1 launch1.win.arr_inj c _ _ w
theorem B4_other (c : Dev nD) (b : Ref sig .tc) (hb : ∀ w, Pipeline.arrRef spec1 w ≠ b) :
    B4 m c (Proc.devRef .tc b) = B3 m c (Proc.devRef .tc b) := by
  unfold B4; exact Pipeline.withArrays_of_ne spec1 c _ _ b hb
abbrev R4 : (c : Dev nD) → (b : Ref sig .tc) → Buf (Elt F) ((c : Thread nD τ).loc b) := fun c b => B4 m c b
theorem arrs1 (c : Dev nD) (w : Fin cfg1.W) : (dat1 (R3 m) c).arrAt w cfg1.N = R4 m c (Pipeline.arrRef spec1 w) :=
  (B4_arr m c w).symm
theorem rest1 (c : Dev nD) : ∀ b, b ∉ Finset.univ.image (Pipeline.arrRef spec1) → R4 m c b = R3 m c b :=
  fun b hb => B4_other m c b fun w e => hb (Finset.mem_image.mpr ⟨w, Finset.mem_univ _, e⟩)
/-- Stage 1 changes no buffer but its output array `main_v7`: an input array comes back as it went in. -/
theorem B4_keep (c : Dev nD) (b : Ref sig .tc) (hb : b ≠ main_v7) : B4 m c (Proc.devRef .tc b) = B3 m c (Proc.devRef .tc b) := by
  by_cases h0 : Pipeline.arrRef spec1 0 = b
  · subst h0; exact (B4_arr m c 0).trans (((dat1 (R3 m) c).arrAt_in 0 rfl _).trans (dat1_A (R3 m) c 0))
  by_cases h1 : Pipeline.arrRef spec1 1 = b
  · subst h1; exact (B4_arr m c 1).trans (((dat1 (R3 m) c).arrAt_in 1 rfl _).trans (dat1_A (R3 m) c 1))
  by_cases h2 : Pipeline.arrRef spec1 2 = b
  · subst h2; exact (B4_arr m c 2).trans (((dat1 (R3 m) c).arrAt_in 2 rfl _).trans (dat1_A (R3 m) c 2))
  · refine B4_other m c b fun w => ?_
    match w with
    | ⟨0, _⟩ => exact h0
    | ⟨1, _⟩ => exact h1
    | ⟨2, _⟩ => exact h2
    | ⟨3, _⟩ => exact fun e => hb e.symm
/-- After host stretch 2 (where stage 2 starts). -/
abbrev B5 : Dev nD → Valuation τ sig (Elt F) := fun c => StableHlo.after hostOps2 (B4 m c)
/-- The same, read at the TensorCore's references. -/
abbrev R5 : (c : Dev nD) → (b : Ref sig .tc) → Buf (Elt F) ((c : Thread nD τ).loc b) := fun c b => B5 m c b
/-- After stage 2: its arrays at what its write-backs leave, every other buffer as it was. -/
def B6 (c : Dev nD) : Valuation τ sig (Elt F) :=
  Pipeline.withArrays spec2 c (B5 m c) fun w => (dat2 (R5 m) c).arrAt w cfg2.N
theorem B6_arr (c : Dev nD) (w : Fin cfg2.W) :
    B6 m c (Proc.devRef .tc (Pipeline.arrRef spec2 w)) = (dat2 (R5 m) c).arrAt w cfg2.N := by
  unfold B6; exact Pipeline.withArrays_arr spec2 launch2.win.arr_inj c _ _ w
theorem B6_other (c : Dev nD) (b : Ref sig .tc) (hb : ∀ w, Pipeline.arrRef spec2 w ≠ b) :
    B6 m c (Proc.devRef .tc b) = B5 m c (Proc.devRef .tc b) := by
  unfold B6; exact Pipeline.withArrays_of_ne spec2 c _ _ b hb
abbrev R6 : (c : Dev nD) → (b : Ref sig .tc) → Buf (Elt F) ((c : Thread nD τ).loc b) := fun c b => B6 m c b
theorem arrs2 (c : Dev nD) (w : Fin cfg2.W) : (dat2 (R5 m) c).arrAt w cfg2.N = R6 m c (Pipeline.arrRef spec2 w) :=
  (B6_arr m c w).symm
theorem rest2 (c : Dev nD) : ∀ b, b ∉ Finset.univ.image (Pipeline.arrRef spec2) → R6 m c b = R5 m c b :=
  fun b hb => B6_other m c b fun w e => hb (Finset.mem_image.mpr ⟨w, Finset.mem_univ _, e⟩)
/-- Stage 2 changes no buffer but its output array `main_v10`: an input array comes back as it went in. -/
theorem B6_keep (c : Dev nD) (b : Ref sig .tc) (hb : b ≠ main_v10) : B6 m c (Proc.devRef .tc b) = B5 m c (Proc.devRef .tc b) := by
  by_cases h0 : Pipeline.arrRef spec2 0 = b
  · subst h0; exact (B6_arr m c 0).trans (((dat2 (R5 m) c).arrAt_in 0 rfl _).trans (dat2_A (R5 m) c 0))
  by_cases h1 : Pipeline.arrRef spec2 1 = b
  · subst h1; exact (B6_arr m c 1).trans (((dat2 (R5 m) c).arrAt_in 1 rfl _).trans (dat2_A (R5 m) c 1))
  by_cases h2 : Pipeline.arrRef spec2 2 = b
  · subst h2; exact (B6_arr m c 2).trans (((dat2 (R5 m) c).arrAt_in 2 rfl _).trans (dat2_A (R5 m) c 2))
  · refine B6_other m c b fun w => ?_
    match w with
    | ⟨0, _⟩ => exact h0
    | ⟨1, _⟩ => exact h1
    | ⟨2, _⟩ => exact h2
    | ⟨3, _⟩ => exact fun e => hb e.symm
/-- After host stretch 3 (where stage 3 starts). -/
abbrev B7 : Dev nD → Valuation τ sig (Elt F) := fun c => StableHlo.after hostOps3 (B6 m c)
/-- The same, read at the TensorCore's references. -/
abbrev R7 : (c : Dev nD) → (b : Ref sig .tc) → Buf (Elt F) ((c : Thread nD τ).loc b) := fun c b => B7 m c b
/-- After stage 3: its arrays at what its write-backs leave, every other buffer as it was. -/
def B8 (c : Dev nD) : Valuation τ sig (Elt F) :=
  Pipeline.withArrays spec3 c (B7 m c) fun w => (dat3 (R7 m) c).arrAt w cfg3.N
theorem B8_arr (c : Dev nD) (w : Fin cfg3.W) :
    B8 m c (Proc.devRef .tc (Pipeline.arrRef spec3 w)) = (dat3 (R7 m) c).arrAt w cfg3.N := by
  unfold B8; exact Pipeline.withArrays_arr spec3 launch3.win.arr_inj c _ _ w
theorem B8_other (c : Dev nD) (b : Ref sig .tc) (hb : ∀ w, Pipeline.arrRef spec3 w ≠ b) :
    B8 m c (Proc.devRef .tc b) = B7 m c (Proc.devRef .tc b) := by
  unfold B8; exact Pipeline.withArrays_of_ne spec3 c _ _ b hb
abbrev R8 : (c : Dev nD) → (b : Ref sig .tc) → Buf (Elt F) ((c : Thread nD τ).loc b) := fun c b => B8 m c b
theorem arrs3 (c : Dev nD) (w : Fin cfg3.W) : (dat3 (R7 m) c).arrAt w cfg3.N = R8 m c (Pipeline.arrRef spec3 w) :=
  (B8_arr m c w).symm
theorem rest3 (c : Dev nD) : ∀ b, b ∉ Finset.univ.image (Pipeline.arrRef spec3) → R8 m c b = R7 m c b :=
  fun b hb => B8_other m c b fun w e => hb (Finset.mem_image.mpr ⟨w, Finset.mem_univ _, e⟩)
/-- Stage 3 changes no buffer but its output array `main_v12`: an input array comes back as it went in. -/
theorem B8_keep (c : Dev nD) (b : Ref sig .tc) (hb : b ≠ main_v12) : B8 m c (Proc.devRef .tc b) = B7 m c (Proc.devRef .tc b) := by
  by_cases h0 : Pipeline.arrRef spec3 0 = b
  · subst h0; exact (B8_arr m c 0).trans (((dat3 (R7 m) c).arrAt_in 0 rfl _).trans (dat3_A (R7 m) c 0))
  by_cases h1 : Pipeline.arrRef spec3 1 = b
  · subst h1; exact (B8_arr m c 1).trans (((dat3 (R7 m) c).arrAt_in 1 rfl _).trans (dat3_A (R7 m) c 1))
  by_cases h2 : Pipeline.arrRef spec3 2 = b
  · subst h2; exact (B8_arr m c 2).trans (((dat3 (R7 m) c).arrAt_in 2 rfl _).trans (dat3_A (R7 m) c 2))
  · refine B8_other m c b fun w => ?_
    match w with
    | ⟨0, _⟩ => exact h0
    | ⟨1, _⟩ => exact h1
    | ⟨2, _⟩ => exact h2
    | ⟨3, _⟩ => exact fun e => hb e.symm
/-- After host stretch 4 (where stage 4 starts). -/
abbrev B9 : Dev nD → Valuation τ sig (Elt F) := fun c => StableHlo.after hostOps4 (B8 m c)
/-- The same, read at the TensorCore's references. -/
abbrev R9 : (c : Dev nD) → (b : Ref sig .tc) → Buf (Elt F) ((c : Thread nD τ).loc b) := fun c b => B9 m c b
/-- After stage 4: its arrays at what its write-backs leave, every other buffer as it was. -/
def B10 (c : Dev nD) : Valuation τ sig (Elt F) :=
  Pipeline.withArrays spec4 c (B9 m c) fun w => (dat4 (R9 m) c).arrAt w cfg4.N
theorem B10_arr (c : Dev nD) (w : Fin cfg4.W) :
    B10 m c (Proc.devRef .tc (Pipeline.arrRef spec4 w)) = (dat4 (R9 m) c).arrAt w cfg4.N := by
  unfold B10; exact Pipeline.withArrays_arr spec4 launch4.win.arr_inj c _ _ w
theorem B10_other (c : Dev nD) (b : Ref sig .tc) (hb : ∀ w, Pipeline.arrRef spec4 w ≠ b) :
    B10 m c (Proc.devRef .tc b) = B9 m c (Proc.devRef .tc b) := by
  unfold B10; exact Pipeline.withArrays_of_ne spec4 c _ _ b hb
abbrev R10 : (c : Dev nD) → (b : Ref sig .tc) → Buf (Elt F) ((c : Thread nD τ).loc b) := fun c b => B10 m c b
theorem arrs4 (c : Dev nD) (w : Fin cfg4.W) : (dat4 (R9 m) c).arrAt w cfg4.N = R10 m c (Pipeline.arrRef spec4 w) :=
  (B10_arr m c w).symm
theorem rest4 (c : Dev nD) : ∀ b, b ∉ Finset.univ.image (Pipeline.arrRef spec4) → R10 m c b = R9 m c b :=
  fun b hb => B10_other m c b fun w e => hb (Finset.mem_image.mpr ⟨w, Finset.mem_univ _, e⟩)
/-- Stage 4 changes no buffer but its output array `main_v15`: an input array comes back as it went in. -/
theorem B10_keep (c : Dev nD) (b : Ref sig .tc) (hb : b ≠ main_v15) : B10 m c (Proc.devRef .tc b) = B9 m c (Proc.devRef .tc b) := by
  by_cases h0 : Pipeline.arrRef spec4 0 = b
  · subst h0; exact (B10_arr m c 0).trans (((dat4 (R9 m) c).arrAt_in 0 rfl _).trans (dat4_A (R9 m) c 0))
  by_cases h1 : Pipeline.arrRef spec4 1 = b
  · subst h1; exact (B10_arr m c 1).trans (((dat4 (R9 m) c).arrAt_in 1 rfl _).trans (dat4_A (R9 m) c 1))
  by_cases h2 : Pipeline.arrRef spec4 2 = b
  · subst h2; exact (B10_arr m c 2).trans (((dat4 (R9 m) c).arrAt_in 2 rfl _).trans (dat4_A (R9 m) c 2))
  · refine B10_other m c b fun w => ?_
    match w with
    | ⟨0, _⟩ => exact h0
    | ⟨1, _⟩ => exact h1
    | ⟨2, _⟩ => exact h2
    | ⟨3, _⟩ => exact fun e => hb e.symm
/-- After host stretch 5: the end. -/
abbrev B11 : Dev nD → Valuation τ sig (Elt F) := fun c => StableHlo.after hostOps5 (B10 m c)

/-- A host stretch changes no buffer but the ones its operations write. -/
theorem B1_keep (c : Dev nD) (r : Ref sig .tc) (h : r ∉ hostOps0_W) : B1 m c (Proc.devRef .tc r) = B0 m c (Proc.devRef .tc r) :=
  StableHlo.after_of_writes_sub hostOps0 _ hostOps0_writes h
theorem B3_keep (c : Dev nD) (r : Ref sig .tc) (h : r ∉ hostOps1_W) : B3 m c (Proc.devRef .tc r) = B2 m c (Proc.devRef .tc r) :=
  StableHlo.after_of_writes_sub hostOps1 _ hostOps1_writes h
theorem B5_keep (c : Dev nD) (r : Ref sig .tc) (h : r ∉ hostOps2_W) : B5 m c (Proc.devRef .tc r) = B4 m c (Proc.devRef .tc r) :=
  StableHlo.after_of_writes_sub hostOps2 _ hostOps2_writes h
theorem B7_keep (c : Dev nD) (r : Ref sig .tc) (h : r ∉ hostOps3_W) : B7 m c (Proc.devRef .tc r) = B6 m c (Proc.devRef .tc r) :=
  StableHlo.after_of_writes_sub hostOps3 _ hostOps3_writes h
theorem B9_keep (c : Dev nD) (r : Ref sig .tc) (h : r ∉ hostOps4_W) : B9 m c (Proc.devRef .tc r) = B8 m c (Proc.devRef .tc r) :=
  StableHlo.after_of_writes_sub hostOps4 _ hostOps4_writes h
theorem B11_keep (c : Dev nD) (r : Ref sig .tc) (h : r ∉ hostOps5_W) : B11 m c (Proc.devRef .tc r) = B10 m c (Proc.devRef .tc r) :=
  StableHlo.after_of_writes_sub hostOps5 _ hostOps5_writes h

/-! ## The arguments come through unchanged -/
theorem B11_arg0 (c : Dev nD) : B11 m c (Proc.devRef .tc main_arg0) = m ((c : Thread nD τ).loc main_arg0) :=
  (B11_keep m c main_arg0 (by decide)).trans <| (B10_keep m c main_arg0 (by decide)).trans <| (B9_keep m c main_arg0 (by decide)).trans <| (B8_keep m c main_arg0 (by decide)).trans <| (B7_keep m c main_arg0 (by decide)).trans <| (B6_keep m c main_arg0 (by decide)).trans <| (B5_keep m c main_arg0 (by decide)).trans <| (B4_keep m c main_arg0 (by decide)).trans <| (B3_keep m c main_arg0 (by decide)).trans <| (B2_keep m c main_arg0 (by decide)).trans <| (B1_keep m c main_arg0 (by decide)).trans <| rfl
theorem B11_arg1 (c : Dev nD) : B11 m c (Proc.devRef .tc main_arg1) = m ((c : Thread nD τ).loc main_arg1) :=
  (B11_keep m c main_arg1 (by decide)).trans <| (B10_keep m c main_arg1 (by decide)).trans <| (B9_keep m c main_arg1 (by decide)).trans <| (B8_keep m c main_arg1 (by decide)).trans <| (B7_keep m c main_arg1 (by decide)).trans <| (B6_keep m c main_arg1 (by decide)).trans <| (B5_keep m c main_arg1 (by decide)).trans <| (B4_keep m c main_arg1 (by decide)).trans <| (B3_keep m c main_arg1 (by decide)).trans <| (B2_keep m c main_arg1 (by decide)).trans <| (B1_keep m c main_arg1 (by decide)).trans <| rfl
theorem B11_arg2 (c : Dev nD) : B11 m c (Proc.devRef .tc main_arg2) = m ((c : Thread nD τ).loc main_arg2) :=
  (B11_keep m c main_arg2 (by decide)).trans <| (B10_keep m c main_arg2 (by decide)).trans <| (B9_keep m c main_arg2 (by decide)).trans <| (B8_keep m c main_arg2 (by decide)).trans <| (B7_keep m c main_arg2 (by decide)).trans <| (B6_keep m c main_arg2 (by decide)).trans <| (B5_keep m c main_arg2 (by decide)).trans <| (B4_keep m c main_arg2 (by decide)).trans <| (B3_keep m c main_arg2 (by decide)).trans <| (B2_keep m c main_arg2 (by decide)).trans <| (B1_keep m c main_arg2 (by decide)).trans <| rfl
theorem B11_arg3 (c : Dev nD) : B11 m c (Proc.devRef .tc main_arg3) = m ((c : Thread nD τ).loc main_arg3) :=
  (B11_keep m c main_arg3 (by decide)).trans <| (B10_keep m c main_arg3 (by decide)).trans <| (B9_keep m c main_arg3 (by decide)).trans <| (B8_keep m c main_arg3 (by decide)).trans <| (B7_keep m c main_arg3 (by decide)).trans <| (B6_keep m c main_arg3 (by decide)).trans <| (B5_keep m c main_arg3 (by decide)).trans <| (B4_keep m c main_arg3 (by decide)).trans <| (B3_keep m c main_arg3 (by decide)).trans <| (B2_keep m c main_arg3 (by decide)).trans <| (B1_keep m c main_arg3 (by decide)).trans <| rfl
theorem B11_arg4 (c : Dev nD) : B11 m c (Proc.devRef .tc main_arg4) = m ((c : Thread nD τ).loc main_arg4) :=
  (B11_keep m c main_arg4 (by decide)).trans <| (B10_keep m c main_arg4 (by decide)).trans <| (B9_keep m c main_arg4 (by decide)).trans <| (B8_keep m c main_arg4 (by decide)).trans <| (B7_keep m c main_arg4 (by decide)).trans <| (B6_keep m c main_arg4 (by decide)).trans <| (B5_keep m c main_arg4 (by decide)).trans <| (B4_keep m c main_arg4 (by decide)).trans <| (B3_keep m c main_arg4 (by decide)).trans <| (B2_keep m c main_arg4 (by decide)).trans <| (B1_keep m c main_arg4 (by decide)).trans <| rfl
theorem B11_arg5 (c : Dev nD) : B11 m c (Proc.devRef .tc main_arg5) = m ((c : Thread nD τ).loc main_arg5) :=
  (B11_keep m c main_arg5 (by decide)).trans <| (B10_keep m c main_arg5 (by decide)).trans <| (B9_keep m c main_arg5 (by decide)).trans <| (B8_keep m c main_arg5 (by decide)).trans <| (B7_keep m c main_arg5 (by decide)).trans <| (B6_keep m c main_arg5 (by decide)).trans <| (B5_keep m c main_arg5 (by decide)).trans <| (B4_keep m c main_arg5 (by decide)).trans <| (B3_keep m c main_arg5 (by decide)).trans <| (B2_keep m c main_arg5 (by decide)).trans <| (B1_keep m c main_arg5 (by decide)).trans <| rfl
theorem B11_arg6 (c : Dev nD) : B11 m c (Proc.devRef .tc main_arg6) = m ((c : Thread nD τ).loc main_arg6) :=
  (B11_keep m c main_arg6 (by decide)).trans <| (B10_keep m c main_arg6 (by decide)).trans <| (B9_keep m c main_arg6 (by decide)).trans <| (B8_keep m c main_arg6 (by decide)).trans <| (B7_keep m c main_arg6 (by decide)).trans <| (B6_keep m c main_arg6 (by decide)).trans <| (B5_keep m c main_arg6 (by decide)).trans <| (B4_keep m c main_arg6 (by decide)).trans <| (B3_keep m c main_arg6 (by decide)).trans <| (B2_keep m c main_arg6 (by decide)).trans <| (B1_keep m c main_arg6 (by decide)).trans <| rfl
theorem B11_arg7 (c : Dev nD) : B11 m c (Proc.devRef .tc main_arg7) = m ((c : Thread nD τ).loc main_arg7) :=
  (B11_keep m c main_arg7 (by decide)).trans <| (B10_keep m c main_arg7 (by decide)).trans <| (B9_keep m c main_arg7 (by decide)).trans <| (B8_keep m c main_arg7 (by decide)).trans <| (B7_keep m c main_arg7 (by decide)).trans <| (B6_keep m c main_arg7 (by decide)).trans <| (B5_keep m c main_arg7 (by decide)).trans <| (B4_keep m c main_arg7 (by decide)).trans <| (B3_keep m c main_arg7 (by decide)).trans <| (B2_keep m c main_arg7 (by decide)).trans <| (B1_keep m c main_arg7 (by decide)).trans <| rfl
theorem B11_arg8 (c : Dev nD) : B11 m c (Proc.devRef .tc main_arg8) = m ((c : Thread nD τ).loc main_arg8) :=
  (B11_keep m c main_arg8 (by decide)).trans <| (B10_keep m c main_arg8 (by decide)).trans <| (B9_keep m c main_arg8 (by decide)).trans <| (B8_keep m c main_arg8 (by decide)).trans <| (B7_keep m c main_arg8 (by decide)).trans <| (B6_keep m c main_arg8 (by decide)).trans <| (B5_keep m c main_arg8 (by decide)).trans <| (B4_keep m c main_arg8 (by decide)).trans <| (B3_keep m c main_arg8 (by decide)).trans <| (B2_keep m c main_arg8 (by decide)).trans <| (B1_keep m c main_arg8 (by decide)).trans <| rfl
theorem B11_arg9 (c : Dev nD) : B11 m c (Proc.devRef .tc main_arg9) = m ((c : Thread nD τ).loc main_arg9) :=
  (B11_keep m c main_arg9 (by decide)).trans <| (B10_keep m c main_arg9 (by decide)).trans <| (B9_keep m c main_arg9 (by decide)).trans <| (B8_keep m c main_arg9 (by decide)).trans <| (B7_keep m c main_arg9 (by decide)).trans <| (B6_keep m c main_arg9 (by decide)).trans <| (B5_keep m c main_arg9 (by decide)).trans <| (B4_keep m c main_arg9 (by decide)).trans <| (B3_keep m c main_arg9 (by decide)).trans <| (B2_keep m c main_arg9 (by decide)).trans <| (B1_keep m c main_arg9 (by decide)).trans <| rfl
theorem B11_arg10 (c : Dev nD) : B11 m c (Proc.devRef .tc main_arg10) = m ((c : Thread nD τ).loc main_arg10) :=
  (B11_keep m c main_arg10 (by decide)).trans <| (B10_keep m c main_arg10 (by decide)).trans <| (B9_keep m c main_arg10 (by decide)).trans <| (B8_keep m c main_arg10 (by decide)).trans <| (B7_keep m c main_arg10 (by decide)).trans <| (B6_keep m c main_arg10 (by decide)).trans <| (B5_keep m c main_arg10 (by decide)).trans <| (B4_keep m c main_arg10 (by decide)).trans <| (B3_keep m c main_arg10 (by decide)).trans <| (B2_keep m c main_arg10 (by decide)).trans <| (B1_keep m c main_arg10 (by decide)).trans <| rfl

/-! ## The stages as segments -/

/-- Every stage's proof data, each at the contents its stage starts from. -/
def pdats : (p : Fin 5) → (c : Dev nD) → Dat τ (Elt F) Unit ℕ (UR sig nD τ) ℕ (Pipeline.pin (pcfgs (F := F)) adm p) c
  | ⟨0, _⟩ => fun c => dat0 (R1 m) c
  | ⟨1, _⟩ => fun c => dat1 (R3 m) c
  | ⟨2, _⟩ => fun c => dat2 (R5 m) c
  | ⟨3, _⟩ => fun c => dat3 (R7 m) c
  | ⟨4, _⟩ => fun c => dat4 (R9 m) c
abbrev 𝒱₀ : Variants := Variants.none
/-- No core owes another anything. -/
abbrev L : GSem nD τ sig → Finset Unit := fun _ => ∅
abbrev lv : GSem nD τ sig → Unit → ℕ := fun _ _ => 0
/-- What rides beside the buffers through every segment: the generator register at some state, nothing owed. -/
abbrev Ride (c : Dev nD) : sProp 𝕄 := iprop((∃ r, prngReg c r) ∗ ∃ W, owes (c : Thread nD τ) (0 : CellTallies nD τ sig Unit) W)
/-- A host stretch as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Ride
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tend (c : Dev nD) : sProp 𝕄 := iprop(StableHlo.held (c : Thread nD τ) (Pipeline.ucRefs τ sig) (B11 m c) ∗ ∃ r, prngReg c r)

set_option backward.isDefEq.respectTransparency.types false in
/-- Stage 0 over the thread state: entered with every unscoped buffer at boundary 1, left with them at boundary 2. -/
def stage0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (obligation0 (R1 m) c).loose
  hwaits := Pipeline.hwaits_of_owed_zero _ _ _ _ L lv 0 fun _ _ => rfl
  pre c := iprop(StableHlo.held (c : Thread nD τ) (Pipeline.ucRefs τ sig) (B1 m c) ∗ Ride c)
  post c := iprop(StableHlo.held (c : Thread nD τ) (Pipeline.ucRefs τ sig) (B2 m c) ∗ Ride c)
  X c := iprop(∃ r, prngReg c r)
  Y c := iprop(∃ r, prngReg c r)
  Z c := Pipeline.unscopedRest (Ix := Unit) (Name := ℕ) (U := UR sig nD τ) (Lvl := ℕ) spec0 c (R1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (R1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (R1 m c) (R2 m c) ((pdats m 0 c).arrAt · cfg0.N) (arrs0 m c) (rest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Stage 1 over the thread state: entered with every unscoped buffer at boundary 3, left with them at boundary 4. -/
def stage1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (obligation1 (R3 m) c).loose
  hwaits := Pipeline.hwaits_of_owed_zero _ _ _ _ L lv 1 fun _ _ => rfl
  pre c := iprop(StableHlo.held (c : Thread nD τ) (Pipeline.ucRefs τ sig) (B3 m c) ∗ Ride c)
  post c := iprop(StableHlo.held (c : Thread nD τ) (Pipeline.ucRefs τ sig) (B4 m c) ∗ Ride c)
  X c := iprop(∃ r, prngReg c r)
  Y c := iprop(∃ r, prngReg c r)
  Z c := Pipeline.unscopedRest (Ix := Unit) (Name := ℕ) (U := UR sig nD τ) (Lvl := ℕ) spec1 c (R3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (R3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (R3 m c) (R4 m c) ((pdats m 1 c).arrAt · cfg1.N) (arrs1 m c) (rest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Stage 2 over the thread state: entered with every unscoped buffer at boundary 5, left with them at boundary 6. -/
def stage2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (obligation2 (R5 m) c).loose
  hwaits := Pipeline.hwaits_of_owed_zero _ _ _ _ L lv 2 fun _ _ => rfl
  pre c := iprop(StableHlo.held (c : Thread nD τ) (Pipeline.ucRefs τ sig) (B5 m c) ∗ Ride c)
  post c := iprop(StableHlo.held (c : Thread nD τ) (Pipeline.ucRefs τ sig) (B6 m c) ∗ Ride c)
  X c := iprop(∃ r, prngReg c r)
  Y c := iprop(∃ r, prngReg c r)
  Z c := Pipeline.unscopedRest (Ix := Unit) (Name := ℕ) (U := UR sig nD τ) (Lvl := ℕ) spec2 c (R5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (R5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (R5 m c) (R6 m c) ((pdats m 2 c).arrAt · cfg2.N) (arrs2 m c) (rest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Stage 3 over the thread state: entered with every unscoped buffer at boundary 7, left with them at boundary 8. -/
def stage3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (obligation3 (R7 m) c).loose
  hwaits := Pipeline.hwaits_of_owed_zero _ _ _ _ L lv 3 fun _ _ => rfl
  pre c := iprop(StableHlo.held (c : Thread nD τ) (Pipeline.ucRefs τ sig) (B7 m c) ∗ Ride c)
  post c := iprop(StableHlo.held (c : Thread nD τ) (Pipeline.ucRefs τ sig) (B8 m c) ∗ Ride c)
  X c := iprop(∃ r, prngReg c r)
  Y c := iprop(∃ r, prngReg c r)
  Z c := Pipeline.unscopedRest (Ix := Unit) (Name := ℕ) (U := UR sig nD τ) (Lvl := ℕ) spec3 c (R7 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (R7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = (dat3 (R7 m) c).Φ 0 from rfl]
    iintro ⟨Hp, -, Hr⟩
    iapply (held_in3 (R7 m) c)
    unfold Pipeline.ΦA
    isplitl [Hr]; · iexact Hr
    iexact Hp
  hout c := by
    rw [Pipeline.ownSems0_none, show (pdats m 3 c).Φ (Fin.last _) = (dat3 (R7 m) c).Φ (Fin.last cfg3.N) from rfl]
    refine (held_out3 (R7 m) c).trans ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (R7 m c) (R8 m c) ((pdats m 3 c).arrAt · cfg3.N) (arrs3 m c) (rest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Stage 4 over the thread state: entered with every unscoped buffer at boundary 9, left with them at boundary 10. -/
def stage4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (obligation4 (R9 m) c).loose
  hwaits := Pipeline.hwaits_of_owed_zero _ _ _ _ L lv 4 fun _ _ => rfl
  pre c := iprop(StableHlo.held (c : Thread nD τ) (Pipeline.ucRefs τ sig) (B9 m c) ∗ Ride c)
  post c := iprop(StableHlo.held (c : Thread nD τ) (Pipeline.ucRefs τ sig) (B10 m c) ∗ Ride c)
  X c := iprop(∃ r, prngReg c r)
  Y c := iprop(∃ r, prngReg c r)
  Z c := Pipeline.unscopedRest (Ix := Unit) (Name := ℕ) (U := UR sig nD τ) (Lvl := ℕ) spec4 c (R9 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (R9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (R9 m c) (R10 m c) ((pdats m 4 c).arrAt · cfg4.N) (arrs4 m c) (rest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The last stretch's thread state, re-associated: the buffers and the generator register on one side, the core owing
    nothing on the other. -/
theorem tail_assoc (c : Dev nD) :
    (iprop(StableHlo.held (c : Thread nD τ) (Pipeline.ucRefs τ sig) (B11 m c) ∗ Ride c) : sProp 𝕄)
      ⊢ iprop(Tend m c ∗ ∃ W, owes (c : Thread nD τ) (0 : CellTallies nD τ sig Unit) W) := by
  iintro ⟨Hh, ⟨Hp, HO⟩⟩
  isplitl [Hh Hp]
  · isplitl [Hh]; · iexact Hh
    iexact Hp
  iexact HO

/-! ## The launch -/

/-- The eleven segments in order. -/
abbrev segs : List (Pipeline.Seg (pcfgs (F := F)) adm (pdats m) () defs₀ 𝒱₀ L lv) :=
  [ .host (hseg hostOps0 hostOps0_sub hostOps0_fresh (B0 m)),
    .region (stage0 m),
    .host (hseg hostOps1 hostOps1_sub hostOps1_fresh (B2 m)),
    .region (stage1 m),
    .host (hseg hostOps2 hostOps2_sub hostOps2_fresh (B4 m)),
    .region (stage2 m),
    .host (hseg hostOps3 hostOps3_sub hostOps3_fresh (B6 m)),
    .region (stage3 m),
    .host (hseg hostOps4 hostOps4_sub hostOps4_fresh (B8 m)),
    .region (stage4 m),
    .host (hseg hostOps5 hostOps5_sub hostOps5_fresh (B10 m)) ]
/-- The program is the run of the segments. -/
theorem main_run (c : Dev nD) : main (F := F) c = Pipeline.Seg.run (segs m) := (main_chain c).trans (by chain_rfl)

set_option backward.isDefEq.respectTransparency.types false in
/-- From any memory with zero counters, every weakly fair execution of the program on the TensorCores terminates,
    nothing faulting, and every final state has every unscoped buffer at the end of the fold. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B11 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ Ride c)) (Tₙ := Tend m)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => tail_assoc m c⟩)
    (hinit := by
      refine Pipeline.initEach L lv fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B11 m c b)
    (hfin := fun c s' => by
      iintro ⟨⟨Hh, -⟩, HSI⟩
      unfold StableHlo.held
      imodintro
      iapply (pointsTo_read_all (Pipeline.ucRefs τ sig) (fun b => (((c : Thread nD τ)).1, b)) (B11 m c) s')
      isplitl [Hh] <;> iassumption)
    (hQ := fun s h c => h c)

/-- The frame: every argument array ends as launched. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨(h c _ (mem_uc main_arg0 (by decide))).trans (B11_arg0 m c),
    (h c _ (mem_uc main_arg1 (by decide))).trans (B11_arg1 m c),
    (h c _ (mem_uc main_arg2 (by decide))).trans (B11_arg2 m c),
    (h c _ (mem_uc main_arg3 (by decide))).trans (B11_arg3 m c),
    (h c _ (mem_uc main_arg4 (by decide))).trans (B11_arg4 m c),
    (h c _ (mem_uc main_arg5 (by decide))).trans (B11_arg5 m c),
    (h c _ (mem_uc main_arg6 (by decide))).trans (B11_arg6 m c),
    (h c _ (mem_uc main_arg7 (by decide))).trans (B11_arg7 m c),
    (h c _ (mem_uc main_arg8 (by decide))).trans (B11_arg8 m c),
    (h c _ (mem_uc main_arg9 (by decide))).trans (B11_arg9 m c),
    (h c _ (mem_uc main_arg10 (by decide))).trans (B11_arg10 m c)⟩) (run_all m ρ)

end Cert.KernelIdeal.Hand

end
-- ==== Proof.LibDotLastAxes.lean ====
/-
  A matrix product that contracts the LAST axis of both operands, at the ideal values.

  For `A` of shape [M, K] and `B` of shape [N, K] the product into a zero accumulator has, at row `a` and column `b`,
  the value `∑ c, A (a, c) * B (b, c)`: both operands are read along their rows. With a row vector added to every row
  of the product (a bias of shape [1, N] cast to its own shape and broadcast down the rows) this is one unit of a dense
  layer, `(∑ c, A (a, c) * B (b, c)) + bias (0, b)`.
-/
import Idealize.ShloMosaic.PureOps.Ideal.Laws
import Idealize.ShloMosaic.Lib.ValueIdx
import Idealize.ShloMosaic.Lib.Pipeline.Value

noncomputable section

open scoped BigOperators

namespace Idealize.ShloMosaic.DotLastAxes

open Idealize.ShloMosaic Idealize.ShloMosaic.ValueIdx

variable {M K N : Nat}

/-- The product of an [M, K] by an [N, K] matrix over their last axes, into the zero splat, read at an index: the sum
    over the contracted coordinate of the products of the two rows' entries. -/
theorem matmul_zero_apply {φ₁ φ₂ : FTy}
    (w : DotDims.WF (⟨2, ![M, K]⟩ : Shape) (⟨2, ![N, K]⟩ : Shape) (⟨2, ![M, N]⟩ : Shape) [1] [1] [0] [0] [] [])
    (prec : Option ContractPrecision) (A : FVec Ideal ⟨2, ![M, K]⟩ φ₁) (B : FVec Ideal ⟨2, ![N, K]⟩ φ₂)
    (a : Fin M) (b : Fin N) :
    matmul (⟨[1], [1], [0], [0], [], [], w⟩ : DotDims _ _ _) prec A B (constant (F := Ideal) ⟨2, ![M, N]⟩ .f32 0x00000000#32) (ix2 a b)
      = ∑ c : Fin K, A (ix2 a c) * B (ix2 b c) := by
  show FloatOps.matmul _ prec A B _ (ix2 a b) = _
  rw [Ideal.matmul_constant_zero_apply,
    ← Equiv.sum_comp (contrEquiv1 (⟨[1], [1], [0], [0], [], [], w⟩ : DotDims (⟨2, ![M, K]⟩ : Shape) (⟨2, ![N, K]⟩ : Shape) (⟨2, ![M, N]⟩ : Shape)) K rfl rfl).symm]
  refine Finset.sum_congr rfl fun c _ => ?_
  have c2 := contrEquiv1_symm_val (⟨[1], [1], [0], [0], [], [], w⟩ : DotDims (⟨2, ![M, K]⟩ : Shape) (⟨2, ![N, K]⟩ : Shape) (⟨2, ![M, N]⟩ : Shape)) K rfl rfl c
  have l2 : (⟨[1], [1], [0], [0], [], [], w⟩ : DotDims (⟨2, ![M, K]⟩ : Shape) (⟨2, ![N, K]⟩ : Shape) (⟨2, ![M, N]⟩ : Shape)).lhsIdx (ix2 a b)
      ((contrEquiv1 _ K rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims (⟨2, ![M, K]⟩ : Shape) (⟨2, ![N, K]⟩ : Shape) (⟨2, ![M, N]⟩ : Shape)).rhsIdx (ix2 a b)
      ((contrEquiv1 _ K rfl rfl).symm c) = ix2 b c := by
    funext ax; apply Fin.ext
    match ax with
    | ⟨0, _⟩ => simp [DotDims.rhsIdx]; rfl
    | ⟨1, _⟩ => simp [DotDims.rhsIdx]; exact c2
  rw [l2, r2]

/-- A [1, N] row cast to its own shape and broadcast down M rows reads, at row `a` and column `b`, the row's entry `b`. -/
theorem rowBroadcast_apply {α : Type} (hc : (⟨2, ![1, N]⟩ : Shape).ShapeCasts ⟨2, ![1, N]⟩)
    (hb : (⟨2, ![1, N]⟩ : Shape).Broadcasts ⟨2, ![M, N]⟩) (x : (⟨2, ![1, N]⟩ : Shape).Idx → α) (a : Fin M) (b : Fin N) :
    broadcastTo ⟨2, ![M, N]⟩ (shapeCast ⟨2, ![1, N]⟩ x hc) hb (ix2 a b) = x (ix2 0 b) := by
  rw [shapeCast_self]
  refine broadcastTo_apply x hb (ix2 a b) (ix2 0 b) fun ax => ?_
  match ax with
  | ⟨0, _⟩ => exact (if_pos rfl).symm
  | ⟨1, _⟩ =>
    show (b : ℕ) = if N = 1 then 0 else (b : ℕ)
    split
    · have := b.isLt; omega
    · rfl

end Idealize.ShloMosaic.DotLastAxes

end
-- ==== Proof.Spec.lean ====
/-
  What the program computes, as one function of its eleven arguments, entry by entry, on the extended reals.
  Multi-head attention on sequences of 4096 positions of width 512 (eight heads of width 64, head h on lanes
  64h … 64h+63): three linear maps x ↦ x·Wᵀ + b give queries, keys and values; the score of query position s
  against key position t in head h is their inner product over the head's 64 lanes, times 1/8; each query's
  scores are turned into weights by the softmax (exponentials of score minus the row's largest score, over their
  sum); the head's output at s is the weighted sum of the values; a fourth linear map is applied to the result.
-/
import Idealize.ShloMosaic.PureOps.Ideal
import Idealize.ShloMosaic.Lib.ValueIdx

noncomputable section

namespace Cert.Spec

open Idealize.ShloMosaic Idealize.ShloMosaic.ValueIdx
open scoped BigOperators

/-- A batch of two sequences of 4096 positions of width 512. -/
abbrev Seq : Type := (⟨3, ![2, 4096, 512]⟩ : Shape).Idx → EReal
/-- A 512 × 512 weight matrix, output lane first. -/
abbrev Mat : Type := (⟨2, ![512, 512]⟩ : Shape).Idx → EReal
/-- A bias row. -/
abbrev Row : Type := (⟨1, ![512]⟩ : Shape).Idx → EReal

/-- Lane `d` of head `h`. -/
def lane (h : Fin 8) (d : Fin 64) : Fin 512 := ⟨64 * h.val + d.val, by have := h.isLt; have := d.isLt; omega⟩

/-- The head a lane belongs to. -/
def headOf (e : Fin 512) : Fin 8 := ⟨e.val / 64, by have := e.isLt; omega⟩

/-- The linear map x ↦ x·Wᵀ + b, at batch `n`, position `s`, output lane `e`. -/
def projAt (x : Seq) (W : Mat) (b : Row) (n : Fin 2) (s : Fin 4096) (e : Fin 512) : EReal :=
  (∑ k : Fin 512, x (ix3 n s k) * W (ix2 e k)) + b (ix1 e)

/-- The linear map as an array. -/
def proj (x : Seq) (W : Mat) (b : Row) : Seq := fun i => projAt x W b (i 0) (i 1) (i 2)

/-- The scaled score of query position `s` against key position `t` in head `h` of batch `n`. -/
def score (Q K : Seq) (n : Fin 2) (h : Fin 8) (s t : Fin 4096) : EReal :=
  (∑ d : Fin 64, Q (ix3 n s (lane h d)) * K (ix3 n t (lane h d))) * Ideal.ofBits .f32 0x3E000000#32

/-- The largest score of a query position. -/
def top (Q K : Seq) (n : Fin 2) (h : Fin 8) (s : Fin 4096) : EReal :=
  (Finset.univ : Finset (Fin 4096)).sup fun t => score Q K n h s t

/-- The softmax normaliser of a query position. -/
def norm (Q K : Seq) (n : Fin 2) (h : Fin 8) (s : Fin 4096) : EReal :=
  ∑ t : Fin 4096, Ideal.exp (score Q K n h s t - top Q K n h s)

/-- The attention output at batch `n`, position `s`, lane `e`: the softmax-weighted sum of the values on that lane. -/
def attendAt (Q K V : Seq) (n : Fin 2) (s : Fin 4096) (e : Fin 512) : EReal :=
  ∑ t : Fin 4096, Ideal.div (Ideal.exp (score Q K n (headOf e) s t - top Q K n (headOf e) s)) (norm Q K n (headOf e) s) * V (ix3 n t e)

/-- The attention output as an array. -/
def attend (Q K V : Seq) : Seq := fun i => attendAt Q K V (i 0) (i 1) (i 2)

/-- The whole program. -/
def G (q k v : Seq) (Wq : Mat) (bq : Row) (Wk : Mat) (bk : Row) (Wv : Mat) (bv : Row) (Wo : Mat) (bo : Row) : Seq :=
  proj (attend (proj q Wq bq) (proj k Wk bk) (proj v Wv bv)) Wo bo

end Cert.Spec

end
-- ==== Proof.RowLin.lean ====
/-
  The linear map x ↦ x·Wᵀ + b on an array of 8192 rows of width 512 (the two sequences of 4096 positions laid end to
  end), with the bias as a 1 × 512 row: the form in which each projection stage computes it.
-/
import proofs.«180034_j81982335746566_2_alg».proof.Proof.Spec

noncomputable section

namespace Cert.Rows

open Idealize.ShloMosaic Idealize.ShloMosaic.ValueIdx
open scoped BigOperators

/-- 8192 rows of width 512. -/
abbrev Rows : Type := (⟨2, ![8192, 512]⟩ : Shape).Idx → EReal
/-- A bias as a 1 × 512 row. -/
abbrev Row1 : Type := (⟨2, ![1, 512]⟩ : Shape).Idx → EReal

/-- Row `r`, output lane `e`: the inner product of the row with row `e` of the weights, plus the bias's entry `e`. -/
def lin (x : Rows) (W : Cert.Spec.Mat) (b : Row1) : Rows :=
  fun i => (∑ k : Fin 512, x (ix2 (i 0) k) * W (ix2 (i 1) k)) + b (ix2 0 (i 1))

theorem lin_apply (x : Rows) (W : Cert.Spec.Mat) (b : Row1) (r : Fin 8192) (e : Fin 512) :
    lin x W b (ix2 r e) = (∑ k : Fin 512, x (ix2 r k) * W (ix2 e k)) + b (ix2 0 e) := rfl

end Cert.Rows

end
-- ==== Proof.IdealProjVal0.lean ====
/-
  Projection stage 0, as one function of its arrays: after the stage its output array holds, at row r and lane e,
  the inner product of row r of the input with row e of the weights, plus the bias's entry e — the eight tiles of
  1024 rows, each written back by its own grid point, together cover all 8192 rows.
-/
import proofs.«180034_j81982335746566_2_alg».proof.Proof.IdealProj0
import proofs.«180034_j81982335746566_2_alg».proof.Proof.LibDotLastAxes
import Idealize.ShloMosaic.Lib.Pipeline.Value
import Idealize.ShloMosaic.Lib.ValueIdx
import Idealize.ShloMosaic.Lib.ValueLayout
import Idealize.ShloMosaic.PureOps.Ideal.Laws
import proofs.«180034_j81982335746566_2_alg».proof.Proof.RowLin
set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open scoped BigOperators

variable (V : (c : Dev nD) → (b : Ref sig .tc) → Buf (Elt Ideal) ((c : Thread nD τ).loc b))

theorem origin0 : (![0, 0] : Fin 2 → Nat) = fun _ => 0 := funext fun a => by fin_cases a <;> rfl

/-- The tile the body stores, read at row `p` of the tile and lane `q`: row `p` of the input tile against row `q` of
    the weights (both read along their last axis; the narrowings to sixteen bits are the identity on the extended
    reals), plus the bias's entry `q`. -/
theorem pay0_at (x : Vec Ideal S1024x512 .f32) (w : Vec Ideal S512x512 .f32) (b : Vec Ideal S1x512 .f32) (p : Fin 1024) (q : Fin 512) :
    k0_pay1 x w b (ix2 p q) = (∑ k : Fin 512, x (ix2 p k) * w (ix2 q k)) + b (ix2 0 q) := by
  unfold k0_pay1
  show (matmul (F := Ideal) dot_S1024x512_S512x512_S1024x512_1_1_0_0_n_n none (truncf .bf16 (shapeCast S1024x512 x shapeCasts_S1024x512_S1024x512) bitsLt_bf16_f32) (truncf .bf16 w bitsLt_bf16_f32) (constant (F := Ideal) S1024x512 .f32 0x00000000#32)) (ix2 p q) + (broadcastTo S1024x512 (shapeCast S1x512 b shapeCasts_S1x512_S1x512) broadcasts_S1x512_S1024x512) (ix2 p q) = _
  refine congrArg₂ (· + ·) ?_ ?_
  · refine (DotLastAxes.matmul_zero_apply _ none _ _ p q).trans ?_
    simp only [shapeCast_self]
    rfl
  · exact DotLastAxes.rowBroadcast_apply _ _ b p q

/-- Where the blocks sit, decided over the eight grid points: the input tile moves with the output tile down the rows;
    the weights and the bias are always block 0; the output tile is block (t, 0). -/
theorem where0 : ∀ t : Fin cfg0.N, win0_0.index t (0 : Fin 2) = win0_3.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (1 : Fin 2) = 0 ∧ win0_3.index t (0 : Fin 2) ≤ 7 :=
  (by decide +kernel : ∀ t : Fin grid0.N, _)

/-- Every one of the eight row tiles is some point's. -/
theorem onto0 : ∀ (q0 : Fin 8), ∃ t : Fin cfg0.N, win0_3.index t = ![q0.val, 0] :=
  (by decide +kernel : ∀ (q0 : Fin 8), ∃ t : Fin grid0.N, win0_3.index t = ![q0.val, 0])

/-- The three input blocks at point `t`, read where the output tile's entry (p, q) needs them, are the rows of the
    arrays the row-form linear map reads at that entry. -/
theorem blocks0 (X : Cert.Rows.Rows) (W : Cert.Spec.Mat) (B : Cert.Rows.Row1) (t : Fin cfg0.N) (p : Fin 1024) (q : Fin 512) :
    (∑ k : Fin 512, X (((cfg0.win 0).blk t).view.emb (ix2 p k)) * W (((cfg0.win 1).blk t).view.emb (ix2 q k))) + B (((cfg0.win 2).blk t).view.emb (ix2 0 q))
      = Cert.Rows.lin X W B (((cfg0.win 3).blk t).view.emb (ix2 p q)) := by
  obtain ⟨e00, e01, e10, e11, e20, e21, e31, e30⟩ := where0 t
  show _ = (∑ k : Fin 512, X (ix2 ((((cfg0.win 3).blk t).view.emb (ix2 p q)) 0) k) * W (ix2 ((((cfg0.win 3).blk t).view.emb (ix2 p q)) 1) k)) + B (ix2 0 ((((cfg0.win 3).blk t).view.emb (ix2 p q)) 1))
  have hx : ∀ k : Fin 512, ((cfg0.win 0).blk t).view.emb (ix2 p k) = ix2 ((((cfg0.win 3).blk t).view.emb (ix2 p q)) 0) k := fun k => by
    funext a; apply Fin.ext
    match a with
    | ⟨0, _⟩ => show win0_0.index t (0 : Fin 2) * 1024 + 1 * p.val = win0_3.index t (0 : Fin 2) * 1024 + 1 * p.val; omega
    | ⟨1, _⟩ => show win0_0.index t (1 : Fin 2) * 512 + 1 * k.val = k.val; omega
  have hw : ∀ k : Fin 512, ((cfg0.win 1).blk t).view.emb (ix2 q k) = ix2 ((((cfg0.win 3).blk t).view.emb (ix2 p q)) 1) k := fun k => by
    funext a; apply Fin.ext
    match a with
    | ⟨0, _⟩ => show win0_1.index t (0 : Fin 2) * 512 + 1 * q.val = win0_3.index t (1 : Fin 2) * 512 + 1 * q.val; omega
    | ⟨1, _⟩ => show win0_1.index t (1 : Fin 2) * 512 + 1 * k.val = k.val; omega
  have hb : ((cfg0.win 2).blk t).view.emb (ix2 0 q) = ix2 0 ((((cfg0.win 3).blk t).view.emb (ix2 p q)) 1) := by
    funext a; apply Fin.ext
    match a with
    | ⟨0, _⟩ => show win0_2.index t (0 : Fin 2) * 1 + 1 * 0 = 0; omega
    | ⟨1, _⟩ => show win0_2.index t (1 : Fin 2) * 512 + 1 * q.val = win0_3.index t (1 : Fin 2) * 512 + 1 * q.val; omega
  rw [hb]
  exact congrArg₂ (· + ·) (Finset.sum_congr rfl fun k _ => congrArg₂ (· * ·) (congrArg X (hx k)) (congrArg W (hw k))) rfl

/-- What point `t` writes back is tile `t` of the row-form linear map of the stage's arrays. -/
theorem wrote0 (c : Dev nD) (t : Fin cfg0.N) :
    (dat0 V c).flushed 3 t = ((cfg0.win 3).blk t).view.read (Elt Ideal) (Cert.Rows.lin (V c main_v0) (V c main_arg3) (V c main_v3)) := by
  show (cfg0.win 3).cut (grid0.coords t) ((dat0 V c).after 3 t) = _
  rw [dat0_after3]
  unfold outTile0
  rw [View.canon_unit_zero origin0]
  simp only [View.ld_unit_zero (S := S1024x512) origin0, View.ld_unit_zero (S := S512x512) origin0, View.ld_unit_zero (S := S1x512) origin0]
  funext j
  obtain ⟨p, q, rfl⟩ : ∃ (p : Fin 1024) (q : Fin 512), j = ix2 p q := ⟨j 0, j 1, eq_ix2 j⟩
  refine (pay0_at _ _ _ p q).trans ?_
  exact blocks0 (V c main_v0) (V c main_arg3) (V c main_v3) t p q

/-- An entry of the output array is in point `t`'s tile iff its row and lane are in the tile's ranges. -/
theorem inTile0 (t : Fin cfg0.N) (i : S8192x512.Idx) :
    i ∈ ((cfg0.win 3).blk t).view.set ↔ ∀ a : Fin 2, win0_3.index t a * S1024x512.size a ≤ (i a).val ∧ (i a).val < win0_3.index t a * S1024x512.size a + S1024x512.size a := by
  show i ∈ ((View.whole main_v4).slice (win0_3.rect t)).set ↔ _
  rw [View.set_slice_whole, Rect.mem_set_unit]
  exact Iff.rfl

/-- Every entry of the output array is in some point's tile. -/
theorem covered0 (i : S8192x512.Idx) : ∃ t : Fin cfg0.N, (cfg0.win 3).flush t = true ∧ i ∈ ((cfg0.win 3).blk t).view.set := by
  have hi0 : (i 0).val < 8192 := (i 0).isLt
  have hi1 : (i 1).val < 512 := (i 1).isLt
  obtain ⟨t, ht⟩ := onto0 ⟨(i 0).val / 1024, by omega⟩
  have q0 : win0_3.index t (0 : Fin 2) = (i 0).val / 1024 := congrFun ht 0
  have q1 : win0_3.index t (1 : Fin 2) = 0 := congrFun ht 1
  refine ⟨t, flush0_3 t, ?_⟩
  rw [inTile0]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 512 ≤ (i 1).val ∧ (i 1).val < win0_3.index t (1 : Fin 2) * 512 + 512; omega

/-- After the stage, its output array is the row-form linear map of its three input arrays. -/
theorem result0 (c : Dev nD) : (dat0 V c).arrAt 3 cfg0.N = Cert.Rows.lin (V c main_v0) (V c main_arg3) (V c main_v3) :=
  (dat0 V c).arrAt_eq_of_cover 3 _ (fun t _ => wrote0 V c t) (covered0)

end Cert.KernelIdeal.Hand

end
-- ==== Proof.IdealProjVal1.lean ====
/-
  Projection stage 1, as one function of its arrays: after the stage its output array holds, at row r and lane e,
  the inner product of row r of the input with row e of the weights, plus the bias's entry e — the eight tiles of
  1024 rows, each written back by its own grid point, together cover all 8192 rows.
-/
import proofs.«180034_j81982335746566_2_alg».proof.Proof.IdealProj1
import proofs.«180034_j81982335746566_2_alg».proof.Proof.LibDotLastAxes
import Idealize.ShloMosaic.Lib.Pipeline.Value
import Idealize.ShloMosaic.Lib.ValueIdx
import Idealize.ShloMosaic.Lib.ValueLayout
import Idealize.ShloMosaic.PureOps.Ideal.Laws
import proofs.«180034_j81982335746566_2_alg».proof.Proof.RowLin
set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open scoped BigOperators

variable (V : (c : Dev nD) → (b : Ref sig .tc) → Buf (Elt Ideal) ((c : Thread nD τ).loc b))

theorem origin1 : (![0, 0] : Fin 2 → Nat) = fun _ => 0 := funext fun a => by fin_cases a <;> rfl

/-- The tile the body stores, read at row `p` of the tile and lane `q`: row `p` of the input tile against row `q` of
    the weights (both read along their last axis; the narrowings to sixteen bits are the identity on the extended
    reals), plus the bias's entry `q`. -/
theorem pay1_at (x : Vec Ideal S1024x512 .f32) (w : Vec Ideal S512x512 .f32) (b : Vec Ideal S1x512 .f32) (p : Fin 1024) (q : Fin 512) :
    k1_pay1 x w b (ix2 p q) = (∑ k : Fin 512, x (ix2 p k) * w (ix2 q k)) + b (ix2 0 q) := by
  unfold k1_pay1
  show (matmul (F := Ideal) dot_S1024x512_S512x512_S1024x512_1_1_0_0_n_n none (truncf .bf16 (shapeCast S1024x512 x shapeCasts_S1024x512_S1024x512) bitsLt_bf16_f32) (truncf .bf16 w bitsLt_bf16_f32) (constant (F := Ideal) S1024x512 .f32 0x00000000#32)) (ix2 p q) + (broadcastTo S1024x512 (shapeCast S1x512 b shapeCasts_S1x512_S1x512) broadcasts_S1x512_S1024x512) (ix2 p q) = _
  refine congrArg₂ (· + ·) ?_ ?_
  · refine (DotLastAxes.matmul_zero_apply _ none _ _ p q).trans ?_
    simp only [shapeCast_self]
    rfl
  · exact DotLastAxes.rowBroadcast_apply _ _ b p q

/-- Where the blocks sit, decided over the eight grid points: the input tile moves with the output tile down the rows;
    the weights and the bias are always block 0; the output tile is block (t, 0). -/
theorem where1 : ∀ t : Fin cfg1.N, win1_0.index t (0 : Fin 2) = win1_3.index t (0 : Fin 2)
    ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (1 : Fin 2) = 0 ∧ win1_3.index t (0 : Fin 2) ≤ 7 :=
  (by decide +kernel : ∀ t : Fin grid1.N, _)

/-- Every one of the eight row tiles is some point's. -/
theorem onto1 : ∀ (q0 : Fin 8), ∃ t : Fin cfg1.N, win1_3.index t = ![q0.val, 0] :=
  (by decide +kernel : ∀ (q0 : Fin 8), ∃ t : Fin grid1.N, win1_3.index t = ![q0.val, 0])

/-- The three input blocks at point `t`, read where the output tile's entry (p, q) needs them, are the rows of the
    arrays the row-form linear map reads at that entry. -/
theorem blocks1 (X : Cert.Rows.Rows) (W : Cert.Spec.Mat) (B : Cert.Rows.Row1) (t : Fin cfg1.N) (p : Fin 1024) (q : Fin 512) :
    (∑ k : Fin 512, X (((cfg1.win 0).blk t).view.emb (ix2 p k)) * W (((cfg1.win 1).blk t).view.emb (ix2 q k))) + B (((cfg1.win 2).blk t).view.emb (ix2 0 q))
      = Cert.Rows.lin X W B (((cfg1.win 3).blk t).view.emb (ix2 p q)) := by
  obtain ⟨e00, e01, e10, e11, e20, e21, e31, e30⟩ := where1 t
  show _ = (∑ k : Fin 512, X (ix2 ((((cfg1.win 3).blk t).view.emb (ix2 p q)) 0) k) * W (ix2 ((((cfg1.win 3).blk t).view.emb (ix2 p q)) 1) k)) + B (ix2 0 ((((cfg1.win 3).blk t).view.emb (ix2 p q)) 1))
  have hx : ∀ k : Fin 512, ((cfg1.win 0).blk t).view.emb (ix2 p k) = ix2 ((((cfg1.win 3).blk t).view.emb (ix2 p q)) 0) k := fun k => by
    funext a; apply Fin.ext
    match a with
    | ⟨0, _⟩ => show win1_0.index t (0 : Fin 2) * 1024 + 1 * p.val = win1_3.index t (0 : Fin 2) * 1024 + 1 * p.val; omega
    | ⟨1, _⟩ => show win1_0.index t (1 : Fin 2) * 512 + 1 * k.val = k.val; omega
  have hw : ∀ k : Fin 512, ((cfg1.win 1).blk t).view.emb (ix2 q k) = ix2 ((((cfg1.win 3).blk t).view.emb (ix2 p q)) 1) k := fun k => by
    funext a; apply Fin.ext
    match a with
    | ⟨0, _⟩ => show win1_1.index t (0 : Fin 2) * 512 + 1 * q.val = win1_3.index t (1 : Fin 2) * 512 + 1 * q.val; omega
    | ⟨1, _⟩ => show win1_1.index t (1 : Fin 2) * 512 + 1 * k.val = k.val; omega
  have hb : ((cfg1.win 2).blk t).view.emb (ix2 0 q) = ix2 0 ((((cfg1.win 3).blk t).view.emb (ix2 p q)) 1) := by
    funext a; apply Fin.ext
    match a with
    | ⟨0, _⟩ => show win1_2.index t (0 : Fin 2) * 1 + 1 * 0 = 0; omega
    | ⟨1, _⟩ => show win1_2.index t (1 : Fin 2) * 512 + 1 * q.val = win1_3.index t (1 : Fin 2) * 512 + 1 * q.val; omega
  rw [hb]
  exact congrArg₂ (· + ·) (Finset.sum_congr rfl fun k _ => congrArg₂ (· * ·) (congrArg X (hx k)) (congrArg W (hw k))) rfl

/-- What point `t` writes back is tile `t` of the row-form linear map of the stage's arrays. -/
theorem wrote1 (c : Dev nD) (t : Fin cfg1.N) :
    (dat1 V c).flushed 3 t = ((cfg1.win 3).blk t).view.read (Elt Ideal) (Cert.Rows.lin (V c main_v1) (V c main_arg5) (V c main_v6)) := by
  show (cfg1.win 3).cut (grid1.coords t) ((dat1 V c).after 3 t) = _
  rw [dat1_after3]
  unfold outTile1
  rw [View.canon_unit_zero origin1]
  simp only [View.ld_unit_zero (S := S1024x512) origin1, View.ld_unit_zero (S := S512x512) origin1, View.ld_unit_zero (S := S1x512) origin1]
  funext j
  obtain ⟨p, q, rfl⟩ : ∃ (p : Fin 1024) (q : Fin 512), j = ix2 p q := ⟨j 0, j 1, eq_ix2 j⟩
  refine (pay1_at _ _ _ p q).trans ?_
  exact blocks1 (V c main_v1) (V c main_arg5) (V c main_v6) t p q

/-- An entry of the output array is in point `t`'s tile iff its row and lane are in the tile's ranges. -/
theorem inTile1 (t : Fin cfg1.N) (i : S8192x512.Idx) :
    i ∈ ((cfg1.win 3).blk t).view.set ↔ ∀ a : Fin 2, win1_3.index t a * S1024x512.size a ≤ (i a).val ∧ (i a).val < win1_3.index t a * S1024x512.size a + S1024x512.size a := by
  show i ∈ ((View.whole main_v7).slice (win1_3.rect t)).set ↔ _
  rw [View.set_slice_whole, Rect.mem_set_unit]
  exact Iff.rfl

/-- Every entry of the output array is in some point's tile. -/
theorem covered1 (i : S8192x512.Idx) : ∃ t : Fin cfg1.N, (cfg1.win 3).flush t = true ∧ i ∈ ((cfg1.win 3).blk t).view.set := by
  have hi0 : (i 0).val < 8192 := (i 0).isLt
  have hi1 : (i 1).val < 512 := (i 1).isLt
  obtain ⟨t, ht⟩ := onto1 ⟨(i 0).val / 1024, by omega⟩
  have q0 : win1_3.index t (0 : Fin 2) = (i 0).val / 1024 := congrFun ht 0
  have q1 : win1_3.index t (1 : Fin 2) = 0 := congrFun ht 1
  refine ⟨t, flush1_3 t, ?_⟩
  rw [inTile1]
  intro a
  match a with
  | ⟨0, _⟩ => show win1_3.index t (0 : Fin 2) * 1024 ≤ (i 0).val ∧ (i 0).val < win1_3.index t (0 : Fin 2) * 1024 + 1024; omega
  | ⟨1, _⟩ => show win1_3.index t (1 : Fin 2) * 512 ≤ (i 1).val ∧ (i 1).val < win1_3.index t (1 : Fin 2) * 512 + 512; omega

/-- After the stage, its output array is the row-form linear map of its three input arrays. -/
theorem result1 (c : Dev nD) : (dat1 V c).arrAt 3 cfg1.N = Cert.Rows.lin (V c main_v1) (V c main_arg5) (V c main_v6) :=
  (dat1 V c).arrAt_eq_of_cover 3 _ (fun t _ => wrote1 V c t) (covered1)

end Cert.KernelIdeal.Hand

end
-- ==== Proof.IdealProjVal2.lean ====
/-
  Projection stage 2, as one function of its arrays: after the stage its output array holds, at row r and lane e,
  the inner product of row r of the input with row e of the weights, plus the bias's entry e — the eight tiles of
  1024 rows, each written back by its own grid point, together cover all 8192 rows.
-/
import proofs.«180034_j81982335746566_2_alg».proof.Proof.IdealProj2
import proofs.«180034_j81982335746566_2_alg».proof.Proof.LibDotLastAxes
import Idealize.ShloMosaic.Lib.Pipeline.Value
import Idealize.ShloMosaic.Lib.ValueIdx
import Idealize.ShloMosaic.Lib.ValueLayout
import Idealize.ShloMosaic.PureOps.Ideal.Laws
import proofs.«180034_j81982335746566_2_alg».proof.Proof.RowLin
set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open scoped BigOperators

variable (V : (c : Dev nD) → (b : Ref sig .tc) → Buf (Elt Ideal) ((c : Thread nD τ).loc b))

theorem origin2 : (![0, 0] : Fin 2 → Nat) = fun _ => 0 := funext fun a => by fin_cases a <;> rfl

/-- The tile the body stores, read at row `p` of the tile and lane `q`: row `p` of the input tile against row `q` of
    the weights (both read along their last axis; the narrowings to sixteen bits are the identity on the extended
    reals), plus the bias's entry `q`. -/
theorem pay2_at (x : Vec Ideal S1024x512 .f32) (w : Vec Ideal S512x512 .f32) (b : Vec Ideal S1x512 .f32) (p : Fin 1024) (q : Fin 512) :
    k2_pay1 x w b (ix2 p q) = (∑ k : Fin 512, x (ix2 p k) * w (ix2 q k)) + b (ix2 0 q) := by
  unfold k2_pay1
  show (matmul (F := Ideal) dot_S1024x512_S512x512_S1024x512_1_1_0_0_n_n none (truncf .bf16 (shapeCast S1024x512 x shapeCasts_S1024x512_S1024x512) bitsLt_bf16_f32) (truncf .bf16 w bitsLt_bf16_f32) (constant (F := Ideal) S1024x512 .f32 0x00000000#32)) (ix2 p q) + (broadcastTo S1024x512 (shapeCast S1x512 b shapeCasts_S1x512_S1x512) broadcasts_S1x512_S1024x512) (ix2 p q) = _
  refine congrArg₂ (· + ·) ?_ ?_
  · refine (DotLastAxes.matmul_zero_apply _ none _ _ p q).trans ?_
    simp only [shapeCast_self]
    rfl
  · exact DotLastAxes.rowBroadcast_apply _ _ b p q

/-- Where the blocks sit, decided over the eight grid points: the input tile moves with the output tile down the rows;
    the weights and the bias are always block 0; the output tile is block (t, 0). -/
theorem where2 : ∀ t : Fin cfg2.N, win2_0.index t (0 : Fin 2) = win2_3.index t (0 : Fin 2)
    ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (1 : Fin 2) = 0 ∧ win2_3.index t (0 : Fin 2) ≤ 7 :=
  (by decide +kernel : ∀ t : Fin grid2.N, _)

/-- Every one of the eight row tiles is some point's. -/
theorem onto2 : ∀ (q0 : Fin 8), ∃ t : Fin cfg2.N, win2_3.index t = ![q0.val, 0] :=
  (by decide +kernel : ∀ (q0 : Fin 8), ∃ t : Fin grid2.N, win2_3.index t = ![q0.val, 0])

/-- The three input blocks at point `t`, read where the output tile's entry (p, q) needs them, are the rows of the
    arrays the row-form linear map reads at that entry. -/
theorem blocks2 (X : Cert.Rows.Rows) (W : Cert.Spec.Mat) (B : Cert.Rows.Row1) (t : Fin cfg2.N) (p : Fin 1024) (q : Fin 512) :
    (∑ k : Fin 512, X (((cfg2.win 0).blk t).view.emb (ix2 p k)) * W (((cfg2.win 1).blk t).view.emb (ix2 q k))) + B (((cfg2.win 2).blk t).view.emb (ix2 0 q))
      = Cert.Rows.lin X W B (((cfg2.win 3).blk t).view.emb (ix2 p q)) := by
  obtain ⟨e00, e01, e10, e11, e20, e21, e31, e30⟩ := where2 t
  show _ = (∑ k : Fin 512, X (ix2 ((((cfg2.win 3).blk t).view.emb (ix2 p q)) 0) k) * W (ix2 ((((cfg2.win 3).blk t).view.emb (ix2 p q)) 1) k)) + B (ix2 0 ((((cfg2.win 3).blk t).view.emb (ix2 p q)) 1))
  have hx : ∀ k : Fin 512, ((cfg2.win 0).blk t).view.emb (ix2 p k) = ix2 ((((cfg2.win 3).blk t).view.emb (ix2 p q)) 0) k := fun k => by
    funext a; apply Fin.ext
    match a with
    | ⟨0, _⟩ => show win2_0.index t (0 : Fin 2) * 1024 + 1 * p.val = win2_3.index t (0 : Fin 2) * 1024 + 1 * p.val; omega
    | ⟨1, _⟩ => show win2_0.index t (1 : Fin 2) * 512 + 1 * k.val = k.val; omega
  have hw : ∀ k : Fin 512, ((cfg2.win 1).blk t).view.emb (ix2 q k) = ix2 ((((cfg2.win 3).blk t).view.emb (ix2 p q)) 1) k := fun k => by
    funext a; apply Fin.ext
    match a with
    | ⟨0, _⟩ => show win2_1.index t (0 : Fin 2) * 512 + 1 * q.val = win2_3.index t (1 : Fin 2) * 512 + 1 * q.val; omega
    | ⟨1, _⟩ => show win2_1.index t (1 : Fin 2) * 512 + 1 * k.val = k.val; omega
  have hb : ((cfg2.win 2).blk t).view.emb (ix2 0 q) = ix2 0 ((((cfg2.win 3).blk t).view.emb (ix2 p q)) 1) := by
    funext a; apply Fin.ext
    match a with
    | ⟨0, _⟩ => show win2_2.index t (0 : Fin 2) * 1 + 1 * 0 = 0; omega
    | ⟨1, _⟩ => show win2_2.index t (1 : Fin 2) * 512 + 1 * q.val = win2_3.index t (1 : Fin 2) * 512 + 1 * q.val; omega
  rw [hb]
  exact congrArg₂ (· + ·) (Finset.sum_congr rfl fun k _ => congrArg₂ (· * ·) (congrArg X (hx k)) (congrArg W (hw k))) rfl

/-- What point `t` writes back is tile `t` of the row-form linear map of the stage's arrays. -/
theorem wrote2 (c : Dev nD) (t : Fin cfg2.N) :
    (dat2 V c).flushed 3 t = ((cfg2.win 3).blk t).view.read (Elt Ideal) (Cert.Rows.lin (V c main_v2) (V c main_arg7) (V c main_v9)) := by
  show (cfg2.win 3).cut (grid2.coords t) ((dat2 V c).after 3 t) = _
  rw [dat2_after3]
  unfold outTile2
  rw [View.canon_unit_zero origin2]
  simp only [View.ld_unit_zero (S := S1024x512) origin2, View.ld_unit_zero (S := S512x512) origin2, View.ld_unit_zero (S := S1x512) origin2]
  funext j
  obtain ⟨p, q, rfl⟩ : ∃ (p : Fin 1024) (q : Fin 512), j = ix2 p q := ⟨j 0, j 1, eq_ix2 j⟩
  refine (pay2_at _ _ _ p q).trans ?_
  exact blocks2 (V c main_v2) (V c main_arg7) (V c main_v9) t p q

/-- An entry of the output array is in point `t`'s tile iff its row and lane are in the tile's ranges. -/
theorem inTile2 (t : Fin cfg2.N) (i : S8192x512.Idx) :
    i ∈ ((cfg2.win 3).blk t).view.set ↔ ∀ a : Fin 2, win2_3.index t a * S1024x512.size a ≤ (i a).val ∧ (i a).val < win2_3.index t a * S1024x512.size a + S1024x512.size a := by
  show i ∈ ((View.whole main_v10).slice (win2_3.rect t)).set ↔ _
  rw [View.set_slice_whole, Rect.mem_set_unit]
  exact Iff.rfl

/-- Every entry of the output array is in some point's tile. -/
theorem covered2 (i : S8192x512.Idx) : ∃ t : Fin cfg2.N, (cfg2.win 3).flush t = true ∧ i ∈ ((cfg2.win 3).blk t).view.set := by
  have hi0 : (i 0).val < 8192 := (i 0).isLt
  have hi1 : (i 1).val < 512 := (i 1).isLt
  obtain ⟨t, ht⟩ := onto2 ⟨(i 0).val / 1024, by omega⟩
  have q0 : win2_3.index t (0 : Fin 2) = (i 0).val / 1024 := congrFun ht 0
  have q1 : win2_3.index t (1 : Fin 2) = 0 := congrFun ht 1
  refine ⟨t, flush2_3 t, ?_⟩
  rw [inTile2]
  intro a
  match a with
  | ⟨0, _⟩ => show win2_3.index t (0 : Fin 2) * 1024 ≤ (i 0).val ∧ (i 0).val < win2_3.index t (0 : Fin 2) * 1024 + 1024; omega
  | ⟨1, _⟩ => show win2_3.index t (1 : Fin 2) * 512 ≤ (i 1).val ∧ (i 1).val < win2_3.index t (1 : Fin 2) * 512 + 512; omega

/-- After the stage, its output array is the row-form linear map of its three input arrays. -/
theorem result2 (c : Dev nD) : (dat2 V c).arrAt 3 cfg2.N = Cert.Rows.lin (V c main_v2) (V c main_arg7) (V c main_v9) :=
  (dat2 V c).arrAt_eq_of_cover 3 _ (fun t _ => wrote2 V c t) (covered2)

end Cert.KernelIdeal.Hand

end
-- ==== Proof.IdealProjVal4.lean ====
/-
  Projection stage 4, as one function of its arrays: after the stage its output array holds, at row r and lane e,
  the inner product of row r of the input with row e of the weights, plus the bias's entry e — the eight tiles of
  1024 rows, each written back by its own grid point, together cover all 8192 rows.
-/
import proofs.«180034_j81982335746566_2_alg».proof.Proof.IdealProj4
import proofs.«180034_j81982335746566_2_alg».proof.Proof.LibDotLastAxes
import Idealize.ShloMosaic.Lib.Pipeline.Value
import Idealize.ShloMosaic.Lib.ValueIdx
import Idealize.ShloMosaic.Lib.ValueLayout
import Idealize.ShloMosaic.PureOps.Ideal.Laws
import proofs.«180034_j81982335746566_2_alg».proof.Proof.RowLin
set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open scoped BigOperators

variable (V : (c : Dev nD) → (b : Ref sig .tc) → Buf (Elt Ideal) ((c : Thread nD τ).loc b))

theorem origin4 : (![0, 0] : Fin 2 → Nat) = fun _ => 0 := funext fun a => by fin_cases a <;> rfl

/-- The tile the body stores, read at row `p` of the tile and lane `q`: row `p` of the input tile against row `q` of
    the weights (both read along their last axis; the narrowings to sixteen bits are the identity on the extended
    reals), plus the bias's entry `q`. -/
theorem pay4_at (x : Vec Ideal S1024x512 .bf16) (w : Vec Ideal S512x512 .f32) (b : Vec Ideal S1x512 .f32) (p : Fin 1024) (q : Fin 512) :
    k4_pay1 x w b (ix2 p q) = (∑ k : Fin 512, x (ix2 p k) * w (ix2 q k)) + b (ix2 0 q) := by
  unfold k4_pay1
  show (matmul (F := Ideal) dot_S1024x512_S512x512_S1024x512_1_1_0_0_n_n none (shapeCast S1024x512 x shapeCasts_S1024x512_S1024x512) (truncf .bf16 w bitsLt_bf16_f32) (constant (F := Ideal) S1024x512 .f32 0x00000000#32)) (ix2 p q) + (broadcastTo S1024x512 (shapeCast S1x512 b shapeCasts_S1x512_S1x512) broadcasts_S1x512_S1024x512) (ix2 p q) = _
  refine congrArg₂ (· + ·) ?_ ?_
  · refine (DotLastAxes.matmul_zero_apply _ none _ _ p q).trans ?_
    simp only [shapeCast_self]
    rfl
  · exact DotLastAxes.rowBroadcast_apply _ _ b p q

/-- Where the blocks sit, decided over the eight grid points: the input tile moves with the output tile down the rows;
    the weights and the bias are always block 0; the output tile is block (t, 0). -/
theorem where4 : ∀ t : Fin cfg4.N, win4_0.index t (0 : Fin 2) = win4_3.index t (0 : Fin 2)
    ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (1 : Fin 2) = 0 ∧ win4_3.index t (0 : Fin 2) ≤ 7 :=
  (by decide +kernel : ∀ t : Fin grid4.N, _)

/-- Every one of the eight row tiles is some point's. -/
theorem onto4 : ∀ (q0 : Fin 8), ∃ t : Fin cfg4.N, win4_3.index t = ![q0.val, 0] :=
  (by decide +kernel : ∀ (q0 : Fin 8), ∃ t : Fin grid4.N, win4_3.index t = ![q0.val, 0])

/-- The three input blocks at point `t`, read where the output tile's entry (p, q) needs them, are the rows of the
    arrays the row-form linear map reads at that entry. -/
theorem blocks4 (X : Cert.Rows.Rows) (W : Cert.Spec.Mat) (B : Cert.Rows.Row1) (t : Fin cfg4.N) (p : Fin 1024) (q : Fin 512) :
    (∑ k : Fin 512, X (((cfg4.win 0).blk t).view.emb (ix2 p k)) * W (((cfg4.win 1).blk t).view.emb (ix2 q k))) + B (((cfg4.win 2).blk t).view.emb (ix2 0 q))
      = Cert.Rows.lin X W B (((cfg4.win 3).blk t).view.emb (ix2 p q)) := by
  obtain ⟨e00, e01, e10, e11, e20, e21, e31, e30⟩ := where4 t
  show _ = (∑ k : Fin 512, X (ix2 ((((cfg4.win 3).blk t).view.emb (ix2 p q)) 0) k) * W (ix2 ((((cfg4.win 3).blk t).view.emb (ix2 p q)) 1) k)) + B (ix2 0 ((((cfg4.win 3).blk t).view.emb (ix2 p q)) 1))
  have hx : ∀ k : Fin 512, ((cfg4.win 0).blk t).view.emb (ix2 p k) = ix2 ((((cfg4.win 3).blk t).view.emb (ix2 p q)) 0) k := fun k => by
    funext a; apply Fin.ext
    match a with
    | ⟨0, _⟩ => show win4_0.index t (0 : Fin 2) * 1024 + 1 * p.val = win4_3.index t (0 : Fin 2) * 1024 + 1 * p.val; omega
    | ⟨1, _⟩ => show win4_0.index t (1 : Fin 2) * 512 + 1 * k.val = k.val; omega
  have hw : ∀ k : Fin 512, ((cfg4.win 1).blk t).view.emb (ix2 q k) = ix2 ((((cfg4.win 3).blk t).view.emb (ix2 p q)) 1) k := fun k => by
    funext a; apply Fin.ext
    match a with
    | ⟨0, _⟩ => show win4_1.index t (0 : Fin 2) * 512 + 1 * q.val = win4_3.index t (1 : Fin 2) * 512 + 1 * q.val; omega
    | ⟨1, _⟩ => show win4_1.index t (1 : Fin 2) * 512 + 1 * k.val = k.val; omega
  have hb : ((cfg4.win 2).blk t).view.emb (ix2 0 q) = ix2 0 ((((cfg4.win 3).blk t).view.emb (ix2 p q)) 1) := by
    funext a; apply Fin.ext
    match a with
    | ⟨0, _⟩ => show win4_2.index t (0 : Fin 2) * 1 + 1 * 0 = 0; omega
    | ⟨1, _⟩ => show win4_2.index t (1 : Fin 2) * 512 + 1 * q.val = win4_3.index t (1 : Fin 2) * 512 + 1 * q.val; omega
  rw [hb]
  exact congrArg₂ (· + ·) (Finset.sum_congr rfl fun k _ => congrArg₂ (· * ·) (congrArg X (hx k)) (congrArg W (hw k))) rfl

/-- What point `t` writes back is tile `t` of the row-form linear map of the stage's arrays. -/
theorem wrote4 (c : Dev nD) (t : Fin cfg4.N) :
    (dat4 V c).flushed 3 t = ((cfg4.win 3).blk t).view.read (Elt Ideal) (Cert.Rows.lin (V c main_v13) (V c main_arg9) (V c main_v14)) := by
  show (cfg4.win 3).cut (grid4.coords t) ((dat4 V c).after 3 t) = _
  rw [dat4_after3]
  unfold outTile4
  rw [View.canon_unit_zero origin4]
  simp only [View.ld_unit_zero (S := S1024x512) origin4, View.ld_unit_zero (S := S512x512) origin4, View.ld_unit_zero (S := S1x512) origin4]
  funext j
  obtain ⟨p, q, rfl⟩ : ∃ (p : Fin 1024) (q : Fin 512), j = ix2 p q := ⟨j 0, j 1, eq_ix2 j⟩
  refine (pay4_at _ _ _ p q).trans ?_
  exact blocks4 (V c main_v13) (V c main_arg9) (V c main_v14) t p q

/-- An entry of the output array is in point `t`'s tile iff its row and lane are in the tile's ranges. -/
theorem inTile4 (t : Fin cfg4.N) (i : S8192x512.Idx) :
    i ∈ ((cfg4.win 3).blk t).view.set ↔ ∀ a : Fin 2, win4_3.index t a * S1024x512.size a ≤ (i a).val ∧ (i a).val < win4_3.index t a * S1024x512.size a + S1024x512.size a := by
  show i ∈ ((View.whole main_v15).slice (win4_3.rect t)).set ↔ _
  rw [View.set_slice_whole, Rect.mem_set_unit]
  exact Iff.rfl

/-- Every entry of the output array is in some point's tile. -/
theorem covered4 (i : S8192x512.Idx) : ∃ t : Fin cfg4.N, (cfg4.win 3).flush t = true ∧ i ∈ ((cfg4.win 3).blk t).view.set := by
  have hi0 : (i 0).val < 8192 := (i 0).isLt
  have hi1 : (i 1).val < 512 := (i 1).isLt
  obtain ⟨t, ht⟩ := onto4 ⟨(i 0).val / 1024, by omega⟩
  have q0 : win4_3.index t (0 : Fin 2) = (i 0).val / 1024 := congrFun ht 0
  have q1 : win4_3.index t (1 : Fin 2) = 0 := congrFun ht 1
  refine ⟨t, flush4_3 t, ?_⟩
  rw [inTile4]
  intro a
  match a with
  | ⟨0, _⟩ => show win4_3.index t (0 : Fin 2) * 1024 ≤ (i 0).val ∧ (i 0).val < win4_3.index t (0 : Fin 2) * 1024 + 1024; omega
  | ⟨1, _⟩ => show win4_3.index t (1 : Fin 2) * 512 ≤ (i 1).val ∧ (i 1).val < win4_3.index t (1 : Fin 2) * 512 + 512; omega

/-- After the stage, its output array is the row-form linear map of its three input arrays. -/
theorem result4 (c : Dev nD) : (dat4 V c).arrAt 3 cfg4.N = Cert.Rows.lin (V c main_v13) (V c main_arg9) (V c main_v14) :=
  (dat4 V c).arrAt_eq_of_cover 3 _ (fun t _ => wrote4 V c t) (covered4)

end Cert.KernelIdeal.Hand

end
-- ==== Proof.HostLayout.lean ====
/-
  The host's reshapes read at an index, and the linear map in its row form.
  A reshape keeps the row-major order of the entries. Flattening a [2, 4096, 512] array to [8192, 512] puts
  (n, s, e) at row 4096·n + s, so row r holds batch r / 4096, position r mod 4096; the inverse reshape reads row
  4096·n + s back at (n, s, e); a bias row of 512 lanes reshaped to [1, 512] is read at (0, e) as lane e.
  The linear map x ↦ x·Wᵀ + b in its row form (at row r, output lane e: the sum over the 512 input lanes k of
  x(r, k) · W(e, k), plus b(0, e)), applied to the flattened rows and reshaped back to [2, 4096, 512], is the
  specification's linear map.
-/
import Idealize.ShloMosaic.Lib.Pipeline.Value
import Idealize.ShloMosaic.Lib.ValueIdx
import proofs.«180034_j81982335746566_2_alg».proof.Proof.Spec
import proofs.«180034_j81982335746566_2_alg».proof.Proof.RowLin

noncomputable section

namespace Cert.HostLayout

open Idealize.ShloMosaic Idealize.ShloMosaic.ValueIdx Cert.Spec
open scoped BigOperators

/-- Row `r` of the flattened array is batch `r / 4096`, position `r mod 4096`. -/
theorem rows_at {α : Type} (x : (⟨3, ![2, 4096, 512]⟩ : Shape).Idx → α)
    (h : (⟨3, ![2, 4096, 512]⟩ : Shape).ShapeCasts (⟨2, ![8192, 512]⟩ : Shape)) (r : Fin 8192) (e : Fin 512) :
    shapeCast (⟨2, ![8192, 512]⟩ : Shape) x h (ix2 r e)
      = x (ix3 (⟨r.val / 4096, by have := r.isLt; omega⟩ : Fin 2) (⟨r.val % 4096, Nat.mod_lt _ (by decide)⟩ : Fin 4096) e) :=
  shapeCast_apply x h _ _ (by
    rewrite [Shape.rowMajor_val_three, Shape.rowMajor_val_two]
    show (r.val / 4096 * 4096 + r.val % 4096) * 512 + e.val = r.val * 512 + e.val
    omega)

/-- Batch `n`, position `s` sits at row `4096·n + s` of the flattened array. -/
theorem rows_at_pos {α : Type} (x : (⟨3, ![2, 4096, 512]⟩ : Shape).Idx → α)
    (h : (⟨3, ![2, 4096, 512]⟩ : Shape).ShapeCasts (⟨2, ![8192, 512]⟩ : Shape)) (n : Fin 2) (s : Fin 4096) (e : Fin 512) :
    shapeCast (⟨2, ![8192, 512]⟩ : Shape) x h
        (ix2 (⟨4096 * n.val + s.val, by have := n.isLt; have := s.isLt; omega⟩ : Fin 8192) e)
      = x (ix3 n s e) :=
  shapeCast_apply x h _ _ (by
    rewrite [Shape.rowMajor_val_three, Shape.rowMajor_val_two]
    show (n.val * 4096 + s.val) * 512 + e.val = (4096 * n.val + s.val) * 512 + e.val
    omega)

/-- The inverse reshape reads (n, s, e) from row `4096·n + s`. -/
theorem seq_at {α : Type} (y : (⟨2, ![8192, 512]⟩ : Shape).Idx → α)
    (h : (⟨2, ![8192, 512]⟩ : Shape).ShapeCasts (⟨3, ![2, 4096, 512]⟩ : Shape)) (n : Fin 2) (s : Fin 4096) (e : Fin 512) :
    shapeCast (⟨3, ![2, 4096, 512]⟩ : Shape) y h (ix3 n s e)
      = y (ix2 (⟨4096 * n.val + s.val, by have := n.isLt; have := s.isLt; omega⟩ : Fin 8192) e) :=
  shapeCast_apply y h _ _ (by
    rewrite [Shape.rowMajor_val_three, Shape.rowMajor_val_two]
    show (4096 * n.val + s.val) * 512 + e.val = (n.val * 4096 + s.val) * 512 + e.val
    omega)

/-- A bias row reshaped to one row of 512 lanes is read at (0, e) as lane `e`. -/
theorem bias_at {α : Type} (b : (⟨1, ![512]⟩ : Shape).Idx → α)
    (h : (⟨1, ![512]⟩ : Shape).ShapeCasts (⟨2, ![1, 512]⟩ : Shape)) (e : Fin 512) :
    shapeCast (⟨2, ![1, 512]⟩ : Shape) b h (ix2 (0 : Fin 1) e) = b (ix1 e) :=
  shapeCast_apply b h _ _ (by
    rewrite [Shape.rowMajor_val_one, Shape.rowMajor_val_two]
    show e.val = 0 * 512 + e.val
    omega)

/-- Flatten, apply the row form of the linear map with the reshaped bias, reshape back: the specification's linear map. -/
theorem lin_eq_proj (x : Cert.Spec.Seq) (W : Cert.Spec.Mat) (b : Cert.Spec.Row)
    (h1 : (⟨3, ![2, 4096, 512]⟩ : Shape).ShapeCasts (⟨2, ![8192, 512]⟩ : Shape))
    (h2 : (⟨1, ![512]⟩ : Shape).ShapeCasts (⟨2, ![1, 512]⟩ : Shape))
    (h3 : (⟨2, ![8192, 512]⟩ : Shape).ShapeCasts (⟨3, ![2, 4096, 512]⟩ : Shape)) :
    shapeCast (⟨3, ![2, 4096, 512]⟩ : Shape)
        (Cert.Rows.lin (shapeCast (⟨2, ![8192, 512]⟩ : Shape) x h1) W (shapeCast (⟨2, ![1, 512]⟩ : Shape) b h2)) h3
      = Cert.Spec.proj x W b := by
  funext i
  obtain ⟨n, s, e, rfl⟩ : ∃ (n : Fin 2) (s : Fin 4096) (e : Fin 512), i = ix3 n s e := ⟨i 0, i 1, i 2, eq_ix3 i⟩
  rw [seq_at, Cert.Rows.lin_apply, bias_at]
  show _ = (∑ k : Fin 512, x (ix3 n s k) * W (ix2 e k)) + b (ix1 e)
  exact congrArg (· + b (ix1 e)) (Finset.sum_congr rfl fun k _ =>
    congrArg (· * W (ix2 e k)) (rows_at_pos x h1 n s k))

end Cert.HostLayout

end
-- ==== Proof.IdealFold.lean ====
/-
  The result buffer read back through the fold of boundaries.
  Every host stretch of the program is a handful of reshapes, and every projection stage leaves in its output array
  the row-form linear map of its three input arrays. Reading backwards from a buffer to the boundary where it was
  written — a stage or a stretch that does not write a buffer leaves it as it was — each of the three attention
  inputs is a launch sequence flattened to 8192 rows, sent through the row-form linear map with a weight matrix and
  a bias reshaped to one row, and reshaped back: the specification's linear map of the launch arrays. The result is
  the same composition applied to the attention stage's output, so, given that the attention stage computes the
  specification's attention of its three inputs, the result buffer holds the specification's function of the
  eleven launch arrays.
-/
import proofs.«180034_j81982335746566_2_alg».proof.Proof.IdealRun
import proofs.«180034_j81982335746566_2_alg».proof.Proof.IdealProjVal0
import proofs.«180034_j81982335746566_2_alg».proof.Proof.IdealProjVal1
import proofs.«180034_j81982335746566_2_alg».proof.Proof.IdealProjVal2
import proofs.«180034_j81982335746566_2_alg».proof.Proof.IdealProjVal4
import proofs.«180034_j81982335746566_2_alg».proof.Proof.HostLayout

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ)

/-! ## A buffer nothing has written yet holds its launch contents -/

theorem launch_B1 (c : Dev nD) (r : Ref sig .tc) (h0 : r ∉ hostOps0_W) :
    B1 m c (Proc.devRef .tc r) = m ((c : Thread nD τ).loc r) := B1_keep m c r h0
theorem launch_B2 (c : Dev nD) (r : Ref sig .tc) (h0 : r ∉ hostOps0_W) (h1 : r ≠ main_v4) :
    B2 m c (Proc.devRef .tc r) = m ((c : Thread nD τ).loc r) := (B2_keep m c r h1).trans (launch_B1 m c r h0)
theorem launch_B3 (c : Dev nD) (r : Ref sig .tc) (h0 : r ∉ hostOps0_W) (h1 : r ≠ main_v4) (h2 : r ∉ hostOps1_W) :
    B3 m c (Proc.devRef .tc r) = m ((c : Thread nD τ).loc r) := (B3_keep m c r h2).trans (launch_B2 m c r h0 h1)
theorem launch_B4 (c : Dev nD) (r : Ref sig .tc) (h0 : r ∉ hostOps0_W) (h1 : r ≠ main_v4) (h2 : r ∉ hostOps1_W)
    (h3 : r ≠ main_v7) : B4 m c (Proc.devRef .tc r) = m ((c : Thread nD τ).loc r) :=
  (B4_keep m c r h3).trans (launch_B3 m c r h0 h1 h2)
theorem launch_B5 (c : Dev nD) (r : Ref sig .tc) (h0 : r ∉ hostOps0_W) (h1 : r ≠ main_v4) (h2 : r ∉ hostOps1_W)
    (h3 : r ≠ main_v7) (h4 : r ∉ hostOps2_W) : B5 m c (Proc.devRef .tc r) = m ((c : Thread nD τ).loc r) :=
  (B5_keep m c r h4).trans (launch_B4 m c r h0 h1 h2 h3)
theorem launch_B6 (c : Dev nD) (r : Ref sig .tc) (h0 : r ∉ hostOps0_W) (h1 : r ≠ main_v4) (h2 : r ∉ hostOps1_W)
    (h3 : r ≠ main_v7) (h4 : r ∉ hostOps2_W) (h5 : r ≠ main_v10) :
    B6 m c (Proc.devRef .tc r) = m ((c : Thread nD τ).loc r) :=
  (B6_keep m c r h5).trans (launch_B5 m c r h0 h1 h2 h3 h4)
theorem launch_B7 (c : Dev nD) (r : Ref sig .tc) (h0 : r ∉ hostOps0_W) (h1 : r ≠ main_v4) (h2 : r ∉ hostOps1_W)
    (h3 : r ≠ main_v7) (h4 : r ∉ hostOps2_W) (h5 : r ≠ main_v10) (h6 : r ∉ hostOps3_W) :
    B7 m c (Proc.devRef .tc r) = m ((c : Thread nD τ).loc r) :=
  (B7_keep m c r h6).trans (launch_B6 m c r h0 h1 h2 h3 h4 h5)
theorem launch_B8 (c : Dev nD) (r : Ref sig .tc) (h0 : r ∉ hostOps0_W) (h1 : r ≠ main_v4) (h2 : r ∉ hostOps1_W)
    (h3 : r ≠ main_v7) (h4 : r ∉ hostOps2_W) (h5 : r ≠ main_v10) (h6 : r ∉ hostOps3_W) (h7 : r ≠ main_v12) :
    B8 m c (Proc.devRef .tc r) = m ((c : Thread nD τ).loc r) :=
  (B8_keep m c r h7).trans (launch_B7 m c r h0 h1 h2 h3 h4 h5 h6)
theorem launch_B9 (c : Dev nD) (r : Ref sig .tc) (h0 : r ∉ hostOps0_W) (h1 : r ≠ main_v4) (h2 : r ∉ hostOps1_W)
    (h3 : r ≠ main_v7) (h4 : r ∉ hostOps2_W) (h5 : r ≠ main_v10) (h6 : r ∉ hostOps3_W) (h7 : r ≠ main_v12)
    (h8 : r ∉ hostOps4_W) : B9 m c (Proc.devRef .tc r) = m ((c : Thread nD τ).loc r) :=
  (B9_keep m c r h8).trans (launch_B8 m c r h0 h1 h2 h3 h4 h5 h6 h7)

/-! ## The query projection: stretch 0, stage 0, and the reshape of stretch 1 -/

/-- Stretch 0 flattens the first argument to rows. -/
theorem in0_x (c : Dev nD) : R1 m c main_v0
    = shapeCast S8192x512 (m ((c : Thread nD τ).loc main_arg0)) shapeCasts_S2x4096x512_S8192x512 := by
  show StableHlo.after hostOps0 (B0 m c) (Proc.devRef .tc main_v0) = _
  after_results
  rfl
/-- Stretch 0 reshapes the query bias to one row. -/
theorem in0_b (c : Dev nD) : R1 m c main_v3
    = shapeCast S1x512 (m ((c : Thread nD τ).loc main_arg4)) shapeCasts_S512_S1x512 := by
  show StableHlo.after hostOps0 (B0 m c) (Proc.devRef .tc main_v3) = _
  after_results
  rfl
theorem in0_W (c : Dev nD) : R1 m c main_arg3 = m ((c : Thread nD τ).loc main_arg3) :=
  launch_B1 m c main_arg3 (by decide)

/-- Stage 0 leaves the row-form linear map of the flattened first argument. -/
theorem out0 (c : Dev nD) : B2 m c (Proc.devRef .tc main_v4)
    = Cert.Rows.lin (shapeCast S8192x512 (m ((c : Thread nD τ).loc main_arg0)) shapeCasts_S2x4096x512_S8192x512)
        (m ((c : Thread nD τ).loc main_arg3))
        (shapeCast S1x512 (m ((c : Thread nD τ).loc main_arg4)) shapeCasts_S512_S1x512) :=
  (B2_arr m c 3).trans ((result0 (R1 m) c).trans (by rw [in0_x, in0_W, in0_b]))

/-- Stretch 1 reshapes stage 0's output back to two sequences. -/
theorem B3_v5 (c : Dev nD) : B3 m c (Proc.devRef .tc main_v5)
    = shapeCast S2x4096x512 (B2 m c (Proc.devRef .tc main_v4)) shapeCasts_S8192x512_S2x4096x512 := by
  show StableHlo.after hostOps1 (B2 m c) (Proc.devRef .tc main_v5) = _
  after_results
  rfl

/-- The attention stage's query input is the specification's linear map of the first argument. -/
theorem Qp_eq (c : Dev nD) : (B7 m c (Proc.devRef .tc main_v5) : Cert.Spec.Seq)
    = Cert.Spec.proj (m ((c.tc : Thread nD τ).loc main_arg0)) (m ((c.tc : Thread nD τ).loc main_arg3))
        (m ((c.tc : Thread nD τ).loc main_arg4)) := by
  refine (B7_keep m c main_v5 (by decide)).trans ?_
  refine (B6_keep m c main_v5 (by decide)).trans ?_
  refine (B5_keep m c main_v5 (by decide)).trans ?_
  refine (B4_keep m c main_v5 (by decide)).trans ?_
  rw [B3_v5, out0]
  exact Cert.HostLayout.lin_eq_proj _ _ _ _ _ _

/-! ## The key projection: stage 1, fed by stretches 0 and 1, reshaped by stretch 2 -/

theorem in1_x (c : Dev nD) : R3 m c main_v1
    = shapeCast S8192x512 (m ((c : Thread nD τ).loc main_arg1)) shapeCasts_S2x4096x512_S8192x512 := by
  refine (B3_keep m c main_v1 (by decide)).trans ((B2_keep m c main_v1 (by decide)).trans ?_)
  show StableHlo.after hostOps0 (B0 m c) (Proc.devRef .tc main_v1) = _
  after_results
  rfl
theorem in1_b (c : Dev nD) : R3 m c main_v6
    = shapeCast S1x512 (m ((c : Thread nD τ).loc main_arg6)) shapeCasts_S512_S1x512 := by
  have e : B3 m c (Proc.devRef .tc main_v6)
      = shapeCast S1x512 (B2 m c (Proc.devRef .tc main_arg6)) shapeCasts_S512_S1x512 := by
    show StableHlo.after hostOps1 (B2 m c) (Proc.devRef .tc main_v6) = _
    after_results
    rfl
  refine e.trans ?_
  rw [launch_B2 m c main_arg6 (by decide) (by decide)]
theorem in1_W (c : Dev nD) : R3 m c main_arg5 = m ((c : Thread nD τ).loc main_arg5) :=
  launch_B3 m c main_arg5 (by decide) (by decide) (by decide)

theorem out1 (c : Dev nD) : B4 m c (Proc.devRef .tc main_v7)
    = Cert.Rows.lin (shapeCast S8192x512 (m ((c : Thread nD τ).loc main_arg1)) shapeCasts_S2x4096x512_S8192x512)
        (m ((c : Thread nD τ).loc main_arg5))
        (shapeCast S1x512 (m ((c : Thread nD τ).loc main_arg6)) shapeCasts_S512_S1x512) :=
  (B4_arr m c 3).trans ((result1 (R3 m) c).trans (by rw [in1_x, in1_W, in1_b]))

theorem B5_v8 (c : Dev nD) : B5 m c (Proc.devRef .tc main_v8)
    = shapeCast S2x4096x512 (B4 m c (Proc.devRef .tc main_v7)) shapeCasts_S8192x512_S2x4096x512 := by
  show StableHlo.after hostOps2 (B4 m c) (Proc.devRef .tc main_v8) = _
  after_results
  rfl

/-- The attention stage's key input is the specification's linear map of the second argument. -/
theorem Kp_eq (c : Dev nD) : (B7 m c (Proc.devRef .tc main_v8) : Cert.Spec.Seq)
    = Cert.Spec.proj (m ((c.tc : Thread nD τ).loc main_arg1)) (m ((c.tc : Thread nD τ).loc main_arg5))
        (m ((c.tc : Thread nD τ).loc main_arg6)) := by
  refine (B7_keep m c main_v8 (by decide)).trans ?_
  refine (B6_keep m c main_v8 (by decide)).trans ?_
  rw [B5_v8, out1]
  exact Cert.HostLayout.lin_eq_proj _ _ _ _ _ _

/-! ## The value projection: stage 2, fed by stretches 0 and 2, reshaped by stretch 3 -/

theorem in2_x (c : Dev nD) : R5 m c main_v2
    = shapeCast S8192x512 (m ((c : Thread nD τ).loc main_arg2)) shapeCasts_S2x4096x512_S8192x512 := by
  refine (B5_keep m c main_v2 (by decide)).trans ((B4_keep m c main_v2 (by decide)).trans
    ((B3_keep m c main_v2 (by decide)).trans ((B2_keep m c main_v2 (by decide)).trans ?_)))
  show StableHlo.after hostOps0 (B0 m c) (Proc.devRef .tc main_v2) = _
  after_results
  rfl
theorem in2_b (c : Dev nD) : R5 m c main_v9
    = shapeCast S1x512 (m ((c : Thread nD τ).loc main_arg8)) shapeCasts_S512_S1x512 := by
  have e : B5 m c (Proc.devRef .tc main_v9)
      = shapeCast S1x512 (B4 m c (Proc.devRef .tc main_arg8)) shapeCasts_S512_S1x512 := by
    show StableHlo.after hostOps2 (B4 m c) (Proc.devRef .tc main_v9) = _
    after_results
    rfl
  refine e.trans ?_
  rw [launch_B4 m c main_arg8 (by decide) (by decide) (by decide) (by decide)]
theorem in2_W (c : Dev nD) : R5 m c main_arg7 = m ((c : Thread nD τ).loc main_arg7) :=
  launch_B5 m c main_arg7 (by decide) (by decide) (by decide) (by decide) (by decide)

theorem out2 (c : Dev nD) : B6 m c (Proc.devRef .tc main_v10)
    = Cert.Rows.lin (shapeCast S8192x512 (m ((c : Thread nD τ).loc main_arg2)) shapeCasts_S2x4096x512_S8192x512)
        (m ((c : Thread nD τ).loc main_arg7))
        (shapeCast S1x512 (m ((c : Thread nD τ).loc main_arg8)) shapeCasts_S512_S1x512) :=
  (B6_arr m c 3).trans ((result2 (R5 m) c).trans (by rw [in2_x, in2_W, in2_b]))

theorem B7_v11 (c : Dev nD) : B7 m c (Proc.devRef .tc main_v11)
    = shapeCast S2x4096x512 (B6 m c (Proc.devRef .tc main_v10)) shapeCasts_S8192x512_S2x4096x512 := by
  show StableHlo.after hostOps3 (B6 m c) (Proc.devRef .tc main_v11) = _
  after_results
  rfl

/-- The attention stage's value input is the specification's linear map of the third argument. -/
theorem Vp_eq (c : Dev nD) : (B7 m c (Proc.devRef .tc main_v11) : Cert.Spec.Seq)
    = Cert.Spec.proj (m ((c.tc : Thread nD τ).loc main_arg2)) (m ((c.tc : Thread nD τ).loc main_arg7))
        (m ((c.tc : Thread nD τ).loc main_arg8)) := by
  rw [B7_v11, out2]
  exact Cert.HostLayout.lin_eq_proj _ _ _ _ _ _

/-! ## The output projection: stretch 4, stage 4, stretch 5 -/

theorem in4_x (c : Dev nD) : R9 m c main_v13
    = shapeCast S8192x512 (B8 m c (Proc.devRef .tc main_v12)) shapeCasts_S2x4096x512_S8192x512 := by
  show StableHlo.after hostOps4 (B8 m c) (Proc.devRef .tc main_v13) = _
  after_results
  rfl
theorem in4_b (c : Dev nD) : R9 m c main_v14
    = shapeCast S1x512 (m ((c : Thread nD τ).loc main_arg10)) shapeCasts_S512_S1x512 := by
  have e : B9 m c (Proc.devRef .tc main_v14)
      = shapeCast S1x512 (B8 m c (Proc.devRef .tc main_arg10)) shapeCasts_S512_S1x512 := by
    show StableHlo.after hostOps4 (B8 m c) (Proc.devRef .tc main_v14) = _
    after_results
    rfl
  refine e.trans ?_
  rw [launch_B8 m c main_arg10 (by decide) (by decide) (by decide) (by decide) (by decide) (by decide) (by decide)
    (by decide)]
theorem in4_W (c : Dev nD) : R9 m c main_arg9 = m ((c : Thread nD τ).loc main_arg9) :=
  launch_B9 m c main_arg9 (by decide) (by decide) (by decide) (by decide) (by decide) (by decide) (by decide) (by decide)
    (by decide)

theorem out4 (c : Dev nD) : B10 m c (Proc.devRef .tc main_v15)
    = Cert.Rows.lin (shapeCast S8192x512 (B8 m c (Proc.devRef .tc main_v12)) shapeCasts_S2x4096x512_S8192x512)
        (m ((c : Thread nD τ).loc main_arg9))
        (shapeCast S1x512 (m ((c : Thread nD τ).loc main_arg10)) shapeCasts_S512_S1x512) :=
  (B10_arr m c 3).trans ((result4 (R9 m) c).trans (by rw [in4_x, in4_W, in4_b]))

theorem B11_v16 (c : Dev nD) : B11 m c (Proc.devRef .tc main_v16)
    = shapeCast S2x4096x512 (B10 m c (Proc.devRef .tc main_v15)) shapeCasts_S8192x512_S2x4096x512 := by
  show StableHlo.after hostOps5 (B10 m c) (Proc.devRef .tc main_v16) = _
  after_results
  rfl

/-- Given that the attention stage leaves the specification's attention of its three inputs, the result buffer at the
    end of the fold holds the specification's function of the eleven launch arrays. -/
theorem fold_result (c : Dev nD)
    (h3 : (B8 m c (Proc.devRef .tc main_v12) : Cert.Spec.Seq)
      = Cert.Spec.attend (B7 m c (Proc.devRef .tc main_v5)) (B7 m c (Proc.devRef .tc main_v8))
          (B7 m c (Proc.devRef .tc main_v11))) :
    (B11 m c (Proc.devRef .tc main_v16) : Cert.Spec.Seq)
      = Cert.Spec.G (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9))
          (m ((c.tc : Thread nD τ).loc main_arg10)) := by
  rw [B11_v16, out4]
  refine (Cert.HostLayout.lin_eq_proj _ _ _ _ _ _).trans ?_
  unfold Cert.Spec.G
  rw [h3, Qp_eq, Kp_eq, Vp_eq]

end Cert.KernelIdeal.Hand

end
-- ==== Proof.IdealAttnStep.lean ====
/-
  The attention stage's three cases in closed form. One key tile folds into the six scratch buffers by one fixed
  function `step3` of the three input tiles and of what the buffers held (the body's payloads composed as the body
  composes them); the first key tile folds into the reset values `init3`; the last key tile also stores the output
  tile `outOf3`, per head the weighted sum over the normaliser. What each case's run left — read back store by
  store — is exactly that.
-/
import proofs.«180034_j81982335746566_2_alg».proof.Proof.IdealAttnCarry
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem zero2 : (![0, 0] : Fin 2 → Nat) = fun _ => 0 := funext fun a => by fin_cases a <;> rfl
theorem zero3 : (![0, 0, 0] : Fin 3 → Nat) = fun _ => 0 := funext fun a => by fin_cases a <;> rfl

/-- The reset values: running maxima at −∞, normalisers and weighted sums at zero. -/
def init3 : Carry F := ⟨k3_pay5, k3_pay6, k3_pay7, k3_pay8, k3_pay9, k3_pay10⟩

/-- One key tile folded into the six scratch buffers: the first head reads lanes 0…63 of the tiles, the second lanes
    64…127. -/
def step3 (xq : Vec F S1x1024x128 .bf16) (xk : Vec F S1x512x128 .bf16) (xv : Vec F S1x512x128 .bf16) (s : Carry F) : Carry F :=
  ⟨k3_pay22 (k3_pay16 xq xk s.m0), k3_pay19 xq xk s.m0 s.l0,
   k3_pay21 (k3_pay14 xv) (k3_pay17 xq xk s.m0) (k3_pay20 xq xk s.m0) s.a0,
   k3_pay2 (k3_pay24 (k3_pay11 xq) (k3_pay12 xk) s.m1), k3_pay27 (k3_pay11 xq) (k3_pay12 xk) s.m1 s.l1,
   k3_pay1 (k3_pay25 (k3_pay11 xq) (k3_pay12 xk) s.m1) (k3_pay28 (k3_pay11 xq) (k3_pay12 xk) (k3_pay13 xv) s.m1) s.a1⟩

/-- The output tile stored at the last key tile: lanes 0…63 from the first head, lanes 64…127 from the second. -/
def outOf3 (s : Carry F) : Vec F S1x1024x128 .bf16 :=
  View.canon [⟨Rect.unit (s := S1x1024x128) ![0, 0, 64] S1x1024x64.size inb_S1x1024x128_S1x1024x64_0_0_64, k3_pay4 s.a1 s.l1⟩,
    ⟨Rect.unit (s := S1x1024x128) ![0, 0, 0] S1x1024x64.size inb_S1x1024x128_S1x1024x64_0_0_0, k3_pay3 s.a0 s.l0⟩]

theorem first_m0 (c : Dev nD) (i : grid3.Coords) (aq : Memref sig .tc .vmem S1x1024x128 .bf16) (hq : aq.IsWhole) (ak : Memref sig .tc .vmem S1x512x128 .bf16) (hk : ak.IsWhole) (av : Memref sig .tc .vmem S1x512x128 .bf16) (hv : av.IsWhole) (ao : Memref sig .tc .vmem S1x1024x128 .bf16) (ho : ao.IsWhole) (s0 : Memref sig .tc .vmem S1024x1 .f32) (z0 : s0.IsWhole) (s1 : Memref sig .tc .vmem S1024x1 .f32) (z1 : s1.IsWhole) (s2 : Memref sig .tc .vmem S1024x64 .f32) (z2 : s2.IsWhole) (s3 : Memref sig .tc .vmem S1024x1 .f32) (z3 : s3.IsWhole) (s4 : Memref sig .tc .vmem S1024x1 .f32) (z4 : s4.IsWhole) (s5 : Memref sig .tc .vmem S1024x64 .f32) (z5 : s5.IsWhole) (hf : first3 i) (hl : ¬last3 i) (xq : Vec F S1x1024x128 .bf16) (xk : Vec F S1x512x128 .bf16) (xv : Vec F S1x512x128 .bf16) :
    (firstCarry c i aq hq ak hk av hv ao ho s0 z0 s1 z1 s2 z2 s3 z3 s4 z4 s5 z5 hf hl xq xk xv).m0 = (step3 xq xk xv init3).m0 := by
  unfold firstCarry step3 init3
  dsimp only
  rw [View.read_writes_eq_canon _ _ _ (first_cover0 c i aq hq ak hk av hv ao ho s0 z0 s1 z1 s2 z2 s3 z3 s4 z4 s5 z5 hf hl xq xk xv)]
  unfold firstStep
  dsimp only
  sl_unfold_words
  rw [View.canon_cons_unit_zero zero2]
  simp only [View.readAt_eq_ld, hq.read_unread, hk.read_unread, hv.read_unread, z0.read_unread, z1.read_unread, z2.read_unread, z3.read_unread, z4.read_unread, z5.read_unread, View.readCov_unit_zero (S := S1024x1) _ zero2, View.readCov_unit_zero (S := S1024x64) _ zero2, View.ld_unit_zero (S := S1x1024x128) zero3, View.ld_unit_zero (S := S1x512x128) zero3, View.ld_unit_zero (S := S1024x1) zero2, View.ld_unit_zero (S := S1024x64) zero2]
  try rfl

theorem first_l0 (c : Dev nD) (i : grid3.Coords) (aq : Memref sig .tc .vmem S1x1024x128 .bf16) (hq : aq.IsWhole) (ak : Memref sig .tc .vmem S1x512x128 .bf16) (hk : ak.IsWhole) (av : Memref sig .tc .vmem S1x512x128 .bf16) (hv : av.IsWhole) (ao : Memref sig .tc .vmem S1x1024x128 .bf16) (ho : ao.IsWhole) (s0 : Memref sig .tc .vmem S1024x1 .f32) (z0 : s0.IsWhole) (s1 : Memref sig .tc .vmem S1024x1 .f32) (z1 : s1.IsWhole) (s2 : Memref sig .tc .vmem S1024x64 .f32) (z2 : s2.IsWhole) (s3 : Memref sig .tc .vmem S1024x1 .f32) (z3 : s3.IsWhole) (s4 : Memref sig .tc .vmem S1024x1 .f32) (z4 : s4.IsWhole) (s5 : Memref sig .tc .vmem S1024x64 .f32) (z5 : s5.IsWhole) (hf : first3 i) (hl : ¬last3 i) (xq : Vec F S1x1024x128 .bf16) (xk : Vec F S1x512x128 .bf16) (xv : Vec F S1x512x128 .bf16) :
    (firstCarry c i aq hq ak hk av hv ao ho s0 z0 s1 z1 s2 z2 s3 z3 s4 z4 s5 z5 hf hl xq xk xv).l0 = (step3 xq xk xv init3).l0 := by
  unfold firstCarry step3 init3
  dsimp only
  rw [View.read_writes_eq_canon _ _ _ (first_cover1 c i aq hq ak hk av hv ao ho s0 z0 s1 z1 s2 z2 s3 z3 s4 z4 s5 z5 hf hl xq xk xv)]
  unfold firstStep
  dsimp only
  sl_unfold_words
  rw [View.canon_cons_unit_zero zero2]
  simp only [View.readAt_eq_ld, hq.read_unread, hk.read_unread, hv.read_unread, z0.read_unread, z1.read_unread, z2.read_unread, z3.read_unread, z4.read_unread, z5.read_unread, View.readCov_unit_zero (S := S1024x1) _ zero2, View.readCov_unit_zero (S := S1024x64) _ zero2, View.ld_unit_zero (S := S1x1024x128) zero3, View.ld_unit_zero (S := S1x512x128) zero3, View.ld_unit_zero (S := S1024x1) zero2, View.ld_unit_zero (S := S1024x64) zero2]
  try rfl

theorem first_a0 (c : Dev nD) (i : grid3.Coords) (aq : Memref sig .tc .vmem S1x1024x128 .bf16) (hq : aq.IsWhole) (ak : Memref sig .tc .vmem S1x512x128 .bf16) (hk : ak.IsWhole) (av : Memref sig .tc .vmem S1x512x128 .bf16) (hv : av.IsWhole) (ao : Memref sig .tc .vmem S1x1024x128 .bf16) (ho : ao.IsWhole) (s0 : Memref sig .tc .vmem S1024x1 .f32) (z0 : s0.IsWhole) (s1 : Memref sig .tc .vmem S1024x1 .f32) (z1 : s1.IsWhole) (s2 : Memref sig .tc .vmem S1024x64 .f32) (z2 : s2.IsWhole) (s3 : Memref sig .tc .vmem S1024x1 .f32) (z3 : s3.IsWhole) (s4 : Memref sig .tc .vmem S1024x1 .f32) (z4 : s4.IsWhole) (s5 : Memref sig .tc .vmem S1024x64 .f32) (z5 : s5.IsWhole) (hf : first3 i) (hl : ¬last3 i) (xq : Vec F S1x1024x128 .bf16) (xk : Vec F S1x512x128 .bf16) (xv : Vec F S1x512x128 .bf16) :
    (firstCarry c i aq hq ak hk av hv ao ho s0 z0 s1 z1 s2 z2 s3 z3 s4 z4 s5 z5 hf hl xq xk xv).a0 = (step3 xq xk xv init3).a0 := by
  unfold firstCarry step3 init3
  dsimp only
  rw [View.read_writes_eq_canon _ _ _ (first_cover2 c i aq hq ak hk av hv ao ho s0 z0 s1 z1 s2 z2 s3 z3 s4 z4 s5 z5 hf hl xq xk xv)]
  unfold firstStep
  dsimp only
  sl_unfold_words
  rw [View.canon_cons_unit_zero zero2]
  simp only [View.readAt_eq_ld, hq.read_unread, hk.read_unread, hv.read_unread, z0.read_unread, z1.read_unread, z2.read_unread, z3.read_unread, z4.read_unread, z5.read_unread, View.readCov_unit_zero (S := S1024x1) _ zero2, View.readCov_unit_zero (S := S1024x64) _ zero2, View.ld_unit_zero (S := S1x1024x128) zero3, View.ld_unit_zero (S := S1x512x128) zero3, View.ld_unit_zero (S := S1024x1) zero2, View.ld_unit_zero (S := S1024x64) zero2]
  try rfl

theorem first_m1 (c : Dev nD) (i : grid3.Coords) (aq : Memref sig .tc .vmem S1x1024x128 .bf16) (hq : aq.IsWhole) (ak : Memref sig .tc .vmem S1x512x128 .bf16) (hk : ak.IsWhole) (av : Memref sig .tc .vmem S1x512x128 .bf16) (hv : av.IsWhole) (ao : Memref sig .tc .vmem S1x1024x128 .bf16) (ho : ao.IsWhole) (s0 : Memref sig .tc .vmem S1024x1 .f32) (z0 : s0.IsWhole) (s1 : Memref sig .tc .vmem S1024x1 .f32) (z1 : s1.IsWhole) (s2 : Memref sig .tc .vmem S1024x64 .f32) (z2 : s2.IsWhole) (s3 : Memref sig .tc .vmem S1024x1 .f32) (z3 : s3.IsWhole) (s4 : Memref sig .tc .vmem S1024x1 .f32) (z4 : s4.IsWhole) (s5 : Memref sig .tc .vmem S1024x64 .f32) (z5 : s5.IsWhole) (hf : first3 i) (hl : ¬last3 i) (xq : Vec F S1x1024x128 .bf16) (xk : Vec F S1x512x128 .bf16) (xv : Vec F S1x512x128 .bf16) :
    (firstCarry c i aq hq ak hk av hv ao ho s0 z0 s1 z1 s2 z2 s3 z3 s4 z4 s5 z5 hf hl xq xk xv).m1 = (step3 xq xk xv init3).m1 := by
  unfold firstCarry step3 init3
  dsimp only
  rw [View.read_writes_eq_canon _ _ _ (first_cover3 c i aq hq ak hk av hv ao ho s0 z0 s1 z1 s2 z2 s3 z3 s4 z4 s5 z5 hf hl xq xk xv)]
  unfold firstStep
  dsimp only
  sl_unfold_words
  rw [View.canon_cons_unit_zero zero2]
  simp only [View.readAt_eq_ld, hq.read_unread, hk.read_unread, hv.read_unread, z0.read_unread, z1.read_unread, z2.read_unread, z3.read_unread, z4.read_unread, z5.read_unread, View.readCov_unit_zero (S := S1024x1) _ zero2, View.readCov_unit_zero (S := S1024x64) _ zero2, View.ld_unit_zero (S := S1x1024x128) zero3, View.ld_unit_zero (S := S1x512x128) zero3, View.ld_unit_zero (S := S1024x1) zero2, View.ld_unit_zero (S := S1024x64) zero2]
  try rfl

theorem first_l1 (c : Dev nD) (i : grid3.Coords) (aq : Memref sig .tc .vmem S1x1024x128 .bf16) (hq : aq.IsWhole) (ak : Memref sig .tc .vmem S1x512x128 .bf16) (hk : ak.IsWhole) (av : Memref sig .tc .vmem S1x512x128 .bf16) (hv : av.IsWhole) (ao : Memref sig .tc .vmem S1x1024x128 .bf16) (ho : ao.IsWhole) (s0 : Memref sig .tc .vmem S1024x1 .f32) (z0 : s0.IsWhole) (s1 : Memref sig .tc .vmem S1024x1 .f32) (z1 : s1.IsWhole) (s2 : Memref sig .tc .vmem S1024x64 .f32) (z2 : s2.IsWhole) (s3 : Memref sig .tc .vmem S1024x1 .f32) (z3 : s3.IsWhole) (s4 : Memref sig .tc .vmem S1024x1 .f32) (z4 : s4.IsWhole) (s5 : Memref sig .tc .vmem S1024x64 .f32) (z5 : s5.IsWhole) (hf : first3 i) (hl : ¬last3 i) (xq : Vec F S1x1024x128 .bf16) (xk : Vec F S1x512x128 .bf16) (xv : Vec F S1x512x128 .bf16) :
    (firstCarry c i aq hq ak hk av hv ao ho s0 z0 s1 z1 s2 z2 s3 z3 s4 z4 s5 z5 hf hl xq xk xv).l1 = (step3 xq xk xv init3).l1 := by
  unfold firstCarry step3 init3
  dsimp only
  rw [View.read_writes_eq_canon _ _ _ (first_cover4 c i aq hq ak hk av hv ao ho s0 z0 s1 z1 s2 z2 s3 z3 s4 z4 s5 z5 hf hl xq xk xv)]
  unfold firstStep
  dsimp only
  sl_unfold_words
  rw [View.canon_cons_unit_zero zero2]
  simp only [View.readAt_eq_ld, hq.read_unread, hk.read_unread, hv.read_unread, z0.read_unread, z1.read_unread, z2.read_unread, z3.read_unread, z4.read_unread, z5.read_unread, View.readCov_unit_zero (S := S1024x1) _ zero2, View.readCov_unit_zero (S := S1024x64) _ zero2, View.ld_unit_zero (S := S1x1024x128) zero3, View.ld_unit_zero (S := S1x512x128) zero3, View.ld_unit_zero (S := S1024x1) zero2, View.ld_unit_zero (S := S1024x64) zero2]
  try rfl

theorem first_a1 (c : Dev nD) (i : grid3.Coords) (aq : Memref sig .tc .vmem S1x1024x128 .bf16) (hq : aq.IsWhole) (ak : Memref sig .tc .vmem S1x512x128 .bf16) (hk : ak.IsWhole) (av : Memref sig .tc .vmem S1x512x128 .bf16) (hv : av.IsWhole) (ao : Memref sig .tc .vmem S1x1024x128 .bf16) (ho : ao.IsWhole) (s0 : Memref sig .tc .vmem S1024x1 .f32) (z0 : s0.IsWhole) (s1 : Memref sig .tc .vmem S1024x1 .f32) (z1 : s1.IsWhole) (s2 : Memref sig .tc .vmem S1024x64 .f32) (z2 : s2.IsWhole) (s3 : Memref sig .tc .vmem S1024x1 .f32) (z3 : s3.IsWhole) (s4 : Memref sig .tc .vmem S1024x1 .f32) (z4 : s4.IsWhole) (s5 : Memref sig .tc .vmem S1024x64 .f32) (z5 : s5.IsWhole) (hf : first3 i) (hl : ¬last3 i) (xq : Vec F S1x1024x128 .bf16) (xk : Vec F S1x512x128 .bf16) (xv : Vec F S1x512x128 .bf16) :
    (firstCarry c i aq hq ak hk av hv ao ho s0 z0 s1 z1 s2 z2 s3 z3 s4 z4 s5 z5 hf hl xq xk xv).a1 = (step3 xq xk xv init3).a1 := by
  unfold firstCarry step3 init3
  dsimp only
  rw [View.read_writes_eq_canon _ _ _ (first_cover5 c i aq hq ak hk av hv ao ho s0 z0 s1 z1 s2 z2 s3 z3 s4 z4 s5 z5 hf hl xq xk xv)]
  unfold firstStep
  dsimp only
  sl_unfold_words
  rw [View.canon_cons_unit_zero zero2]
  simp only [View.readAt_eq_ld, hq.read_unread, hk.read_unread, hv.read_unread, z0.read_unread, z1.read_unread, z2.read_unread, z3.read_unread, z4.read_unread, z5.read_unread, View.readCov_unit_zero (S := S1024x1) _ zero2, View.readCov_unit_zero (S := S1024x64) _ zero2, View.ld_unit_zero (S := S1x1024x128) zero3, View.ld_unit_zero (S := S1x512x128) zero3, View.ld_unit_zero (S := S1024x1) zero2, View.ld_unit_zero (S := S1024x64) zero2]
  try rfl

/-- What this case leaves in the six scratch buffers is one key tile folded into what they held. -/
theorem firstCarry_eq (c : Dev nD) (i : grid3.Coords) (aq : Memref sig .tc .vmem S1x1024x128 .bf16) (hq : aq.IsWhole) (ak : Memref sig .tc .vmem S1x512x128 .bf16) (hk : ak.IsWhole) (av : Memref sig .tc .vmem S1x512x128 .bf16) (hv : av.IsWhole) (ao : Memref sig .tc .vmem S1x1024x128 .bf16) (ho : ao.IsWhole) (s0 : Memref sig .tc .vmem S1024x1 .f32) (z0 : s0.IsWhole) (s1 : Memref sig .tc .vmem S1024x1 .f32) (z1 : s1.IsWhole) (s2 : Memref sig .tc .vmem S1024x64 .f32) (z2 : s2.IsWhole) (s3 : Memref sig .tc .vmem S1024x1 .f32) (z3 : s3.IsWhole) (s4 : Memref sig .tc .vmem S1024x1 .f32) (z4 : s4.IsWhole) (s5 : Memref sig .tc .vmem S1024x64 .f32) (z5 : s5.IsWhole) (hf : first3 i) (hl : ¬last3 i) (xq : Vec F S1x1024x128 .bf16) (xk : Vec F S1x512x128 .bf16) (xv : Vec F S1x512x128 .bf16) :
    firstCarry c i aq hq ak hk av hv ao ho s0 z0 s1 z1 s2 z2 s3 z3 s4 z4 s5 z5 hf hl xq xk xv = step3 xq xk xv init3 := by
  have h0 := first_m0 c i aq hq ak hk av hv ao ho s0 z0 s1 z1 s2 z2 s3 z3 s4 z4 s5 z5 hf hl xq xk xv
  have h1 := first_l0 c i aq hq ak hk av hv ao ho s0 z0 s1 z1 s2 z2 s3 z3 s4 z4 s5 z5 hf hl xq xk xv
  have h2 := first_a0 c i aq hq ak hk av hv ao ho s0 z0 s1 z1 s2 z2 s3 z3 s4 z4 s5 z5 hf hl xq xk xv
  have h3 := first_m1 c i aq hq ak hk av hv ao ho s0 z0 s1 z1 s2 z2 s3 z3 s4 z4 s5 z5 hf hl xq xk xv
  have h4 := first_l1 c i aq hq ak hk av hv ao ho s0 z0 s1 z1 s2 z2 s3 z3 s4 z4 s5 z5 hf hl xq xk xv
  have h5 := first_a1 c i aq hq ak hk av hv ao ho s0 z0 s1 z1 s2 z2 s3 z3 s4 z4 s5 z5 hf hl xq xk xv
  cases hA : firstCarry c i aq hq ak hk av hv ao ho s0 z0 s1 z1 s2 z2 s3 z3 s4 z4 s5 z5 hf hl xq xk xv with
  | mk a0 a1 a2 a3 a4 a5 =>
    cases hB : step3 xq xk xv init3 with
    | mk b0 b1 b2 b3 b4 b5 =>
      rw [hA, hB] at h0 h1 h2 h3 h4 h5
      dsimp only at h0 h1 h2 h3 h4 h5
      rw [h0, h1, h2, h3, h4, h5]

theorem mid_m0 (c : Dev nD) (i : grid3.Coords) (aq : Memref sig .tc .vmem S1x1024x128 .bf16) (hq : aq.IsWhole) (ak : Memref sig .tc .vmem S1x512x128 .bf16) (hk : ak.IsWhole) (av : Memref sig .tc .vmem S1x512x128 .bf16) (hv : av.IsWhole) (ao : Memref sig .tc .vmem S1x1024x128 .bf16) (ho : ao.IsWhole) (s0 : Memref sig .tc .vmem S1024x1 .f32) (z0 : s0.IsWhole) (s1 : Memref sig .tc .vmem S1024x1 .f32) (z1 : s1.IsWhole) (s2 : Memref sig .tc .vmem S1024x64 .f32) (z2 : s2.IsWhole) (s3 : Memref sig .tc .vmem S1024x1 .f32) (z3 : s3.IsWhole) (s4 : Memref sig .tc .vmem S1024x1 .f32) (z4 : s4.IsWhole) (s5 : Memref sig .tc .vmem S1024x64 .f32) (z5 : s5.IsWhole) (hf : ¬first3 i) (hl : ¬last3 i) (xq : Vec F S1x1024x128 .bf16) (xk : Vec F S1x512x128 .bf16) (xv : Vec F S1x512x128 .bf16) (xs0 : Vec F S1024x1 .f32) (xs1 : Vec F S1024x1 .f32) (xs2 : Vec F S1024x64 .f32) (xs3 : Vec F S1024x1 .f32) (xs4 : Vec F S1024x1 .f32) (xs5 : Vec F S1024x64 .f32) :
    (midCarry c i aq hq ak hk av hv ao ho s0 z0 s1 z1 s2 z2 s3 z3 s4 z4 s5 z5 hf hl xq xk xv xs0 xs1 xs2 xs3 xs4 xs5).m0 = (step3 xq xk xv ⟨xs0, xs1, xs2, xs3, xs4, xs5⟩).m0 := by
  unfold midCarry step3
  dsimp only
  rw [View.read_writes_eq_canon _ _ _ (mid_cover0 c i aq hq ak hk av hv ao ho s0 z0 s1 z1 s2 z2 s3 z3 s4 z4 s5 z5 hf hl xq xk xv xs0 xs1 xs2 xs3 xs4 xs5)]
  unfold midStep
  dsimp only
  sl_unfold_words
  rw [View.canon_unit_zero zero2]
  simp only [View.readAt_eq_ld, hq.read_unread, hk.read_unread, hv.read_unread, z0.read_unread, z1.read_unread, z2.read_unread, z3.read_unread, z4.read_unread, z5.read_unread, View.readCov_unit_zero (S := S1024x1) _ zero2, View.readCov_unit_zero (S := S1024x64) _ zero2, View.ld_unit_zero (S := S1x1024x128) zero3, View.ld_unit_zero (S := S1x512x128) zero3, View.ld_unit_zero (S := S1024x1) zero2, View.ld_unit_zero (S := S1024x64) zero2]
  try rfl

theorem mid_l0 (c : Dev nD) (i : grid3.Coords) (aq : Memref sig .tc .vmem S1x1024x128 .bf16) (hq : aq.IsWhole) (ak : Memref sig .tc .vmem S1x512x128 .bf16) (hk : ak.IsWhole) (av : Memref sig .tc .vmem S1x512x128 .bf16) (hv : av.IsWhole) (ao : Memref sig .tc .vmem S1x1024x128 .bf16) (ho : ao.IsWhole) (s0 : Memref sig .tc .vmem S1024x1 .f32) (z0 : s0.IsWhole) (s1 : Memref sig .tc .vmem S1024x1 .f32) (z1 : s1.IsWhole) (s2 : Memref sig .tc .vmem S1024x64 .f32) (z2 : s2.IsWhole) (s3 : Memref sig .tc .vmem S1024x1 .f32) (z3 : s3.IsWhole) (s4 : Memref sig .tc .vmem S1024x1 .f32) (z4 : s4.IsWhole) (s5 : Memref sig .tc .vmem S1024x64 .f32) (z5 : s5.IsWhole) (hf : ¬first3 i) (hl : ¬last3 i) (xq : Vec F S1x1024x128 .bf16) (xk : Vec F S1x512x128 .bf16) (xv : Vec F S1x512x128 .bf16) (xs0 : Vec F S1024x1 .f32) (xs1 : Vec F S1024x1 .f32) (xs2 : Vec F S1024x64 .f32) (xs3 : Vec F S1024x1 .f32) (xs4 : Vec F S1024x1 .f32) (xs5 : Vec F S1024x64 .f32) :
    (midCarry c i aq hq ak hk av hv ao ho s0 z0 s1 z1 s2 z2 s3 z3 s4 z4 s5 z5 hf hl xq xk xv xs0 xs1 xs2 xs3 xs4 xs5).l0 = (step3 xq xk xv ⟨xs0, xs1, xs2, xs3, xs4, xs5⟩).l0 := by
  unfold midCarry step3
  dsimp only
  rw [View.read_writes_eq_canon _ _ _ (mid_cover1 c i aq hq ak hk av hv ao ho s0 z0 s1 z1 s2 z2 s3 z3 s4 z4 s5 z5 hf hl xq xk xv xs0 xs1 xs2 xs3 xs4 xs5)]
  unfold midStep
  dsimp only
  sl_unfold_words
  rw [View.canon_unit_zero zero2]
  simp only [View.readAt_eq_ld, hq.read_unread, hk.read_unread, hv.read_unread, z0.read_unread, z1.read_unread, z2.read_unread, z3.read_unread, z4.read_unread, z5.read_unread, View.readCov_unit_zero (S := S1024x1) _ zero2, View.readCov_unit_zero (S := S1024x64) _ zero2, View.ld_unit_zero (S := S1x1024x128) zero3, View.ld_unit_zero (S := S1x512x128) zero3, View.ld_unit_zero (S := S1024x1) zero2, View.ld_unit_zero (S := S1024x64) zero2]
  try rfl

theorem mid_a0 (c : Dev nD) (i : grid3.Coords) (aq : Memref sig .tc .vmem S1x1024x128 .bf16) (hq : aq.IsWhole) (ak : Memref sig .tc .vmem S1x512x128 .bf16) (hk : ak.IsWhole) (av : Memref sig .tc .vmem S1x512x128 .bf16) (hv : av.IsWhole) (ao : Memref sig .tc .vmem S1x1024x128 .bf16) (ho : ao.IsWhole) (s0 : Memref sig .tc .vmem S1024x1 .f32) (z0 : s0.IsWhole) (s1 : Memref sig .tc .vmem S1024x1 .f32) (z1 : s1.IsWhole) (s2 : Memref sig .tc .vmem S1024x64 .f32) (z2 : s2.IsWhole) (s3 : Memref sig .tc .vmem S1024x1 .f32) (z3 : s3.IsWhole) (s4 : Memref sig .tc .vmem S1024x1 .f32) (z4 : s4.IsWhole) (s5 : Memref sig .tc .vmem S1024x64 .f32) (z5 : s5.IsWhole) (hf : ¬first3 i) (hl : ¬last3 i) (xq : Vec F S1x1024x128 .bf16) (xk : Vec F S1x512x128 .bf16) (xv : Vec F S1x512x128 .bf16) (xs0 : Vec F S1024x1 .f32) (xs1 : Vec F S1024x1 .f32) (xs2 : Vec F S1024x64 .f32) (xs3 : Vec F S1024x1 .f32) (xs4 : Vec F S1024x1 .f32) (xs5 : Vec F S1024x64 .f32) :
    (midCarry c i aq hq ak hk av hv ao ho s0 z0 s1 z1 s2 z2 s3 z3 s4 z4 s5 z5 hf hl xq xk xv xs0 xs1 xs2 xs3 xs4 xs5).a0 = (step3 xq xk xv ⟨xs0, xs1, xs2, xs3, xs4, xs5⟩).a0 := by
  unfold midCarry step3
  dsimp only
  rw [View.read_writes_eq_canon _ _ _ (mid_cover2 c i aq hq ak hk av hv ao ho s0 z0 s1 z1 s2 z2 s3 z3 s4 z4 s5 z5 hf hl xq xk xv xs0 xs1 xs2 xs3 xs4 xs5)]
  unfold midStep
  dsimp only
  sl_unfold_words
  rw [View.canon_unit_zero zero2]
  simp only [View.readAt_eq_ld, hq.read_unread, hk.read_unread, hv.read_unread, z0.read_unread, z1.read_unread, z2.read_unread, z3.read_unread, z4.read_unread, z5.read_unread, View.readCov_unit_zero (S := S1024x1) _ zero2, View.readCov_unit_zero (S := S1024x64) _ zero2, View.ld_unit_zero (S := S1x1024x128) zero3, View.ld_unit_zero (S := S1x512x128) zero3, View.ld_unit_zero (S := S1024x1) zero2, View.ld_unit_zero (S := S1024x64) zero2]
  try rfl

theorem mid_m1 (c : Dev nD) (i : grid3.Coords) (aq : Memref sig .tc .vmem S1x1024x128 .bf16) (hq : aq.IsWhole) (ak : Memref sig .tc .vmem S1x512x128 .bf16) (hk : ak.IsWhole) (av : Memref sig .tc .vmem S1x512x128 .bf16) (hv : av.IsWhole) (ao : Memref sig .tc .vmem S1x1024x128 .bf16) (ho : ao.IsWhole) (s0 : Memref sig .tc .vmem S1024x1 .f32) (z0 : s0.IsWhole) (s1 : Memref sig .tc .vmem S1024x1 .f32) (z1 : s1.IsWhole) (s2 : Memref sig .tc .vmem S1024x64 .f32) (z2 : s2.IsWhole) (s3 : Memref sig .tc .vmem S1024x1 .f32) (z3 : s3.IsWhole) (s4 : Memref sig .tc .vmem S1024x1 .f32) (z4 : s4.IsWhole) (s5 : Memref sig .tc .vmem S1024x64 .f32) (z5 : s5.IsWhole) (hf : ¬first3 i) (hl : ¬last3 i) (xq : Vec F S1x1024x128 .bf16) (xk : Vec F S1x512x128 .bf16) (xv : Vec F S1x512x128 .bf16) (xs0 : Vec F S1024x1 .f32) (xs1 : Vec F S1024x1 .f32) (xs2 : Vec F S1024x64 .f32) (xs3 : Vec F S1024x1 .f32) (xs4 : Vec F S1024x1 .f32) (xs5 : Vec F S1024x64 .f32) :
    (midCarry c i aq hq ak hk av hv ao ho s0 z0 s1 z1 s2 z2 s3 z3 s4 z4 s5 z5 hf hl xq xk xv xs0 xs1 xs2 xs3 xs4 xs5).m1 = (step3 xq xk xv ⟨xs0, xs1, xs2, xs3, xs4, xs5⟩).m1 := by
  unfold midCarry step3
  dsimp only
  rw [View.read_writes_eq_canon _ _ _ (mid_cover3 c i aq hq ak hk av hv ao ho s0 z0 s1 z1 s2 z2 s3 z3 s4 z4 s5 z5 hf hl xq xk xv xs0 xs1 xs2 xs3 xs4 xs5)]
  unfold midStep
  dsimp only
  sl_unfold_words
  rw [View.canon_unit_zero zero2]
  simp only [View.readAt_eq_ld, hq.read_unread, hk.read_unread, hv.read_unread, z0.read_unread, z1.read_unread, z2.read_unread, z3.read_unread, z4.read_unread, z5.read_unread, View.readCov_unit_zero (S := S1024x1) _ zero2, View.readCov_unit_zero (S := S1024x64) _ zero2, View.ld_unit_zero (S := S1x1024x128) zero3, View.ld_unit_zero (S := S1x512x128) zero3, View.ld_unit_zero (S := S1024x1) zero2, View.ld_unit_zero (S := S1024x64) zero2]
  try rfl

theorem mid_l1 (c : Dev nD) (i : grid3.Coords) (aq : Memref sig .tc .vmem S1x1024x128 .bf16) (hq : aq.IsWhole) (ak : Memref sig .tc .vmem S1x512x128 .bf16) (hk : ak.IsWhole) (av : Memref sig .tc .vmem S1x512x128 .bf16) (hv : av.IsWhole) (ao : Memref sig .tc .vmem S1x1024x128 .bf16) (ho : ao.IsWhole) (s0 : Memref sig .tc .vmem S1024x1 .f32) (z0 : s0.IsWhole) (s1 : Memref sig .tc .vmem S1024x1 .f32) (z1 : s1.IsWhole) (s2 : Memref sig .tc .vmem S1024x64 .f32) (z2 : s2.IsWhole) (s3 : Memref sig .tc .vmem S1024x1 .f32) (z3 : s3.IsWhole) (s4 : Memref sig .tc .vmem S1024x1 .f32) (z4 : s4.IsWhole) (s5 : Memref sig .tc .vmem S1024x64 .f32) (z5 : s5.IsWhole) (hf : ¬first3 i) (hl : ¬last3 i) (xq : Vec F S1x1024x128 .bf16) (xk : Vec F S1x512x128 .bf16) (xv : Vec F S1x512x128 .bf16) (xs0 : Vec F S1024x1 .f32) (xs1 : Vec F S1024x1 .f32) (xs2 : Vec F S1024x64 .f32) (xs3 : Vec F S1024x1 .f32) (xs4 : Vec F S1024x1 .f32) (xs5 : Vec F S1024x64 .f32) :
    (midCarry c i aq hq ak hk av hv ao ho s0 z0 s1 z1 s2 z2 s3 z3 s4 z4 s5 z5 hf hl xq xk xv xs0 xs1 xs2 xs3 xs4 xs5).l1 = (step3 xq xk xv ⟨xs0, xs1, xs2, xs3, xs4, xs5⟩).l1 := by
  unfold midCarry step3
  dsimp only
  rw [View.read_writes_eq_canon _ _ _ (mid_cover4 c i aq hq ak hk av hv ao ho s0 z0 s1 z1 s2 z2 s3 z3 s4 z4 s5 z5 hf hl xq xk xv xs0 xs1 xs2 xs3 xs4 xs5)]
  unfold midStep
  dsimp only
  sl_unfold_words
  rw [View.canon_unit_zero zero2]
  simp only [View.readAt_eq_ld, hq.read_unread, hk.read_unread, hv.read_unread, z0.read_unread, z1.read_unread, z2.read_unread, z3.read_unread, z4.read_unread, z5.read_unread, View.readCov_unit_zero (S := S1024x1) _ zero2, View.readCov_unit_zero (S := S1024x64) _ zero2, View.ld_unit_zero (S := S1x1024x128) zero3, View.ld_unit_zero (S := S1x512x128) zero3, View.ld_unit_zero (S := S1024x1) zero2, View.ld_unit_zero (S := S1024x64) zero2]
  try rfl

theorem mid_a1 (c : Dev nD) (i : grid3.Coords) (aq : Memref sig .tc .vmem S1x1024x128 .bf16) (hq : aq.IsWhole) (ak : Memref sig .tc .vmem S1x512x128 .bf16) (hk : ak.IsWhole) (av : Memref sig .tc .vmem S1x512x128 .bf16) (hv : av.IsWhole) (ao : Memref sig .tc .vmem S1x1024x128 .bf16) (ho : ao.IsWhole) (s0 : Memref sig .tc .vmem S1024x1 .f32) (z0 : s0.IsWhole) (s1 : Memref sig .tc .vmem S1024x1 .f32) (z1 : s1.IsWhole) (s2 : Memref sig .tc .vmem S1024x64 .f32) (z2 : s2.IsWhole) (s3 : Memref sig .tc .vmem S1024x1 .f32) (z3 : s3.IsWhole) (s4 : Memref sig .tc .vmem S1024x1 .f32) (z4 : s4.IsWhole) (s5 : Memref sig .tc .vmem S1024x64 .f32) (z5 : s5.IsWhole) (hf : ¬first3 i) (hl : ¬last3 i) (xq : Vec F S1x1024x128 .bf16) (xk : Vec F S1x512x128 .bf16) (xv : Vec F S1x512x128 .bf16) (xs0 : Vec F S1024x1 .f32) (xs1 : Vec F S1024x1 .f32) (xs2 : Vec F S1024x64 .f32) (xs3 : Vec F S1024x1 .f32) (xs4 : Vec F S1024x1 .f32) (xs5 : Vec F S1024x64 .f32) :
    (midCarry c i aq hq ak hk av hv ao ho s0 z0 s1 z1 s2 z2 s3 z3 s4 z4 s5 z5 hf hl xq xk xv xs0 xs1 xs2 xs3 xs4 xs5).a1 = (step3 xq xk xv ⟨xs0, xs1, xs2, xs3, xs4, xs5⟩).a1 := by
  unfold midCarry step3
  dsimp only
  rw [View.read_writes_eq_canon _ _ _ (mid_cover5 c i aq hq ak hk av hv ao ho s0 z0 s1 z1 s2 z2 s3 z3 s4 z4 s5 z5 hf hl xq xk xv xs0 xs1 xs2 xs3 xs4 xs5)]
  unfold midStep
  dsimp only
  sl_unfold_words
  rw [View.canon_unit_zero zero2]
  simp only [View.readAt_eq_ld, hq.read_unread, hk.read_unread, hv.read_unread, z0.read_unread, z1.read_unread, z2.read_unread, z3.read_unread, z4.read_unread, z5.read_unread, View.readCov_unit_zero (S := S1024x1) _ zero2, View.readCov_unit_zero (S := S1024x64) _ zero2, View.ld_unit_zero (S := S1x1024x128) zero3, View.ld_unit_zero (S := S1x512x128) zero3, View.ld_unit_zero (S := S1024x1) zero2, View.ld_unit_zero (S := S1024x64) zero2]
  try rfl

/-- What this case leaves in the six scratch buffers is one key tile folded into what they held. -/
theorem midCarry_eq (c : Dev nD) (i : grid3.Coords) (aq : Memref sig .tc .vmem S1x1024x128 .bf16) (hq : aq.IsWhole) (ak : Memref sig .tc .vmem S1x512x128 .bf16) (hk : ak.IsWhole) (av : Memref sig .tc .vmem S1x512x128 .bf16) (hv : av.IsWhole) (ao : Memref sig .tc .vmem S1x1024x128 .bf16) (ho : ao.IsWhole) (s0 : Memref sig .tc .vmem S1024x1 .f32) (z0 : s0.IsWhole) (s1 : Memref sig .tc .vmem S1024x1 .f32) (z1 : s1.IsWhole) (s2 : Memref sig .tc .vmem S1024x64 .f32) (z2 : s2.IsWhole) (s3 : Memref sig .tc .vmem S1024x1 .f32) (z3 : s3.IsWhole) (s4 : Memref sig .tc .vmem S1024x1 .f32) (z4 : s4.IsWhole) (s5 : Memref sig .tc .vmem S1024x64 .f32) (z5 : s5.IsWhole) (hf : ¬first3 i) (hl : ¬last3 i) (xq : Vec F S1x1024x128 .bf16) (xk : Vec F S1x512x128 .bf16) (xv : Vec F S1x512x128 .bf16) (xs0 : Vec F S1024x1 .f32) (xs1 : Vec F S1024x1 .f32) (xs2 : Vec F S1024x64 .f32) (xs3 : Vec F S1024x1 .f32) (xs4 : Vec F S1024x1 .f32) (xs5 : Vec F S1024x64 .f32) :
    midCarry c i aq hq ak hk av hv ao ho s0 z0 s1 z1 s2 z2 s3 z3 s4 z4 s5 z5 hf hl xq xk xv xs0 xs1 xs2 xs3 xs4 xs5 = step3 xq xk xv ⟨xs0, xs1, xs2, xs3, xs4, xs5⟩ := by
  have h0 := mid_m0 c i aq hq ak hk av hv ao ho s0 z0 s1 z1 s2 z2 s3 z3 s4 z4 s5 z5 hf hl xq xk xv xs0 xs1 xs2 xs3 xs4 xs5
  have h1 := mid_l0 c i aq hq ak hk av hv ao ho s0 z0 s1 z1 s2 z2 s3 z3 s4 z4 s5 z5 hf hl xq xk xv xs0 xs1 xs2 xs3 xs4 xs5
  have h2 := mid_a0 c i aq hq ak hk av hv ao ho s0 z0 s1 z1 s2 z2 s3 z3 s4 z4 s5 z5 hf hl xq xk xv xs0 xs1 xs2 xs3 xs4 xs5
  have h3 := mid_m1 c i aq hq ak hk av hv ao ho s0 z0 s1 z1 s2 z2 s3 z3 s4 z4 s5 z5 hf hl xq xk xv xs0 xs1 xs2 xs3 xs4 xs5
  have h4 := mid_l1 c i aq hq ak hk av hv ao ho s0 z0 s1 z1 s2 z2 s3 z3 s4 z4 s5 z5 hf hl xq xk xv xs0 xs1 xs2 xs3 xs4 xs5
  have h5 := mid_a1 c i aq hq ak hk av hv ao ho s0 z0 s1 z1 s2 z2 s3 z3 s4 z4 s5 z5 hf hl xq xk xv xs0 xs1 xs2 xs3 xs4 xs5
  cases hA : midCarry c i aq hq ak hk av hv ao ho s0 z0 s1 z1 s2 z2 s3 z3 s4 z4 s5 z5 hf hl xq xk xv xs0 xs1 xs2 xs3 xs4 xs5 with
  | mk a0 a1 a2 a3 a4 a5 =>
    cases hB : step3 xq xk xv ⟨xs0, xs1, xs2, xs3, xs4, xs5⟩ with
    | mk b0 b1 b2 b3 b4 b5 =>
      rw [hA, hB] at h0 h1 h2 h3 h4 h5
      dsimp only at h0 h1 h2 h3 h4 h5
      rw [h0, h1, h2, h3, h4, h5]

theorem last_m0 (c : Dev nD) (i : grid3.Coords) (aq : Memref sig .tc .vmem S1x1024x128 .bf16) (hq : aq.IsWhole) (ak : Memref sig .tc .vmem S1x512x128 .bf16) (hk : ak.IsWhole) (av : Memref sig .tc .vmem S1x512x128 .bf16) (hv : av.IsWhole) (ao : Memref sig .tc .vmem S1x1024x128 .bf16) (ho : ao.IsWhole) (s0 : Memref sig .tc .vmem S1024x1 .f32) (z0 : s0.IsWhole) (s1 : Memref sig .tc .vmem S1024x1 .f32) (z1 : s1.IsWhole) (s2 : Memref sig .tc .vmem S1024x64 .f32) (z2 : s2.IsWhole) (s3 : Memref sig .tc .vmem S1024x1 .f32) (z3 : s3.IsWhole) (s4 : Memref sig .tc .vmem S1024x1 .f32) (z4 : s4.IsWhole) (s5 : Memref sig .tc .vmem S1024x64 .f32) (z5 : s5.IsWhole) (hf : ¬first3 i) (hl : last3 i) (xq : Vec F S1x1024x128 .bf16) (xk : Vec F S1x512x128 .bf16) (xv : Vec F S1x512x128 .bf16) (xs0 : Vec F S1024x1 .f32) (xs1 : Vec F S1024x1 .f32) (xs2 : Vec F S1024x64 .f32) (xs3 : Vec F S1024x1 .f32) (xs4 : Vec F S1024x1 .f32) (xs5 : Vec F S1024x64 .f32) :
    (lastCarry c i aq hq ak hk av hv ao ho s0 z0 s1 z1 s2 z2 s3 z3 s4 z4 s5 z5 hf hl xq xk xv xs0 xs1 xs2 xs3 xs4 xs5).m0 = (step3 xq xk xv ⟨xs0, xs1, xs2, xs3, xs4, xs5⟩).m0 := by
  unfold lastCarry step3
  dsimp only
  rw [View.read_writes_eq_canon _ _ _ (last_cover0 c i aq hq ak hk av hv ao ho s0 z0 s1 z1 s2 z2 s3 z3 s4 z4 s5 z5 hf hl xq xk xv xs0 xs1 xs2 xs3 xs4 xs5)]
  unfold lastStep
  dsimp only
  sl_unfold_words
  rw [View.canon_unit_zero zero2]
  simp only [View.readAt_eq_ld, hq.read_unread, hk.read_unread, hv.read_unread, z0.read_unread, z1.read_unread, z2.read_unread, z3.read_unread, z4.read_unread, z5.read_unread, View.readCov_unit_zero (S := S1024x1) _ zero2, View.readCov_unit_zero (S := S1024x64) _ zero2, View.ld_unit_zero (S := S1x1024x128) zero3, View.ld_unit_zero (S := S1x512x128) zero3, View.ld_unit_zero (S := S1024x1) zero2, View.ld_unit_zero (S := S1024x64) zero2]
  try rfl

theorem last_l0 (c : Dev nD) (i : grid3.Coords) (aq : Memref sig .tc .vmem S1x1024x128 .bf16) (hq : aq.IsWhole) (ak : Memref sig .tc .vmem S1x512x128 .bf16) (hk : ak.IsWhole) (av : Memref sig .tc .vmem S1x512x128 .bf16) (hv : av.IsWhole) (ao : Memref sig .tc .vmem S1x1024x128 .bf16) (ho : ao.IsWhole) (s0 : Memref sig .tc .vmem S1024x1 .f32) (z0 : s0.IsWhole) (s1 : Memref sig .tc .vmem S1024x1 .f32) (z1 : s1.IsWhole) (s2 : Memref sig .tc .vmem S1024x64 .f32) (z2 : s2.IsWhole) (s3 : Memref sig .tc .vmem S1024x1 .f32) (z3 : s3.IsWhole) (s4 : Memref sig .tc .vmem S1024x1 .f32) (z4 : s4.IsWhole) (s5 : Memref sig .tc .vmem S1024x64 .f32) (z5 : s5.IsWhole) (hf : ¬first3 i) (hl : last3 i) (xq : Vec F S1x1024x128 .bf16) (xk : Vec F S1x512x128 .bf16) (xv : Vec F S1x512x128 .bf16) (xs0 : Vec F S1024x1 .f32) (xs1 : Vec F S1024x1 .f32) (xs2 : Vec F S1024x64 .f32) (xs3 : Vec F S1024x1 .f32) (xs4 : Vec F S1024x1 .f32) (xs5 : Vec F S1024x64 .f32) :
    (lastCarry c i aq hq ak hk av hv ao ho s0 z0 s1 z1 s2 z2 s3 z3 s4 z4 s5 z5 hf hl xq xk xv xs0 xs1 xs2 xs3 xs4 xs5).l0 = (step3 xq xk xv ⟨xs0, xs1, xs2, xs3, xs4, xs5⟩).l0 := by
  unfold lastCarry step3
  dsimp only
  rw [View.read_writes_eq_canon _ _ _ (last_cover1 c i aq hq ak hk av hv ao ho s0 z0 s1 z1 s2 z2 s3 z3 s4 z4 s5 z5 hf hl xq xk xv xs0 xs1 xs2 xs3 xs4 xs5)]
  unfold lastStep
  dsimp only
  sl_unfold_words
  rw [View.canon_unit_zero zero2]
  simp only [View.readAt_eq_ld, hq.read_unread, hk.read_unread, hv.read_unread, z0.read_unread, z1.read_unread, z2.read_unread, z3.read_unread, z4.read_unread, z5.read_unread, View.readCov_unit_zero (S := S1024x1) _ zero2, View.readCov_unit_zero (S := S1024x64) _ zero2, View.ld_unit_zero (S := S1x1024x128) zero3, View.ld_unit_zero (S := S1x512x128) zero3, View.ld_unit_zero (S := S1024x1) zero2, View.ld_unit_zero (S := S1024x64) zero2]
  try rfl

theorem last_a0 (c : Dev nD) (i : grid3.Coords) (aq : Memref sig .tc .vmem S1x1024x128 .bf16) (hq : aq.IsWhole) (ak : Memref sig .tc .vmem S1x512x128 .bf16) (hk : ak.IsWhole) (av : Memref sig .tc .vmem S1x512x128 .bf16) (hv : av.IsWhole) (ao : Memref sig .tc .vmem S1x1024x128 .bf16) (ho : ao.IsWhole) (s0 : Memref sig .tc .vmem S1024x1 .f32) (z0 : s0.IsWhole) (s1 : Memref sig .tc .vmem S1024x1 .f32) (z1 : s1.IsWhole) (s2 : Memref sig .tc .vmem S1024x64 .f32) (z2 : s2.IsWhole) (s3 : Memref sig .tc .vmem S1024x1 .f32) (z3 : s3.IsWhole) (s4 : Memref sig .tc .vmem S1024x1 .f32) (z4 : s4.IsWhole) (s5 : Memref sig .tc .vmem S1024x64 .f32) (z5 : s5.IsWhole) (hf : ¬first3 i) (hl : last3 i) (xq : Vec F S1x1024x128 .bf16) (xk : Vec F S1x512x128 .bf16) (xv : Vec F S1x512x128 .bf16) (xs0 : Vec F S1024x1 .f32) (xs1 : Vec F S1024x1 .f32) (xs2 : Vec F S1024x64 .f32) (xs3 : Vec F S1024x1 .f32) (xs4 : Vec F S1024x1 .f32) (xs5 : Vec F S1024x64 .f32) :
    (lastCarry c i aq hq ak hk av hv ao ho s0 z0 s1 z1 s2 z2 s3 z3 s4 z4 s5 z5 hf hl xq xk xv xs0 xs1 xs2 xs3 xs4 xs5).a0 = (step3 xq xk xv ⟨xs0, xs1, xs2, xs3, xs4, xs5⟩).a0 := by
  unfold lastCarry step3
  dsimp only
  rw [View.read_writes_eq_canon _ _ _ (last_cover2 c i aq hq ak hk av hv ao ho s0 z0 s1 z1 s2 z2 s3 z3 s4 z4 s5 z5 hf hl xq xk xv xs0 xs1 xs2 xs3 xs4 xs5)]
  unfold lastStep
  dsimp only
  sl_unfold_words
  rw [View.canon_unit_zero zero2]
  simp only [View.readAt_eq_ld, hq.read_unread, hk.read_unread, hv.read_unread, z0.read_unread, z1.read_unread, z2.read_unread, z3.read_unread, z4.read_unread, z5.read_unread, View.readCov_unit_zero (S := S1024x1) _ zero2, View.readCov_unit_zero (S := S1024x64) _ zero2, View.ld_unit_zero (S := S1x1024x128) zero3, View.ld_unit_zero (S := S1x512x128) zero3, View.ld_unit_zero (S := S1024x1) zero2, View.ld_unit_zero (S := S1024x64) zero2]
  try rfl

theorem last_m1 (c : Dev nD) (i : grid3.Coords) (aq : Memref sig .tc .vmem S1x1024x128 .bf16) (hq : aq.IsWhole) (ak : Memref sig .tc .vmem S1x512x128 .bf16) (hk : ak.IsWhole) (av : Memref sig .tc .vmem S1x512x128 .bf16) (hv : av.IsWhole) (ao : Memref sig .tc .vmem S1x1024x128 .bf16) (ho : ao.IsWhole) (s0 : Memref sig .tc .vmem S1024x1 .f32) (z0 : s0.IsWhole) (s1 : Memref sig .tc .vmem S1024x1 .f32) (z1 : s1.IsWhole) (s2 : Memref sig .tc .vmem S1024x64 .f32) (z2 : s2.IsWhole) (s3 : Memref sig .tc .vmem S1024x1 .f32) (z3 : s3.IsWhole) (s4 : Memref sig .tc .vmem S1024x1 .f32) (z4 : s4.IsWhole) (s5 : Memref sig .tc .vmem S1024x64 .f32) (z5 : s5.IsWhole) (hf : ¬first3 i) (hl : last3 i) (xq : Vec F S1x1024x128 .bf16) (xk : Vec F S1x512x128 .bf16) (xv : Vec F S1x512x128 .bf16) (xs0 : Vec F S1024x1 .f32) (xs1 : Vec F S1024x1 .f32) (xs2 : Vec F S1024x64 .f32) (xs3 : Vec F S1024x1 .f32) (xs4 : Vec F S1024x1 .f32) (xs5 : Vec F S1024x64 .f32) :
    (lastCarry c i aq hq ak hk av hv ao ho s0 z0 s1 z1 s2 z2 s3 z3 s4 z4 s5 z5 hf hl xq xk xv xs0 xs1 xs2 xs3 xs4 xs5).m1 = (step3 xq xk xv ⟨xs0, xs1, xs2, xs3, xs4, xs5⟩).m1 := by
  unfold lastCarry step3
  dsimp only
  rw [View.read_writes_eq_canon _ _ _ (last_cover3 c i aq hq ak hk av hv ao ho s0 z0 s1 z1 s2 z2 s3 z3 s4 z4 s5 z5 hf hl xq xk xv xs0 xs1 xs2 xs3 xs4 xs5)]
  unfold lastStep
  dsimp only
  sl_unfold_words
  rw [View.canon_unit_zero zero2]
  simp only [View.readAt_eq_ld, hq.read_unread, hk.read_unread, hv.read_unread, z0.read_unread, z1.read_unread, z2.read_unread, z3.read_unread, z4.read_unread, z5.read_unread, View.readCov_unit_zero (S := S1024x1) _ zero2, View.readCov_unit_zero (S := S1024x64) _ zero2, View.ld_unit_zero (S := S1x1024x128) zero3, View.ld_unit_zero (S := S1x512x128) zero3, View.ld_unit_zero (S := S1024x1) zero2, View.ld_unit_zero (S := S1024x64) zero2]
  try rfl

theorem last_l1 (c : Dev nD) (i : grid3.Coords) (aq : Memref sig .tc .vmem S1x1024x128 .bf16) (hq : aq.IsWhole) (ak : Memref sig .tc .vmem S1x512x128 .bf16) (hk : ak.IsWhole) (av : Memref sig .tc .vmem S1x512x128 .bf16) (hv : av.IsWhole) (ao : Memref sig .tc .vmem S1x1024x128 .bf16) (ho : ao.IsWhole) (s0 : Memref sig .tc .vmem S1024x1 .f32) (z0 : s0.IsWhole) (s1 : Memref sig .tc .vmem S1024x1 .f32) (z1 : s1.IsWhole) (s2 : Memref sig .tc .vmem S1024x64 .f32) (z2 : s2.IsWhole) (s3 : Memref sig .tc .vmem S1024x1 .f32) (z3 : s3.IsWhole) (s4 : Memref sig .tc .vmem S1024x1 .f32) (z4 : s4.IsWhole) (s5 : Memref sig .tc .vmem S1024x64 .f32) (z5 : s5.IsWhole) (hf : ¬first3 i) (hl : last3 i) (xq : Vec F S1x1024x128 .bf16) (xk : Vec F S1x512x128 .bf16) (xv : Vec F S1x512x128 .bf16) (xs0 : Vec F S1024x1 .f32) (xs1 : Vec F S1024x1 .f32) (xs2 : Vec F S1024x64 .f32) (xs3 : Vec F S1024x1 .f32) (xs4 : Vec F S1024x1 .f32) (xs5 : Vec F S1024x64 .f32) :
    (lastCarry c i aq hq ak hk av hv ao ho s0 z0 s1 z1 s2 z2 s3 z3 s4 z4 s5 z5 hf hl xq xk xv xs0 xs1 xs2 xs3 xs4 xs5).l1 = (step3 xq xk xv ⟨xs0, xs1, xs2, xs3, xs4, xs5⟩).l1 := by
  unfold lastCarry step3
  dsimp only
  rw [View.read_writes_eq_canon _ _ _ (last_cover4 c i aq hq ak hk av hv ao ho s0 z0 s1 z1 s2 z2 s3 z3 s4 z4 s5 z5 hf hl xq xk xv xs0 xs1 xs2 xs3 xs4 xs5)]
  unfold lastStep
  dsimp only
  sl_unfold_words
  rw [View.canon_unit_zero zero2]
  simp only [View.readAt_eq_ld, hq.read_unread, hk.read_unread, hv.read_unread, z0.read_unread, z1.read_unread, z2.read_unread, z3.read_unread, z4.read_unread, z5.read_unread, View.readCov_unit_zero (S := S1024x1) _ zero2, View.readCov_unit_zero (S := S1024x64) _ zero2, View.ld_unit_zero (S := S1x1024x128) zero3, View.ld_unit_zero (S := S1x512x128) zero3, View.ld_unit_zero (S := S1024x1) zero2, View.ld_unit_zero (S := S1024x64) zero2]
  try rfl

theorem last_a1 (c : Dev nD) (i : grid3.Coords) (aq : Memref sig .tc .vmem S1x1024x128 .bf16) (hq : aq.IsWhole) (ak : Memref sig .tc .vmem S1x512x128 .bf16) (hk : ak.IsWhole) (av : Memref sig .tc .vmem S1x512x128 .bf16) (hv : av.IsWhole) (ao : Memref sig .tc .vmem S1x1024x128 .bf16) (ho : ao.IsWhole) (s0 : Memref sig .tc .vmem S1024x1 .f32) (z0 : s0.IsWhole) (s1 : Memref sig .tc .vmem S1024x1 .f32) (z1 : s1.IsWhole) (s2 : Memref sig .tc .vmem S1024x64 .f32) (z2 : s2.IsWhole) (s3 : Memref sig .tc .vmem S1024x1 .f32) (z3 : s3.IsWhole) (s4 : Memref sig .tc .vmem S1024x1 .f32) (z4 : s4.IsWhole) (s5 : Memref sig .tc .vmem S1024x64 .f32) (z5 : s5.IsWhole) (hf : ¬first3 i) (hl : last3 i) (xq : Vec F S1x1024x128 .bf16) (xk : Vec F S1x512x128 .bf16) (xv : Vec F S1x512x128 .bf16) (xs0 : Vec F S1024x1 .f32) (xs1 : Vec F S1024x1 .f32) (xs2 : Vec F S1024x64 .f32) (xs3 : Vec F S1024x1 .f32) (xs4 : Vec F S1024x1 .f32) (xs5 : Vec F S1024x64 .f32) :
    (lastCarry c i aq hq ak hk av hv ao ho s0 z0 s1 z1 s2 z2 s3 z3 s4 z4 s5 z5 hf hl xq xk xv xs0 xs1 xs2 xs3 xs4 xs5).a1 = (step3 xq xk xv ⟨xs0, xs1, xs2, xs3, xs4, xs5⟩).a1 := by
  unfold lastCarry step3
  dsimp only
  rw [View.read_writes_eq_canon _ _ _ (last_cover5 c i aq hq ak hk av hv ao ho s0 z0 s1 z1 s2 z2 s3 z3 s4 z4 s5 z5 hf hl xq xk xv xs0 xs1 xs2 xs3 xs4 xs5)]
  unfold lastStep
  dsimp only
  sl_unfold_words
  rw [View.canon_unit_zero zero2]
  simp only [View.readAt_eq_ld, hq.read_unread, hk.read_unread, hv.read_unread, z0.read_unread, z1.read_unread, z2.read_unread, z3.read_unread, z4.read_unread, z5.read_unread, View.readCov_unit_zero (S := S1024x1) _ zero2, View.readCov_unit_zero (S := S1024x64) _ zero2, View.ld_unit_zero (S := S1x1024x128) zero3, View.ld_unit_zero (S := S1x512x128) zero3, View.ld_unit_zero (S := S1024x1) zero2, View.ld_unit_zero (S := S1024x64) zero2]
  try rfl

/-- What this case leaves in the six scratch buffers is one key tile folded into what they held. -/
theorem lastCarry_eq (c : Dev nD) (i : grid3.Coords) (aq : Memref sig .tc .vmem S1x1024x128 .bf16) (hq : aq.IsWhole) (ak : Memref sig .tc .vmem S1x512x128 .bf16) (hk : ak.IsWhole) (av : Memref sig .tc .vmem S1x512x128 .bf16) (hv : av.IsWhole) (ao : Memref sig .tc .vmem S1x1024x128 .bf16) (ho : ao.IsWhole) (s0 : Memref sig .tc .vmem S1024x1 .f32) (z0 : s0.IsWhole) (s1 : Memref sig .tc .vmem S1024x1 .f32) (z1 : s1.IsWhole) (s2 : Memref sig .tc .vmem S1024x64 .f32) (z2 : s2.IsWhole) (s3 : Memref sig .tc .vmem S1024x1 .f32) (z3 : s3.IsWhole) (s4 : Memref sig .tc .vmem S1024x1 .f32) (z4 : s4.IsWhole) (s5 : Memref sig .tc .vmem S1024x64 .f32) (z5 : s5.IsWhole) (hf : ¬first3 i) (hl : last3 i) (xq : Vec F S1x1024x128 .bf16) (xk : Vec F S1x512x128 .bf16) (xv : Vec F S1x512x128 .bf16) (xs0 : Vec F S1024x1 .f32) (xs1 : Vec F S1024x1 .f32) (xs2 : Vec F S1024x64 .f32) (xs3 : Vec F S1024x1 .f32) (xs4 : Vec F S1024x1 .f32) (xs5 : Vec F S1024x64 .f32) :
    lastCarry c i aq hq ak hk av hv ao ho s0 z0 s1 z1 s2 z2 s3 z3 s4 z4 s5 z5 hf hl xq xk xv xs0 xs1 xs2 xs3 xs4 xs5 = step3 xq xk xv ⟨xs0, xs1, xs2, xs3, xs4, xs5⟩ := by
  have h0 := last_m0 c i aq hq ak hk av hv ao ho s0 z0 s1 z1 s2 z2 s3 z3 s4 z4 s5 z5 hf hl xq xk xv xs0 xs1 xs2 xs3 xs4 xs5
  have h1 := last_l0 c i aq hq ak hk av hv ao ho s0 z0 s1 z1 s2 z2 s3 z3 s4 z4 s5 z5 hf hl xq xk xv xs0 xs1 xs2 xs3 xs4 xs5
  have h2 := last_a0 c i aq hq ak hk av hv ao ho s0 z0 s1 z1 s2 z2 s3 z3 s4 z4 s5 z5 hf hl xq xk xv xs0 xs1 xs2 xs3 xs4 xs5
  have h3 := last_m1 c i aq hq ak hk av hv ao ho s0 z0 s1 z1 s2 z2 s3 z3 s4 z4 s5 z5 hf hl xq xk xv xs0 xs1 xs2 xs3 xs4 xs5
  have h4 := last_l1 c i aq hq ak hk av hv ao ho s0 z0 s1 z1 s2 z2 s3 z3 s4 z4 s5 z5 hf hl xq xk xv xs0 xs1 xs2 xs3 xs4 xs5
  have h5 := last_a1 c i aq hq ak hk av hv ao ho s0 z0 s1 z1 s2 z2 s3 z3 s4 z4 s5 z5 hf hl xq xk xv xs0 xs1 xs2 xs3 xs4 xs5
  cases hA : lastCarry c i aq hq ak hk av hv ao ho s0 z0 s1 z1 s2 z2 s3 z3 s4 z4 s5 z5 hf hl xq xk xv xs0 xs1 xs2 xs3 xs4 xs5 with
  | mk a0 a1 a2 a3 a4 a5 =>
    cases hB : step3 xq xk xv ⟨xs0, xs1, xs2, xs3, xs4, xs5⟩ with
    | mk b0 b1 b2 b3 b4 b5 =>
      rw [hA, hB] at h0 h1 h2 h3 h4 h5
      dsimp only at h0 h1 h2 h3 h4 h5
      rw [h0, h1, h2, h3, h4, h5]

/-- The output tile the last key tile stores is `outOf3` of the buffers after this tile's fold. -/
theorem lastOut_eq (c : Dev nD) (i : grid3.Coords) (aq : Memref sig .tc .vmem S1x1024x128 .bf16) (hq : aq.IsWhole) (ak : Memref sig .tc .vmem S1x512x128 .bf16) (hk : ak.IsWhole) (av : Memref sig .tc .vmem S1x512x128 .bf16) (hv : av.IsWhole) (ao : Memref sig .tc .vmem S1x1024x128 .bf16) (ho : ao.IsWhole) (s0 : Memref sig .tc .vmem S1024x1 .f32) (z0 : s0.IsWhole) (s1 : Memref sig .tc .vmem S1024x1 .f32) (z1 : s1.IsWhole) (s2 : Memref sig .tc .vmem S1024x64 .f32) (z2 : s2.IsWhole) (s3 : Memref sig .tc .vmem S1024x1 .f32) (z3 : s3.IsWhole) (s4 : Memref sig .tc .vmem S1024x1 .f32) (z4 : s4.IsWhole) (s5 : Memref sig .tc .vmem S1024x64 .f32) (z5 : s5.IsWhole) (hf : ¬first3 i) (hl : last3 i) (xq : Vec F S1x1024x128 .bf16) (xk : Vec F S1x512x128 .bf16) (xv : Vec F S1x512x128 .bf16) (xs0 : Vec F S1024x1 .f32) (xs1 : Vec F S1024x1 .f32) (xs2 : Vec F S1024x64 .f32) (xs3 : Vec F S1024x1 .f32) (xs4 : Vec F S1024x1 .f32) (xs5 : Vec F S1024x64 .f32) :
    lastOut c i aq hq ak hk av hv ao ho s0 z0 s1 z1 s2 z2 s3 z3 s4 z4 s5 z5 hf hl xq xk xv xs0 xs1 xs2 xs3 xs4 xs5 = outOf3 (step3 xq xk xv ⟨xs0, xs1, xs2, xs3, xs4, xs5⟩) := by
  unfold lastOut outOf3 step3
  dsimp only
  rw [View.read_writes_eq_canon _ _ _ (last_coverO c i aq hq ak hk av hv ao ho s0 z0 s1 z1 s2 z2 s3 z3 s4 z4 s5 z5 hf hl xq xk xv xs0 xs1 xs2 xs3 xs4 xs5)]
  unfold lastStep
  dsimp only
  sl_unfold_words
  simp only [View.readAt_eq_ld, hq.read_unread, hk.read_unread, hv.read_unread, z0.read_unread, z1.read_unread, z2.read_unread, z3.read_unread, z4.read_unread, z5.read_unread, View.readCov_unit_zero (S := S1024x1) _ zero2, View.readCov_unit_zero (S := S1024x64) _ zero2, View.ld_unit_zero (S := S1x1024x128) zero3, View.ld_unit_zero (S := S1x512x128) zero3, View.ld_unit_zero (S := S1024x1) zero2, View.ld_unit_zero (S := S1024x64) zero2]
  try rfl

end Cert.KernelIdeal.Hand

end
-- ==== Proof.IdealAttnRows.lean ====
/-
  The attention stage's tiles at their places in the arrays. Point t of the 256 is (batch t/128, head pair (t/32)%4,
  query tile (t/8)%4, key tile t%8): its query tile is rows 1024·(query tile) … of that batch, lanes 128·(head pair) …;
  its key and value tiles are rows 512·(key tile) … of the same lanes; its output tile sits where its query tile does.
  Along a run of eight key tiles the six scratch buffers are one fold after another: the first point folds into the
  reset values, every later point into what the point before left.
-/
import proofs.«180034_j81982335746566_2_alg».proof.Proof.IdealAttnStep
import proofs.«180034_j81982335746566_2_alg».proof.Proof.Spec
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

/-- Where the four windows' blocks sit at each of the 256 points. -/
theorem where3 : ∀ t : Fin cfg3.N,
    win3_0.index t (0 : Fin 3) = t.val / 128 ∧ win3_0.index t (1 : Fin 3) = t.val / 8 % 4 ∧ win3_0.index t (2 : Fin 3) = t.val / 32 % 4
    ∧ win3_1.index t (0 : Fin 3) = t.val / 128 ∧ win3_1.index t (1 : Fin 3) = t.val % 8 ∧ win3_1.index t (2 : Fin 3) = t.val / 32 % 4
    ∧ win3_2.index t (0 : Fin 3) = t.val / 128 ∧ win3_2.index t (1 : Fin 3) = t.val % 8 ∧ win3_2.index t (2 : Fin 3) = t.val / 32 % 4
    ∧ win3_3.index t (0 : Fin 3) = t.val / 128 ∧ win3_3.index t (1 : Fin 3) = t.val / 8 % 4 ∧ win3_3.index t (2 : Fin 3) = t.val / 32 % 4 :=
  (by decide +kernel : ∀ t : Fin grid3.N, _)

/-- The coordinates of a point. -/
def batchOf (t : Fin cfg3.N) : Fin 2 := ⟨t.val / 128, (by have := t.isLt; have hN : cfg3.N = 256 := N_3; omega)⟩
def pairOf (t : Fin cfg3.N) : Fin 4 := ⟨t.val / 32 % 4, by omega⟩
def qtileOf (t : Fin cfg3.N) : Fin 4 := ⟨t.val / 8 % 4, by omega⟩
def ktileOf (t : Fin cfg3.N) : Fin 8 := ⟨t.val % 8, by omega⟩
/-- Row `r` of query tile `qt`, as a position of the sequence. -/
def qpos (qt : Fin 4) (r : Fin 1024) : Fin 4096 := ⟨1024 * qt.val + r.val, by omega⟩
/-- Row `k` of key tile `kt`, as a position of the sequence. -/
def kpos (kt : Fin 8) (k : Fin 512) : Fin 4096 := ⟨512 * kt.val + k.val, by omega⟩
/-- Lane `ln` of head pair `hp`'s block of 128 lanes. -/
def plane (hp : Fin 4) (ln : Fin 128) : Fin 512 := ⟨128 * hp.val + ln.val, by omega⟩

/-- The query tile of point `t`, entry (row r, lane ln), is the array's entry at that position and lane. -/
theorem qtile_at (X : Cert.Spec.Seq) (t : Fin cfg3.N) (r : Fin 1024) (ln : Fin 128) :
    X (((cfg3.win 0).blk t).view.emb (ix3 0 r ln)) = X (ix3 (batchOf t) (qpos (qtileOf t) r) (plane (pairOf t) ln)) := by
  obtain ⟨a0, a1, a2, -⟩ := where3 t
  refine congrArg X ?_
  funext a; apply Fin.ext
  match a with
  | ⟨0, _⟩ => show win3_0.index t (0 : Fin 3) * 1 + 1 * 0 = t.val / 128; omega
  | ⟨1, _⟩ => show win3_0.index t (1 : Fin 3) * 1024 + 1 * r.val = 1024 * (t.val / 8 % 4) + r.val; omega
  | ⟨2, _⟩ => show win3_0.index t (2 : Fin 3) * 128 + 1 * ln.val = 128 * (t.val / 32 % 4) + ln.val; omega

/-- The key tile of point `t`, entry (row k, lane ln). -/
theorem ktile_at (X : Cert.Spec.Seq) (t : Fin cfg3.N) (k : Fin 512) (ln : Fin 128) :
    X (((cfg3.win 1).blk t).view.emb (ix3 0 k ln)) = X (ix3 (batchOf t) (kpos (ktileOf t) k) (plane (pairOf t) ln)) := by
  obtain ⟨-, -, -, a0, a1, a2, -⟩ := where3 t
  refine congrArg X ?_
  funext a; apply Fin.ext
  match a with
  | ⟨0, _⟩ => show win3_1.index t (0 : Fin 3) * 1 + 1 * 0 = t.val / 128; omega
  | ⟨1, _⟩ => show win3_1.index t (1 : Fin 3) * 512 + 1 * k.val = 512 * (t.val % 8) + k.val; omega
  | ⟨2, _⟩ => show win3_1.index t (2 : Fin 3) * 128 + 1 * ln.val = 128 * (t.val / 32 % 4) + ln.val; omega

/-- The value tile of point `t`, entry (row k, lane ln). -/
theorem vtile_at (X : Cert.Spec.Seq) (t : Fin cfg3.N) (k : Fin 512) (ln : Fin 128) :
    X (((cfg3.win 2).blk t).view.emb (ix3 0 k ln)) = X (ix3 (batchOf t) (kpos (ktileOf t) k) (plane (pairOf t) ln)) := by
  obtain ⟨-, -, -, -, -, -, a0, a1, a2, -⟩ := where3 t
  refine congrArg X ?_
  funext a; apply Fin.ext
  match a with
  | ⟨0, _⟩ => show win3_2.index t (0 : Fin 3) * 1 + 1 * 0 = t.val / 128; omega
  | ⟨1, _⟩ => show win3_2.index t (1 : Fin 3) * 512 + 1 * k.val = 512 * (t.val % 8) + k.val; omega
  | ⟨2, _⟩ => show win3_2.index t (2 : Fin 3) * 128 + 1 * ln.val = 128 * (t.val / 32 % 4) + ln.val; omega

/-- The output tile of point `t`, entry (row r, lane ln), is the array's entry where the query tile's is. -/
theorem otile_at (t : Fin cfg3.N) (r : Fin 1024) (ln : Fin 128) :
    ((cfg3.win 3).blk t).view.emb (ix3 0 r ln) = ix3 (batchOf t) (qpos (qtileOf t) r) (plane (pairOf t) ln) := by
  obtain ⟨-, -, -, -, -, -, -, -, -, a0, a1, a2⟩ := where3 t
  funext a; apply Fin.ext
  match a with
  | ⟨0, _⟩ => show win3_3.index t (0 : Fin 3) * 1 + 1 * 0 = t.val / 128; omega
  | ⟨1, _⟩ => show win3_3.index t (1 : Fin 3) * 1024 + 1 * r.val = 1024 * (t.val / 8 % 4) + r.val; omega
  | ⟨2, _⟩ => show win3_3.index t (2 : Fin 3) * 128 + 1 * ln.val = 128 * (t.val / 32 % 4) + ln.val; omega

variable (V : (c : Dev nD) → (b : Ref sig .tc) → Buf (Elt F) ((c : Thread nD τ).loc b))

/-- At the first key tile of a run the scratch buffers end at that tile folded into the reset values. -/
theorem carryAt_start (c : Dev nD) (t : Fin cfg3.N) (h0 : t.val % 8 = 0) :
    carryAt V c t.val t.isLt = step3 (tile3 V c 0 t) (tile3 V c 1 t) (tile3 V c 2 t) init3 := by
  have h7 : ¬t.val % 8 = 7 := by omega
  rw [carryAt_first V c t h0 h7]
  exact firstCarry_eq (F := F) c _ _ _ _ _ _ _ _ _ _ _ _ _ _ _ _ _ _ _ _ _ _ _ _ _ _

/-- At every later key tile they end at that tile folded into what the point before left. -/
theorem carryAt_next (c : Dev nD) (t : Fin cfg3.N) (h0 : ¬t.val % 8 = 0) :
    carryAt V c t.val t.isLt = step3 (tile3 V c 0 t) (tile3 V c 1 t) (tile3 V c 2 t) (carryAt V c (t.val - 1) (Nat.lt_of_le_of_lt (Nat.sub_le _ _) t.isLt)) := by
  by_cases h7 : t.val % 8 = 7
  · rw [carryAt_last V c t h0 h7]
    exact lastCarry_eq (F := F) c _ _ _ _ _ _ _ _ _ _ _ _ _ _ _ _ _ _ _ _ _ _ _ _ _ _ _ _ _ _ _ _
  · rw [carryAt_mid V c t h0 h7]
    exact midCarry_eq (F := F) c _ _ _ _ _ _ _ _ _ _ _ _ _ _ _ _ _ _ _ _ _ _ _ _ _ _ _ _ _ _ _ _

/-- At the last key tile the output tile stored is `outOf3` of the scratch buffers after that tile. -/
theorem outAt3_eq (c : Dev nD) (t : Fin cfg3.N) (h0 : ¬t.val % 8 = 0) (h7 : t.val % 8 = 7) :
    outAt3 V c t = outOf3 (carryAt V c t.val t.isLt) := by
  rw [outAt3_last V c t h0 h7, carryAt_next V c t h0]
  exact lastOut_eq (F := F) c _ _ _ _ _ _ _ _ _ _ _ _ _ _ _ _ _ _ _ _ _ _ _ _ _ _ _ _ _ _ _ _

end Cert.KernelIdeal.Hand

end
-- ==== Proof.AttnPayLayout.lean ====
/-
  Layout and contraction operations of the attention body, read at an index, for any extents: a column vector made
  from a vector ([a] → [a, 1]) and spread along the rows' second axis ([a, 1] → [a, b]); the sum and the maximum
  along the second axis of a matrix; the plain matrix product [M, K]·[K, N].
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.Pay

open Idealize.ShloMosaic Idealize.ShloMosaic.ValueIdx

variable {α : Type}

/-- A vector of length `a` cast to an [a, 1] column reads, at row `r`, the vector's entry `r`. -/
theorem colCast_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- An [a, 1] column broadcast to [a, b] reads, at row `r` and any column, the column's entry at row `r`. -/
theorem colBroadcast_apply {a b : ℕ} (x : (⟨2, ![a, 1]⟩ : Shape).Idx → α)
    (h : (⟨2, ![a, 1]⟩ : Shape).Broadcasts ⟨2, ![a, b]⟩) (r : Fin a) (c : Fin b) :
    broadcastTo ⟨2, ![a, b]⟩ x h (ix2 r c) = x (ix2 r (0 : Fin 1)) := by
  refine broadcastTo_apply x h (ix2 r c) (ix2 r (0 : Fin 1)) fun ax => ?_
  match ax with
  | ⟨0, _⟩ =>
    show (r : ℕ) = if a = 1 then 0 else (r : ℕ)
    split
    · have := r.isLt; omega
    · rfl
  | ⟨1, _⟩ => exact (if_pos rfl).symm

/-- The index over row `r` with `k` inserted on the second axis is `(r, k)`. -/
theorem lift_row {a b : ℕ} (h : (⟨2, ![a, b]⟩ : Shape).Reduces [(1 : Fin 2)] ⟨1, ![a]⟩) (r : Fin a) (k : Fin b) :
    h.lift (ix1 r) k = ix2 r k := by
  funext c
  apply Fin.ext
  match c with
  | ⟨0, _⟩ => rfl
  | ⟨1, _⟩ => rfl

/-- The sum along the second axis of an [a, b] matrix, at row `r`: the sum of the row's entries. -/
theorem rowSum_apply {a b : ℕ} (src : FVec Ideal ⟨2, ![a, b]⟩ .f32)
    (h : (⟨2, ![a, b]⟩ : Shape).Reduces [(1 : Fin 2)] ⟨1, ![a]⟩) (hφ : FKind.Formats .f32)
    (hacc : (0x00000000#32 : BitVec (FTy.bits .f32)) = FKind.add.neutral .f32 hφ) (r : Fin a) :
    multiReduction (F := Ideal) .add [(1 : Fin 2)] ⟨1, ![a]⟩ src 0x00000000#32 h hφ hacc (ix1 r)
      = ∑ k : Fin b, src (ix2 r k) :=
  (Ideal.multiReduction_add_single src _ h hφ hacc (ix1 r)).trans
    (Finset.sum_congr rfl fun k _ => congrArg src (lift_row h r k))

/-- The binary32 pattern 0xFF800000 denotes −∞. -/
theorem ofBits_negInf : Ideal.ofBits .f32 0xFF800000#32 = (⊥ : EReal) := by
  simp [Ideal.ofBits, Ideal.ieee]

/-- The maximum along the second axis of an [a, b] matrix, from −∞, at row `r`: the maximum of the row's entries
    folded from ⊥. -/
theorem rowMax_apply {a b : ℕ} (src : FVec Ideal ⟨2, ![a, b]⟩ .f32)
    (h : (⟨2, ![a, b]⟩ : Shape).Reduces [(1 : Fin 2)] ⟨1, ![a]⟩) (hφ : FKind.Formats .f32)
    (hacc : (0xFF800000#32 : BitVec (FTy.bits .f32)) = FKind.maximumf.neutral .f32 hφ) (r : Fin a) :
    multiReduction (F := Ideal) .maximumf [(1 : Fin 2)] ⟨1, ![a]⟩ src 0xFF800000#32 h hφ hacc (ix1 r)
      = (Finset.univ : Finset (Fin b)).fold max ⊥ (fun k => src (ix2 r k)) := by
  refine (Ideal.multiReduction_maximumf_single src _ h hφ hacc (ix1 r)).trans ?_
  show (Finset.univ : Finset (Fin b)).fold max (Ideal.ofBits .f32 0xFF800000#32) (src ∘ h.lift (ix1 r)) = _
  rw [ofBits_negInf]
  exact congrArg (fun f : Fin b → EReal => (Finset.univ : Finset (Fin b)).fold max ⊥ f)
    (funext fun k => congrArg src (lift_row h r k))

variable {M K N : Nat}

/-- The product of an [M, K] by a [K, N] matrix into the zero splat, read at an index: the sum over the contracted
    coordinate of the products of the row's and the column's entries. -/
theorem plainDot_zero_apply {φ₁ φ₂ : FTy}
    (w : DotDims.WF (⟨2, ![M, K]⟩ : Shape) (⟨2, ![K, N]⟩ : Shape) (⟨2, ![M, N]⟩ : Shape) [1] [0] [0] [1] [] [])
    (prec : Option ContractPrecision) (A : FVec Ideal ⟨2, ![M, K]⟩ φ₁) (B : FVec Ideal ⟨2, ![K, N]⟩ φ₂)
    (a : Fin M) (b : Fin N) :
    matmul (⟨[1], [0], [0], [1], [], [], w⟩ : DotDims _ _ _) prec A B (constant (F := Ideal) ⟨2, ![M, N]⟩ .f32 0x00000000#32) (ix2 a b)
      = ∑ c : Fin K, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims (⟨2, ![M, K]⟩ : Shape) (⟨2, ![K, N]⟩ : Shape) (⟨2, ![M, N]⟩ : Shape)) K rfl rfl).symm]
  refine Finset.sum_congr rfl fun c _ => ?_
  have c2 := contrEquiv1_symm_val (⟨[1], [0], [0], [1], [], [], w⟩ : DotDims (⟨2, ![M, K]⟩ : Shape) (⟨2, ![K, N]⟩ : Shape) (⟨2, ![M, N]⟩ : Shape)) K rfl rfl c
  have l2 : (⟨[1], [0], [0], [1], [], [], w⟩ : DotDims (⟨2, ![M, K]⟩ : Shape) (⟨2, ![K, N]⟩ : Shape) (⟨2, ![M, N]⟩ : Shape)).lhsIdx (ix2 a b)
      ((contrEquiv1 _ K rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims (⟨2, ![M, K]⟩ : Shape) (⟨2, ![K, N]⟩ : Shape) (⟨2, ![M, N]⟩ : Shape)).rhsIdx (ix2 a b)
      ((contrEquiv1 _ K rfl rfl).symm c) = ix2 c b := by
    funext ax; apply Fin.ext
    match ax with
    | ⟨0, _⟩ => simp [DotDims.rhsIdx]; exact c2
    | ⟨1, _⟩ => simp [DotDims.rhsIdx]; rfl
  rw [l2, r2]

end Cert.KernelIdeal.Pay

end
-- ==== Proof.AttnPayScore.lean ====
/-
  The scores of one key tile. The attention body holds a block of 1024 query rows and a tile of 512 key rows, each
  of 128 lanes: two heads of 64 lanes. A head's score of query row r against key row k is the inner product of the
  two rows over the head's 64 lanes, times 1/8. The body's score matrices, read at (r, k), are these numbers.
-/
import proofs.«180034_j81982335746566_2_alg».proof.Proof.Gen.KernelIdeal.Skeleton
import proofs.«180034_j81982335746566_2_alg».proof.Proof.AttnPayLayout
import proofs.«180034_j81982335746566_2_alg».proof.Proof.LibDotLastAxes

set_option maxRecDepth 16384

noncomputable section

open scoped BigOperators

namespace Cert.KernelIdeal.Pay

open Cert.KernelIdeal Cert.KernelIdeal.Gen
open Idealize.ShloMosaic Idealize.ShloMosaic.ValueIdx

/-- Lane `d` of the block's head `hb` (the block's 128 lanes are two heads of 64). -/
def blkLane (hb : Fin 2) (d : Fin 64) : Fin 128 := ⟨64 * hb.val + d.val, by omega⟩

/-- The score of query row `r` against key row `k` in the block's head `hb`: the inner product over the head's
    64 lanes, times the constant the body multiplies by (the binary32 word of 1/8). -/
def tileScore (hb : Fin 2) (xq : Vec Ideal S1x1024x128 .bf16) (xk : Vec Ideal S1x512x128 .bf16) (r : Fin 1024)
    (k : Fin 512) : EReal :=
  (∑ d : Fin 64, xq (ix3 0 r (blkLane hb d)) * xk (ix3 0 k (blkLane hb d))) * Ideal.ofBits .f32 0x3E000000#32

/-- The query block with its unit axis dropped, at (r, l). -/
theorem pay11_apply (xq : Vec Ideal S1x1024x128 .bf16) (r : Fin 1024) (l : Fin 128) :
    k3_pay11 (F := Ideal) xq (ix2 r l) = xq (ix3 0 r l) := by
  unfold k3_pay11
  exact shapeCast_1ab_ab_apply xq _ r l

/-- The key tile with its unit axis dropped, at (k, l). -/
theorem pay12_apply (xk : Vec Ideal S1x512x128 .bf16) (k : Fin 512) (l : Fin 128) :
    k3_pay12 (F := Ideal) xk (ix2 k l) = xk (ix3 0 k l) := by
  unfold k3_pay12
  exact shapeCast_1ab_ab_apply xk _ k l

/-- The value tile with its unit axis dropped, at (k, l). -/
theorem pay13_apply (xv : Vec Ideal S1x512x128 .bf16) (k : Fin 512) (l : Fin 128) :
    k3_pay13 (F := Ideal) xv (ix2 k l) = xv (ix3 0 k l) := by
  unfold k3_pay13
  exact shapeCast_1ab_ab_apply xv _ k l

/-- The first head's values: lanes 0…63 of the value tile. -/
theorem pay14_apply (xv : Vec Ideal S1x512x128 .bf16) (k : Fin 512) (d : Fin 64) :
    k3_pay14 (F := Ideal) xv (ix2 k d) = xv (ix3 0 k (blkLane 0 d)) := by
  unfold k3_pay14
  refine (slice2_axis1_apply 0 _ _ k d (blkLane 0 d) ?_).trans (pay13_apply xv k _)
  show 64 * 0 + d.val = 0 + d.val
  omega

/-- The first head's score matrix at (r, k). -/
theorem pay15_apply (xq : Vec Ideal S1x1024x128 .bf16) (xk : Vec Ideal S1x512x128 .bf16) (r : Fin 1024) (k : Fin 512) :
    k3_pay15 (F := Ideal) xq xk (ix2 r k) = tileScore 0 xq xk r k := by
  unfold k3_pay15 tileScore
  show (matmul (F := Ideal) dot_S1024x64_S512x64_S1024x512_1_1_0_0_n_n none
      (extractStridedSlice S1024x64 ![0, 0] (k3_pay11 xq) _) (extractStridedSlice S512x64 ![0, 0] (k3_pay12 xk) _)
      (constant (F := Ideal) S1024x512 .f32 0x00000000#32)) (ix2 r k) * Ideal.ofBits .f32 0x3E000000#32 = _
  refine congrArg (· * Ideal.ofBits .f32 0x3E000000#32) ?_
  refine (DotLastAxes.matmul_zero_apply _ none _ _ r k).trans ?_
  refine Finset.sum_congr rfl fun d _ => ?_
  refine congrArg₂ (· * ·) ?_ ?_
  · refine (slice2_axis1_apply 0 _ _ r d (blkLane 0 d) ?_).trans (pay11_apply xq r _)
    show 64 * 0 + d.val = 0 + d.val
    omega
  · refine (slice2_axis1_apply 0 _ _ k d (blkLane 0 d) ?_).trans (pay12_apply xk k _)
    show 64 * 0 + d.val = 0 + d.val
    omega

/-- The second head's score matrix at (r, k). -/
theorem pay23_apply (xq : Vec Ideal S1x1024x128 .bf16) (xk : Vec Ideal S1x512x128 .bf16) (r : Fin 1024) (k : Fin 512) :
    k3_pay23 (F := Ideal) (k3_pay11 xq) (k3_pay12 xk) (ix2 r k) = tileScore 1 xq xk r k := by
  unfold k3_pay23 tileScore
  show (matmul (F := Ideal) dot_S1024x64_S512x64_S1024x512_1_1_0_0_n_n none
      (extractStridedSlice S1024x64 ![0, 64] (k3_pay11 xq) _) (extractStridedSlice S512x64 ![0, 64] (k3_pay12 xk) _)
      (constant (F := Ideal) S1024x512 .f32 0x00000000#32)) (ix2 r k) * Ideal.ofBits .f32 0x3E000000#32 = _
  refine congrArg (· * Ideal.ofBits .f32 0x3E000000#32) ?_
  refine (DotLastAxes.matmul_zero_apply _ none _ _ r k).trans ?_
  refine Finset.sum_congr rfl fun d _ => ?_
  refine congrArg₂ (· * ·) ?_ ?_
  · refine (slice2_axis1_apply 64 _ _ r d (blkLane 1 d) ?_).trans (pay11_apply xq r _)
    show 64 * 1 + d.val = 64 + d.val
    omega
  · refine (slice2_axis1_apply 64 _ _ k d (blkLane 1 d) ?_).trans (pay12_apply xk k _)
    show 64 * 1 + d.val = 64 + d.val
    omega

end Cert.KernelIdeal.Pay

end
-- ==== Proof.LibOnlineSoftmax.lean ====
import Idealize.ShloMosaic.PureOps.Ideal

/-!
# The online softmax recurrence computes the plain softmax-weighted sum

A row of finite scores is read in `J` tiles of `K` scores each.  A state
`(m, l, a)` — running maximum, running normaliser, running weighted sum — starts at
`(⊥, 0, 0)` and is updated tile by tile: the maximum is raised to cover the new tile, the
old normaliser and weighted sum are rescaled by `exp (m - m')`, and the new tile's terms
`exp (e k - m')` (times the value `h k` for the weighted sum) are added.  After all the
tiles, `m` is the maximum of the whole row, `l` is `∑ exp (e - max)`, and `a / l` is the
softmax-weighted sum `∑ (exp (e - max) / l) * h`.

Everything is stated on the extended reals, with the exponential that sends `⊥` to `0`,
so that the empty history contributes nothing to the first tile.
-/

noncomputable section

namespace Cert.Online

open Idealize.ShloMosaic
open scoped BigOperators

/-- One tile's update of (running maximum, running normaliser, running weighted sum). -/
def upd {K : ℕ} (e h : Fin K → EReal) (s : EReal × EReal × EReal) : EReal × EReal × EReal :=
  (max s.1 ((Finset.univ : Finset (Fin K)).fold max ⊥ e),
   Ideal.exp (s.1 - max s.1 ((Finset.univ : Finset (Fin K)).fold max ⊥ e)) * s.2.1 + ∑ k : Fin K, Ideal.exp (e k - max s.1 ((Finset.univ : Finset (Fin K)).fold max ⊥ e)),
   Ideal.exp (s.1 - max s.1 ((Finset.univ : Finset (Fin K)).fold max ⊥ e)) * s.2.2 + ∑ k : Fin K, Ideal.exp (e k - max s.1 ((Finset.univ : Finset (Fin K)).fold max ⊥ e)) * h k)

/-- The state after the first n tiles. -/
def after {J K : ℕ} (e h : Fin J → Fin K → EReal) : (n : ℕ) → n ≤ J → EReal × EReal × EReal
  | 0, _ => (⊥, 0, 0)
  | n + 1, hn => upd (e ⟨n, hn⟩) (h ⟨n, hn⟩) (after e h n (Nat.le_of_succ_le hn))

/-- The coercion of the reals into the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The coercion of the reals into the extended reals commutes with binary maxima. -/
theorem coe_max (x y : ℝ) : ((max x y : ℝ) : EReal) = max (x : EReal) (y : EReal) :=
  EReal.coe_strictMono.monotone.map_max

/-- A maximum folded from `⊥` over a finite set is that set's supremum. -/
theorem fold_max_eq_sup {ι : Type*} (s : Finset ι) (f : ι → EReal) : s.fold max ⊥ f = s.sup f := rfl

/-- The supremum in the extended reals of finitely many reals, at least one, is a real. -/
theorem exists_coe_eq_sup {ι : Type*} (s : Finset ι) (hs : s.Nonempty) (f : ι → ℝ) :
    ∃ m : ℝ, (m : EReal) = s.sup (fun i => (f i : EReal)) := by
  obtain ⟨i, _, hi⟩ := Finset.exists_mem_eq_sup s hs (fun i => (f i : EReal))
  exact ⟨f i, hi.symm⟩

/-- One tile's update of a state of three reals, the tile's scores and values being real and
    `T` the tile's maximum: the new state is again three reals, given by the same formulas
    read in the reals. -/
theorem upd_coe {K : ℕ} (e h : Fin K → ℝ) (M l a T : ℝ)
    (hT : (T : EReal) = (Finset.univ : Finset (Fin K)).sup (fun k => (e k : EReal))) :
    upd (fun k => (e k : EReal)) (fun k => (h k : EReal)) ((M : EReal), (l : EReal), (a : EReal))
      = (((max M T : ℝ) : EReal),
         ((Real.exp (M - max M T) * l + ∑ k, Real.exp (e k - max M T) : ℝ) : EReal),
         ((Real.exp (M - max M T) * a + ∑ k, Real.exp (e k - max M T) * h k : ℝ) : EReal)) := by
  have hmax : max (M : EReal) ((Finset.univ : Finset (Fin K)).fold max ⊥ (fun k => (e k : EReal)))
      = ((max M T : ℝ) : EReal) := by
    rw [fold_max_eq_sup, ← hT, coe_max]
  simp only [upd, hmax, ← EReal.coe_sub, Ideal.exp_coe, ← EReal.coe_mul, ← coe_sum, ← EReal.coe_add]

/-- The first tile's update, from the empty history `(⊥, 0, 0)`: the rescaling factor is
    `exp ⊥ = 0`, and the state becomes the tile's own maximum, normaliser and weighted sum. -/
theorem upd_bot {K : ℕ} (e h : Fin K → ℝ) (T : ℝ)
    (hT : (T : EReal) = (Finset.univ : Finset (Fin K)).sup (fun k => (e k : EReal))) :
    upd (fun k => (e k : EReal)) (fun k => (h k : EReal)) (⊥, 0, 0)
      = ((T : EReal), ((∑ k, Real.exp (e k - T) : ℝ) : EReal),
         ((∑ k, Real.exp (e k - T) * h k : ℝ) : EReal)) := by
  have hmax : max (⊥ : EReal) ((Finset.univ : Finset (Fin K)).fold max ⊥ (fun k => (e k : EReal)))
      = (T : EReal) := by
    rw [fold_max_eq_sup, ← hT, max_bot_left]
  simp only [upd, hmax, EReal.bot_sub, Ideal.exp_bot, zero_mul, zero_add, ← EReal.coe_sub,
    Ideal.exp_coe, ← EReal.coe_mul, ← coe_sum]

/-- The exponential rescaling of one term when the reference maximum moves from `M` to `M'`. -/
theorem exp_rescale (M M' x : ℝ) : Real.exp (M - M') * Real.exp (x - M) = Real.exp (x - M') := by
  rw [← Real.exp_add]; congr 1; ring

/-- The invariant of the recurrence.  After `n + 1` tiles of real scores and values the state
    is three reals: the maximum `M` of the scores read so far, the sum of `exp (e - M)` over
    them, and the sum of `exp (e - M) * h` over them. -/
theorem after_succ_coe {J K : ℕ} (hK : 0 < K) (e h : Fin J → Fin K → ℝ) :
    ∀ (n : ℕ) (hn : n + 1 ≤ J), ∃ M : ℝ,
      (M : EReal) = (Finset.univ.filter (fun j : Fin J => j.val < n + 1)).sup
          (fun j => (Finset.univ : Finset (Fin K)).sup (fun k => ((e j k : ℝ) : EReal)))
      ∧ after (fun j k => ((e j k : ℝ) : EReal)) (fun j k => ((h j k : ℝ) : EReal)) (n + 1) hn
        = ((M : EReal),
           ((∑ j ∈ Finset.univ.filter (fun j : Fin J => j.val < n + 1), ∑ k, Real.exp (e j k - M) : ℝ) : EReal),
           ((∑ j ∈ Finset.univ.filter (fun j : Fin J => j.val < n + 1), ∑ k, Real.exp (e j k - M) * h j k : ℝ) : EReal)) := by
  intro n
  induction n with
  | zero =>
    intro hn
    obtain ⟨T, hT⟩ := exists_coe_eq_sup Finset.univ ⟨⟨0, hK⟩, Finset.mem_univ _⟩ (e ⟨0, hn⟩)
    have hS : Finset.univ.filter (fun j : Fin J => j.val < 0 + 1) = {⟨0, hn⟩} := by
      ext j; simp [Fin.ext_iff]
    refine ⟨T, ?_, ?_⟩
    · rw [hS, Finset.sup_singleton]; exact hT
    · rw [hS, Finset.sum_singleton, Finset.sum_singleton]
      exact upd_bot (e ⟨0, hn⟩) (h ⟨0, hn⟩) T hT
  | succ n ih =>
    intro hn
    obtain ⟨M, hM, hA⟩ := ih (Nat.le_of_succ_le hn)
    obtain ⟨T, hT⟩ := exists_coe_eq_sup Finset.univ ⟨⟨0, hK⟩, Finset.mem_univ _⟩ (e ⟨n + 1, hn⟩)
    have hS : Finset.univ.filter (fun j : Fin J => j.val < n + 1 + 1)
        = insert ⟨n + 1, hn⟩ (Finset.univ.filter (fun j : Fin J => j.val < n + 1)) := by
      ext j; simp [Fin.ext_iff]; omega
    have hnot : (⟨n + 1, hn⟩ : Fin J) ∉ Finset.univ.filter (fun j : Fin J => j.val < n + 1) := by
      simp
    refine ⟨max M T, ?_, ?_⟩
    · rw [hS, Finset.sup_insert, ← hM, ← hT, coe_max, max_comm]
    · have step : after (fun j k => ((e j k : ℝ) : EReal)) (fun j k => ((h j k : ℝ) : EReal)) (n + 1 + 1) hn
          = upd (fun k => ((e ⟨n + 1, hn⟩ k : ℝ) : EReal)) (fun k => ((h ⟨n + 1, hn⟩ k : ℝ) : EReal))
              (after (fun j k => ((e j k : ℝ) : EReal)) (fun j k => ((h j k : ℝ) : EReal)) (n + 1)
                (Nat.le_of_succ_le hn)) := rfl
      rw [step, hA, upd_coe _ _ M _ _ T hT, hS, Finset.sum_insert hnot, Finset.sum_insert hnot]
      have e1 : Real.exp (M - max M T)
            * ∑ j ∈ Finset.univ.filter (fun j : Fin J => j.val < n + 1), ∑ k, Real.exp (e j k - M)
          = ∑ j ∈ Finset.univ.filter (fun j : Fin J => j.val < n + 1), ∑ k, Real.exp (e j k - max M T) := by
        rw [Finset.mul_sum]
        refine Finset.sum_congr rfl fun j _ => ?_
        rw [Finset.mul_sum]
        exact Finset.sum_congr rfl fun k _ => exp_rescale _ _ _
      have e2 : Real.exp (M - max M T)
            * ∑ j ∈ Finset.univ.filter (fun j : Fin J => j.val < n + 1), ∑ k, Real.exp (e j k - M) * h j k
          = ∑ j ∈ Finset.univ.filter (fun j : Fin J => j.val < n + 1), ∑ k, Real.exp (e j k - max M T) * h j k := by
        rw [Finset.mul_sum]
        refine Finset.sum_congr rfl fun j _ => ?_
        rw [Finset.mul_sum]
        refine Finset.sum_congr rfl fun k _ => ?_
        rw [← mul_assoc, exp_rescale]
      rw [e1, e2, add_comm (∑ j ∈ _, ∑ k, Real.exp (e j k - max M T)),
        add_comm (∑ j ∈ _, ∑ k, Real.exp (e j k - max M T) * h j k)]

/-- **The online softmax recurrence is the plain softmax.**  For `J ≥ 1` tiles of `K ≥ 1` real
    scores `e j k` with real values `h j k`, the state `(m, l, a)` after all `J` tiles satisfies:
    `m` is the maximum of all the scores; `l` is the sum over all scores of `exp (e - m)`; and the
    quotient `a / l` is the softmax-weighted sum of the values, `∑ (exp (e - m) / l) * h`. -/
theorem after_all {J K : ℕ} (hJ : 0 < J) (hK : 0 < K) (e h : Fin J → Fin K → ℝ) :
    (after (fun j k => ((e j k : ℝ) : EReal)) (fun j k => ((h j k : ℝ) : EReal)) J le_rfl).1
        = (Finset.univ : Finset (Fin J)).sup (fun j => (Finset.univ : Finset (Fin K)).sup (fun k => ((e j k : ℝ) : EReal)))
    ∧ (after (fun j k => ((e j k : ℝ) : EReal)) (fun j k => ((h j k : ℝ) : EReal)) J le_rfl).2.1
        = ∑ j : Fin J, ∑ k : Fin K, Ideal.exp (((e j k : ℝ) : EReal) - (Finset.univ : Finset (Fin J)).sup (fun j => (Finset.univ : Finset (Fin K)).sup (fun k => ((e j k : ℝ) : EReal))))
    ∧ Ideal.div (after (fun j k => ((e j k : ℝ) : EReal)) (fun j k => ((h j k : ℝ) : EReal)) J le_rfl).2.2 (after (fun j k => ((e j k : ℝ) : EReal)) (fun j k => ((h j k : ℝ) : EReal)) J le_rfl).2.1
        = ∑ j : Fin J, ∑ k : Fin K, Ideal.div (Ideal.exp (((e j k : ℝ) : EReal) - (Finset.univ : Finset (Fin J)).sup (fun j => (Finset.univ : Finset (Fin K)).sup (fun k => ((e j k : ℝ) : EReal))))) (∑ j : Fin J, ∑ k : Fin K, Ideal.exp (((e j k : ℝ) : EReal) - (Finset.univ : Finset (Fin J)).sup (fun j => (Finset.univ : Finset (Fin K)).sup (fun k => ((e j k : ℝ) : EReal))))) * ((h j k : ℝ) : EReal) := by
  obtain ⟨n, rfl⟩ : ∃ n, J = n + 1 := ⟨J - 1, by omega⟩
  obtain ⟨M, hM, hA⟩ := after_succ_coe hK e h n le_rfl
  have hS : Finset.univ.filter (fun j : Fin (n + 1) => j.val < n + 1) = Finset.univ :=
    Finset.filter_true_of_mem fun j _ => j.isLt
  rw [hS] at hM hA
  rw [hA, ← hM]
  -- the normaliser is a positive real
  have hl : (0 : ℝ) < ∑ j : Fin (n + 1), ∑ k : Fin K, Real.exp (e j k - M) := by
    haveI : Nonempty (Fin K) := ⟨⟨0, hK⟩⟩
    exact Finset.sum_pos (fun j _ => Finset.sum_pos (fun k _ => Real.exp_pos _) Finset.univ_nonempty)
      Finset.univ_nonempty
  have hsum : ∑ j : Fin (n + 1), ∑ k : Fin K, Ideal.exp (((e j k : ℝ) : EReal) - (M : EReal))
      = ((∑ j : Fin (n + 1), ∑ k : Fin K, Real.exp (e j k - M) : ℝ) : EReal) := by
    simp only [← EReal.coe_sub, Ideal.exp_coe, ← coe_sum]
  refine ⟨rfl, hsum.symm, ?_⟩
  rw [hsum]
  simp only [Ideal.div_coe hl.ne', ← EReal.coe_sub, Ideal.exp_coe, ← EReal.coe_mul, ← coe_sum]
  congr 1
  rw [Finset.sum_mul]
  refine Finset.sum_congr rfl fun j _ => ?_
  rw [Finset.sum_mul]
  refine Finset.sum_congr rfl fun k _ => ?_
  ring

end Cert.Online
-- ==== Proof.AttnPayHead0.lean ====
/-
  One key tile's update of a query row's running maximum, normaliser and weighted sum, first head (lanes 0…63).
  The new maximum is the old one raised by the tile's largest score; the old normaliser and weighted sum are rescaled
  by exp(old maximum − new maximum); the tile's terms exp(score − new maximum), times the value for the weighted sum,
  are added. Read at a row (and a lane of the head) the body's payloads are exactly this update.
-/
import proofs.«180034_j81982335746566_2_alg».proof.Proof.AttnPayScore
import proofs.«180034_j81982335746566_2_alg».proof.Proof.LibOnlineSoftmax

set_option maxRecDepth 16384

noncomputable section

open scoped BigOperators

namespace Cert.KernelIdeal.Pay

open Cert.KernelIdeal Cert.KernelIdeal.Gen
open Idealize.ShloMosaic Idealize.ShloMosaic.ValueIdx

/-- The new running maximum of row `r`: the old one raised by the largest score of the tile. -/
theorem h0_max_apply (xq : Vec Ideal S1x1024x128 .bf16) (xk : Vec Ideal S1x512x128 .bf16) (m : Vec Ideal S1024x1 .f32) (r : Fin 1024) :
    k3_pay16 (F := Ideal) xq xk m (ix2 r (0 : Fin 1))
      = max (m (ix2 r (0 : Fin 1))) ((Finset.univ : Finset (Fin 512)).fold max ⊥ fun k => tileScore 0 xq xk r k) := by
  unfold k3_pay16
  show max (m (ix2 r (0 : Fin 1)))
    (shapeCast S1024x1 (multiReduction (F := Ideal) .maximumf [1] S1024 (k3_pay15 xq xk) 0xFF800000#32 _ _ _) _ (ix2 r (0 : Fin 1))) = _
  refine congrArg (max (m (ix2 r (0 : Fin 1)))) ?_
  refine (colCast_apply _ _ r 0).trans ?_
  refine (rowMax_apply _ _ _ _ r).trans ?_
  exact congrArg (fun f : Fin 512 → EReal => (Finset.univ : Finset (Fin 512)).fold max ⊥ f)
    (funext fun k => pay15_apply xq xk r k)

/-- The rescaling factor of row `r`: exp(old maximum − new maximum). -/
theorem h0_alpha_apply (xq : Vec Ideal S1x1024x128 .bf16) (xk : Vec Ideal S1x512x128 .bf16) (m : Vec Ideal S1024x1 .f32) (r : Fin 1024) :
    k3_pay17 (F := Ideal) xq xk m (ix2 r (0 : Fin 1))
      = Ideal.exp (m (ix2 r (0 : Fin 1)) - k3_pay16 xq xk m (ix2 r (0 : Fin 1))) := by
  unfold k3_pay17
  rfl

/-- The tile's exponentials at (r, k): exp(score − new maximum of row r). -/
theorem h0_p_apply (xq : Vec Ideal S1x1024x128 .bf16) (xk : Vec Ideal S1x512x128 .bf16) (m : Vec Ideal S1024x1 .f32) (r : Fin 1024) (k : Fin 512) :
    k3_pay18 (F := Ideal) xq xk m (ix2 r k)
      = Ideal.exp (tileScore 0 xq xk r k - k3_pay16 xq xk m (ix2 r (0 : Fin 1))) := by
  unfold k3_pay18
  show Ideal.exp (k3_pay15 xq xk (ix2 r k) - broadcastTo S1024x512 (k3_pay16 xq xk m) _ (ix2 r k)) = _
  exact congrArg Ideal.exp (congrArg₂ (· - ·) (pay15_apply xq xk r k) (colBroadcast_apply _ _ r k))

/-- The new running normaliser of row `r`: the old one rescaled, plus the sum of the tile's exponentials. -/
theorem h0_norm_apply (xq : Vec Ideal S1x1024x128 .bf16) (xk : Vec Ideal S1x512x128 .bf16) (m : Vec Ideal S1024x1 .f32) (l : Vec Ideal S1024x1 .f32) (r : Fin 1024) :
    k3_pay19 (F := Ideal) xq xk m l (ix2 r (0 : Fin 1))
      = k3_pay17 xq xk m (ix2 r (0 : Fin 1)) * l (ix2 r (0 : Fin 1)) + ∑ k : Fin 512, k3_pay18 xq xk m (ix2 r k) := by
  unfold k3_pay19
  refine (congrFun (shapeCast_self _ _) _).trans ?_
  show k3_pay17 xq xk m (ix2 r (0 : Fin 1)) * l (ix2 r (0 : Fin 1))
    + shapeCast S1024x1 (multiReduction (F := Ideal) .add [1] S1024 (k3_pay18 xq xk m) 0x00000000#32 _ _ _) _ (ix2 r (0 : Fin 1)) = _
  refine congrArg (k3_pay17 xq xk m (ix2 r (0 : Fin 1)) * l (ix2 r (0 : Fin 1)) + ·) ?_
  exact (colCast_apply _ _ r 0).trans (rowSum_apply _ _ _ _ r)

/-- The new running weighted sum of row `r` on lane `d` of the head: the old one rescaled, plus the sum over the
    tile of exponential times value. -/
theorem h0_acc_apply (xq : Vec Ideal S1x1024x128 .bf16) (xk : Vec Ideal S1x512x128 .bf16) (m : Vec Ideal S1024x1 .f32) (xv : Vec Ideal S1x512x128 .bf16) (a : Vec Ideal S1024x64 .f32) (r : Fin 1024) (d : Fin 64) :
    k3_pay21 (F := Ideal) (k3_pay14 xv) (k3_pay17 xq xk m) (k3_pay20 xq xk m) a (ix2 r d)
      = k3_pay17 xq xk m (ix2 r (0 : Fin 1)) * a (ix2 r d)
        + ∑ k : Fin 512, k3_pay18 xq xk m (ix2 r k) * xv (ix3 0 k (blkLane 0 d)) := by
  unfold k3_pay21
  refine (congrFun (shapeCast_self _ _) _).trans ?_
  show broadcastTo S1024x64 (k3_pay17 xq xk m) _ (ix2 r d) * a (ix2 r d)
    + matmul (F := Ideal) dot_S1024x512_S512x64_S1024x64_1_0_0_1_n_n none (k3_pay20 xq xk m) (k3_pay14 xv)
        (constant (F := Ideal) S1024x64 .f32 0x00000000#32) (ix2 r d) = _
  refine congrArg₂ (· + ·) (congrArg (· * a (ix2 r d)) (colBroadcast_apply _ _ r d)) ?_
  refine (plainDot_zero_apply _ none _ _ r d).trans ?_
  exact Finset.sum_congr rfl fun k _ => congrArg₂ (· * ·) rfl (pay14_apply xv k d)

/-- **One key tile's update of row `r`, first head.** The maximum, normaliser and weighted sum the body stores
    are the online-softmax update of the ones it loaded, by the tile's scores of the row and the tile's values on
    lane `d`. -/
theorem head0_upd (xq : Vec Ideal S1x1024x128 .bf16) (xk : Vec Ideal S1x512x128 .bf16) (m : Vec Ideal S1024x1 .f32) (xv : Vec Ideal S1x512x128 .bf16) (l : Vec Ideal S1024x1 .f32) (a : Vec Ideal S1024x64 .f32)
    (r : Fin 1024) (d : Fin 64) :
    (k3_pay22 (F := Ideal) (k3_pay16 xq xk m) (ix2 r (0 : Fin 1)), k3_pay19 (F := Ideal) xq xk m l (ix2 r (0 : Fin 1)),
      k3_pay21 (F := Ideal) (k3_pay14 xv) (k3_pay17 xq xk m) (k3_pay20 xq xk m) a (ix2 r d))
      = Cert.Online.upd (fun k : Fin 512 => tileScore 0 xq xk r k) (fun k => xv (ix3 0 k (blkLane 0 d)))
          (m (ix2 r (0 : Fin 1)), l (ix2 r (0 : Fin 1)), a (ix2 r d)) := by
  have h22 : k3_pay22 (F := Ideal) (k3_pay16 xq xk m) (ix2 r (0 : Fin 1)) = k3_pay16 xq xk m (ix2 r (0 : Fin 1)) := by
    unfold k3_pay22
    exact congrFun (shapeCast_self _ _) _
  rw [h22, h0_norm_apply, h0_acc_apply, h0_alpha_apply]
  simp only [h0_p_apply, h0_max_apply]
  rfl

end Cert.KernelIdeal.Pay

end
-- ==== Proof.AttnPayHead1.lean ====
/-
  One key tile's update of a query row's running maximum, normaliser and weighted sum, second head (lanes 64…127).
  The new maximum is the old one raised by the tile's largest score; the old normaliser and weighted sum are rescaled
  by exp(old maximum − new maximum); the tile's terms exp(score − new maximum), times the value for the weighted sum,
  are added. Read at a row (and a lane of the head) the body's payloads are exactly this update.
-/
import proofs.«180034_j81982335746566_2_alg».proof.Proof.AttnPayScore
import proofs.«180034_j81982335746566_2_alg».proof.Proof.LibOnlineSoftmax

set_option maxRecDepth 16384

noncomputable section

open scoped BigOperators

namespace Cert.KernelIdeal.Pay

open Cert.KernelIdeal Cert.KernelIdeal.Gen
open Idealize.ShloMosaic Idealize.ShloMosaic.ValueIdx

/-- The new running maximum of row `r`: the old one raised by the largest score of the tile. -/
theorem h1_max_apply (xq : Vec Ideal S1x1024x128 .bf16) (xk : Vec Ideal S1x512x128 .bf16) (m : Vec Ideal S1024x1 .f32) (r : Fin 1024) :
    k3_pay24 (F := Ideal) (k3_pay11 xq) (k3_pay12 xk) m (ix2 r (0 : Fin 1))
      = max (m (ix2 r (0 : Fin 1))) ((Finset.univ : Finset (Fin 512)).fold max ⊥ fun k => tileScore 1 xq xk r k) := by
  unfold k3_pay24
  show max (m (ix2 r (0 : Fin 1)))
    (shapeCast S1024x1 (multiReduction (F := Ideal) .maximumf [1] S1024 (k3_pay23 (k3_pay11 xq) (k3_pay12 xk)) 0xFF800000#32 _ _ _) _ (ix2 r (0 : Fin 1))) = _
  refine congrArg (max (m (ix2 r (0 : Fin 1)))) ?_
  refine (colCast_apply _ _ r 0).trans ?_
  refine (rowMax_apply _ _ _ _ r).trans ?_
  exact congrArg (fun f : Fin 512 → EReal => (Finset.univ : Finset (Fin 512)).fold max ⊥ f)
    (funext fun k => pay23_apply xq xk r k)

/-- The rescaling factor of row `r`: exp(old maximum − new maximum). -/
theorem h1_alpha_apply (xq : Vec Ideal S1x1024x128 .bf16) (xk : Vec Ideal S1x512x128 .bf16) (m : Vec Ideal S1024x1 .f32) (r : Fin 1024) :
    k3_pay25 (F := Ideal) (k3_pay11 xq) (k3_pay12 xk) m (ix2 r (0 : Fin 1))
      = Ideal.exp (m (ix2 r (0 : Fin 1)) - k3_pay24 (k3_pay11 xq) (k3_pay12 xk) m (ix2 r (0 : Fin 1))) := by
  unfold k3_pay25
  rfl

/-- The tile's exponentials at (r, k): exp(score − new maximum of row r). -/
theorem h1_p_apply (xq : Vec Ideal S1x1024x128 .bf16) (xk : Vec Ideal S1x512x128 .bf16) (m : Vec Ideal S1024x1 .f32) (r : Fin 1024) (k : Fin 512) :
    k3_pay26 (F := Ideal) (k3_pay11 xq) (k3_pay12 xk) m (ix2 r k)
      = Ideal.exp (tileScore 1 xq xk r k - k3_pay24 (k3_pay11 xq) (k3_pay12 xk) m (ix2 r (0 : Fin 1))) := by
  unfold k3_pay26
  show Ideal.exp (k3_pay23 (k3_pay11 xq) (k3_pay12 xk) (ix2 r k) - broadcastTo S1024x512 (k3_pay24 (k3_pay11 xq) (k3_pay12 xk) m) _ (ix2 r k)) = _
  exact congrArg Ideal.exp (congrArg₂ (· - ·) (pay23_apply xq xk r k) (colBroadcast_apply _ _ r k))

/-- The new running normaliser of row `r`: the old one rescaled, plus the sum of the tile's exponentials. -/
theorem h1_norm_apply (xq : Vec Ideal S1x1024x128 .bf16) (xk : Vec Ideal S1x512x128 .bf16) (m : Vec Ideal S1024x1 .f32) (l : Vec Ideal S1024x1 .f32) (r : Fin 1024) :
    k3_pay27 (F := Ideal) (k3_pay11 xq) (k3_pay12 xk) m l (ix2 r (0 : Fin 1))
      = k3_pay25 (k3_pay11 xq) (k3_pay12 xk) m (ix2 r (0 : Fin 1)) * l (ix2 r (0 : Fin 1)) + ∑ k : Fin 512, k3_pay26 (k3_pay11 xq) (k3_pay12 xk) m (ix2 r k) := by
  unfold k3_pay27
  refine (congrFun (shapeCast_self _ _) _).trans ?_
  show k3_pay25 (k3_pay11 xq) (k3_pay12 xk) m (ix2 r (0 : Fin 1)) * l (ix2 r (0 : Fin 1))
    + shapeCast S1024x1 (multiReduction (F := Ideal) .add [1] S1024 (k3_pay26 (k3_pay11 xq) (k3_pay12 xk) m) 0x00000000#32 _ _ _) _ (ix2 r (0 : Fin 1)) = _
  refine congrArg (k3_pay25 (k3_pay11 xq) (k3_pay12 xk) m (ix2 r (0 : Fin 1)) * l (ix2 r (0 : Fin 1)) + ·) ?_
  exact (colCast_apply _ _ r 0).trans (rowSum_apply _ _ _ _ r)

/-- The tile's exponentials times the head's values, summed over the tile, at row `r` and lane `d` of the head. -/
theorem h1_pv_apply (xq : Vec Ideal S1x1024x128 .bf16) (xk : Vec Ideal S1x512x128 .bf16) (m : Vec Ideal S1024x1 .f32) (xv : Vec Ideal S1x512x128 .bf16) (r : Fin 1024) (d : Fin 64) :
    k3_pay28 (F := Ideal) (k3_pay11 xq) (k3_pay12 xk) (k3_pay13 xv) m (ix2 r d)
      = ∑ k : Fin 512, k3_pay26 (k3_pay11 xq) (k3_pay12 xk) m (ix2 r k) * xv (ix3 0 k (blkLane 1 d)) := by
  unfold k3_pay28
  show matmul (F := Ideal) dot_S1024x512_S512x64_S1024x64_1_0_0_1_n_n none
      (truncf .bf16 (k3_pay26 (k3_pay11 xq) (k3_pay12 xk) m) _) (extractStridedSlice S512x64 ![0, 64] (k3_pay13 xv) _)
      (constant (F := Ideal) S1024x64 .f32 0x00000000#32) (ix2 r d) = _
  refine (plainDot_zero_apply _ none _ _ r d).trans ?_
  refine Finset.sum_congr rfl fun k _ => congrArg₂ (· * ·) rfl ?_
  refine (slice2_axis1_apply 64 _ _ k d (blkLane 1 d) ?_).trans (pay13_apply xv k _)
  show 64 * 1 + d.val = 64 + d.val
  omega

/-- The new running weighted sum of row `r` on lane `d` of the head: the old one rescaled, plus the tile's sum of
    exponential times value. -/
theorem h1_acc_apply (xq : Vec Ideal S1x1024x128 .bf16) (xk : Vec Ideal S1x512x128 .bf16) (m : Vec Ideal S1024x1 .f32) (xv : Vec Ideal S1x512x128 .bf16) (a : Vec Ideal S1024x64 .f32) (r : Fin 1024) (d : Fin 64) :
    k3_pay1 (F := Ideal) (k3_pay25 (k3_pay11 xq) (k3_pay12 xk) m) (k3_pay28 (k3_pay11 xq) (k3_pay12 xk) (k3_pay13 xv) m) a (ix2 r d)
      = k3_pay25 (k3_pay11 xq) (k3_pay12 xk) m (ix2 r (0 : Fin 1)) * a (ix2 r d)
        + ∑ k : Fin 512, k3_pay26 (k3_pay11 xq) (k3_pay12 xk) m (ix2 r k) * xv (ix3 0 k (blkLane 1 d)) := by
  unfold k3_pay1
  refine (congrFun (shapeCast_self _ _) _).trans ?_
  show broadcastTo S1024x64 (k3_pay25 (k3_pay11 xq) (k3_pay12 xk) m) _ (ix2 r d) * a (ix2 r d)
    + k3_pay28 (k3_pay11 xq) (k3_pay12 xk) (k3_pay13 xv) m (ix2 r d) = _
  exact congrArg₂ (· + ·) (congrArg (· * a (ix2 r d)) (colBroadcast_apply _ _ r d)) (h1_pv_apply xq xk m xv r d)

/-- **One key tile's update of row `r`, second head.** The maximum, normaliser and weighted sum the body stores
    are the online-softmax update of the ones it loaded, by the tile's scores of the row and the tile's values on
    lane `d` of the head. -/
theorem head1_upd (xq : Vec Ideal S1x1024x128 .bf16) (xk : Vec Ideal S1x512x128 .bf16) (m : Vec Ideal S1024x1 .f32) (xv : Vec Ideal S1x512x128 .bf16) (l : Vec Ideal S1024x1 .f32) (a : Vec Ideal S1024x64 .f32)
    (r : Fin 1024) (d : Fin 64) :
    (k3_pay2 (F := Ideal) (k3_pay24 (k3_pay11 xq) (k3_pay12 xk) m) (ix2 r (0 : Fin 1)), k3_pay27 (F := Ideal) (k3_pay11 xq) (k3_pay12 xk) m l (ix2 r (0 : Fin 1)),
      k3_pay1 (F := Ideal) (k3_pay25 (k3_pay11 xq) (k3_pay12 xk) m) (k3_pay28 (k3_pay11 xq) (k3_pay12 xk) (k3_pay13 xv) m) a (ix2 r d))
      = Cert.Online.upd (fun k : Fin 512 => tileScore 1 xq xk r k) (fun k => xv (ix3 0 k (blkLane 1 d)))
          (m (ix2 r (0 : Fin 1)), l (ix2 r (0 : Fin 1)), a (ix2 r d)) := by
  have h2 : k3_pay2 (F := Ideal) (k3_pay24 (k3_pay11 xq) (k3_pay12 xk) m) (ix2 r (0 : Fin 1)) = k3_pay24 (k3_pay11 xq) (k3_pay12 xk) m (ix2 r (0 : Fin 1)) := by
    unfold k3_pay2
    exact congrFun (shapeCast_self _ _) _
  rw [h2, h1_norm_apply, h1_acc_apply, h1_alpha_apply]
  simp only [h1_p_apply, h1_max_apply]
  rfl

end Cert.KernelIdeal.Pay

end
-- ==== Proof.AttnPayEnds.lean ====
/-
  The attention body's reset values and outputs, read at an index. At the first key tile the running maximum is
  reset to −∞ and the running normaliser and weighted sum to 0; at the last key tile the output at row r, lane d
  of a head is the head's weighted sum divided by its normaliser.
-/
import proofs.«180034_j81982335746566_2_alg».proof.Proof.Gen.KernelIdeal.Skeleton
import proofs.«180034_j81982335746566_2_alg».proof.Proof.AttnPayLayout

set_option maxRecDepth 16384

noncomputable section

namespace Cert.KernelIdeal.Pay

open Cert.KernelIdeal Cert.KernelIdeal.Gen
open Idealize.ShloMosaic Idealize.ShloMosaic.ValueIdx

/-- The first head's running maximum is reset to −∞. -/
theorem pay5_apply (i : S1024x1.Idx) : k3_pay5 (F := Ideal) i = (⊥ : EReal) := by
  unfold k3_pay5
  show Ideal.ofBits .f32 0xFF800000#32 = ⊥
  exact ofBits_negInf

/-- The first head's running normaliser is reset to 0. -/
theorem pay6_apply (i : S1024x1.Idx) : k3_pay6 (F := Ideal) i = (0 : EReal) := by
  unfold k3_pay6
  show Ideal.ofBits .f32 0x00000000#32 = 0
  exact Ideal.ofBits_zero_f32

/-- The first head's running weighted sum is reset to 0. -/
theorem pay7_apply (i : S1024x64.Idx) : k3_pay7 (F := Ideal) i = (0 : EReal) := by
  unfold k3_pay7
  show Ideal.ofBits .f32 0x00000000#32 = 0
  exact Ideal.ofBits_zero_f32

/-- The second head's running maximum is reset to −∞. -/
theorem pay8_apply (i : S1024x1.Idx) : k3_pay8 (F := Ideal) i = (⊥ : EReal) := by
  unfold k3_pay8
  show Ideal.ofBits .f32 0xFF800000#32 = ⊥
  exact ofBits_negInf

/-- The second head's running normaliser is reset to 0. -/
theorem pay9_apply (i : S1024x1.Idx) : k3_pay9 (F := Ideal) i = (0 : EReal) := by
  unfold k3_pay9
  show Ideal.ofBits .f32 0x00000000#32 = 0
  exact Ideal.ofBits_zero_f32

/-- The second head's running weighted sum is reset to 0. -/
theorem pay10_apply (i : S1024x64.Idx) : k3_pay10 (F := Ideal) i = (0 : EReal) := by
  unfold k3_pay10
  show Ideal.ofBits .f32 0x00000000#32 = 0
  exact Ideal.ofBits_zero_f32

/-- The first head's output at row `r`, lane `d`: the weighted sum divided by the row's normaliser. -/
theorem pay3_apply (a : Vec Ideal S1024x64 .f32) (l : Vec Ideal S1024x1 .f32) (r : Fin 1024) (d : Fin 64) :
    k3_pay3 (F := Ideal) a l (ix3 (0 : Fin 1) r d) = Ideal.div (a (ix2 r d)) (l (ix2 r (0 : Fin 1))) := by
  unfold k3_pay3
  refine (shapeCast_ab_1ab_apply _ _ 0 r d).trans ?_
  show Ideal.div (a (ix2 r d)) (broadcastTo S1024x64 l _ (ix2 r d)) = _
  exact congrArg (Ideal.div (a (ix2 r d))) (colBroadcast_apply _ _ r d)

/-- The second head's output at row `r`, lane `d`: the weighted sum divided by the row's normaliser. -/
theorem pay4_apply (a : Vec Ideal S1024x64 .f32) (l : Vec Ideal S1024x1 .f32) (r : Fin 1024) (d : Fin 64) :
    k3_pay4 (F := Ideal) a l (ix3 (0 : Fin 1) r d) = Ideal.div (a (ix2 r d)) (l (ix2 r (0 : Fin 1))) := by
  unfold k3_pay4
  refine (shapeCast_ab_1ab_apply _ _ 0 r d).trans ?_
  show Ideal.div (a (ix2 r d)) (broadcastTo S1024x64 l _ (ix2 r d)) = _
  exact congrArg (Ideal.div (a (ix2 r d))) (colBroadcast_apply _ _ r d)

end Cert.KernelIdeal.Pay

end
-- ==== Proof.IdealAttnVal.lean ====
/-
  The attention stage, row by row. For a query row and an output lane, the three numbers the scratch buffers carry
  (running maximum and normaliser of the row, weighted sum on the lane) follow, along the row's run of eight key
  tiles, exactly the online-softmax recurrence over that row's scores and values — read from the arrays the stage
  was given: the scores are the scaled inner products of the row of Q with the rows of K over the head's 64 lanes,
  the values the entries of V on the lane.
-/
import proofs.«180034_j81982335746566_2_alg».proof.Proof.IdealAttnRows
import proofs.«180034_j81982335746566_2_alg».proof.Proof.AttnPayHead0
import proofs.«180034_j81982335746566_2_alg».proof.Proof.AttnPayHead1
import proofs.«180034_j81982335746566_2_alg».proof.Proof.AttnPayEnds
import proofs.«180034_j81982335746566_2_alg».proof.Proof.LibOnlineSoftmax

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx
open Cert.KernelIdeal

variable (V : (c : Dev nD) → (b : Ref sig .tc) → Buf (Elt Ideal) ((c : Thread nD τ).loc b)) (c : Dev nD)

/-- The head, of the eight, that is head `u` of point `t`'s pair. -/
def headAt (t : Fin cfg3.N) (u : Fin 2) : Fin 8 := ⟨2 * (t.val / 32 % 4) + u.val, by omega⟩

/-- Lane d of that head is lane 64u + d of the pair's block of 128 lanes. -/
theorem lane_at (t : Fin cfg3.N) (u : Fin 2) (d : Fin 64) : Cert.Spec.lane (headAt t u) d = plane (pairOf t) (Pay.blkLane u d) :=
  Fin.ext (by show 64 * (2 * (t.val / 32 % 4) + u.val) + d.val = 128 * (t.val / 32 % 4) + (64 * u.val + d.val); omega)

/-- The scores of query row r (of point t's query tile, head u of its pair) against the keys of point t's key tile. -/
def tileScores (t : Fin cfg3.N) (u : Fin 2) (r : Fin 1024) : Fin 512 → EReal :=
  fun k => Cert.Spec.score (V c main_v5) (V c main_v8) (batchOf t) (headAt t u) (qpos (qtileOf t) r) (kpos (ktileOf t) k)

/-- The values of point t's key tile on lane d of that head. -/
def tileVals (t : Fin cfg3.N) (u : Fin 2) (d : Fin 64) : Fin 512 → EReal :=
  fun k => (V c main_v11 : Cert.Spec.Seq) (ix3 (batchOf t) (kpos (ktileOf t) k) (Cert.Spec.lane (headAt t u) d))

/-- The score the body computes from the two staged tiles is the score of the arrays at their positions. -/
theorem score_tile (t : Fin cfg3.N) (u : Fin 2) (r : Fin 1024) (k : Fin 512) :
    Pay.tileScore u (tile3 V c 0 t) (tile3 V c 1 t) r k = tileScores V c t u r k := by
  unfold Pay.tileScore tileScores Cert.Spec.score
  congr 1
  refine Finset.sum_congr rfl fun d _ => ?_
  congr 1
  · refine (qtile_at (V c main_v5) t r (Pay.blkLane u d)).trans ?_
    rw [lane_at]
  · refine (ktile_at (V c main_v8) t k (Pay.blkLane u d)).trans ?_
    rw [lane_at]

/-- The value the body reads from the staged value tile is the array's at its position. -/
theorem val_tile (t : Fin cfg3.N) (u : Fin 2) (d : Fin 64) (k : Fin 512) :
    (tile3 V c 2 t) (ix3 0 k (Pay.blkLane u d)) = tileVals V c t u d k := by
  unfold tileVals
  refine (vtile_at (V c main_v11) t k (Pay.blkLane u d)).trans ?_
  rw [lane_at]

/-! ## Along a run -/

/-- Run g of the 32 (a batch, a head pair, a query tile), key tile j: the point. -/
def ptOf (g : Fin 32) (j : Fin 8) : Fin cfg3.N := ⟨8 * g.val + j.val, by have hN : cfg3.N = 256 := N_3; omega⟩
theorem inGrid (g : Fin 32) (j : ℕ) (hj : j < 8) : 8 * g.val + j < cfg3.N := by have hN : cfg3.N = 256 := N_3; omega

def runBatch (g : Fin 32) : Fin 2 := ⟨g.val / 16, by omega⟩
def runHead (g : Fin 32) (u : Fin 2) : Fin 8 := ⟨2 * (g.val / 4 % 4) + u.val, by omega⟩
def runQt (g : Fin 32) : Fin 4 := ⟨g.val % 4, by omega⟩

/-- The scores of a query row of run g against all 4096 keys, by key tile. -/
def runScores (g : Fin 32) (u : Fin 2) (r : Fin 1024) : Fin 8 → Fin 512 → EReal :=
  fun j k => Cert.Spec.score (V c main_v5) (V c main_v8) (runBatch g) (runHead g u) (qpos (runQt g) r) (kpos j k)

/-- The values on lane d of that head, by key tile. -/
def runVals (g : Fin 32) (u : Fin 2) (d : Fin 64) : Fin 8 → Fin 512 → EReal :=
  fun j k => (V c main_v11 : Cert.Spec.Seq) (ix3 (runBatch g) (kpos j k) (Cert.Spec.lane (runHead g u) d))

theorem batchOf_pt (g : Fin 32) (j : Fin 8) : batchOf (ptOf g j) = runBatch g :=
  Fin.ext (by show (8 * g.val + j.val) / 128 = g.val / 16; omega)
theorem headAt_pt (g : Fin 32) (j : Fin 8) (u : Fin 2) : headAt (ptOf g j) u = runHead g u :=
  Fin.ext (by show 2 * ((8 * g.val + j.val) / 32 % 4) + u.val = 2 * (g.val / 4 % 4) + u.val; omega)
theorem qtileOf_pt (g : Fin 32) (j : Fin 8) : qtileOf (ptOf g j) = runQt g :=
  Fin.ext (by show (8 * g.val + j.val) / 8 % 4 = g.val % 4; omega)
theorem ktileOf_pt (g : Fin 32) (j : Fin 8) : ktileOf (ptOf g j) = j :=
  Fin.ext (by show (8 * g.val + j.val) % 8 = j.val; omega)

theorem tileScores_run (g : Fin 32) (j : Fin 8) (u : Fin 2) (r : Fin 1024) :
    tileScores V c (ptOf g j) u r = runScores V c g u r j := by
  unfold tileScores runScores
  rw [batchOf_pt, headAt_pt, qtileOf_pt, ktileOf_pt]

theorem tileVals_run (g : Fin 32) (j : Fin 8) (u : Fin 2) (d : Fin 64) :
    tileVals V c (ptOf g j) u d = runVals V c g u d j := by
  unfold tileVals runVals
  rw [batchOf_pt, headAt_pt, ktileOf_pt]

/-- One key tile folded into a row of head 0 of the pair: the row's (maximum, normaliser, weighted sum on lane d) are
    updated by the online-softmax step with the row's scores against the tile's keys and the tile's values on that
    lane — both read from the arrays. -/
theorem fold0 (t : Fin cfg3.N) (s : Carry Ideal) (r : Fin 1024) (d : Fin 64) :
    ((step3 (tile3 V c 0 t) (tile3 V c 1 t) (tile3 V c 2 t) s).m0 (ix2 r (0 : Fin 1)),
     (step3 (tile3 V c 0 t) (tile3 V c 1 t) (tile3 V c 2 t) s).l0 (ix2 r (0 : Fin 1)),
     (step3 (tile3 V c 0 t) (tile3 V c 1 t) (tile3 V c 2 t) s).a0 (ix2 r d))
      = Cert.Online.upd (tileScores V c t 0 r) (tileVals V c t 0 d) (s.m0 (ix2 r (0 : Fin 1)), s.l0 (ix2 r (0 : Fin 1)), s.a0 (ix2 r d)) := by
  show (k3_pay22 (k3_pay16 (tile3 V c 0 t) (tile3 V c 1 t) s.m0) (ix2 r (0 : Fin 1)), k3_pay19 (tile3 V c 0 t) (tile3 V c 1 t) s.m0 s.l0 (ix2 r (0 : Fin 1)), k3_pay21 (k3_pay14 (tile3 V c 2 t)) (k3_pay17 (tile3 V c 0 t) (tile3 V c 1 t) s.m0) (k3_pay20 (tile3 V c 0 t) (tile3 V c 1 t) s.m0) s.a0 (ix2 r d)) = _
  rw [Pay.head0_upd]
  have e1 : (fun k : Fin 512 => Pay.tileScore 0 (tile3 V c 0 t) (tile3 V c 1 t) r k) = tileScores V c t 0 r :=
    funext fun k => score_tile V c t 0 r k
  have e2 : (fun k : Fin 512 => (tile3 V c 2 t) (ix3 0 k (Pay.blkLane 0 d))) = tileVals V c t 0 d :=
    funext fun k => val_tile V c t 0 d k
  rw [e1, e2]

/-- Along a run of key tiles: after tile j the row's state is the online-softmax recurrence over tiles 0 … j. -/
theorem rows0 (g : Fin 32) (r : Fin 1024) (d : Fin 64) : ∀ (j : ℕ) (hj : j < 8),
    ((carryAt V c (8 * g.val + j) (inGrid g j hj)).m0 (ix2 r (0 : Fin 1)),
     (carryAt V c (8 * g.val + j) (inGrid g j hj)).l0 (ix2 r (0 : Fin 1)),
     (carryAt V c (8 * g.val + j) (inGrid g j hj)).a0 (ix2 r d))
      = Cert.Online.after (runScores V c g 0 r) (runVals V c g 0 d) (j + 1) (by omega)
  | 0, hj => by
    have hs := carryAt_start V c (ptOf g ⟨0, hj⟩) (by show (8 * g.val + 0) % 8 = 0; omega)
    have hs' : carryAt V c (8 * g.val + 0) (inGrid g 0 hj) = step3 (tile3 V c 0 (ptOf g ⟨0, hj⟩)) (tile3 V c 1 (ptOf g ⟨0, hj⟩)) (tile3 V c 2 (ptOf g ⟨0, hj⟩)) init3 := hs
    rw [hs', fold0 V c (ptOf g ⟨0, hj⟩) init3 r d]
    rw [show (init3 (F := Ideal)).m0 (ix2 r (0 : Fin 1)) = ⊥ from Pay.pay5_apply (ix2 r (0 : Fin 1)),
      show (init3 (F := Ideal)).l0 (ix2 r (0 : Fin 1)) = 0 from Pay.pay6_apply (ix2 r (0 : Fin 1)),
      show (init3 (F := Ideal)).a0 (ix2 r d) = 0 from Pay.pay7_apply (ix2 r d)]
    rw [tileScores_run V c g ⟨0, hj⟩ 0 r, tileVals_run V c g ⟨0, hj⟩ 0 d]
    rfl
  | j + 1, hj => by
    have ih := rows0 g r d j (by omega)
    have hn := carryAt_next V c (ptOf g ⟨j + 1, hj⟩) (by show ¬(8 * g.val + (j + 1)) % 8 = 0; omega)
    have hn' : carryAt V c (8 * g.val + (j + 1)) (inGrid g (j + 1) hj) = step3 (tile3 V c 0 (ptOf g ⟨j + 1, hj⟩)) (tile3 V c 1 (ptOf g ⟨j + 1, hj⟩)) (tile3 V c 2 (ptOf g ⟨j + 1, hj⟩)) (carryAt V c (8 * g.val + j) (inGrid g j (by omega))) := hn
    rw [hn', fold0 V c (ptOf g ⟨j + 1, hj⟩) _ r d, ih]
    rw [tileScores_run V c g ⟨j + 1, hj⟩ 0 r, tileVals_run V c g ⟨j + 1, hj⟩ 0 d]
    rfl

/-- One key tile folded into a row of head 1 of the pair: the row's (maximum, normaliser, weighted sum on lane d) are
    updated by the online-softmax step with the row's scores against the tile's keys and the tile's values on that
    lane — both read from the arrays. -/
theorem fold1 (t : Fin cfg3.N) (s : Carry Ideal) (r : Fin 1024) (d : Fin 64) :
    ((step3 (tile3 V c 0 t) (tile3 V c 1 t) (tile3 V c 2 t) s).m1 (ix2 r (0 : Fin 1)),
     (step3 (tile3 V c 0 t) (tile3 V c 1 t) (tile3 V c 2 t) s).l1 (ix2 r (0 : Fin 1)),
     (step3 (tile3 V c 0 t) (tile3 V c 1 t) (tile3 V c 2 t) s).a1 (ix2 r d))
      = Cert.Online.upd (tileScores V c t 1 r) (tileVals V c t 1 d) (s.m1 (ix2 r (0 : Fin 1)), s.l1 (ix2 r (0 : Fin 1)), s.a1 (ix2 r d)) := by
  show (k3_pay2 (k3_pay24 (k3_pay11 (tile3 V c 0 t)) (k3_pay12 (tile3 V c 1 t)) s.m1) (ix2 r (0 : Fin 1)), k3_pay27 (k3_pay11 (tile3 V c 0 t)) (k3_pay12 (tile3 V c 1 t)) s.m1 s.l1 (ix2 r (0 : Fin 1)), k3_pay1 (k3_pay25 (k3_pay11 (tile3 V c 0 t)) (k3_pay12 (tile3 V c 1 t)) s.m1) (k3_pay28 (k3_pay11 (tile3 V c 0 t)) (k3_pay12 (tile3 V c 1 t)) (k3_pay13 (tile3 V c 2 t)) s.m1) s.a1 (ix2 r d)) = _
  rw [Pay.head1_upd]
  have e1 : (fun k : Fin 512 => Pay.tileScore 1 (tile3 V c 0 t) (tile3 V c 1 t) r k) = tileScores V c t 1 r :=
    funext fun k => score_tile V c t 1 r k
  have e2 : (fun k : Fin 512 => (tile3 V c 2 t) (ix3 0 k (Pay.blkLane 1 d))) = tileVals V c t 1 d :=
    funext fun k => val_tile V c t 1 d k
  rw [e1, e2]

/-- Along a run of key tiles: after tile j the row's state is the online-softmax recurrence over tiles 0 … j. -/
theorem rows1 (g : Fin 32) (r : Fin 1024) (d : Fin 64) : ∀ (j : ℕ) (hj : j < 8),
    ((carryAt V c (8 * g.val + j) (inGrid g j hj)).m1 (ix2 r (0 : Fin 1)),
     (carryAt V c (8 * g.val + j) (inGrid g j hj)).l1 (ix2 r (0 : Fin 1)),
     (carryAt V c (8 * g.val + j) (inGrid g j hj)).a1 (ix2 r d))
      = Cert.Online.after (runScores V c g 1 r) (runVals V c g 1 d) (j + 1) (by omega)
  | 0, hj => by
    have hs := carryAt_start V c (ptOf g ⟨0, hj⟩) (by show (8 * g.val + 0) % 8 = 0; omega)
    have hs' : carryAt V c (8 * g.val + 0) (inGrid g 0 hj) = step3 (tile3 V c 0 (ptOf g ⟨0, hj⟩)) (tile3 V c 1 (ptOf g ⟨0, hj⟩)) (tile3 V c 2 (ptOf g ⟨0, hj⟩)) init3 := hs
    rw [hs', fold1 V c (ptOf g ⟨0, hj⟩) init3 r d]
    rw [show (init3 (F := Ideal)).m1 (ix2 r (0 : Fin 1)) = ⊥ from Pay.pay8_apply (ix2 r (0 : Fin 1)),
      show (init3 (F := Ideal)).l1 (ix2 r (0 : Fin 1)) = 0 from Pay.pay9_apply (ix2 r (0 : Fin 1)),
      show (init3 (F := Ideal)).a1 (ix2 r d) = 0 from Pay.pay10_apply (ix2 r d)]
    rw [tileScores_run V c g ⟨0, hj⟩ 1 r, tileVals_run V c g ⟨0, hj⟩ 1 d]
    rfl
  | j + 1, hj => by
    have ih := rows1 g r d j (by omega)
    have hn := carryAt_next V c (ptOf g ⟨j + 1, hj⟩) (by show ¬(8 * g.val + (j + 1)) % 8 = 0; omega)
    have hn' : carryAt V c (8 * g.val + (j + 1)) (inGrid g (j + 1) hj) = step3 (tile3 V c 0 (ptOf g ⟨j + 1, hj⟩)) (tile3 V c 1 (ptOf g ⟨j + 1, hj⟩)) (tile3 V c 2 (ptOf g ⟨j + 1, hj⟩)) (carryAt V c (8 * g.val + j) (inGrid g j (by omega))) := hn
    rw [hn', fold1 V c (ptOf g ⟨j + 1, hj⟩) _ r d, ih]
    rw [tileScores_run V c g ⟨j + 1, hj⟩ 1 r, tileVals_run V c g ⟨j + 1, hj⟩ 1 d]
    rfl

end Cert.KernelIdeal.Hand

end
-- ==== Proof.FinSums.lean ====
/-
  Sums of real numbers inside the extended reals. The coercion ℝ → EReal commutes with finite sums and with
  products, so a finite sum of products of reals is the coercion of the real sum of products; hence the linear map
  x ↦ x·Wᵀ + b of the specification, applied to real-valued arrays, is real-valued, entry by entry.
-/
import proofs.«180034_j81982335746566_2_alg».proof.Proof.Spec

noncomputable section

namespace Cert.Finite

open Idealize.ShloMosaic Idealize.ShloMosaic.ValueIdx
open scoped BigOperators

/-- The coercion of a finite sum of reals is the sum of the coercions. -/
theorem coe_finset_sum {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A finite sum of products of reals, taken in the extended reals, is the coercion of the real sum. -/
theorem sum_coe_mul_coe {ι : Type*} [Fintype ι] (f g : ι → ℝ) :
    ∑ i, ((f i : ℝ) : EReal) * ((g i : ℝ) : EReal) = ((∑ i, f i * g i : ℝ) : EReal) := by
  rw [← coe_finset_sum]
  exact Finset.sum_congr rfl fun i _ => (EReal.coe_mul (f i) (g i)).symm

/-- The linear map x ↦ x·Wᵀ + b on real-valued arrays, at batch `n`, position `s`, output lane `e`. -/
def projR (x : (⟨3, ![2, 4096, 512]⟩ : Shape).Idx → ℝ) (W : (⟨2, ![512, 512]⟩ : Shape).Idx → ℝ)
    (b : (⟨1, ![512]⟩ : Shape).Idx → ℝ) (n : Fin 2) (s : Fin 4096) (e : Fin 512) : ℝ :=
  (∑ k : Fin 512, x (ix3 n s k) * W (ix2 e k)) + b (ix1 e)

/-- The real linear map as an array. -/
def projRA (x : (⟨3, ![2, 4096, 512]⟩ : Shape).Idx → ℝ) (W : (⟨2, ![512, 512]⟩ : Shape).Idx → ℝ)
    (b : (⟨1, ![512]⟩ : Shape).Idx → ℝ) : (⟨3, ![2, 4096, 512]⟩ : Shape).Idx → ℝ :=
  fun i => projR x W b (i 0) (i 1) (i 2)

/-- On real-valued arrays the specification's linear map is the coercion of the real one. -/
theorem projAt_coe (x : (⟨3, ![2, 4096, 512]⟩ : Shape).Idx → ℝ) (W : (⟨2, ![512, 512]⟩ : Shape).Idx → ℝ)
    (b : (⟨1, ![512]⟩ : Shape).Idx → ℝ) (n : Fin 2) (s : Fin 4096) (e : Fin 512) :
    Cert.Spec.projAt (fun i => ((x i : ℝ) : EReal)) (fun i => ((W i : ℝ) : EReal)) (fun i => ((b i : ℝ) : EReal)) n s e
      = ((projR x W b n s e : ℝ) : EReal) := by
  unfold Cert.Spec.projAt projR
  rw [sum_coe_mul_coe, ← EReal.coe_add]

/-- The same with the arrays written as compositions with the coercion. -/
theorem projAt_coe_comp (x : (⟨3, ![2, 4096, 512]⟩ : Shape).Idx → ℝ) (W : (⟨2, ![512, 512]⟩ : Shape).Idx → ℝ)
    (b : (⟨1, ![512]⟩ : Shape).Idx → ℝ) (n : Fin 2) (s : Fin 4096) (e : Fin 512) :
    Cert.Spec.projAt ((fun r : ℝ => (r : EReal)) ∘ x) ((fun r : ℝ => (r : EReal)) ∘ W) ((fun r : ℝ => (r : EReal)) ∘ b) n s e
      = ((projR x W b n s e : ℝ) : EReal) :=
  projAt_coe x W b n s e

/-- On real-valued arrays every entry of the specification's linear map is a real number. -/
theorem projAt_real (x : (⟨3, ![2, 4096, 512]⟩ : Shape).Idx → ℝ) (W : (⟨2, ![512, 512]⟩ : Shape).Idx → ℝ)
    (b : (⟨1, ![512]⟩ : Shape).Idx → ℝ) (n : Fin 2) (s : Fin 4096) (e : Fin 512) :
    ∃ r : ℝ, Cert.Spec.projAt (fun i => ((x i : ℝ) : EReal)) (fun i => ((W i : ℝ) : EReal))
      (fun i => ((b i : ℝ) : EReal)) n s e = (r : EReal) :=
  ⟨projR x W b n s e, projAt_coe x W b n s e⟩

/-- The linear map as an array, on real-valued arrays, is the coercion of the real array. -/
theorem proj_coe (x : (⟨3, ![2, 4096, 512]⟩ : Shape).Idx → ℝ) (W : (⟨2, ![512, 512]⟩ : Shape).Idx → ℝ)
    (b : (⟨1, ![512]⟩ : Shape).Idx → ℝ) :
    Cert.Spec.proj (fun i => ((x i : ℝ) : EReal)) (fun i => ((W i : ℝ) : EReal)) (fun i => ((b i : ℝ) : EReal))
      = fun i => ((projRA x W b i : ℝ) : EReal) :=
  funext fun i => projAt_coe x W b (i 0) (i 1) (i 2)

end Cert.Finite

end
-- ==== Proof.BridgeOnline.lean ====
/-
  The online recurrence over eight tiles of 512 keys is the specification's attention. A query's 4096 key
  positions are read as eight consecutive tiles of 512; a sum or a supremum over the 4096 positions is the same
  sum or supremum taken tile by tile. With real queries, keys and values every score is a real number, and the
  general fact on the online softmax recurrence — after all the tiles the quotient of the running weighted sum by
  the running normaliser is the softmax-weighted sum of the values — gives the specification's entry.
-/
import proofs.«180034_j81982335746566_2_alg».proof.Proof.Spec
import proofs.«180034_j81982335746566_2_alg».proof.Proof.FinSums
import proofs.«180034_j81982335746566_2_alg».proof.Proof.LibOnlineSoftmax

noncomputable section

namespace Cert.Bridge

open Idealize.ShloMosaic Idealize.ShloMosaic.ValueIdx
open scoped BigOperators

/-- The binary32 pattern 0x3E000000 denotes 1/8: exponent field 124, significand field 0, so 2²³ · 2^(124−127−23). -/
theorem ofBits_eighth : Ideal.ofBits .f32 0x3E000000#32 = (((1 : ℝ) / 8 : ℝ) : EReal) := by
  simp [Ideal.ofBits, Ideal.ieee, -EReal.coe_mul]; norm_num

/-- The scaled score on real queries and keys. -/
def scoreR (Q K : (⟨3, ![2, 4096, 512]⟩ : Shape).Idx → ℝ) (n : Fin 2) (h : Fin 8) (s t : Fin 4096) : ℝ :=
  (∑ d : Fin 64, Q (ix3 n s (Cert.Spec.lane h d)) * K (ix3 n t (Cert.Spec.lane h d))) * (1 / 8)

/-- On real queries and keys the specification's score is the coercion of the real score. -/
theorem score_coe (Q K : (⟨3, ![2, 4096, 512]⟩ : Shape).Idx → ℝ) (n : Fin 2) (h : Fin 8) (s t : Fin 4096) :
    Cert.Spec.score (fun i => ((Q i : ℝ) : EReal)) (fun i => ((K i : ℝ) : EReal)) n h s t
      = ((scoreR Q K n h s t : ℝ) : EReal) := by
  unfold Cert.Spec.score scoreR
  rw [ofBits_eighth, Cert.Finite.sum_coe_mul_coe, ← EReal.coe_mul]

/-- The key position of tile `j`, offset `k`. -/
def keyAt (j : Fin 8) (k : Fin 512) : Fin 4096 := ⟨512 * j.val + k.val, by omega⟩

/-- Every key position is an offset in a tile. -/
theorem eq_keyAt (t : Fin 4096) : t = keyAt ⟨t.val / 512, by omega⟩ ⟨t.val % 512, by omega⟩ := by
  apply Fin.ext; simp only [keyAt]; omega

/-- Tiles and offsets are the key positions, one to one. -/
def keyEquiv : Fin 8 × Fin 512 ≃ Fin 4096 where
  toFun p := keyAt p.1 p.2
  invFun t := (⟨t.val / 512, by omega⟩, ⟨t.val % 512, by omega⟩)
  left_inv p := by
    obtain ⟨j, k⟩ := p
    apply Prod.ext <;> apply Fin.ext <;> simp only [keyAt] <;> omega
  right_inv t := (eq_keyAt t).symm

/-- A sum over the 4096 key positions is the sum over the eight tiles of the sums over each tile's 512 offsets. -/
theorem sum_tiles {M : Type*} [AddCommMonoid M] (f : Fin 4096 → M) :
    ∑ t : Fin 4096, f t = ∑ j : Fin 8, ∑ k : Fin 512, f (keyAt j k) := by
  rw [← Equiv.sum_comp keyEquiv f, Fintype.sum_prod_type]
  rfl

/-- A supremum over the 4096 key positions is the supremum over the tiles of each tile's supremum. -/
theorem sup_tiles (f : Fin 4096 → EReal) :
    (Finset.univ : Finset (Fin 4096)).sup f
      = (Finset.univ : Finset (Fin 8)).sup fun j => (Finset.univ : Finset (Fin 512)).sup fun k => f (keyAt j k) := by
  apply le_antisymm
  · refine Finset.sup_le fun t _ => ?_
    rw [eq_keyAt t]
    exact le_trans
      (Finset.le_sup (f := fun k => f (keyAt ⟨t.val / 512, by omega⟩ k)) (Finset.mem_univ (⟨t.val % 512, by omega⟩ : Fin 512)))
      (Finset.le_sup (f := fun j => (Finset.univ : Finset (Fin 512)).sup fun k => f (keyAt j k))
        (Finset.mem_univ (⟨t.val / 512, by omega⟩ : Fin 8)))
  · exact Finset.sup_le fun j _ => Finset.sup_le fun k _ => Finset.le_sup (Finset.mem_univ _)

/-- **The bridge.** For real queries, keys and values: run the online recurrence over the eight tiles of the
    scores of query position `s` in head `h` against the values on lane `e` of that head; the final running
    weighted sum divided by the final running normaliser is the specification's attention output at `(n, s, e)`. -/
theorem online_eq_attendAt (Q K V : (⟨3, ![2, 4096, 512]⟩ : Shape).Idx → ℝ) (n : Fin 2) (h : Fin 8) (s : Fin 4096)
    (e : Fin 512) (hh : Cert.Spec.headOf e = h) :
    Ideal.div
        (Cert.Online.after (fun j k => ((scoreR Q K n h s (keyAt j k) : ℝ) : EReal))
          (fun j k => ((V (ix3 n (keyAt j k) e) : ℝ) : EReal)) 8 le_rfl).2.2
        (Cert.Online.after (fun j k => ((scoreR Q K n h s (keyAt j k) : ℝ) : EReal))
          (fun j k => ((V (ix3 n (keyAt j k) e) : ℝ) : EReal)) 8 le_rfl).2.1
      = Cert.Spec.attendAt (fun i => ((Q i : ℝ) : EReal)) (fun i => ((K i : ℝ) : EReal))
          (fun i => ((V i : ℝ) : EReal)) n s e := by
  subst hh
  have A := (Cert.Online.after_all (J := 8) (K := 512) (by norm_num) (by norm_num)
    (fun j k => scoreR Q K n (Cert.Spec.headOf e) s (keyAt j k)) (fun j k => V (ix3 n (keyAt j k) e))).2.2
  refine A.trans ?_
  unfold Cert.Spec.attendAt Cert.Spec.norm Cert.Spec.top
  simp only [score_coe, sum_tiles, sup_tiles]

end Cert.Bridge

end
-- ==== Proof.IdealAttnOut.lean ====
/-
  The attention stage as one function of its arrays. At the last key tile of a run the stored output tile holds, per
  row and lane, the weighted sum over the normaliser that the scratch buffers carry — by the recurrence's theorem the
  softmax-weighted sum of the values over all 4096 keys, for real-valued queries, keys and values. The 32 runs' output
  tiles, each written back once, cover the whole array.
-/
import proofs.«180034_j81982335746566_2_alg».proof.Proof.IdealAttnVal
import proofs.«180034_j81982335746566_2_alg».proof.Proof.BridgeOnline
import Idealize.ShloMosaic.Lib.Ring

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx
open Cert.KernelIdeal

variable (V : (c : Dev nD) → (b : Ref sig .tc) → Buf (Elt Ideal) ((c : Thread nD τ).loc b)) (c : Dev nD)

/-- The run a point belongs to. -/
def runOf (t : Fin cfg3.N) : Fin 32 := ⟨t.val / 8, by have := t.isLt; have hN : cfg3.N = 256 := N_3; omega⟩

theorem pt_runOf (t : Fin cfg3.N) (h7 : t.val % 8 = 7) : 8 * (runOf t).val + 7 = t.val := by
  show 8 * (t.val / 8) + 7 = t.val; omega

/-- The head of a point's pair is its run's. -/
theorem headAt_run (t : Fin cfg3.N) {u : Fin 2} : headAt t u = runHead (runOf t) u :=
  Fin.ext (by show 2 * (t.val / 32 % 4) + u.val = 2 * (t.val / 8 / 4 % 4) + u.val; omega)

/-- The lane's head is the head: lane d of head h belongs to head h. -/
theorem headOf_lane (h : Fin 8) (d : Fin 64) : Cert.Spec.headOf (Cert.Spec.lane h d) = h :=
  Fin.ext (by show (64 * h.val + d.val) / 64 = h.val; have := d.isLt; omega)

/-- A row's weighted sum over its normaliser, after all eight key tiles, is the softmax-weighted sum of the values,
    when queries, keys and values are real. -/
theorem quotient_eq (Qr Kr Vr : (⟨3, ![2, 4096, 512]⟩ : Shape).Idx → ℝ)
    (hQ : (V c main_v5 : Cert.Spec.Seq) = fun i => ((Qr i : ℝ) : EReal)) (hK : (V c main_v8 : Cert.Spec.Seq) = fun i => ((Kr i : ℝ) : EReal))
    (hV : (V c main_v11 : Cert.Spec.Seq) = fun i => ((Vr i : ℝ) : EReal))
    (g : Fin 32) (u : Fin 2) (r : Fin 1024) (d : Fin 64) :
    Ideal.div (Cert.Online.after (runScores V c g u r) (runVals V c g u d) 8 le_rfl).2.2 (Cert.Online.after (runScores V c g u r) (runVals V c g u d) 8 le_rfl).2.1
      = Cert.Spec.attendAt (V c main_v5) (V c main_v8) (V c main_v11) (runBatch g) (qpos (runQt g) r) (Cert.Spec.lane (runHead g u) d) := by
  have e1 : runScores V c g u r = fun j k => ((Cert.Bridge.scoreR Qr Kr (runBatch g) (runHead g u) (qpos (runQt g) r) (Cert.Bridge.keyAt j k) : ℝ) : EReal) := by
    funext j k
    unfold runScores
    rw [hQ, hK, Cert.Bridge.score_coe]
    rfl
  have e2 : runVals V c g u d = fun j k => ((Vr (ix3 (runBatch g) (Cert.Bridge.keyAt j k) (Cert.Spec.lane (runHead g u) d)) : ℝ) : EReal) := by
    funext j k
    unfold runVals
    rw [hV]
    rfl
  rw [e1, e2, hQ, hK, hV]
  exact Cert.Bridge.online_eq_attendAt Qr Kr Vr (runBatch g) (runHead g u) (qpos (runQt g) r) (Cert.Spec.lane (runHead g u) d) (headOf_lane _ _)

theorem zero3' : (![0, 0, 0] : Fin 3 → Nat) = fun _ => 0 := funext fun a => by fin_cases a <;> rfl

/-- What a last key tile writes back is its tile of the attention output. -/
theorem wrote3 (Qr Kr Vr : (⟨3, ![2, 4096, 512]⟩ : Shape).Idx → ℝ)
    (hQ : (V c main_v5 : Cert.Spec.Seq) = fun i => ((Qr i : ℝ) : EReal)) (hK : (V c main_v8 : Cert.Spec.Seq) = fun i => ((Kr i : ℝ) : EReal))
    (hV : (V c main_v11 : Cert.Spec.Seq) = fun i => ((Vr i : ℝ) : EReal))
    (t : Fin cfg3.N) (hf : (cfg3.win 3).flush t = true) :
    (dat3 V c).flushed 3 t = ((cfg3.win 3).blk t).view.read (Elt Ideal) (Cert.Spec.attend (V c main_v5) (V c main_v8) (V c main_v11)) := by
  have h7 : t.val % 8 = 7 := (flush3_3 t).mp hf
  have h0 : ¬t.val % 8 = 0 := by omega
  show (cfg3.win 3).cut (grid3.coords t) ((dat3 V c).after 3 t) = _
  rw [dat3_after3, outAt3_eq V c t h0 h7]
  have hpt : carryAt V c t.val t.isLt = carryAt V c (8 * (runOf t).val + 7) (inGrid (runOf t) 7 (by omega)) := by
    congr 1; exact (pt_runOf t h7).symm
  have hb : batchOf t = runBatch (runOf t) := Fin.ext (by show t.val / 128 = t.val / 8 / 16; omega)
  have hq : qtileOf t = runQt (runOf t) := Fin.ext (by show t.val / 8 % 4 = t.val / 8 % 4; rfl)
  funext y
  unfold outOf3
  refine View.canon_apply_of_pieces (Val := Elt Ideal) (S := S1x1024x128) (e := .bf16) (fun y => Cert.Spec.attend (V c main_v5) (V c main_v8) (V c main_v11) (((cfg3.win 3).blk t).view.emb y)) _ ?_ y ?_
  · intro p hp x
    simp only [List.mem_cons, List.mem_nil_iff, or_false] at hp
    rcases hp with rfl | rfl
    · have hx0 : x 0 = (0 : Fin 1) := Fin.ext (by have h : (x 0).val < 1 := (x 0).isLt; show (x 0).val = 0; omega)
      obtain ⟨r, d, rfl⟩ : ∃ (r : Fin 1024) (d : Fin 64), x = ix3 (0 : Fin 1) r d := ⟨x 1, x 2, (eq_ix3 x).trans (by rw [hx0]; rfl)⟩
      show k3_pay4 (F := Ideal) (carryAt V c t.val t.isLt).a1 (carryAt V c t.val t.isLt).l1 (ix3 (0 : Fin 1) r d) = _
      rw [Pay.pay4_apply, hpt]
      have hrow := rows1 V c (runOf t) r d 7 (by omega)
      have h2 := congrArg (fun s => s.2.1) hrow
      have h3 := congrArg (fun s => s.2.2) hrow
      dsimp only at h2 h3
      rw [h2, h3, quotient_eq V c Qr Kr Vr hQ hK hV]
      show _ = Cert.Spec.attendAt (V c main_v5) (V c main_v8) (V c main_v11) _ _ _
      have hemb : ((cfg3.win 3).blk t).view.emb ((Rect.unit (s := S1x1024x128) ![0, 0, 64] S1x1024x64.size inb_S1x1024x128_S1x1024x64_0_0_64).emb (ix3 (0 : Fin 1) r d))
          = ix3 (runBatch (runOf t)) (qpos (runQt (runOf t)) r) (Cert.Spec.lane (runHead (runOf t) 1) d) := by
        have he : (Rect.unit (s := S1x1024x128) ![0, 0, 64] S1x1024x64.size inb_S1x1024x128_S1x1024x64_0_0_64).emb (ix3 (0 : Fin 1) r d) = ix3 (0 : Fin 1) r (Pay.blkLane 1 d) := by
          funext a; apply Fin.ext
          match a with
          | ⟨0, _⟩ => rfl
          | ⟨1, _⟩ => show 0 + 1 * r.val = r.val; omega
          | ⟨2, _⟩ => show 64 + 1 * d.val = 64 * 1 + d.val; omega
        rw [he, otile_at t r (Pay.blkLane 1 d), hb, hq, ← lane_at t 1 d]
        congr 1
        exact congrArg (fun h => Cert.Spec.lane h d) (headAt_run t)
      rw [hemb]
    · have hx0 : x 0 = (0 : Fin 1) := Fin.ext (by have h : (x 0).val < 1 := (x 0).isLt; show (x 0).val = 0; omega)
      obtain ⟨r, d, rfl⟩ : ∃ (r : Fin 1024) (d : Fin 64), x = ix3 (0 : Fin 1) r d := ⟨x 1, x 2, (eq_ix3 x).trans (by rw [hx0]; rfl)⟩
      show k3_pay3 (F := Ideal) (carryAt V c t.val t.isLt).a0 (carryAt V c t.val t.isLt).l0 (ix3 (0 : Fin 1) r d) = _
      rw [Pay.pay3_apply, hpt]
      have hrow := rows0 V c (runOf t) r d 7 (by omega)
      have h2 := congrArg (fun s => s.2.1) hrow
      have h3 := congrArg (fun s => s.2.2) hrow
      dsimp only at h2 h3
      rw [h2, h3, quotient_eq V c Qr Kr Vr hQ hK hV]
      show _ = Cert.Spec.attendAt (V c main_v5) (V c main_v8) (V c main_v11) _ _ _
      have hemb : ((cfg3.win 3).blk t).view.emb ((Rect.unit (s := S1x1024x128) ![0, 0, 0] S1x1024x64.size inb_S1x1024x128_S1x1024x64_0_0_0).emb (ix3 (0 : Fin 1) r d))
          = ix3 (runBatch (runOf t)) (qpos (runQt (runOf t)) r) (Cert.Spec.lane (runHead (runOf t) 0) d) := by
        have he : (Rect.unit (s := S1x1024x128) ![0, 0, 0] S1x1024x64.size inb_S1x1024x128_S1x1024x64_0_0_0).emb (ix3 (0 : Fin 1) r d) = ix3 (0 : Fin 1) r (Pay.blkLane 0 d) := by
          funext a; apply Fin.ext
          match a with
          | ⟨0, _⟩ => rfl
          | ⟨1, _⟩ => show 0 + 1 * r.val = r.val; omega
          | ⟨2, _⟩ => show 0 + 1 * d.val = 64 * 0 + d.val; omega
        rw [he, otile_at t r (Pay.blkLane 0 d), hb, hq, ← lane_at t 0 d]
        congr 1
        exact congrArg (fun h => Cert.Spec.lane h d) (headAt_run t)
      rw [hemb]
  · exact View.cover_of_tiledL (s := S1x1024x128) _ S1x1024x64.size (by sl_kernel_rfl) y

/-- An entry of the output array is in point `t`'s tile iff its three coordinates are in the tile's ranges. -/
theorem inTile3 (t : Fin cfg3.N) (i : S2x4096x512.Idx) :
    i ∈ ((cfg3.win 3).blk t).view.set ↔ ∀ a : Fin 3, win3_3.index t a * S1x1024x128.size a ≤ (i a).val ∧ (i a).val < win3_3.index t a * S1x1024x128.size a + S1x1024x128.size a := by
  show i ∈ ((View.whole main_v12).slice (win3_3.rect t)).set ↔ _
  rw [View.set_slice_whole, Rect.mem_set_unit]
  exact Iff.rfl

/-- Every entry of the output array is in the tile some last key tile writes back. -/
theorem covered3 (i : S2x4096x512.Idx) : ∃ t : Fin cfg3.N, (cfg3.win 3).flush t = true ∧ i ∈ ((cfg3.win 3).blk t).view.set := by
  have hi0 : (i 0).val < 2 := (i 0).isLt
  have hi1 : (i 1).val < 4096 := (i 1).isLt
  have hi2 : (i 2).val < 512 := (i 2).isLt
  have hN : cfg3.N = 256 := N_3
  let t : Fin cfg3.N := ⟨(((i 0).val * 4 + (i 2).val / 128) * 4 + (i 1).val / 1024) * 8 + 7, by omega⟩
  obtain ⟨-, -, -, -, -, -, -, -, -, a0, a1, a2⟩ := where3 t
  have tv : t.val = (((i 0).val * 4 + (i 2).val / 128) * 4 + (i 1).val / 1024) * 8 + 7 := rfl
  refine ⟨t, (flush3_3 t).mpr (by rw [tv]; omega), ?_⟩
  rw [inTile3]
  intro a
  match a with
  | ⟨0, _⟩ => show win3_3.index t (0 : Fin 3) * 1 ≤ (i 0).val ∧ (i 0).val < win3_3.index t (0 : Fin 3) * 1 + 1; omega
  | ⟨1, _⟩ => show win3_3.index t (1 : Fin 3) * 1024 ≤ (i 1).val ∧ (i 1).val < win3_3.index t (1 : Fin 3) * 1024 + 1024; omega
  | ⟨2, _⟩ => show win3_3.index t (2 : Fin 3) * 128 ≤ (i 2).val ∧ (i 2).val < win3_3.index t (2 : Fin 3) * 128 + 128; omega

/-- After the stage its output array is the attention output of its three input arrays, when these are real-valued. -/
theorem result3 (Qr Kr Vr : (⟨3, ![2, 4096, 512]⟩ : Shape).Idx → ℝ)
    (hQ : (V c main_v5 : Cert.Spec.Seq) = fun i => ((Qr i : ℝ) : EReal)) (hK : (V c main_v8 : Cert.Spec.Seq) = fun i => ((Kr i : ℝ) : EReal))
    (hV : (V c main_v11 : Cert.Spec.Seq) = fun i => ((Vr i : ℝ) : EReal)) :
    (dat3 V c).arrAt 3 cfg3.N = Cert.Spec.attend (V c main_v5) (V c main_v8) (V c main_v11) :=
  (dat3 V c).arrAt_eq_of_cover 3 _ (fun t hf => wrote3 V c Qr Kr Vr hQ hK hV t hf) (covered3)

end Cert.KernelIdeal.Hand

end
-- ==== Proof.FinReal.lean ====
/-
  A float array whose every entry has absolute value below +∞ holds real numbers only: the per-array step, once,
  for any shape. The test is the one a printed predicate makes: the comparison |x| < +∞ entry by entry, reduced
  by "and" over every axis to a single bit, and that bit is 1.
-/
import Idealize.ShloMosaic.PureOps
import Idealize.ShloMosaic.PureOps.Ideal
import Idealize.ShloMosaic.Lib.ReduceAll
import Idealize.ShloMosaic.Lib.ValueIdx

noncomputable section

namespace Cert.Finite

open Idealize.ShloMosaic

/-- The shape of a single bit: rank zero. -/
abbrev S0 : Shape := ⟨0, ![]⟩

/-- A rank-zero shape has one index. -/
instance subsingleton_S0 : Subsingleton S0.Idx := ⟨fun a b => funext fun d => d.elim0⟩

/-- An extended real whose absolute value `max x (-x)` lies below +∞ is a real number. -/
theorem exists_real_of_abs_lt_top (x : EReal) (h : max x (-x) < ⊤) : ∃ r : ℝ, x = (r : EReal) := by
  induction x using EReal.rec with
  | bot => simp at h
  | coe r => exact ⟨r, rfl⟩
  | top => simp at h

/-- The binary32 pattern 0x7F800000 denotes +∞. -/
theorem ofBits_inf : Ideal.ofBits .f32 0x7F800000#32 = (⊤ : EReal) := by
  simp [Ideal.ofBits, Ideal.ieee]

/-- If the "and" over every entry of the comparison |x| < +∞ is 1, then `x` is real-valued. -/
theorem real_of_all {s : Shape} {axes : List (Fin s.rank)} (x : FVec Ideal s .f32)
    (hb : S0.BroadcastsInDim s (![] : Fin 0 → Fin s.rank)) (hr : s.ReducesTo axes S0) (hu : 0 < S0.numel)
    (j : S0.Idx)
    (e : Host.reduce IntOp.andi
          (cmpf .olt (Host.absf x) (broadcastInDim s ![] hb (constant (F := Ideal) S0 .f32 0x7F800000#32)))
          (constantI S0 1 1#1) hr hu j = 1#1) :
    ∃ f : s.Idx → ℝ, x = fun i => ((f i : ℝ) : EReal) := by
  have h1 : ∀ i, ∃ r : ℝ, x i = (r : EReal) := fun i => by
    have hi := Host.reduce_andi_all _ _ hr hu j e i
    refine exists_real_of_abs_lt_top (x i) ?_
    have h2 : Ideal.cmp .olt (max (x i) (-(x i))) (Ideal.ofBits .f32 0x7F800000#32) = 1#1 := hi
    rw [ofBits_inf] at h2
    by_contra hn
    simp [Ideal.cmp, hn] at h2
  choose f hf using h1
  exact ⟨f, funext hf⟩

end Cert.Finite

end
-- ==== Proof.FinArgs.lean ====
/-
  The precondition says of each of the eleven float arguments that every entry has absolute value below +∞, the
  eleven tests and-ed into one bit that is 1. Read back: each argument array holds real numbers only, so each is
  the coercion of a real-valued array.
-/
import proofs.«180034_j81982335746566_2_alg».proof.Defs
import proofs.«180034_j81982335746566_2_alg».proof.Proof.Gen.Pre_finite_inputs
import proofs.«180034_j81982335746566_2_alg».proof.Proof.Spec
import proofs.«180034_j81982335746566_2_alg».proof.Proof.FinReal

noncomputable section

namespace Cert.Finite

open Idealize.ShloMosaic Idealize.SL.Sem
open Cert.Pre_finite_inputs (S2x4096x512 S512x512 S512 S_)

/-- The printed predicate being all ones makes each of its eleven arguments real-valued: the conjunction is split
    bit by bit, and each conjunct is the all-entries test of one array. -/
theorem fn_real (a0 : FVec Ideal S2x4096x512 .f32) (a1 : FVec Ideal S2x4096x512 .f32) (a2 : FVec Ideal S2x4096x512 .f32) (a3 : FVec Ideal S512x512 .f32) (a4 : FVec Ideal S512 .f32) (a5 : FVec Ideal S512x512 .f32) (a6 : FVec Ideal S512 .f32) (a7 : FVec Ideal S512x512 .f32) (a8 : FVec Ideal S512 .f32) (a9 : FVec Ideal S512x512 .f32) (a10 : FVec Ideal S512 .f32)
    (h : Cert.Pre_finite_inputs.fn (F := Ideal) a0 a1 a2 a3 a4 a5 a6 a7 a8 a9 a10 = (fun _ => 1#1)) :
    (∃ f : S2x4096x512.Idx → ℝ, a0 = fun i => ((f i : ℝ) : EReal))
      ∧ (∃ f : S2x4096x512.Idx → ℝ, a1 = fun i => ((f i : ℝ) : EReal))
      ∧ (∃ f : S2x4096x512.Idx → ℝ, a2 = fun i => ((f i : ℝ) : EReal))
      ∧ (∃ f : S512x512.Idx → ℝ, a3 = fun i => ((f i : ℝ) : EReal))
      ∧ (∃ f : S512.Idx → ℝ, a4 = fun i => ((f i : ℝ) : EReal))
      ∧ (∃ f : S512x512.Idx → ℝ, a5 = fun i => ((f i : ℝ) : EReal))
      ∧ (∃ f : S512.Idx → ℝ, a6 = fun i => ((f i : ℝ) : EReal))
      ∧ (∃ f : S512x512.Idx → ℝ, a7 = fun i => ((f i : ℝ) : EReal))
      ∧ (∃ f : S512.Idx → ℝ, a8 = fun i => ((f i : ℝ) : EReal))
      ∧ (∃ f : S512x512.Idx → ℝ, a9 = fun i => ((f i : ℝ) : EReal))
      ∧ (∃ f : S512.Idx → ℝ, a10 = fun i => ((f i : ℝ) : EReal)) := by
  have h0 := congrFun h ValueIdx.ix0
  dsimp only [Cert.Pre_finite_inputs.fn, Cert.Pre_finite_inputs.fn_part1, Cert.Pre_finite_inputs.fn_part2,
    Cert.Pre_finite_inputs.fn_part3, andi] at h0
  simp only [IntOp.andi_eq_one] at h0
  obtain ⟨⟨⟨⟨⟨⟨⟨⟨⟨⟨e0, e1⟩, e2⟩, e3⟩, e4⟩, e5⟩, e6⟩, e7⟩, e8⟩, e9⟩, e10⟩ := h0
  exact ⟨real_of_all a0 _ _ _ _ e0, real_of_all a1 _ _ _ _ e1, real_of_all a2 _ _ _ _ e2, real_of_all a3 _ _ _ _ e3,
    real_of_all a4 _ _ _ _ e4, real_of_all a5 _ _ _ _ e5, real_of_all a6 _ _ _ _ e6, real_of_all a7 _ _ _ _ e7,
    real_of_all a8 _ _ _ _ e8, real_of_all a9 _ _ _ _ e9, real_of_all a10 _ _ _ _ e10⟩

/-- Under the precondition, on every device, each argument array of the program is the coercion of a real-valued
    array. -/
theorem args_real (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (c : Dev Cert.KernelIdeal.nD) :
    (∃ f : (⟨3, ![2, 4096, 512]⟩ : Shape).Idx → ℝ, (m ((c.tc : Thread Cert.KernelIdeal.nD Cert.KernelIdeal.τ).loc Cert.KernelIdeal.main_arg0) : Cert.Spec.Seq) = fun i => ((f i : ℝ) : EReal))
      ∧ (∃ f : (⟨3, ![2, 4096, 512]⟩ : Shape).Idx → ℝ, (m ((c.tc : Thread Cert.KernelIdeal.nD Cert.KernelIdeal.τ).loc Cert.KernelIdeal.main_arg1) : Cert.Spec.Seq) = fun i => ((f i : ℝ) : EReal))
      ∧ (∃ f : (⟨3, ![2, 4096, 512]⟩ : Shape).Idx → ℝ, (m ((c.tc : Thread Cert.KernelIdeal.nD Cert.KernelIdeal.τ).loc Cert.KernelIdeal.main_arg2) : Cert.Spec.Seq) = fun i => ((f i : ℝ) : EReal))
      ∧ (∃ f : (⟨2, ![512, 512]⟩ : Shape).Idx → ℝ, (m ((c.tc : Thread Cert.KernelIdeal.nD Cert.KernelIdeal.τ).loc Cert.KernelIdeal.main_arg3) : Cert.Spec.Mat) = fun i => ((f i : ℝ) : EReal))
      ∧ (∃ f : (⟨1, ![512]⟩ : Shape).Idx → ℝ, (m ((c.tc : Thread Cert.KernelIdeal.nD Cert.KernelIdeal.τ).loc Cert.KernelIdeal.main_arg4) : Cert.Spec.Row) = fun i => ((f i : ℝ) : EReal))
      ∧ (∃ f : (⟨2, ![512, 512]⟩ : Shape).Idx → ℝ, (m ((c.tc : Thread Cert.KernelIdeal.nD Cert.KernelIdeal.τ).loc Cert.KernelIdeal.main_arg5) : Cert.Spec.Mat) = fun i => ((f i : ℝ) : EReal))
      ∧ (∃ f : (⟨1, ![512]⟩ : Shape).Idx → ℝ, (m ((c.tc : Thread Cert.KernelIdeal.nD Cert.KernelIdeal.τ).loc Cert.KernelIdeal.main_arg6) : Cert.Spec.Row) = fun i => ((f i : ℝ) : EReal))
      ∧ (∃ f : (⟨2, ![512, 512]⟩ : Shape).Idx → ℝ, (m ((c.tc : Thread Cert.KernelIdeal.nD Cert.KernelIdeal.τ).loc Cert.KernelIdeal.main_arg7) : Cert.Spec.Mat) = fun i => ((f i : ℝ) : EReal))
      ∧ (∃ f : (⟨1, ![512]⟩ : Shape).Idx → ℝ, (m ((c.tc : Thread Cert.KernelIdeal.nD Cert.KernelIdeal.τ).loc Cert.KernelIdeal.main_arg8) : Cert.Spec.Row) = fun i => ((f i : ℝ) : EReal))
      ∧ (∃ f : (⟨2, ![512, 512]⟩ : Shape).Idx → ℝ, (m ((c.tc : Thread Cert.KernelIdeal.nD Cert.KernelIdeal.τ).loc Cert.KernelIdeal.main_arg9) : Cert.Spec.Mat) = fun i => ((f i : ℝ) : EReal))
      ∧ (∃ f : (⟨1, ![512]⟩ : Shape).Idx → ℝ, (m ((c.tc : Thread Cert.KernelIdeal.nD Cert.KernelIdeal.τ).loc Cert.KernelIdeal.main_arg10) : Cert.Spec.Row) = fun i => ((f i : ℝ) : EReal)) :=
  fn_real _ _ _ _ _ _ _ _ _ _ _ (h c)

end Cert.Finite

end
-- ==== Proof.RefProj.lean ====
/-
  The reference's three input projections, read entry by entry.
  Each is a product with the transposed weight matrix plus a bias row broadcast over batch and position: at
  (n, s, e) the sum over the 512 input lanes k of x(n, s, k) · W(e, k), plus b(e) — the specification's linear map.
  The reshape to [2, 4096, 8, 64] followed by the transpose to [2, 8, 4096, 64] only renames the entries: entry
  (n, h, s, d) of the result is entry (n, s, 64h + d) of the projection, because the row-major position of
  (n, s, h, d) in the four-axis array is that of (n, s, 64h + d) in the three-axis one.
-/
import proofs.«180034_j81982335746566_2_alg».proof.Proof.Gen.ReferenceIdeal.Read
import proofs.«180034_j81982335746566_2_alg».proof.Proof.Spec

noncomputable section

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx Cert.Spec
open scoped BigOperators

/-- Row-major renaming: head `h`'s lane `d` at position `s` of batch `n` sits at lane `64h + d`. -/
theorem splitHeads_idx (n : Fin 2) (h : Fin 8) (s : Fin 4096) (d : Fin 64) :
    idx_main_v4 (idx_main_v5 (ix4 n h s d)) = ix3 n s (lane h d) := by
  have hn := n.isLt; have hh := h.isLt; have hs := s.isLt; have hd := d.isLt
  funext a
  apply Fin.ext
  match a with
  | ⟨0, _⟩ => show (((n.val * 4096 + s.val) * 8 + h.val) * 64 + d.val) / 2097152 = n.val; omega
  | ⟨1, _⟩ => show (((n.val * 4096 + s.val) * 8 + h.val) * 64 + d.val) / 512 % 4096 = s.val; omega
  | ⟨2, _⟩ => show (((n.val * 4096 + s.val) * 8 + h.val) * 64 + d.val) % 512 = 64 * h.val + d.val; omega

/-- A product with the transposed weights plus the broadcast bias, at an entry, is the specification's linear map. -/
theorem linear_entry (x : Seq) (W : Mat) (b : Row) (i : S2x4096x512.Idx) :
    (∑ k : Fin 512, x (lidx_main_v0 i k) * W (ridx_main_v0 i k)) + b (idx_main_v1 (idx_main_v2 i))
      = projAt x W b (i 0) (i 1) (i 2) := by
  have el : ∀ k : Fin 512, lidx_main_v0 i k = ix3 (i 0) (i 1) k := fun k => funext fun a => by
    match a with | ⟨0, _⟩ => rfl | ⟨1, _⟩ => rfl | ⟨2, _⟩ => rfl
  have er : ∀ k : Fin 512, ridx_main_v0 i k = ix2 (i 2) k := fun k => funext fun a => by
    match a with | ⟨0, _⟩ => rfl | ⟨1, _⟩ => rfl
  have eb : idx_main_v1 (idx_main_v2 i) = ix1 (i 2) := funext fun a => by
    match a with | ⟨0, _⟩ => rfl
  unfold projAt
  rw [eb]
  exact congrArg (· + b (ix1 (i 2))) (Finset.sum_congr rfl fun k _ =>
    congrArg₂ (· * ·) (congrArg x (el k)) (congrArg W (er k)))

/-- The query projection (operations 0–3) is the specification's linear map of the first argument. -/
theorem proj_q (x : Seq) (W : Mat) (b : Row) : val_main_v3 (F := Ideal) x W b = proj x W b := by
  funext i
  rw [val_main_v3_apply, val_main_v0_apply, val_main_v2_apply, val_main_v1_apply, Ideal.addf_def]
  exact linear_entry x W b i

/-- The key projection (operations 6–9). -/
theorem proj_k (x : Seq) (W : Mat) (b : Row) : val_main_v9 (F := Ideal) x W b = proj x W b := by
  funext i
  rw [val_main_v9_apply, val_main_v6_apply, val_main_v8_apply, val_main_v7_apply, Ideal.addf_def]
  exact linear_entry x W b i

/-- The value projection (operations 12–15). -/
theorem proj_v (x : Seq) (W : Mat) (b : Row) : val_main_v15 (F := Ideal) x W b = proj x W b := by
  funext i
  rw [val_main_v15_apply, val_main_v12_apply, val_main_v14_apply, val_main_v13_apply, Ideal.addf_def]
  exact linear_entry x W b i

/-- The queries split into heads: entry (n, h, s, d) is the projection's entry (n, s, 64h + d). -/
theorem heads_q (x : Seq) (W : Mat) (b : Row) (n : Fin 2) (h : Fin 8) (s : Fin 4096) (d : Fin 64) :
    val_main_v5 (F := Ideal) x W b (ix4 n h s d) = proj x W b (ix3 n s (lane h d)) := by
  rw [val_main_v5_apply, val_main_v4_apply, proj_q]
  exact congrArg (proj x W b) (splitHeads_idx n h s d)

/-- The keys split into heads. -/
theorem heads_k (x : Seq) (W : Mat) (b : Row) (n : Fin 2) (h : Fin 8) (s : Fin 4096) (d : Fin 64) :
    val_main_v11 (F := Ideal) x W b (ix4 n h s d) = proj x W b (ix3 n s (lane h d)) := by
  rw [val_main_v11_apply, val_main_v10_apply, proj_k]
  exact congrArg (proj x W b) (splitHeads_idx n h s d)

/-- The values split into heads. -/
theorem heads_v (x : Seq) (W : Mat) (b : Row) (n : Fin 2) (h : Fin 8) (s : Fin 4096) (d : Fin 64) :
    val_main_v17 (F := Ideal) x W b (ix4 n h s d) = proj x W b (ix3 n s (lane h d)) := by
  rw [val_main_v17_apply, val_main_v16_apply, proj_v]
  exact congrArg (proj x W b) (splitHeads_idx n h s d)

end Cert.ReferenceIdeal.RefValue

end
-- ==== Proof.RefScore.lean ====
/-
  The scores and each query's largest score.
  The batched product of the split queries and keys contracts the 64 lanes of a head: at (n, h, s, t) it is the sum
  over d of Q(n, s, 64h + d) · K(n, t, 64h + d); the product with the splat constant 1/8 gives the scaled score.
  The reduction by maximum over the last axis, started from −∞, is the supremum of the row's 4096 scores (−∞ is the
  least extended real, so it is the neutral start of the fold and the later maximum with a −∞ splat changes nothing).
-/
import proofs.«180034_j81982335746566_2_alg».proof.Proof.RefProj

noncomputable section

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx Cert.Spec
open scoped BigOperators

/-- The bit pattern of −∞ denotes the least extended real. -/
theorem negInf_eq_bot : Ideal.ofBits .f32 0xFF800000#32 = (⊥ : EReal) := by simp [Ideal.ofBits, Ideal.ieee]

/-- The scaled score (operations 18–20) at batch `n`, head `h`, query position `s`, key position `t`. -/
theorem score_entry (q k : Seq) (Wq : Mat) (bq : Row) (Wk : Mat) (bk : Row) (n : Fin 2) (h : Fin 8) (s t : Fin 4096) :
    val_main_v20 (F := Ideal) q k Wq bq Wk bk (ix4 n h s t) = score (proj q Wq bq) (proj k Wk bk) n h s t := by
  have el : ∀ d : Fin 64, lidx_main_v18 (ix4 n h s t) d = ix4 n h s d := fun d => funext fun a => by
    match a with | ⟨0, _⟩ => rfl | ⟨1, _⟩ => rfl | ⟨2, _⟩ => rfl | ⟨3, _⟩ => rfl
  have er : ∀ d : Fin 64, ridx_main_v18 (ix4 n h s t) d = ix4 n h t d := fun d => funext fun a => by
    match a with | ⟨0, _⟩ => rfl | ⟨1, _⟩ => rfl | ⟨2, _⟩ => rfl | ⟨3, _⟩ => rfl
  rw [val_main_v20_apply, val_main_v18_apply, val_main_v19_apply, val_main_cst_apply, Ideal.mulf_def, Ideal.ofBits_def]
  unfold score
  refine congrArg (· * Ideal.ofBits .f32 0x3E000000#32) (Finset.sum_congr rfl fun d _ => ?_)
  rw [el, er, heads_q, heads_k]

/-- Putting coordinate `t` back on the reduced last axis of (n, h, s) gives (n, h, s, t). -/
theorem lastAxis_lift (hr : S2x8x4096x4096.Reduces [3] S2x8x4096) (n : Fin 2) (h : Fin 8) (s : Fin 4096) (t : Fin 4096) :
    hr.lift (ix3 n h s) t = ix4 n h s t := by
  funext c; apply Fin.ext; fin_cases c <;> rfl

/-- The largest score of a query position (operations 21–23): the supremum over the key positions. -/
theorem top_entry (q k : Seq) (Wq : Mat) (bq : Row) (Wk : Mat) (bk : Row) (n : Fin 2) (h : Fin 8) (s : Fin 4096) :
    val_main_v23 (F := Ideal) q k Wq bq Wk bk (ix3 n h s) = top (proj q Wq bq) (proj k Wk bk) n h s := by
  have hr : S2x8x4096x4096.Reduces [3] S2x8x4096 := by decide
  have hf : (val_main_v20 (F := Ideal) q k Wq bq Wk bk ∘ hr.lift (ix3 n h s))
      = fun t : Fin 4096 => score (proj q Wq bq) (proj k Wk bk) n h s t := funext fun t : Fin 4096 =>
    (congrArg (val_main_v20 (F := Ideal) q k Wq bq Wk bk) (lastAxis_lift hr n h s t)).trans
      (score_entry q k Wq bq Wk bk n h s t)
  rw [val_main_v23_apply, val_main_v22_apply, val_main_cst_1_apply, Ideal.maximumf_def, Ideal.ofBits_def, negInf_eq_bot,
    max_bot_left]
  unfold val_main_v21
  rw [Host.reduce_eq_fold_single FloatOps.maximumf _ _ reducesTo_S2x8x4096x4096_S2x8x4096_d3 hr h_S_]
  show Finset.fold max (Ideal.ofBits .f32 0xFF800000#32) (val_main_v20 (F := Ideal) q k Wq bq Wk bk ∘ hr.lift (ix3 n h s))
    (Finset.univ : Finset (Fin 4096)) = _
  rw [hf, negInf_eq_bot]
  rfl

end Cert.ReferenceIdeal.RefValue

end
-- ==== Proof.RefSoftmax.lean ====
/-
  The softmax weights.
  Subtracting each query's largest score (broadcast back along the key axis through a keepdims column), the host's
  exponential, the sum of the row's 4096 exponentials started from the zero word, and the host's quotient by that sum
  (again broadcast through a keepdims column): the weight of key position t for query position s in head h is
  exp(score − top) / norm, in the specification's own form.
-/
import proofs.«180034_j81982335746566_2_alg».proof.Proof.RefScore

noncomputable section

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx Cert.Spec
open scoped BigOperators

/-- Entry (n, h, s, t) of a row statistic broadcast along the keys reads the statistic at (n, h, s): first keepdims pair. -/
theorem keepdims_top_idx (n : Fin 2) (h : Fin 8) (s t : Fin 4096) :
    idx_main_v24 (idx_main_v25 (ix4 n h s t)) = ix3 n h s := funext fun a => by
  match a with | ⟨0, _⟩ => rfl | ⟨1, _⟩ => rfl | ⟨2, _⟩ => rfl

/-- The same for the second keepdims pair (the normaliser's). -/
theorem keepdims_norm_idx (n : Fin 2) (h : Fin 8) (s t : Fin 4096) :
    idx_main_v29 (idx_main_v30 (ix4 n h s t)) = ix3 n h s := funext fun a => by
  match a with | ⟨0, _⟩ => rfl | ⟨1, _⟩ => rfl | ⟨2, _⟩ => rfl

/-- The exponential of the score less the row's largest score (operations 24–27). -/
theorem exp_entry (q k : Seq) (Wq : Mat) (bq : Row) (Wk : Mat) (bk : Row) (n : Fin 2) (h : Fin 8) (s t : Fin 4096) :
    val_main_v27 (F := Ideal) q k Wq bq Wk bk (ix4 n h s t)
      = Ideal.exp (score (proj q Wq bq) (proj k Wk bk) n h s t - top (proj q Wq bq) (proj k Wk bk) n h s) := by
  rw [val_main_v27_apply, val_main_v26_apply, val_main_v25_apply, val_main_v24_apply, keepdims_top_idx, top_entry,
    score_entry, Ideal.hostUnary_exp_def, Ideal.subf_def]

/-- The normaliser (operation 28): the sum of the row's exponentials; the zero word it starts from adds nothing. -/
theorem norm_entry (q k : Seq) (Wq : Mat) (bq : Row) (Wk : Mat) (bk : Row) (n : Fin 2) (h : Fin 8) (s : Fin 4096) :
    val_main_v28 (F := Ideal) q k Wq bq Wk bk (ix3 n h s) = norm (proj q Wq bq) (proj k Wk bk) n h s := by
  have ei : ∀ t : Fin 4096, idx_main_v28 (ix3 n h s) t = ix4 n h s t := fun t => funext fun a => by
    match a with | ⟨0, _⟩ => rfl | ⟨1, _⟩ => rfl | ⟨2, _⟩ => rfl | ⟨3, _⟩ => rfl
  rw [val_main_v28_apply, val_main_cst_2_apply, Ideal.ofBits_def, Ideal.ofBits_zero_f32, zero_add]
  unfold Cert.Spec.norm
  exact Finset.sum_congr rfl fun t _ =>
    (congrArg (val_main_v27 (F := Ideal) q k Wq bq Wk bk) (ei t)).trans (exp_entry q k Wq bq Wk bk n h s t)

/-- The softmax weight (operations 29–31). -/
theorem weight_entry (q k : Seq) (Wq : Mat) (bq : Row) (Wk : Mat) (bk : Row) (n : Fin 2) (h : Fin 8) (s t : Fin 4096) :
    val_main_v31 (F := Ideal) q k Wq bq Wk bk (ix4 n h s t)
      = Ideal.div (Ideal.exp (score (proj q Wq bq) (proj k Wk bk) n h s t - top (proj q Wq bq) (proj k Wk bk) n h s))
          (norm (proj q Wq bq) (proj k Wk bk) n h s) := by
  rw [val_main_v31_apply, val_main_v30_apply, val_main_v29_apply, keepdims_norm_idx, norm_entry, exp_entry,
    Ideal.hostDivf_def]

end Cert.ReferenceIdeal.RefValue

end
-- ==== Proof.RefAttend.lean ====
/-
  The attention output.
  The batched product of the weights with the split values contracts the key positions: at (n, h, s, d) it is the sum
  over t of weight(n, h, s, t) · V(n, t, 64h + d). The transpose back to [2, 4096, 8, 64] and the reshape to
  [2, 4096, 512] rename the entries: entry (n, s, e) is entry (n, e / 64, s, e mod 64) of the product, and lane
  64·(e / 64) + e mod 64 is e again — the specification's attention output on lane e, computed in e's head.
-/
import proofs.«180034_j81982335746566_2_alg».proof.Proof.RefSoftmax

noncomputable section

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx Cert.Spec
open scoped BigOperators

/-- Row-major renaming back: lane `e` at position `s` belongs to head `e / 64`, at offset `e mod 64`. -/
theorem mergeHeads_idx (n : Fin 2) (s : Fin 4096) (e : Fin 512) :
    idx_main_v33 (idx_main_v34 (ix3 n s e))
      = ix4 n (headOf e) s (⟨e.val % 64, Nat.mod_lt _ (by decide)⟩ : Fin 64) := by
  have hn := n.isLt; have hs := s.isLt; have he := e.isLt
  funext a
  apply Fin.ext
  match a with
  | ⟨0, _⟩ => show ((n.val * 4096 + s.val) * 512 + e.val) / 2097152 = n.val; omega
  | ⟨1, _⟩ => show ((n.val * 4096 + s.val) * 512 + e.val) / 64 % 8 = e.val / 64; omega
  | ⟨2, _⟩ => show ((n.val * 4096 + s.val) * 512 + e.val) / 512 % 4096 = s.val; omega
  | ⟨3, _⟩ => show ((n.val * 4096 + s.val) * 512 + e.val) % 64 = e.val % 64; omega

/-- A lane is the lane of its head at its offset. -/
theorem lane_headOf (e : Fin 512) : lane (headOf e) (⟨e.val % 64, Nat.mod_lt _ (by decide)⟩ : Fin 64) = e :=
  Fin.ext (by show 64 * (e.val / 64) + e.val % 64 = e.val; omega)

/-- The attention output (operations 32–34) at batch `n`, position `s`, lane `e`. -/
theorem attend_entry (q k v : Seq) (Wq : Mat) (bq : Row) (Wk : Mat) (bk : Row) (Wv : Mat) (bv : Row)
    (n : Fin 2) (s : Fin 4096) (e : Fin 512) :
    val_main_v34 (F := Ideal) q k v Wq bq Wk bk Wv bv (ix3 n s e)
      = attendAt (proj q Wq bq) (proj k Wk bk) (proj v Wv bv) n s e := by
  have el : ∀ (h : Fin 8) (d : Fin 64) (t : Fin 4096), lidx_main_v32 (ix4 n h s d) t = ix4 n h s t :=
    fun h d t => funext fun a => by
      match a with | ⟨0, _⟩ => rfl | ⟨1, _⟩ => rfl | ⟨2, _⟩ => rfl | ⟨3, _⟩ => rfl
  have er : ∀ (h : Fin 8) (d : Fin 64) (t : Fin 4096), ridx_main_v32 (ix4 n h s d) t = ix4 n h t d :=
    fun h d t => funext fun a => by
      match a with | ⟨0, _⟩ => rfl | ⟨1, _⟩ => rfl | ⟨2, _⟩ => rfl | ⟨3, _⟩ => rfl
  rw [val_main_v34_apply, val_main_v33_apply, mergeHeads_idx, val_main_v32_apply]
  unfold attendAt
  refine Finset.sum_congr rfl fun t _ => ?_
  rw [el, er, weight_entry, heads_v, lane_headOf]

/-- The attention output as an array is the specification's. -/
theorem attend_eq (q k v : Seq) (Wq : Mat) (bq : Row) (Wk : Mat) (bk : Row) (Wv : Mat) (bv : Row) :
    val_main_v34 (F := Ideal) q k v Wq bq Wk bk Wv bv = attend (proj q Wq bq) (proj k Wk bk) (proj v Wv bv) :=
  funext fun i => (congrArg (val_main_v34 (F := Ideal) q k v Wq bq Wk bk Wv bv) (eq_ix3 i)).trans
    (attend_entry q k v Wq bq Wk bk Wv bv (i 0) (i 1) (i 2))

end Cert.ReferenceIdeal.RefValue

end
-- ==== Proof.RefIsSpec.lean ====
/-
  The reference's run is the specification.
  The last four operations are the output projection of the attention output: a product with the transposed output
  weights plus the broadcast output bias — the specification's linear map applied to its attention output. With
  the three input projections, the scores, the softmax weights and the weighted sum of the values read in the modules
  this one imports, the term the reference's run ends at is the specification's function of the eleven arguments.
-/
import proofs.«180034_j81982335746566_2_alg».proof.Proof.RefAttend

noncomputable section

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx Cert.Spec
open scoped BigOperators

/-- The reference's result (operation 38 of its run), as a function of its eleven arguments, is the specification. -/
theorem result_eq (q k v : Seq) (Wq : Mat) (bq : Row) (Wk : Mat) (bk : Row) (Wv : Mat) (bv : Row) (Wo : Mat) (bo : Row) :
    val_main_v38 (F := Ideal) q k v Wq bq Wk bk Wv bv Wo bo = G q k v Wq bq Wk bk Wv bv Wo bo := by
  funext i
  rw [val_main_v38_apply, val_main_v35_apply, val_main_v37_apply, val_main_v36_apply, attend_eq, Ideal.addf_def]
  exact linear_entry _ Wo bo i

/-- The same about the term the generated run names: on device `c`, from the memory `m`, the run's result is the
    specification's function of the eleven argument arrays. -/
theorem run_result_eq (m : (ℓ : Loc nD τ sig) → Buf (Elt Ideal) ℓ) (c : Dev nD) :
    Cert.ReferenceIdeal.Value.res_main_v38 (F := Ideal) m c
      = G (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9))
          (m ((c.tc : Thread nD τ).loc main_arg10)) :=
  (val_main_v38_eq (F := Ideal) m c).trans (result_eq _ _ _ _ _ _ _ _ _ _ _)

end Cert.ReferenceIdeal.RefValue

end
-- ==== Proof.Algebraic.lean ====
/-
  The two idealized programs compute one function. Under the precondition every argument is real-valued, so the three
  projected arrays are real-valued and the attention stage's closed form applies; read back through the program's
  segments, the kernel's result is the specification of the arguments. The reference's run is the specification
  outright. Run from memories agreeing on the arguments, both therefore end at the same result, arguments unchanged.
-/
import proofs.«180034_j81982335746566_2_alg».proof.Defs
import proofs.«180034_j81982335746566_2_alg».proof.Proof.IdealFold
import proofs.«180034_j81982335746566_2_alg».proof.Proof.IdealAttnOut
import proofs.«180034_j81982335746566_2_alg».proof.Proof.FinArgs
import proofs.«180034_j81982335746566_2_alg».proof.Proof.FinSums
import proofs.«180034_j81982335746566_2_alg».proof.Proof.RefIsSpec
import proofs.«180034_j81982335746566_2_alg».proof.Proof.Gen.KernelIdeal
import proofs.«180034_j81982335746566_2_alg».proof.Proof.Gen.ReferenceIdeal
import proofs.«180034_j81982335746566_2_alg».proof.Proof.Gen.ReferenceIdeal.Run
import proofs.«180034_j81982335746566_2_alg».proof.Proof.Gen.Pre_finite_inputs

set_option maxRecDepth 16384

noncomputable section

namespace Cert.KernelIdeal.Hand

open Cert.KernelIdeal Cert.KernelIdeal.Gen
open Idealize.ShloMosaic Idealize.ShloMosaic.TcCoe Idealize.SL.Sem

/-- Under the precondition, the kernel's result buffer at the end of the fold is the specification of the arguments. -/
theorem kernel_value (m : (ℓ : Loc nD τ sig) → Buf (Elt Ideal) ℓ)
    (hpre : Cert.Pre_KernelIdeal (hPre_finite_inputs := Cert.Pre_finite_inputs.Gen.facts) m) (c : Dev nD) :
    (B11 m c (Proc.devRef .tc main_v16) : Cert.Spec.Seq)
      = Cert.Spec.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  obtain ⟨⟨q, hq⟩, ⟨k, hk⟩, ⟨v, hv⟩, ⟨Wq, hWq⟩, ⟨bq, hbq⟩, ⟨Wk, hWk⟩, ⟨bk, hbk⟩, ⟨Wv, hWv⟩, ⟨bv, hbv⟩, -, -⟩ := Cert.Finite.args_real m hpre c
  refine fold_result m c ?_
  refine (B8_arr m c 3).trans ?_
  refine result3 (R7 m) c (Cert.Finite.projRA q Wq bq) (Cert.Finite.projRA k Wk bk) (Cert.Finite.projRA v Wv bv) ?_ ?_ ?_
  · refine (Qp_eq m c).trans ?_
    rw [hq, hWq, hbq, Cert.Finite.proj_coe]
  · refine (Kp_eq m c).trans ?_
    rw [hk, hWk, hbk, Cert.Finite.proj_coe]
  · refine (Vp_eq m c).trans ?_
    rw [hv, hWv, hbv, Cert.Finite.proj_coe]

end Cert.KernelIdeal.Hand

namespace Cert.Proof

open Idealize.ShloMosaic Idealize.SL.Sem

/-- Both idealized programs, run from memories agreeing on the arguments, end at the specification of the arguments,
    the arguments unchanged. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' hpre hagree
  refine ⟨fun c => Cert.Spec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · refine (θ_run Cert.KernelIdeal.defs _ _).mono (fun r h c => ⟨(h c _ (Cert.KernelIdeal.Hand.mem_uc Cert.KernelIdeal.main_v16 (by decide))).trans (Cert.KernelIdeal.Hand.kernel_value m hpre c),
      (h c _ (Cert.KernelIdeal.Hand.mem_uc Cert.KernelIdeal.main_arg0 (by decide))).trans (Cert.KernelIdeal.Hand.B11_arg0 m c),
      (h c _ (Cert.KernelIdeal.Hand.mem_uc Cert.KernelIdeal.main_arg1 (by decide))).trans (Cert.KernelIdeal.Hand.B11_arg1 m c),
      (h c _ (Cert.KernelIdeal.Hand.mem_uc Cert.KernelIdeal.main_arg2 (by decide))).trans (Cert.KernelIdeal.Hand.B11_arg2 m c),
      (h c _ (Cert.KernelIdeal.Hand.mem_uc Cert.KernelIdeal.main_arg3 (by decide))).trans (Cert.KernelIdeal.Hand.B11_arg3 m c),
      (h c _ (Cert.KernelIdeal.Hand.mem_uc Cert.KernelIdeal.main_arg4 (by decide))).trans (Cert.KernelIdeal.Hand.B11_arg4 m c),
      (h c _ (Cert.KernelIdeal.Hand.mem_uc Cert.KernelIdeal.main_arg5 (by decide))).trans (Cert.KernelIdeal.Hand.B11_arg5 m c),
      (h c _ (Cert.KernelIdeal.Hand.mem_uc Cert.KernelIdeal.main_arg6 (by decide))).trans (Cert.KernelIdeal.Hand.B11_arg6 m c),
      (h c _ (Cert.KernelIdeal.Hand.mem_uc Cert.KernelIdeal.main_arg7 (by decide))).trans (Cert.KernelIdeal.Hand.B11_arg7 m c),
      (h c _ (Cert.KernelIdeal.Hand.mem_uc Cert.KernelIdeal.main_arg8 (by decide))).trans (Cert.KernelIdeal.Hand.B11_arg8 m c),
      (h c _ (Cert.KernelIdeal.Hand.mem_uc Cert.KernelIdeal.main_arg9 (by decide))).trans (Cert.KernelIdeal.Hand.B11_arg9 m c),
      (h c _ (Cert.KernelIdeal.Hand.mem_uc Cert.KernelIdeal.main_arg10 (by decide))).trans (Cert.KernelIdeal.Hand.B11_arg10 m c)⟩)
      (Cert.KernelIdeal.Hand.run_all m ρ)
  · refine (θ_run Cert.ReferenceIdeal.defs _ _).mono (fun _ h c => ⟨?_, (h c).2⟩) (Cert.ReferenceIdeal.Value.run (F := Ideal) m' ρ')
    rw [(h c).1, Cert.ReferenceIdeal.RefValue.run_result_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2]

end Cert.Proof

end
-- ==== Proof.lean ====
/-
  The certificate of the multi-head attention kernel against its reference: the three programs run to the end,
  fault nowhere and leave their arguments unchanged; the idealized kernel is the kernel's own text read on the
  extended reals (no operation was rewritten); and the two idealized programs, on finite arguments, end at equal
  results. The kernel is five stages — three linear projections, attention over head pairs with a running softmax
  across key tiles, an output projection — among reshapes; each stage is described point by point and then as one
  function of its arrays, and the whole is read back through the program's segments (Proof/IdealRun.lean and its
  word-level twin Proof/BitsRun.lean for the runs, Proof/Algebraic.lean for the equality of results).
-/
import proofs.«180034_j81982335746566_2_alg».proof.Defs
import proofs.«180034_j81982335746566_2_alg».proof.Proof.BitsRun
import proofs.«180034_j81982335746566_2_alg».proof.Proof.IdealRun
import proofs.«180034_j81982335746566_2_alg».proof.Proof.Algebraic
import proofs.«180034_j81982335746566_2_alg».proof.Proof.Gen.Kernel
import proofs.«180034_j81982335746566_2_alg».proof.Proof.Gen.KernelIdeal
import proofs.«180034_j81982335746566_2_alg».proof.Proof.Gen.ReferenceIdeal
import proofs.«180034_j81982335746566_2_alg».proof.Proof.Gen.ReferenceIdeal.Run
import proofs.«180034_j81982335746566_2_alg».proof.Proof.Gen.Pre_finite_inputs
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    fun m ρ _ => Cert.Kernel.Hand.frame_all m ρ,
    fun m ρ _ => Cert.KernelIdeal.Hand.frame_all m ρ,
    fun m ρ _ => (θ_run Cert.ReferenceIdeal.defs _ _).mono (fun _ h c => (h c).2) (Cert.ReferenceIdeal.Value.run (F := Ideal) m ρ),
    trivial,
    Cert.Proof.algebraic⟩

end Cert.Proof

end
